-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 999999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S1000000x64 : Shape := ⟨2, ![1000000, 64]⟩
abbrev S819200 : Shape := ⟨1, ![819200]⟩
abbrev S1000000x128 : Shape := ⟨2, ![1000000, 128]⟩
abbrev S4000x64 : Shape := ⟨2, ![4000, 64]⟩
abbrev S4000x128 : Shape := ⟨2, ![4000, 128]⟩
abbrev S16384x50x128 : Shape := ⟨3, ![16384, 50, 128]⟩
abbrev S400 : Shape := ⟨1, ![400]⟩
abbrev S400x128 : Shape := ⟨2, ![400, 128]⟩
abbrev S_ : Shape := ⟨0, ![]⟩
abbrev S8x50x128 : Shape := ⟨3, ![8, 50, 128]⟩
abbrev S50x64x16384 : Shape := ⟨3, ![50, 64, 16384]⟩
abbrev S256x50x128 : Shape := ⟨3, ![256, 50, 128]⟩
abbrev S50x64x256 : Shape := ⟨3, ![50, 64, 256]⟩
abbrev S256x50x64 : Shape := ⟨3, ![256, 50, 64]⟩
abbrev S16384x50x64 : Shape := ⟨3, ![16384, 50, 64]⟩

abbrev nBuf : Table → Nat
  | .hbm => 7
  | .local .tc .vmem => 8
  | .local .scVector .vmem => 4
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S819200, .i32⟩
  | .hbm, ⟨3, _⟩ => ⟨S1000000x128, .f32⟩
  | .hbm, ⟨4, _⟩ => ⟨S16384x50x128, .f32⟩
  | .hbm, ⟨5, _⟩ => ⟨S50x64x16384, .f32⟩
  | .hbm, ⟨6, _⟩ => ⟨S16384x50x64, .f32⟩
  | .local .tc .vmem, ⟨0, _⟩ => ⟨S4000x64, .f32⟩
  | .local .tc .vmem, ⟨1, _⟩ => ⟨S4000x64, .f32⟩
  | .local .tc .vmem, ⟨2, _⟩ => ⟨S4000x128, .f32⟩
  | .local .tc .vmem, ⟨3, _⟩ => ⟨S4000x128, .f32⟩
  | .local .tc .vmem, ⟨4, _⟩ => ⟨S256x50x128, .f32⟩
  | .local .tc .vmem, ⟨5, _⟩ => ⟨S256x50x128, .f32⟩
  | .local .tc .vmem, ⟨6, _⟩ => ⟨S50x64x256, .f32⟩
  | .local .tc .vmem, ⟨7, _⟩ => ⟨S50x64x256, .f32⟩
  | .local .scVector .vmem, ⟨0, _⟩ => ⟨S400, .i32⟩
  | .local .scVector .vmem, ⟨1, _⟩ => ⟨S400, .i32⟩
  | .local .scVector .vmem, ⟨2, _⟩ => ⟨S400x128, .f32⟩
  | .local .scVector .vmem, ⟨3, _⟩ => ⟨S400x128, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 12
abbrev cc2_sem0_1 : DmaSem sig := 13
abbrev cc2_sem1_0 : DmaSem sig := 14
abbrev cc2_sem1_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c400_i32 : BitVec 32 := 400#32
  let v6 : BitVec 32 := Scalar.addi v2 c400_i32
  ![v6.toNat]
@[reducible] def k1_t1_loop : Scf.Loop 32 :=
  let c0_i32_3 : BitVec 32 := 0#32
  let c32_i32 : BitVec 32 := 32#32
  let v8 : BitVec 32 := Scalar.addi c0_i32_3 c32_i32
  let c1_i32 : BitVec 32 := 1#32
  ⟨c0_i32_3, v8, c1_i32⟩
def k1_off3 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_10 : BitVec 32 := 0#32
  let c0_i32_3 : BitVec 32 := 0#32
  let c1_i32 : BitVec 32 := 1#32
  let arg13 : BitVec 32 := Scf.iv c0_i32_3 c1_i32 k1_t1
  let c2_i32_9 : BitVec 32 := 2#32
  let v11 : BitVec 32 := Scalar.muli arg13 c2_i32_9
  let v12 : BitVec 32 := Scalar.addi c0_i32_10 v11
  let c8_i32 : BitVec 32 := 8#32
  let v16 : BitVec 32 := Scalar.muli v12 c8_i32
  let v17 : BitVec 32 := Scalar.addi v3 v16
  let c0_i32_17 : BitVec 32 := 0#32
  let c0_i32_18 : BitVec 32 := 0#32
  ![v17.toNat, 0, 0]
def k1_off4 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_10 : BitVec 32 := 0#32
  let c0_i32_3 : BitVec 32 := 0#32
  let c1_i32 : BitVec 32 := 1#32
  let arg13 : BitVec 32 := Scf.iv c0_i32_3 c1_i32 k1_t1
  let c2_i32_9 : BitVec 32 := 2#32
  let v11 : BitVec 32 := Scalar.muli arg13 c2_i32_9
  let v12 : BitVec 32 := Scalar.addi c0_i32_10 v11
  let c1_i32_13 : BitVec 32 := 1#32
  let v18 : BitVec 32 := Scalar.addi v12 c1_i32_13
  let c8_i32_14 : BitVec 32 := 8#32
  let v19 : BitVec 32 := Scalar.muli v18 c8_i32_14
  let v20 : BitVec 32 := Scalar.addi v3 v19
  let c0_i32_23 : BitVec 32 := 0#32
  let c0_i32_24 : BitVec 32 := 0#32
  ![v20.toNat, 0, 0]
def k1_off5 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_10 : BitVec 32 := 0#32
  let c0_i32_3 : BitVec 32 := 0#32
  let c1_i32 : BitVec 32 := 1#32
  let arg13 : BitVec 32 := Scf.iv c0_i32_3 c1_i32 k1_t1
  let c2_i32_9 : BitVec 32 := 2#32
  let v11 : BitVec 32 := Scalar.muli arg13 c2_i32_9
  let v12 : BitVec 32 := Scalar.addi c0_i32_10 v11
  let c400_i32_11 : BitVec 32 := 400#32
  let v13 : BitVec 32 := Scalar.muli v12 c400_i32_11
  let v14 : BitVec 32 := Scalar.addi v2 v13
  let c800_i32 : BitVec 32 := 800#32
  let v31 : BitVec 32 := Scalar.addi v14 c800_i32
  let c25200_i32 : BitVec 32 := 25200#32
  let v4 : BitVec 32 := Scalar.addi v2 c25200_i32
  let v32 : BitVec 32 := Scalar.minsi v31 v4
  ![v32.toNat]
def k1_off6 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_10 : BitVec 32 := 0#32
  let c0_i32_3 : BitVec 32 := 0#32
  let c1_i32 : BitVec 32 := 1#32
  let arg13 : BitVec 32 := Scf.iv c0_i32_3 c1_i32 k1_t1
  let c2_i32_9 : BitVec 32 := 2#32
  let v11 : BitVec 32 := Scalar.muli arg13 c2_i32_9
  let v12 : BitVec 32 := Scalar.addi c0_i32_10 v11
  let c400_i32_11 : BitVec 32 := 400#32
  let v13 : BitVec 32 := Scalar.muli v12 c400_i32_11
  let v14 : BitVec 32 := Scalar.addi v2 v13
  let c400_i32_12 : BitVec 32 := 400#32
  let v15 : BitVec 32 := Scalar.addi v14 c400_i32_12
  let c800_i32_27 : BitVec 32 := 800#32
  let v33 : BitVec 32 := Scalar.addi v15 c800_i32_27
  let c25200_i32 : BitVec 32 := 25200#32
  let v4 : BitVec 32 := Scalar.addi v2 c25200_i32
  let v34 : BitVec 32 := Scalar.minsi v33 v4
  ![v34.toNat]
abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage2_0 : Fin 2 → Memref sig .tc .vmem S256x50x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S50x64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x50_S819200 : S16384x50.ShapeCasts S819200
  inb_S4000x64_S4000x64_0_0 : ∀ a, (![0, 0] : Fin 2 → Nat) a + S4000x64.size a ≤ S4000x64.size a
  h_S4000x64 : 0 < S4000x64.numel
  inb_S4000x128_S4000x64_0_0 : ∀ a, (![0, 0] : Fin 2 → Nat) a + S4000x64.size a ≤ S4000x128.size a
  inb_S1000000x128_S1000000x128_0_0 : ∀ a, (![0, 0] : Fin 2 → Nat) a + S1000000x128.size a ≤ S1000000x128.size a
  gathers_S1000000x128_S400x128 : S1000000x128.Gathers 0 S400x128
  reshapes_S400x128_S8x50x128 : S8x50x128.numel = S400x128.numel ∧ (2 ≤ S400x128.rank ∧ 2 ≤ S8x50x128.rank)
  inb_S256x50x128_S256x50x64_0_0_0 : ∀ a, (![0, 0, 0] : Fin 3 → Nat) a + S256x50x64.size a ≤ S256x50x128.size a
  h_S256x50x64 : 0 < S256x50x64.numel
  shapeCasts_S256x50x64_S256x50x64 : S256x50x64.ShapeCasts S256x50x64
  transposes_S256x50x64_p1_2_0_S50x64x256 : S256x50x64.Transposes [1, 2, 0] S50x64x256
  inb_S50x64x256_S50x64x256_0_0_0 : ∀ a, (![0, 0, 0] : Fin 3 → Nat) a + S50x64x256.size a ≤ S50x64x256.size a
  h_S50x64x256 : 0 < S50x64x256.numel
  transposes_S50x64x16384_S16384x50x64_2_0_1 : S50x64x16384.Transposes [2, 0, 1] S16384x50x64
  hcc1_scratch4 : 4 + S_.numel ≤ 16
  hcc1_scratch5 : 5 + S_.numel ≤ 16
  hcc1_scratch6 : 6 + S_.numel ≤ 16
  hcc1_scratch7 : 7 + S_.numel ≤ 16
  hcc1_scoped0 : 8 + S_.numel ≤ 16
  hcc1_scoped1 : 9 + S_.numel ≤ 16
  hcc1_scoped2 : 10 + S_.numel ≤ 16
  hcc1_scoped3 : 11 + S_.numel ≤ 16
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .f32 = 32 ∨ (Rect.block (s := S1000000x128) S4000x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S400.size a ≤ S819200.size a
  k1_off2_inb : ∀ i : grid1.Coords, ∀ a, (k1_off2 i) a + S400.size a ≤ S819200.size a
  k1_t1_ok : k1_t1_loop.OK
  k1_off3_inb : ∀ (i : grid1.Coords) (k1_t1 : Fin k1_t1_loop.trips), ∀ a, (k1_off3 i k1_t1) a + S8x50x128.size a ≤ S16384x50x128.size a
  k1_off4_inb : ∀ (i : grid1.Coords) (k1_t1 : Fin k1_t1_loop.trips), ∀ a, (k1_off4 i k1_t1) a + S8x50x128.size a ≤ S16384x50x128.size a
  k1_off5_inb : ∀ (i : grid1.Coords) (k1_t1 : Fin k1_t1_loop.trips), ∀ a, (k1_off5 i k1_t1) a + S400.size a ≤ S819200.size a
  k1_off6_inb : ∀ (i : grid1.Coords) (k1_t1 : Fin k1_t1_loop.trips), ∀ a, (k1_off6 i k1_t1) a + S400.size a ≤ S819200.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x50x128.size a ≤ S16384x50x128.size a
  hwx2_0 : ∀ i : grid2.Coords, EltTy.bits .f32 = 32 ∨ (Rect.block (s := S16384x50x128) S256x50x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S50x64x256.size a ≤ S50x64x16384.size a
  hwx2_1 : ∀ i : grid2.Coords, EltTy.bits .f32 = 32 ∨ (Rect.block (s := S50x64x16384) S50x64x256.size (cc2_transform_1 i) (hinb2_1 i)).WholeWords (EltTy.packing .f32)

variable [Facts₀]

abbrev cc1_scratch4 : DmaSems sig S_ := SemArray.consecutive 4 S_ hcc1_scratch4
abbrev cc1_scratch5 : DmaSems sig S_ := SemArray.consecutive 5 S_ hcc1_scratch5
abbrev cc1_scratch6 : DmaSems sig S_ := SemArray.consecutive 6 S_ hcc1_scratch6
abbrev cc1_scratch7 : DmaSems sig S_ := SemArray.consecutive 7 S_ hcc1_scratch7
abbrev cc1_scoped0 : DmaSems sig S_ := SemArray.consecutive 8 S_ hcc1_scoped0
abbrev cc1_scoped1 : DmaSems sig S_ := SemArray.consecutive 9 S_ hcc1_scoped1
abbrev cc1_scoped2 : DmaSems sig S_ := SemArray.consecutive 10 S_ hcc1_scoped2
abbrev cc1_scoped3 : DmaSems sig S_ := SemArray.consecutive 11 S_ hcc1_scoped3

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpec (Memref.whole main_v2) S256x50x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S50x64x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x64, .f32⟩
  | .hbm, ⟨21, _⟩ => ⟨S16384x50x64, .i1⟩
  | .hbm, ⟨22, _⟩ => ⟨S_, .f32⟩
  | .hbm, ⟨23, _⟩ => ⟨S16384x50x64, .f32⟩
  | .hbm, ⟨24, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  gather_S1000000x64_S16384x50x1_S16384x50x64_2_0_n_n_0_2_164_wf : GatherDims.WF S1000000x64 S16384x50x1 S16384x50x64 [2] [0] [] [0] [] 2 ![1, 64]

variable [Facts₀]

def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf

class Facts : Prop extends Facts₀ where

variable [Facts]
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.Spec.lean ====
/-
  What both programs compute, as one function of the two argument arrays.

  The arguments are an array of row numbers `x : [16384, 50]` (32-bit words) and a table `T : [1000000, 64]`. The result
  is the array `[16384, 50, 64]` whose entry `(b, h, d)` is the table's entry in column `d` of the row that the word
  `x[b, h]` names: the word read as a signed integer and clamped into `[0, 999999]`. (For a word that already is a
  row number, `0 ≤ x[b, h] ≤ 999999`, the clamp does nothing: the row is `x[b, h]` itself.) No arithmetic is done on
  the table's entries, so the statement is the same whatever the entries are.
-/
import Idealize.ShloMosaic.Lib.ValueIdx
import proofs.«206271_g21749714387155_cont_8to1_2007_29_alg».proof.Proof.LibRowOps

noncomputable section

namespace Cert.Spec

open Idealize.ShloMosaic Idealize.ShloMosaic.ValueIdx Cert.RowOps

/-- The shape of the row numbers. -/
abbrev SX : Shape := ⟨2, ![16384, 50]⟩
/-- The shape of the table. -/
abbrev ST : Shape := ⟨2, ![1000000, 64]⟩
/-- The shape of the result. -/
abbrev SO : Shape := ⟨3, ![16384, 50, 64]⟩

/-- The table has a row. -/
theorem rows_pos : 0 < 1000000 := by decide

/-- The row of the table that the word `w` names. -/
abbrev row (w : BitVec 32) : Fin 1000000 := gatherRow 1000000 rows_pos w

/-- The result: entry `(b, h, d)` is the table at row `row x[b, h]`, column `d`. -/
def G {α : Type} (x : SX.Idx → BitVec 32) (T : ST.Idx → α) : SO.Idx → α :=
  fun i => T (ix2 (row (x (ix2 (n0 := 16384) (n1 := 50) (i 0) (i 1)))) (i 2 : Fin 64))

/-- `G` at explicit coordinates. -/
theorem G_apply {α : Type} (x : SX.Idx → BitVec 32) (T : ST.Idx → α) (b : Fin 16384) (h : Fin 50) (d : Fin 64) :
    G x T (ix3 b h d) = T (ix2 (row (x (ix2 b h))) d) := rfl

/-- A word that is a row number names that row. -/
theorem row_val_of_le (w : BitVec 32) (hw : w.toNat ≤ 999999) : (row w).val = w.toNat := by
  have e := BitVec.toInt_eq_toNat_cond w
  unfold row gatherRow
  simp only
  omega

/-! ## The widened intermediate arrays

The kernel first widens the table to 128 columns (the upper 64 are not written and are never read into the result), takes
whole widened rows by the row numbers laid out flat, `I[50 b + h] = x[b, h]`, and only at the end keeps the lower 64 columns. -/

/-- The shape of the row numbers laid out flat. -/
abbrev SI : Shape := ⟨1, ![819200]⟩
/-- The shape of the widened table. -/
abbrev SW : Shape := ⟨2, ![1000000, 128]⟩
/-- The shape of the widened rows taken. -/
abbrev SP : Shape := ⟨3, ![16384, 50, 128]⟩

/-- The flat position of `(b, h)`. -/
def flat (b : Fin 16384) (h : Fin 50) : Fin 819200 := ⟨50 * b.val + h.val, by omega⟩

/-- The widened rows taken: entry `(b, h, c)` is the widened table at row `row I[50 b + h]`, column `c`. -/
def GW {α : Type} (I : SI.Idx → BitVec 32) (Tw : SW.Idx → α) : SP.Idx → α :=
  fun i => Tw (ix2 (row (I (ix1 (flat (i 0) (i 1))))) (i 2 : Fin 128))

/-- `GW` at explicit coordinates. -/
theorem GW_apply {α : Type} (I : SI.Idx → BitVec 32) (Tw : SW.Idx → α) (b : Fin 16384) (h : Fin 50) (c : Fin 128) :
    GW I Tw (ix3 b h c) = Tw (ix2 (row (I (ix1 (flat b h)))) c) := rfl

/-- The widened table agrees with the table on the lower 64 columns. -/
def Widens {α : Type} (T : ST.Idx → α) (Tw : SW.Idx → α) : Prop :=
  ∀ (r : Fin 1000000) (d : Fin 64), Tw (ix2 r (d.castLE (by decide))) = T (ix2 r d)

/-- The flat row numbers are the row numbers. -/
def Flattens (x : SX.Idx → BitVec 32) (I : SI.Idx → BitVec 32) : Prop :=
  ∀ (b : Fin 16384) (h : Fin 50), I (ix1 (flat b h)) = x (ix2 b h)

/-- On the lower 64 columns the widened rows taken are the result. -/
theorem GW_eq_G {α : Type} {x : SX.Idx → BitVec 32} {I : SI.Idx → BitVec 32} {T : ST.Idx → α} {Tw : SW.Idx → α}
    (hI : Flattens x I) (hT : Widens T Tw) (b : Fin 16384) (h : Fin 50) (d : Fin 64) :
    GW I Tw (ix3 b h (d.castLE (by decide))) = G x T (ix3 b h d) := by
  rw [GW_apply, G_apply, hI b h, hT]

end Cert.Spec

end
-- ==== Proof.Kernel.Common.lean ====
/-
  The program as the SparseCore launch theorem sees it, and the names the other modules share.

  @main runs on the TensorCore: it lays the row numbers out flat, widens the table to 128 columns in a first kernel
  region, starts the one SparseCore call — thirty-two vector subcores, each taking 25600 widened rows by its stretch of
  the flat row numbers into its 512 batch rows of the widened result —, waits for it, keeps the lower 64 columns
  (transposed) in a second kernel region, and transposes back. The resource algebra has three parts side by side: the
  rounds of the SparseCore handshakes, the rounds of the two kernel regions' staging cells, and the counters of the
  subcores' own transfers.
-/
import proofs.«206271_g21749714387155_cont_8to1_2007_29_alg».proof.Kernel
import proofs.«206271_g21749714387155_cont_8to1_2007_29_alg».proof.Proof.Gen.Kernel
import proofs.«206271_g21749714387155_cont_8to1_2007_29_alg».proof.Proof.Gen.Kernel.Skeleton
import proofs.«206271_g21749714387155_cont_8to1_2007_29_alg».proof.Proof.Gen.Kernel.Launch
import proofs.«206271_g21749714387155_cont_8to1_2007_29_alg».proof.Proof.Gen.Kernel.Points
import proofs.«206271_g21749714387155_cont_8to1_2007_29_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The handshakes' rounds, the kernel regions' staging cells' rounds, the transfers' counters. -/
abbrev UU : Type := UH × (UR sig nD τ × Counters)

abbrev MM (F : FTy → Type) : Type := MT nD τ sig (HIx 1) (Elt F) ℕ UU ℕ

abbrev EH : Emb UH (MM F) := embL
abbrev EP : Emb (UR sig nD τ) (MM F) := (Emb.inl : Emb (UR sig nD τ) (UR sig nD τ × Counters)).trans embR

instance EP_landsIn : (EP : Emb (UR sig nD τ) (MM F)).LandsIn (upEmb : UEmb _ (MM F)) := by unfold EP; infer_instance

/-! ## The arrays -/

/-- The row numbers `x`, the table, the flat row numbers, the widened table, the widened rows taken, the kept columns
    transposed, the result: as the TensorCore of device `d` names them. -/
abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev wLoc (d : Dev nD) : Loc nD τ sig := (SparseCore.T d).loc main_v1
abbrev pLoc (d : Dev nD) : Loc nD τ sig := (SparseCore.T d).loc main_v2
abbrev sLoc (d : Dev nD) : Loc nD τ sig := (SparseCore.T d).loc main_v3
abbrev rLoc (d : Dev nD) : Loc nD τ sig := (SparseCore.T d).loc main_v4

/-! ## The kernel regions' tables: neither has a prefetched table -/

abbrev adm : (p : Fin 2) → (pcfgs (F := F) p).Adm := fun p => (cfgs p).toPCfg_adm

/-! ## The vector subcores' tasks -/

/-- The SparseCore and the vector subcore that grid point `L` of the call runs on. -/
abbrev cV (L : grid1.Coords) : Fin τ.nSC := (L 0).castLE hcore1
abbrev jV (L : grid1.Coords) : Fin τ.nSub := (L 1).castLE hsub1

/-- The task's number among the thirty-two: twice the subcore's plus the SparseCore's. -/
def wid (L : grid1.Coords) : Fin 32 :=
  ⟨2 * (L 1).val + (L 0).val, by
    have h0 : (L 0).val < 2 := (L 0).isLt
    have h1 : (L 1).val < 16 := (L 1).isLt
    omega⟩

/-- Thirty-two tasks share the 16384 batch rows of the widened result, 512 each. -/
theorem pdiv : 32 ∣ S16384x50x128.size 0 := ⟨512, rfl⟩
/-- Task `w`'s batch rows `[512 w, 512 w + 512)` of the widened result, as a box and as a set of indices. -/
abbrev pRect (w : Fin 32) : Rect S16384x50x128 := Rect.part (s := S16384x50x128) (a₀ := 0) pdiv w
abbrev pRows (w : Fin 32) : Finset S16384x50x128.Idx :=
  ((Memref.whole main_v2_scv : Memref sig .scVector .hbm S16384x50x128 .f32).view.slice (pRect w)).set

end Cert.Kernel.Run

end
-- ==== Proof.Kernel.Iface.lean ====
/-
  The three statements the launch is assembled from, each proved in a module of its own: one vector subcore's task, and
  the two kernel regions of @main on the TensorCore.

  * The task of the vector subcore at grid point `L`: holding a read share of the flat row numbers (contents `I`, every
    word a row number of the table) and of the widened table (contents `Tw`), and its own 512 batch rows of the widened
    result, it ends with those rows holding the widened rows taken, `Cert.Spec.GW I Tw`, the shares unchanged.
  * Region 0 widens the table: it keeps the table and leaves the widened table at SOME contents that agree with the table
    on the lower 64 columns (the upper 64 columns of each block are whatever the staging buffer held).
  * Region 2 keeps the lower 64 columns of the widened rows taken, transposed: entry `(h, k, b)` is entry `(b, h, k)`.

  During both regions the TensorCore owes the SparseCore call's start signals (tallies `O`, none at the kernels' own
  index); a region's own waits are recorded at that index only.
-/
import proofs.«206271_g21749714387155_cont_8to1_2007_29_alg».proof.Proof.Kernel.Common

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## One vector subcore's task -/

def TileBodyStmt (F : FTy → Type) [FloatOps F] : Prop :=
  ∀ (hF : (K (F := F)).Facts) (d : Dev nD) (L : grid1.Coords)
    (I : Buf (Elt F) (iLoc d)) (Tw : Buf (Elt F) (wLoc d)) (P0 : Buf (Elt F) (pLoc d)) (qi qw : PosShare TreeShare)
    (hI : ∀ j, (I j).toNat ≤ 999999)
    (O : CellTallies nD τ sig (HIx 1)) (W : Waits sig (HIx 1)) (hO : ∀ g, O g none = 0),
    iprop(levAts (K (F := F)).L (K (F := F)).lev ∗ emp
        ∗ ((iLoc d ↦{qi} I) ∗ (wLoc d ↦{qw} Tw) ∗ (pLoc d ↦[pRows (wid L)]{fullShare} P0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1_gather_k L (Memref.whole main_v1_scv) (Memref.isWhole_whole _) (Memref.whole main_v0_scv) (Memref.isWhole_whole _) (Memref.whole main_v2_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3)
          (fun _ => iprop(((iLoc d ↦{qi} I) ∗ (wLoc d ↦{qw} Tw) ∗ (pLoc d ↦[pRows (wid L)]{fullShare} (Cert.Spec.GW I Tw : Buf (Elt F) (pLoc d))))
            ∗ scopedBufs (V d (cV L) (jV L)) ∗ scopedSems0 (V d (cV L) (jV L))
            ∗ ∃ W', ⌜∀ p ∈ W', p ∈ W ∨ p.2 = none⌝ ∗ owes (V d (cV L) (jV L)) O W')) : sProp (MM F))

/-! ## Region 0: the table widened -/

def pre0 (c : Dev nD) (Tb : Buf (Elt F) (tLoc c)) (O : CellTallies nD τ sig (HIx 1)) (W : Waits sig (HIx 1)) : sProp 𝕄 :=
  iprop((tLoc c ↦{fullShare} Tb) ∗ (∃ f : Buf (Elt F) (wLoc c), wLoc c ↦{fullShare} f) ∗ owes (c.tc : Thread nD τ) O W)

def post0 (c : Dev nD) (Tb : Buf (Elt F) (tLoc c)) (O : CellTallies nD τ sig (HIx 1)) (W : Waits sig (HIx 1)) : sProp 𝕄 :=
  iprop((tLoc c ↦{fullShare} Tb) ∗ (∃ Tw : Buf (Elt F) (wLoc c), ⌜Cert.Spec.Widens Tb Tw⌝ ∗ (wLoc c ↦{fullShare} Tw))
    ∗ ∃ W', ⌜∀ p ∈ W', p ∈ W ∨ p.2 = none⌝ ∗ owes (c.tc : Thread nD τ) O W')

def Region0Stmt (F : FTy → Type) [FloatOps F] : Prop :=
  ∀ (c : Dev nD) (Tb : Buf (Elt F) (tLoc c)) (O : CellTallies nD τ sig (HIx 1)) (W : Waits sig (HIx 1)) (hO : ∀ g, O g none = 0)
    {α : Type} (k : PUnit → Prog (TpuEff nD τ sig (Elt F) (ΛP (F := F)) .tc) α) (Q : α → sProp (MM F)),
    iprop((iprop(boundary (c.tc : Thread nD τ) ∗ post0 c Tb O W) -∗ wp frame (wpE (D (F := F)) 𝒱 (c.tc : Thread nD τ) none) Set.univ (k ⟨⟩) Q)
        ∗ boundary (c.tc : Thread nD τ) ∗ pre0 c Tb O W ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q

/-! ## Region 2: the lower 64 columns kept, transposed -/

/-- Entry `(h, k, b)` is entry `(b, h, k)` of the widened rows taken. -/
def keepT {α : Type} (Pw : Cert.Spec.SP.Idx → α) : S50x64x16384.Idx → α :=
  fun i => Pw (ix3 (i 2 : Fin 16384) (i 0 : Fin 50) ((i 1 : Fin 64).castLE (by decide)))

def pre2 (c : Dev nD) (Pw : Buf (Elt F) (pLoc c)) (O : CellTallies nD τ sig (HIx 1)) (W : Waits sig (HIx 1)) : sProp 𝕄 :=
  iprop((pLoc c ↦{fullShare} Pw) ∗ (∃ f : Buf (Elt F) (sLoc c), sLoc c ↦{fullShare} f) ∗ owes (c.tc : Thread nD τ) O W)

def post2 (c : Dev nD) (Pw : Buf (Elt F) (pLoc c)) (O : CellTallies nD τ sig (HIx 1)) (W : Waits sig (HIx 1)) : sProp 𝕄 :=
  iprop((pLoc c ↦{fullShare} Pw) ∗ (sLoc c ↦{fullShare} (keepT Pw : Buf (Elt F) (sLoc c)))
    ∗ ∃ W', ⌜∀ p ∈ W', p ∈ W ∨ p.2 = none⌝ ∗ owes (c.tc : Thread nD τ) O W')

def Region2Stmt (F : FTy → Type) [FloatOps F] : Prop :=
  ∀ (c : Dev nD) (Pw : Buf (Elt F) (pLoc c)) (O : CellTallies nD τ sig (HIx 1)) (W : Waits sig (HIx 1)) (hO : ∀ g, O g none = 0)
    {α : Type} (k : PUnit → Prog (TpuEff nD τ sig (Elt F) (ΛP (F := F)) .tc) α) (Q : α → sProp (MM F)),
    iprop((iprop(boundary (c.tc : Thread nD τ) ∗ post2 c Pw O W) -∗ wp frame (wpE (D (F := F)) 𝒱 (c.tc : Thread nD τ) none) Set.univ (k ⟨⟩) Q)
        ∗ boundary (c.tc : Thread nD τ) ∗ pre2 c Pw O W ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q

end Cert.Kernel.Run

end
-- ==== Proof.Kernel.Pay.lean ====
/-
  What the SparseCore call's handshakes carry.

  The one call has thirty-two tasks, task `w = 2 i + c` on vector subcore `i` of SparseCore `c`. A task is handed a
  read share of the flat row numbers and of the widened table — their contents are whatever the host reshape and the
  first kernel region left, known only through what they say of the arguments: the flat row numbers ARE the row
  numbers, the widened table agrees with the table on the lower 64 columns — and its own 512 batch rows of the widened
  result, at any contents. It hands back those rows holding the widened rows taken. A SparseCore's share of the call is
  its sixteen tasks' side by side, so the split of a SparseCore's operands among its tasks is the identity.
-/
import proofs.«206271_g21749714387155_cont_8to1_2007_29_alg».proof.Proof.Kernel.Iface

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ)

/-- The task that vector subcore `i` of SparseCore `c` runs. -/
def widCI (c : Fin ((K (F := F)).nCore 0)) (i : Fin ((K (F := F)).nSub 0)) : Fin 32 :=
  ⟨2 * i.val + c.val, by
    have hc : c.val < 2 := c.isLt
    have hi : i.val < 16 := i.isLt
    omega⟩

/-- What the arguments say of the flat row numbers `I` and the widened table `Tw`. -/
def Faithful (d : Dev nD) (I : Buf (Elt F) (iLoc d)) (Tw : Buf (Elt F) (wLoc d)) : Prop :=
  Cert.Spec.Flattens (m (xLoc d)) I ∧ Cert.Spec.Widens (α := Elt F .f32) (m (tLoc d)) Tw

/-- What task `w` is handed. -/
def goRes (d : Dev nD) (w : Fin 32) : sProp 𝕄 :=
  iprop(∃ (I : Buf (Elt F) (iLoc d)) (Tw : Buf (Elt F) (wLoc d)), ⌜Faithful m d I Tw⌝
    ∗ (iLoc d ↦{shareTok fullShare 32 w} I) ∗ (wLoc d ↦{shareTok fullShare 32 w} Tw)
    ∗ ∃ P0 : Buf (Elt F) (pLoc d), pLoc d ↦[pRows w]{fullShare} P0)

/-- What task `w` hands back: its rows of the widened result at the widened rows taken. -/
def tdRes (d : Dev nD) (w : Fin 32) : sProp 𝕄 :=
  iprop(∃ (I : Buf (Elt F) (iLoc d)) (Tw : Buf (Elt F) (wLoc d)), ⌜Faithful m d I Tw⌝
    ∗ (pLoc d ↦[pRows w]{fullShare} (Cert.Spec.GW (α := Elt F .f32) I Tw : Buf (Elt F) (pLoc d))))

def P : (K (F := F)).Pay (nD := nD) (Val := Elt F) (Name := ℕ) (U := UU) where
  st := fun q d c => match q with | 0 => bigSep Finset.univ fun i : Fin ((K (F := F)).nSub 0) => goRes m d (widCI c i)
  dn := fun q d c => match q with | 0 => bigSep Finset.univ fun i : Fin ((K (F := F)).nSub 0) => tdRes m d (widCI c i)
  go := fun q d c i => match q with | 0 => goRes m d (widCI c i)
  td := fun q d c i => match q with | 0 => tdRes m d (widCI c i)
  x := fun _ _ => iprop(emp)

instance goRes_storable (d : Dev nD) (w : Fin 32) : BI.Storable (upEmb : UEmb _ 𝕄) (goRes m d w) := by unfold goRes; infer_instance
instance tdRes_storable (d : Dev nD) (w : Fin 32) : BI.Storable (upEmb : UEmb _ 𝕄) (tdRes m d w) := by unfold tdRes; infer_instance

instance P_storable : (P (F := F) m).IsStorable where
  st q d c := match q with
    | 0 => (inferInstance : BI.Storable (upEmb : UEmb _ 𝕄) (bigSep Finset.univ fun i : Fin ((K (F := F)).nSub 0) => goRes m d (widCI c i)))
  dn q d c := match q with
    | 0 => (inferInstance : BI.Storable (upEmb : UEmb _ 𝕄) (bigSep Finset.univ fun i : Fin ((K (F := F)).nSub 0) => tdRes m d (widCI c i)))
  go q d c i := match q with | 0 => (inferInstance : BI.Storable (upEmb : UEmb _ 𝕄) (goRes m d (widCI c i)))
  td q d c i := match q with | 0 => (inferInstance : BI.Storable (upEmb : UEmb _ 𝕄) (tdRes m d (widCI c i)))

/-- A SparseCore's operands are its tasks' side by side, and so are its results. -/
theorem vecSplit : (K (F := F)).VecSplit' (P m) 0 := by
  intro d c
  show (bigSep Finset.univ fun i : Fin ((K (F := F)).nSub 0) => goRes m d (widCI c i)) ⊢ |={Set.univ}=> iprop(
      (bigSep Finset.univ fun i : Fin ((K (F := F)).nSub 0) => goRes m d (widCI c i))
      ∗ ((bigSep Finset.univ fun i : Fin ((K (F := F)).nSub 0) => tdRes m d (widCI c i))
          -∗ (bigSep Finset.univ fun i : Fin ((K (F := F)).nSub 0) => tdRes m d (widCI c i))))
  iintro H; imodintro
  isplitl [H]; · iexact H
  iintro H; iexact H

end Cert.Kernel.Run

end
-- ==== Proof.Kernel.TileObl.lean ====
/-
  The vector-subcore kernel's obligation to the launch: one task, from what it is handed to what it hands back.

  The task is the kernel function at the grid point of its SparseCore and subcore. It is handed its read shares and its
  rows with the contents quantified; opened, they are what the task's own statement takes, and its conclusion — the rows
  at the widened rows taken — is what it hands back. Every flat position is `50 b + h` for one `(b, h)`, so every flat
  row number is a row number of the argument and, by the precondition, a row of the table.
-/
import proofs.«206271_g21749714387155_cont_8to1_2007_29_alg».proof.Proof.Kernel.Pay

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ)

/-- Every flat position is `50 b + h`. -/
theorem flat_surj (n : Fin 819200) : ∃ (b : Fin 16384) (h : Fin 50), Cert.Spec.flat b h = n :=
  ⟨⟨n.val / 50, by have := n.isLt; omega⟩, ⟨n.val % 50, Nat.mod_lt _ (by decide)⟩, Fin.ext (by
    show 50 * (n.val / 50) + n.val % 50 = n.val
    exact Nat.div_add_mod n.val 50)⟩

/-- What the proof asks of the launch memory: every row number is a row of the table. -/
def PreOK : Prop := ∀ (d : Dev nD) (j : Cert.Spec.SX.Idx), ((m (xLoc d) : Cert.Spec.SX.Idx → BitVec 32) j).toNat ≤ 999999

/-- Then so is every flat row number. -/
theorem flat_ok (hpre : PreOK m) (d : Dev nD) (I : Buf (Elt F) (iLoc d)) (hI : Cert.Spec.Flattens (m (xLoc d)) I) :
    ∀ j, ((I : Cert.Spec.SI.Idx → BitVec 32) j).toNat ≤ 999999 := by
  intro j
  obtain ⟨b, h, e⟩ := flat_surj (j 0)
  have ej : j = ix1 (Cert.Spec.flat b h) := by rw [e]; exact eq_ix1 j
  rw [ej, hI b h]
  exact hpre d _

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          (Memref.whole main_v1_scv) (Memref.isWhole_whole _) (Memref.whole main_v0_scv) (Memref.isWhole_whole _) (Memref.whole main_v2_scv) (Memref.isWhole_whole _)
          (Memref.whole cc1_scratch0) (Memref.isWhole_whole _) (Memref.whole cc1_scratch1) (Memref.isWhole_whole _) (Memref.whole cc1_scratch2) (Memref.isWhole_whole _) (Memref.whole cc1_scratch3) (Memref.isWhole_whole _)
          cc1_scratch4 cc1_scratch5 cc1_scratch6 cc1_scratch7 cc1_scoped0 cc1_scoped1 cc1_scoped2 cc1_scoped3) ⟨⟩ c s := rfl

/-- The task's result and what else it gives back, as the launch reads them. -/
theorem task_post (d : Dev nD) (w : Fin 32) (I : Buf (Elt F) (iLoc d)) (Tw : Buf (Elt F) (wLoc d)) (hf : Faithful m d I Tw)
    {thr : Thread nD τ} {qi qw : PosShare TreeShare} {B C : sProp 𝕄} {O : CellTallies nD τ sig (HIx 1)} {W : Waits sig (HIx 1)} {q : Fin 1} :
    iprop(((iLoc d ↦{qi} I) ∗ (wLoc d ↦{qw} Tw) ∗ (pLoc d ↦[pRows w]{fullShare} (Cert.Spec.GW (α := Elt F .f32) I Tw : Buf (Elt F) (pLoc d))))
        ∗ B ∗ C ∗ ∃ W', ⌜∀ p ∈ W', p ∈ W ∨ p.2 = none⌝ ∗ owes thr O W')
      ⊢ iprop(tdRes m d w ∗ B ∗ C ∗ ∃ W', ⌜∀ p ∈ W', p ∈ W ∨ p.2 = none ∨ p.2 = some q⌝ ∗ owes thr O W') := by
  iintro ⟨⟨-, -, Hp⟩, HB, HC, %W', %hW', HO⟩
  isplitl [Hp]
  · unfold tdRes
    iexists I; iexists Tw
    isplitr; · ipureintro; exact hf
    iexact Hp
  isplitl [HB]; · iexact HB
  isplitl [HC]; · iexact HC
  iexists W'; isplitr
  · ipureintro; exact fun p hp => (hW' p hp).imp_right Or.inl
  · iexact HO

theorem tileObl (hT : TileBodyStmt F) (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(levAts (K (F := F)).L (K (F := F)).lev ∗ emp ∗ goRes m d (widCI c i) ∗ _ ∗ _ ∗ _) ⊢ _
  unfold goRes
  iintro ⟨Hlv, -, ⟨%I, %Tw, %hf, Hi, Hw, %P0, Hp⟩, Hb, Hs, HO⟩
  iapply ((hT hF d (coordsV ⟨_, hc.1⟩ ⟨_, hc.2⟩) I Tw P0 (shareTok fullShare 32 (widCI c i)) (shareTok fullShare 32 (widCI c i))
      (flat_ok m hpre d I hf.1) O W hO).trans
    (wp_mono frame _ _ fun _ => task_post m d (widCI c i) I Tw hf (qi := shareTok fullShare 32 (widCI c i)) (qw := shareTok fullShare 32 (widCI c i))))
  isplitl [Hlv]; · iexact Hlv
  isplitr; · iempintro
  isplitl [Hi Hw Hp]
  · isplitl [Hi]; · iexact Hi
    isplitl [Hw]; · iexact Hw
    iexact Hp
  isplitl [Hb]; · iexact Hb
  isplitl [Hs]; · iexact Hs
  iexact HO

end Cert.Kernel.Run

end
-- ==== Proof.Kernel.Split.lean ====
/-
  The widened result dealt out to the thirty-two tasks, and gathered back.

  The 16384 batch rows of the widened result are thirty-two disjoint stretches of 512, one per task; the flat row numbers
  and the widened table, which every task reads whole, go out as one read share per task. Task `w = 2 i + c` runs on
  subcore `i` of SparseCore `c`, and `(c, i) ↦ 2 i + c` is a bijection onto the thirty-two. When the tasks are done each
  stretch holds the widened rows taken, for SOME flat row numbers and widened table faithful to the arguments; on the
  lower 64 columns that is the result, whatever they were, so the stretches join into one array that agrees with the
  result there.
-/
import proofs.«206271_g21749714387155_cont_8to1_2007_29_alg».proof.Proof.Kernel.TileObl

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ)

/-! ## The rows of the widened result, task by task -/

theorem pRows_eq (w : Fin 32) : pRows w = (pRect w).set := by
  show ((View.whole (main_v2_scv : Ref sig .scVector)).slice (pRect w)).set = _
  rw [View.set_slice]; exact Finset.map_refl

theorem pRows_disjoint : ∀ i ∈ (Finset.univ : Finset (Fin 32)), ∀ j ∈ (Finset.univ : Finset (Fin 32)), i ≠ j → Disjoint (pRows i) (pRows j) :=
  fun i _ j _ h => by rw [pRows_eq, pRows_eq]; exact Rect.part_disjoint pdiv h

theorem pRows_cover : (Finset.univ : Finset (Fin 32)).biUnion pRows = Finset.univ :=
  (Finset.biUnion_congr rfl fun i _ => pRows_eq i).trans (Rect.biUnion_part pdiv)

theorem pPts_rows (d : Dev nD) (f : Buf (Elt F) (pLoc d)) :
    (pLoc d ↦{fullShare} f : sProp 𝕄) = bigSep Finset.univ fun w : Fin 32 => pLoc d ↦[pRows w]{fullShare} f := by
  rw [← pointsTo_biUnion Finset.univ (ℓ := pLoc d) pRows pRows_disjoint, pRows_cover]; try rfl

/-! ## Dealing out -/

theorem goRes_intro (d : Dev nD) (w : Fin 32) (I : Buf (Elt F) (iLoc d)) (Tw : Buf (Elt F) (wLoc d)) (P0 : Buf (Elt F) (pLoc d))
    (hf : Faithful m d I Tw) :
    iprop((iLoc d ↦{shareTok fullShare 32 w} I) ∗ (wLoc d ↦{shareTok fullShare 32 w} Tw) ∗ (pLoc d ↦[pRows w]{fullShare} P0))
      ⊢ (goRes m d w : sProp 𝕄) := by
  unfold goRes
  iintro ⟨Hi, Hw, Hp⟩
  iexists I; iexists Tw
  isplitr; · ipureintro; exact hf
  isplitl [Hi]; · iexact Hi
  isplitl [Hw]; · iexact Hw
  iexists P0; iexact Hp

/-- The three arrays whole are, task by task, a read share of the first two and the task's stretch of the third. -/
theorem go_split (d : Dev nD) (I : Buf (Elt F) (iLoc d)) (Tw : Buf (Elt F) (wLoc d)) (P0 : Buf (Elt F) (pLoc d)) :
    iprop((iLoc d ↦{fullShare} I) ∗ (wLoc d ↦{fullShare} Tw) ∗ (pLoc d ↦{fullShare} P0))
      ⊢ (bigSep Finset.univ fun w : Fin 32 =>
          iprop((iLoc d ↦{shareTok fullShare 32 w} I) ∗ (wLoc d ↦{shareTok fullShare 32 w} Tw) ∗ (pLoc d ↦[pRows w]{fullShare} P0)) : sProp 𝕄) := by
  rw [bigSep_sep', bigSep_sep', pPts_rows]
  iintro ⟨Hi, Hw, Hp⟩
  ihave Hi' := (Transfers.pointsTo_toks_split (ℓ := iLoc d) (S := Finset.univ) (f := I) fullShare 32) $$ Hi
  icases Hi' with ⟨-, Hi'⟩
  ihave Hw' := (Transfers.pointsTo_toks_split (ℓ := wLoc d) (S := Finset.univ) (f := Tw) fullShare 32) $$ Hw
  icases Hw' with ⟨-, Hw'⟩
  isplitl [Hi']; · iexact Hi'
  isplitl [Hw']; · iexact Hw'
  iexact Hp

/-- The three arrays whole are every task's handful. -/
theorem go_all (d : Dev nD) (I : Buf (Elt F) (iLoc d)) (Tw : Buf (Elt F) (wLoc d)) (P0 : Buf (Elt F) (pLoc d)) (hf : Faithful m d I Tw) :
    iprop((iLoc d ↦{fullShare} I) ∗ (wLoc d ↦{fullShare} Tw) ∗ (pLoc d ↦{fullShare} P0))
      ⊢ (bigSep Finset.univ fun w : Fin 32 => goRes m d w : sProp 𝕄) :=
  (go_split d I Tw P0).trans (bigSep_mono fun w _ => goRes_intro m d w I Tw P0 hf)

/-! ## The tasks by SparseCore and subcore -/

def taskEquiv : Fin ((K (F := F)).nCore 0) × Fin ((K (F := F)).nSub 0) ≃ Fin 32 where
  toFun p := widCI p.1 p.2
  invFun w := (⟨w.val % 2, Nat.mod_lt _ (by decide)⟩, ⟨w.val / 2, by have := w.isLt; show w.val / 2 < 16; omega⟩)
  left_inv p := by
    obtain ⟨c, i⟩ := p
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem bigSep_tasks (Φ : Fin 32 → sProp 𝕄) :
    bigSep Finset.univ Φ = bigSep Finset.univ fun c : Fin ((K (F := F)).nCore 0) => bigSep Finset.univ fun i : Fin ((K (F := F)).nSub 0) => Φ (widCI c i) := by
  rw [bigSep_univ_equiv (taskEquiv (F := F)) Φ, bigSep_univ_prod]; rfl

/-! ## Gathering back -/

/-- The widened result agrees with the result on the lower 64 columns. -/
def Good (d : Dev nD) (Pw : Buf (Elt F) (pLoc d)) : Prop :=
  ∀ (b : Fin 16384) (h : Fin 50) (k : Fin 64),
    (Pw : Cert.Spec.SP.Idx → Elt F .f32) (ix3 b h (k.castLE (by decide))) = Cert.Spec.G (α := Elt F .f32) (m (xLoc d)) (m (tLoc d)) (ix3 b h k)

/-- A task's stretch at the widened rows taken agrees with the result on the lower 64 columns. -/
theorem tdRes_weaken (d : Dev nD) (w : Fin 32) :
    (tdRes m d w : sProp 𝕄) ⊢ iprop(∃ f : Buf (Elt F) (pLoc d),
      ⌜∀ (b : Fin 16384) (h : Fin 50) (k : Fin 64), (f : Cert.Spec.SP.Idx → Elt F .f32) (ix3 b h (k.castLE (by decide)))
          = Cert.Spec.G (α := Elt F .f32) (m (xLoc d)) (m (tLoc d)) (ix3 b h k)⌝ ∗ (pLoc d ↦[pRows w]{fullShare} f)) := by
  unfold tdRes
  iintro ⟨%I, %Tw, %hf, Hp⟩
  iexists (Cert.Spec.GW (α := Elt F .f32) I Tw : Buf (Elt F) (pLoc d))
  isplitr
  · ipureintro; exact fun b h k => Cert.Spec.GW_eq_G hf.1 hf.2 b h k
  · iexact Hp

variable [∀ e, Nonempty (Elt F e)]

theorem td_all (d : Dev nD) :
    (bigSep Finset.univ fun w : Fin 32 => tdRes m d w : sProp 𝕄)
      ⊢ iprop(∃ Pw : Buf (Elt F) (pLoc d), ⌜Good m d Pw⌝ ∗ (pLoc d ↦{fullShare} Pw)) := by
  refine (bigSep_mono fun w _ => tdRes_weaken m d w).trans ?_
  have : Nonempty (Buf (Elt F) (pLoc d)) := ⟨fun _ => Classical.arbitrary _⟩
  refine (bigSep_exists_pi Finset.univ (fun (w : Fin 32) (f : Buf (Elt F) (pLoc d)) =>
    iprop(⌜∀ (b : Fin 16384) (h : Fin 50) (k : Fin 64), (f : Cert.Spec.SP.Idx → Elt F .f32) (ix3 b h (k.castLE (by decide)))
          = Cert.Spec.G (α := Elt F .f32) (m (xLoc d)) (m (tLoc d)) (ix3 b h k)⌝ ∗ (pLoc d ↦[pRows w]{fullShare} f)))).trans ?_
  iintro ⟨%fs, H⟩
  ihave H' := (bigSep_pure_sep Finset.univ _ _) $$ H
  icases H' with ⟨%hgood, H⟩
  ihave H'' := (pointsTo_biUnion_join (ℓ := pLoc d) (q := fullShare) (Val := Elt F) Finset.univ pRows fs (fs 0) pRows_disjoint) $$ H
  icases H'' with ⟨%g, %hg, Hg⟩
  rw [pRows_cover]
  iexists g
  isplitr
  · ipureintro
    intro b h k
    obtain ⟨w, hw⟩ := Rect.exists_mem_part pdiv (ix3 b h (k.castLE (by decide)) : S16384x50x128.Idx)
    rw [hg w (Finset.mem_univ _) _ (by rw [pRows_eq]; exact hw)]
    exact hgood w (Finset.mem_univ _) b h k
  · iexact Hg

end Cert.Kernel.Run

end
-- ==== Proof.Kernel.Elem.lean ====
/-
  The launch element of the ghost state, and how the final state is read.

  The launch element is the handshakes' initial rounds, the two kernel regions' staging cells' initial rounds, and the
  unit of the transfers' counters. The middle part funds, on every core and for each region, the cells' ghost state and the
  duty tokens the region's entry consumes: that is what @main is handed beside the launch's own deal. At the end @main
  holds the two arguments at their launch contents and the result at the function of them both programs compute; held
  beside the state interpretation of a final state they say what that state's memory holds.
-/
import proofs.«206271_g21749714387155_cont_8to1_2007_29_alg».proof.Proof.Kernel.Split

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ) (ρ : Dev nD → PrngReg)

/-! ## The launch element -/

def u₀ : UU :=
  (initOf (K (F := F)).hsCells (K (F := F)).hsToks,
    (initOf (Pipeline.cells (cfgs) cellOf_inj) (Pipeline.launchToks (cfgs) cellOf_inj), 1))

/-- What @main on device `d` is handed for its two kernel regions. -/
def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (cfgs) cellOf_inj) (Pipeline.launchToks (cfgs) cellOf_inj), (1 : Counters)) : UR sig nD τ × Counters)) $$ Hu
  icases H with ⟨HH, HR⟩
  ihave HR' := (own_pair_emb (embR : Emb (UR sig nD τ × Counters) 𝕄) (initOf (Pipeline.cells (cfgs) cellOf_inj) (Pipeline.launchToks (cfgs) cellOf_inj)) (1 : Counters)) $$ HR
  icases HR' with ⟨HP, -⟩
  imod (Pipeline.fund_ghost (nD := nD) (τ := τ) (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]; · iexact Hg
    iexact Ht
  · rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), bigSep_emp']
    iempintro

/-! ## The end -/

/-- What @main holds at its end: the arguments as at launch, the result at what both programs compute. -/
abbrev FIN (d : Dev nD) : sProp 𝕄 :=
  iprop((xLoc d ↦{fullShare} m (xLoc d)) ∗ (tLoc d ↦{fullShare} m (tLoc d))
    ∗ (rLoc d ↦{fullShare} (Cert.Spec.G (α := Elt F .f32) (m (xLoc d)) (m (tLoc d)) : Buf (Elt F) (rLoc d))))

def fq (d : Dev nD) (s' : Phys nD τ sig (Elt F)) : Prop :=
  s'.mem.mem (rLoc d) = (Cert.Spec.G (α := Elt F .f32) (m (xLoc d)) (m (tLoc d)) : Buf (Elt F) (rLoc d))
    ∧ s'.mem.mem (xLoc d) = m (xLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare)
    (f := (Cert.Spec.G (α := Elt F .f32) (m (xLoc d)) (m (tLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- What the run claims of a final memory. -/
def QC : PUnit × MemSt nD τ sig (Elt F) → Prop := fun r => ∀ c : Dev nD,
  r.2.mem (rLoc c) = (Cert.Spec.G (α := Elt F .f32) (m (xLoc c)) (m (tLoc c)) : Buf (Elt F) (rLoc c))
    ∧ r.2.mem (xLoc c) = m (xLoc c) ∧ r.2.mem (tLoc c) = m (tLoc c)

end Cert.Kernel.Run

end
-- ==== Proof.Kernel.Main.lean ====
/-
  @main on the TensorCore, between the launch's deal and the program's end.

  @main lays the row numbers out flat (a host reshape), widens the table (kernel region 0), hands the SparseCore call
  its operands and waits for it, keeps the lower 64 columns transposed (kernel region 2), and transposes back.

  * Each kernel region is a call of the inner body table; under the program's table it is that call lifted. During a
    region the TensorCore still owes the call's start signals (before the call) or nothing (after it): the region
    borrows what the core owes and gives it back with waits recorded at the kernels' own index only, which the core's
    bound on its recorded waits ignores.
  * Before the call the three arrays the tasks touch are dealt out — a read share of the flat row numbers and of the
    widened table per task, and each task's 512 batch rows of the widened result —, the tasks numbered by SparseCore and
    subcore; after it the thirty-two stretches join into one array that agrees with the result on its lower 64 columns.
  * The second region keeps exactly those columns, so the final transpose is the result.
-/
import proofs.«206271_g21749714387155_cont_8to1_2007_29_alg».proof.Proof.Kernel.Elem

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ) (ρ : Dev nD → PrngReg)

/-- The TensorCore's unscoped buffers are the seven arrays of @main. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (iLoc d ↦{fullShare} W main_v0)
      ∗ (wLoc d ↦{fullShare} W main_v1) ∗ (pLoc d ↦{fullShare} W main_v2) ∗ (sLoc d ↦{fullShare} W main_v3) ∗ (rLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the TensorCore owes for the SparseCore call sits at the call's index, never at the kernels' own. -/
theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

variable [FloatOps F]

/-- The host reshape as one step: the row numbers kept, the flat row numbers written. -/
def ReshapeStmt (F : FTy → Type) [FloatOps F] : Prop :=
  ∀ (d : Dev nD) (x : Buf (Elt F) (xLoc d)) (Φ : PUnit → sProp (MM F)),
    iprop(boundary (T d) ∗ (xLoc d ↦{fullShare} x) ∗ (∃ f : Buf (Elt F) (iLoc d), iLoc d ↦{fullShare} f)
        ∗ ((boundary (T d) ∗ (xLoc d ↦{fullShare} x)
              ∗ ∃ I : Buf (Elt F) (iLoc d), ⌜Cert.Spec.Flattens x I⌝ ∗ (iLoc d ↦{fullShare} I)) -∗ Φ ⟨⟩))
      ⊢ wp frame (wpE ((K (F := F)).defs (D (F := F))) 𝒱 (T d) none) Set.univ
          (hlo rfl (StableHlo.reshape main_arg0 main_v0 rfl shapeCasts_S16384x50_S819200 : HloOp τ sig (Elt F)) (fun _ => .ret ⟨⟩)) Φ

/-- The host transpose as one step: from the kept columns transposed to the result. -/
def TransposeStmt (F : FTy → Type) [FloatOps F] : Prop :=
  ∀ (d : Dev nD) (x : Cert.Spec.SX.Idx → BitVec 32) (Tb : Cert.Spec.ST.Idx → Elt F .f32) (Pw : Buf (Elt F) (pLoc d))
    (hP : ∀ (b : Fin 16384) (h : Fin 50) (k : Fin 64), (Pw : Cert.Spec.SP.Idx → Elt F .f32) (ix3 b h (k.castLE (by decide))) = Cert.Spec.G x Tb (ix3 b h k))
    (Φ : PUnit → sProp (MM F)),
    iprop(boundary (T d) ∗ (sLoc d ↦{fullShare} (keepT Pw : Buf (Elt F) (sLoc d)))
        ∗ (∃ f : Buf (Elt F) (rLoc d), rLoc d ↦{fullShare} f)
        ∗ ((boundary (T d) ∗ (sLoc d ↦{fullShare} (keepT Pw : Buf (Elt F) (sLoc d)))
              ∗ (rLoc d ↦{fullShare} (Cert.Spec.G x Tb : Buf (Elt F) (rLoc d)))) -∗ Φ ⟨⟩))
      ⊢ wp frame (wpE ((K (F := F)).defs (D (F := F))) 𝒱 (T d) none) Set.univ
          (hlo rfl (StableHlo.unary main_v3 main_v4 ((transpose S16384x50x64 [2, 0, 1] · transposes_S50x64x16384_S16384x50x64_2_0_1) : (⟨S50x64x16384, .f32⟩ : BufTy).Contents (Elt F) → (⟨S16384x50x64, .f32⟩ : BufTy).Contents (Elt F)) : HloOp τ sig (Elt F)) (fun _ => .ret ⟨⟩)) Φ

variable [∀ e, Nonempty (Elt F e)]

/-! ## Borrowing what the TensorCore owes -/

/-- The TensorCore's state before call `n` lends out what it owes, and is re-formed from the same tallies under waits still within its bound. -/
theorem tcSt_owes (d : Dev nD) (n : ℕ) :
    ((K (F := F)).tcSt EH d n : sProp 𝕄) ⊢ iprop(∃ W, ⌜(K (F := F)).WBelow (SparseCore.T d) W (8 * n)⌝ ∗ owes (SparseCore.T d) ((K (F := F)).Otc d n) W
      ∗ ((∃ W', ⌜(K (F := F)).WBelow (SparseCore.T d) W' (8 * n)⌝ ∗ owes (SparseCore.T d) ((K (F := F)).Otc d n) W') -∗ (K (F := F)).tcSt EH d n)) := by
  unfold SparseCore.Cfg.tcSt
  iintro ⟨⟨%W, %hW, HO⟩, Hrest⟩
  iexists W
  isplitr; · ipureintro; exact hW
  isplitl [HO]; · iexact HO
  iintro H'
  isplitl [H']; · iexact H'
  iexact Hrest

/-- Waits recorded at the kernels' own index keep the bound. -/
theorem WBelow_of_none {thr : Thread nD τ} {W W' : Waits sig (HIx 1)} {b : ℕ} (hW : (K (F := F)).WBelow thr W b)
    (hW' : ∀ p ∈ W', p ∈ W ∨ p.2 = none) : (K (F := F)).WBelow thr W' b := fun p hp => by
  rcases hW' p hp with h | h
  · exact hW p h
  · show (K (F := F)).lev (thr, p.1) p.2 ≤ b
    rw [h, SparseCore.Cfg.lev_none]; exact Nat.zero_le _

/-! ## The two kernel regions, entered from @main -/

/-- Region 0 under the inner body table, from the TensorCore's state before the call. -/
theorem enter0_inner (h0 : Region0Stmt F) (κ : GSem nD τ sig → ℕ) (d : Dev nD) (Tb : Buf (Elt F) (tLoc d)) (Φ : PUnit → sProp 𝕄) :
    iprop((K (F := F)).ctx EH (P m) κ ∗ (K (F := F)).tcSt EH d 0 ∗ boundary (SparseCore.T d) ∗ (tLoc d ↦{fullShare} Tb)
        ∗ (∃ f : Buf (Elt F) (wLoc d), wLoc d ↦{fullShare} f)
        ∗ Pipeline.cellsGhost (Pipeline.pin (pcfgs (F := F)) adm) EP 0 d ∗ Pipeline.toksInit (Pipeline.pin (pcfgs (F := F)) adm) EP 0 d
        ∗ (((K (F := F)).tcSt EH d 0 ∗ boundary (SparseCore.T d) ∗ (tLoc d ↦{fullShare} Tb)
              ∗ ∃ Tw : Buf (Elt F) (wLoc d), ⌜Cert.Spec.Widens Tb Tw⌝ ∗ (wLoc d ↦{fullShare} Tw)) -∗ Φ ⟨⟩))
      ⊢ wp frame (wpE (D (F := F)) 𝒱 (SparseCore.T d) none) Set.univ
          (.op (.customCall (Pipeline.entry 0) ()) .ret : Prog (TpuEff nD τ sig (Elt F) (ΛP (F := F)) .tc) PUnit) Φ := by
  iintro ⟨#Hctx, Hst, Hb, Ht, Hw, Hg, Htk, Hk⟩
  ihave Hlev := ((K (F := F)).ctx_levAts (EH := EH) (P := P m) κ) $$ Hctx
  ihave H := (tcSt_owes (F := F) d 0) $$ Hst
  icases H with ⟨%W, %hW, HO, Hback⟩
  iapply (h0 d Tb ((K (F := F)).Otc d 0) W (Otc_none d 0) (fun _ => .ret ⟨⟩) Φ) $$ [Hk Hback Hb Ht Hw HO Hlev Hg Htk]
  isplitl [Hk Hback]
  · iintro ⟨Hb, H⟩
    unfold post0
    icases H with ⟨Ht, Hw, %W', %hW', HO⟩
    simp only [wp_ret]
    imodintro
    iapply Hk
    isplitl [Hback HO]
    · iapply Hback
      iexists W'
      isplitr; · ipureintro; exact WBelow_of_none hW hW'
      iexact HO
    isplitl [Hb]; · iexact Hb
    isplitl [Ht]; · iexact Ht
    iexact Hw
  isplitl [Hb]; · iexact Hb
  isplitl [Ht Hw HO]
  · unfold pre0
    isplitl [Ht]; · iexact Ht
    isplitl [Hw]; · iexact Hw
    iexact HO
  isplitr; · iexact Hlev
  isplitl [Hg]; · iexact Hg
  iexact Htk

set_option backward.isDefEq.respectTransparency.types false in
theorem enter0 (h0 : Region0Stmt F) (κ : GSem nD τ sig → ℕ) (d : Dev nD) (Tb : Buf (Elt F) (tLoc d)) (Φ : PUnit → sProp 𝕄) :
    iprop((K (F := F)).ctx EH (P m) κ ∗ (K (F := F)).tcSt EH d 0 ∗ boundary (SparseCore.T d) ∗ (tLoc d ↦{fullShare} Tb)
        ∗ (∃ f : Buf (Elt F) (wLoc d), wLoc d ↦{fullShare} f)
        ∗ Pipeline.cellsGhost (Pipeline.pin (pcfgs (F := F)) adm) EP 0 d ∗ Pipeline.toksInit (Pipeline.pin (pcfgs (F := F)) adm) EP 0 d
        ∗ (((K (F := F)).tcSt EH d 0 ∗ boundary (SparseCore.T d) ∗ (tLoc d ↦{fullShare} Tb)
              ∗ ∃ Tw : Buf (Elt F) (wLoc d), ⌜Cert.Spec.Widens Tb Tw⌝ ∗ (wLoc d ↦{fullShare} Tw)) -∗ Φ ⟨⟩))
      ⊢ wp frame (wpE ((K (F := F)).defs (D (F := F))) 𝒱 (SparseCore.T d) none) Set.univ
          (Prog.lift (.customCall (SparseCore.inner (Pipeline.entry 0)) ())) Φ :=
  (enter0_inner m h0 κ d Tb Φ).trans ((K (F := F)).wp_liftProg (D (F := F)) 𝒱 (SparseCore.T d) (Set.univ : Set ℕ) none
    (.op (.customCall (Pipeline.entry 0) ()) .ret : Prog (TpuEff nD τ sig (Elt F) (ΛP (F := F)) .tc) PUnit) Φ)

/-- Region 2 under the inner body table, from the TensorCore's state after the call. -/
theorem enter2_inner (h2 : Region2Stmt F) (κ : GSem nD τ sig → ℕ) (d : Dev nD) (Pw : Buf (Elt F) (pLoc d)) (Φ : PUnit → sProp 𝕄) :
    iprop((K (F := F)).ctx EH (P m) κ ∗ (K (F := F)).tcSt EH d 1 ∗ boundary (SparseCore.T d) ∗ (pLoc d ↦{fullShare} Pw)
        ∗ (∃ f : Buf (Elt F) (sLoc d), sLoc d ↦{fullShare} f)
        ∗ Pipeline.cellsGhost (Pipeline.pin (pcfgs (F := F)) adm) EP 1 d ∗ Pipeline.toksInit (Pipeline.pin (pcfgs (F := F)) adm) EP 1 d
        ∗ (((K (F := F)).tcSt EH d 1 ∗ boundary (SparseCore.T d) ∗ (pLoc d ↦{fullShare} Pw)
              ∗ (sLoc d ↦{fullShare} (keepT Pw : Buf (Elt F) (sLoc d)))) -∗ Φ ⟨⟩))
      ⊢ wp frame (wpE (D (F := F)) 𝒱 (SparseCore.T d) none) Set.univ
          (.op (.customCall (Pipeline.entry 1) ()) .ret : Prog (TpuEff nD τ sig (Elt F) (ΛP (F := F)) .tc) PUnit) Φ := by
  iintro ⟨#Hctx, Hst, Hb, Hp, Hs, Hg, Htk, Hk⟩
  ihave Hlev := ((K (F := F)).ctx_levAts (EH := EH) (P := P m) κ) $$ Hctx
  ihave H := (tcSt_owes (F := F) d 1) $$ Hst
  icases H with ⟨%W, %hW, HO, Hback⟩
  iapply (h2 d Pw ((K (F := F)).Otc d 1) W (Otc_none d 1) (fun _ => .ret ⟨⟩) Φ) $$ [Hk Hback Hb Hp Hs HO Hlev Hg Htk]
  isplitl [Hk Hback]
  · iintro ⟨Hb, H⟩
    unfold post2
    icases H with ⟨Hp, Hs, %W', %hW', HO⟩
    simp only [wp_ret]
    imodintro
    iapply Hk
    isplitl [Hback HO]
    · iapply Hback
      iexists W'
      isplitr; · ipureintro; exact WBelow_of_none hW hW'
      iexact HO
    isplitl [Hb]; · iexact Hb
    isplitl [Hp]; · iexact Hp
    iexact Hs
  isplitl [Hb]; · iexact Hb
  isplitl [Hp Hs HO]
  · unfold pre2
    isplitl [Hp]; · iexact Hp
    isplitl [Hs]; · iexact Hs
    iexact HO
  isplitr; · iexact Hlev
  isplitl [Hg]; · iexact Hg
  iexact Htk

set_option backward.isDefEq.respectTransparency.types false in
theorem enter2 (h2 : Region2Stmt F) (κ : GSem nD τ sig → ℕ) (d : Dev nD) (Pw : Buf (Elt F) (pLoc d)) (Φ : PUnit → sProp 𝕄) :
    iprop((K (F := F)).ctx EH (P m) κ ∗ (K (F := F)).tcSt EH d 1 ∗ boundary (SparseCore.T d) ∗ (pLoc d ↦{fullShare} Pw)
        ∗ (∃ f : Buf (Elt F) (sLoc d), sLoc d ↦{fullShare} f)
        ∗ Pipeline.cellsGhost (Pipeline.pin (pcfgs (F := F)) adm) EP 1 d ∗ Pipeline.toksInit (Pipeline.pin (pcfgs (F := F)) adm) EP 1 d
        ∗ (((K (F := F)).tcSt EH d 1 ∗ boundary (SparseCore.T d) ∗ (pLoc d ↦{fullShare} Pw)
              ∗ (sLoc d ↦{fullShare} (keepT Pw : Buf (Elt F) (sLoc d)))) -∗ Φ ⟨⟩))
      ⊢ wp frame (wpE ((K (F := F)).defs (D (F := F))) 𝒱 (SparseCore.T d) none) Set.univ
          (Prog.lift (.customCall (SparseCore.inner (Pipeline.entry 1)) ())) Φ :=
  (enter2_inner m h2 κ d Pw Φ).trans ((K (F := F)).wp_liftProg (D (F := F)) 𝒱 (SparseCore.T d) (Set.univ : Set ℕ) none
    (.op (.customCall (Pipeline.entry 1) ()) .ret : Prog (TpuEff nD τ sig (Elt F) (ΛP (F := F)) .tc) PUnit) Φ)

/-! ## @main on the TensorCore -/

theorem st0_eq (d : Dev nD) :
    (bigSep Finset.univ fun c : Fin ((K (F := F)).nCore 0) => (P m).st 0 d c) = (bigSep Finset.univ fun w : Fin 32 => goRes m d w : sProp 𝕄) :=
  (bigSep_tasks (F := F) (fun w => goRes m d w)).symm
theorem dn0_eq (d : Dev nD) :
    (bigSep Finset.univ fun c : Fin ((K (F := F)).nCore 0) => (P m).dn 0 d c) = (bigSep Finset.univ fun w : Fin 32 => tdRes m d w : sProp 𝕄) :=
  (bigSep_tasks (F := F) (fun w => tdRes m d w)).symm

variable (ρ : Dev nD → PrngReg)

theorem hmain (h0 : Region0Stmt F) (h2 : Region2Stmt F) (hR : ReshapeStmt F) (hX : TransposeStmt F) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq, bigSep_univ_two, bigSep_univ_two]
  simp only [main, wp_bind, wp_pure]
  iintro ⟨#Hctx, Hst, ⟨Hb, ⟨Hx, Ht, Hi, Hw, Hp, Hs, Hr⟩, -, -⟩, ⟨Hg0, Hg1⟩, ⟨Hk0, Hk1⟩⟩
  -- the row numbers laid out flat
  iapply (hR d (m (xLoc d)) _) $$ [Hb Hx Hi Hst Ht Hw Hp Hs Hr Hg0 Hg1 Hk0 Hk1]
  isplitl [Hb]; · iexact Hb
  isplitl [Hx]; · iexact Hx
  isplitl [Hi]; · iexists _; iexact Hi
  iintro ⟨Hb, Hx, %I, %hI, Hi⟩
  -- the table widened
  iapply (enter0 m h0 κ d (m (tLoc d)) _) $$ [Hst Hb Ht Hw Hg0 Hk0 Hx Hi Hp Hs Hr Hg1 Hk1]
  isplitr; · iexact Hctx
  isplitl [Hst]; · iexact Hst
  isplitl [Hb]; · iexact Hb
  isplitl [Ht]; · iexact Ht
  isplitl [Hw]; · iexists _; iexact Hw
  isplitl [Hg0]; · iexact Hg0
  isplitl [Hk0]; · iexact Hk0
  iintro ⟨Hst, Hb, Ht, %Tw, %hTw, Hw⟩
  -- the SparseCore call
  ihave Hgo := ((go_all m d I Tw _ ⟨hI, hTw⟩).trans (Entails.of_eq (st0_eq m d).symm)) $$ [Hi Hw Hp]
  · isplitl [Hi]; · iexact Hi
    isplitl [Hw]; · iexact Hw
    iexact Hp
  iapply ((K (F := F)).wp_run (D (F := F)) 𝒱 (EH := EH) (P := P m) κ d 0) $$ [Hst Hgo Hb Hx Ht Hs Hr Hg1 Hk1]
  isplitr; · iexact Hctx
  isplitl [Hst]; · iexact Hst
  isplitl [Hgo]; · iexact Hgo
  iintro ⟨Hst, Hdn⟩
  ihave Hp := ((Entails.of_eq (dn0_eq m d)).trans (td_all m d)) $$ Hdn
  icases Hp with ⟨%Pw, %hPw, Hp⟩
  -- the lower 64 columns kept, transposed
  iapply (enter2 m h2 κ d Pw _) $$ [Hst Hb Hp Hs Hg1 Hk1 Hx Ht Hr]
  isplitr; · iexact Hctx
  isplitl [Hst]; · iexact Hst
  isplitl [Hb]; · iexact Hb
  isplitl [Hp]; · iexact Hp
  isplitl [Hs]; · iexists _; iexact Hs
  isplitl [Hg1]; · iexact Hg1
  isplitl [Hk1]; · iexact Hk1
  iintro ⟨Hst, Hb, Hp, Hs⟩
  -- transposed back
  iapply (hX d (m (xLoc d)) (m (tLoc d)) Pw hPw _) $$ [Hb Hs Hr Hst Hx Ht]
  isplitl [Hb]; · iexact Hb
  isplitl [Hs]; · iexact Hs
  isplitl [Hr]; · iexists _; iexact Hr
  iintro ⟨Hb, Hs, Hr⟩
  imodintro
  isplitl [Hst]; · iexact Hst
  isplitl [Hx]; · iexact Hx
  isplitl [Ht]; · iexact Ht
  iexact Hr

end Cert.Kernel.Run

end
-- ==== Proof.Kernel.Run.lean ====
/-
  The program's run: every weakly fair execution of the TensorCore's @main beside the two sequencers and the thirty-two
  vector subcores terminates, nothing faulting, and ends with the two arguments as at launch and the result holding,
  at `(b, h, d)`, the table's entry in column `d` of the row `x[b, h]` names.

  It is the SparseCore launch theorem at this program: the one vector-subcore kernel's task, the split of a SparseCore's
  operands among its tasks (the identity here), the launch element, @main, and the read-off of the final state.
-/
import proofs.«206271_g21749714387155_cont_8to1_2007_29_alg».proof.Proof.Kernel.Main

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ) (ρ : Dev nD → PrngReg)

variable [FloatOps F] [∀ e, Nonempty (Elt F e)]

theorem run_main (hT : TileBodyStmt F) (h0 : Region0Stmt F) (h2 : Region2Stmt F) (hR : ReshapeStmt F) (hX : TransposeStmt F) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT facts hpre)
    (fun q _ => match q with | 0 => SparseCore.Cfg.VecSplit.of_plain (vecSplit m))
    m ρ main (fun d => G (F := F) d) (FIN m) (u₀ (F := F)) (sep_elim_left.trans (hu₀ m)) (hmain m ρ h0 h2 hR hX) (fq m) (hfin m) (QC m) (fun _ h => h)

end Cert.Kernel.Run

end
-- ==== Proof.Kernel.Host.lean ====
/-
  The two host operations of @main, each as one step with its value.

  @main's first line lays the row numbers `x : [16384, 50]` out flat in row-major order, so position `50 b + h` of the
  flat array holds `x[b, h]`. Its last line transposes the kept columns `[50, 64, 16384]` back to `[16384, 50, 64]`:
  entry `(b, h, k)` of the result is entry `(h, k, b)` of the kept columns, which is entry `(b, h, k)` of the widened
  rows taken; where those agree with the result on the lower 64 columns, the transpose is the result.

  Each line is one host operation on the TensorCore. Holding what the core holds between kernel regions and the
  operation's two buffers whole, the operation runs and gives them back, the written one at the operation's value of
  the read one; the read one is unchanged.
-/
import proofs.«206271_g21749714387155_cont_8to1_2007_29_alg».proof.Proof.Kernel.Iface
import Idealize.ShloMosaic.Lib.Pipeline.Value
import Idealize.ShloMosaic.Lib.ValueLayout

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The two host operations' values -/

/-- The row numbers laid out flat in row-major order: position `50 b + h` holds `x[b, h]`. -/
theorem flattens_shapeCast (x : Cert.Spec.SX.Idx → BitVec 32) (h : S16384x50.ShapeCasts S819200) :
    Cert.Spec.Flattens x (shapeCast S819200 x h) := by
  unfold Cert.Spec.Flattens
  intro b c
  refine shapeCast_apply x h (ix1 (Cert.Spec.flat b c)) (ix2 b c) ?_
  rw [Shape.rowMajor_val_two, Shape.rowMajor_val_one]
  show b.val * 50 + c.val = 50 * b.val + c.val
  omega

/-- The kept columns, transposed back: if the widened rows taken agree with the result on the lower 64 columns, the
    transpose of the kept columns is the result. -/
theorem transpose_keepT {α : Type} (x : Cert.Spec.SX.Idx → BitVec 32) (Tb : Cert.Spec.ST.Idx → α) (Pw : Cert.Spec.SP.Idx → α)
    (hP : ∀ (b : Fin 16384) (h : Fin 50) (k : Fin 64), Pw (ix3 b h (k.castLE (by decide))) = Cert.Spec.G x Tb (ix3 b h k))
    (ht : S50x64x16384.Transposes [2, 0, 1] S16384x50x64) :
    transpose S16384x50x64 [2, 0, 1] (keepT Pw) ht = Cert.Spec.G x Tb := by
  funext i
  obtain ⟨b, h, k, rfl⟩ : ∃ (b : Fin 16384) (h : Fin 50) (k : Fin 64), i = ix3 b h k := ⟨_, _, _, eq_ix3 i⟩
  refine (transpose_apply [2, 0, 1] (keepT Pw) ht (ix3 b h k) (ix3 h k b)
    (fun c => match c with | ⟨0, _⟩ => rfl | ⟨1, _⟩ => rfl | ⟨2, _⟩ => rfl)).trans ?_
  exact hP b h k

/-! ## The two host operations as steps of @main -/

/-- @main's first line: the row numbers laid out flat. -/
abbrev opReshape : HloOp τ sig (Elt F) := StableHlo.reshape main_arg0 main_v0 rfl shapeCasts_S16384x50_S819200

/-- @main's last line: the kept columns transposed back. -/
abbrev opTranspose : HloOp τ sig (Elt F) :=
  StableHlo.unary main_v3 main_v4 ((transpose S16384x50x64 [2, 0, 1] · transposes_S50x64x16384_S16384x50x64_2_0_1) : (⟨S50x64x16384, .f32⟩ : BufTy).Contents (Elt F) → (⟨S16384x50x64, .f32⟩ : BufTy).Contents (Elt F))

/-- The row numbers, the flat row numbers, the kept columns and the result as device buffers. -/
abbrev xD : DevRef τ sig := Proc.devRef .tc (main_arg0 : Ref sig .tc)
abbrev iD : DevRef τ sig := Proc.devRef .tc (main_v0 : Ref sig .tc)
abbrev sD : DevRef τ sig := Proc.devRef .tc (main_v3 : Ref sig .tc)
abbrev rD : DevRef τ sig := Proc.devRef .tc (main_v4 : Ref sig .tc)

/-- Contents for every buffer: `u` at buffer `a`, `v` at buffer `b`, anything elsewhere. -/
def val2 (a b : DevRef τ sig) (u : a.ty.Contents (Elt F)) (v : b.ty.Contents (Elt F)) : Valuation τ sig (Elt F) :=
  Function.update (Function.update (fun _ _ => default) a u) b v

theorem val2_fst {a b : DevRef τ sig} (hab : a ≠ b) (u : a.ty.Contents (Elt F)) (v : b.ty.Contents (Elt F)) :
    val2 a b u v a = u := by
  unfold val2
  rw [Function.update_of_ne hab, Function.update_self]

theorem val2_snd (a b : DevRef τ sig) (u : a.ty.Contents (Elt F)) (v : b.ty.Contents (Elt F)) :
    val2 a b u v b = v := Function.update_self _ _ _

/-- The reshape's buffers held at contents `W`: the row numbers and the flat row numbers. -/
theorem reshapeBufs_eq (d : Dev nD) (W : Valuation τ sig (Elt F)) :
    (bigSep (opReshape (F := F)).bufs (fun b => ((d, b) : Loc nD τ sig) ↦{fullShare} W b) : sProp 𝕄)
      = iprop((xLoc d ↦{fullShare} W xD) ∗ (iLoc d ↦{fullShare} W iD)) := by
  show bigSep ({xD, iD} : Finset (DevRef τ sig)) (fun b => ((d, b) : Loc nD τ sig) ↦{fullShare} W b) = _
  rw [SparseCore.bigSep_insert' (by decide), bigSep_singleton]

/-- The transpose's buffers held at contents `W`: the kept columns and the result. -/
theorem transposeBufs_eq (d : Dev nD) (W : Valuation τ sig (Elt F)) :
    (bigSep (opTranspose (F := F)).bufs (fun b => ((d, b) : Loc nD τ sig) ↦{fullShare} W b) : sProp 𝕄)
      = iprop((sLoc d ↦{fullShare} W sD) ∗ (rLoc d ↦{fullShare} W rD)) := by
  show bigSep ({sD, rD} : Finset (DevRef τ sig)) (fun b => ((d, b) : Loc nD τ sig) ↦{fullShare} W b) = _
  rw [SparseCore.bigSep_insert' (by decide), bigSep_singleton]

/-- THE RESHAPE, ONE STEP: holding the boundary, the row numbers `x` and the flat row numbers' buffer at any contents,
    the line runs and hands back the boundary, `x` unchanged, and the flat buffer at contents `I` that are `x` laid out
    flat. -/
theorem wp_reshape (d : Dev nD) (x : Buf (Elt F) (xLoc d)) (Φ : PUnit → sProp 𝕄) :
    iprop(boundary (T d) ∗ (xLoc d ↦{fullShare} x) ∗ (∃ f : Buf (Elt F) (iLoc d), iLoc d ↦{fullShare} f)
        ∗ ((boundary (T d) ∗ (xLoc d ↦{fullShare} x)
              ∗ ∃ I : Buf (Elt F) (iLoc d), ⌜Cert.Spec.Flattens x I⌝ ∗ (iLoc d ↦{fullShare} I)) -∗ Φ ⟨⟩))
      ⊢ wp frame (wpE ((K (F := F)).defs (D (F := F))) 𝒱 (T d) none) Set.univ
          (hlo rfl (opReshape (F := F)) (fun _ => .ret ⟨⟩)) Φ := by
  iintro ⟨Hb, Hx, ⟨%f, Hi⟩, Hk⟩
  iapply (wp_hlo 𝒱 (T d) none Set.univ (op := opReshape (F := F)) (q := fun _ => fullShare) (F := val2 xD iD x f) (fun _ _ => rfl)) $$ [Hb Hx Hi]
  · isplitl [Hb]; · iexact Hb
    rw [reshapeBufs_eq, val2_fst (by decide), val2_snd]
    isplitl [Hx]; · iexact Hx
    iexact Hi
  rw [reshapeBufs_eq, (opReshape (F := F)).result_of_not_mem (val2 xD iD x f) (b := xD) (show xD ∉ ({iD} : Finset (DevRef τ sig)) by decide),
    val2_fst (by decide),
    show (opReshape (F := F)).result (val2 xD iD x f) iD = (shapeCast S819200 x shapeCasts_S16384x50_S819200 : Buf (Elt F) (iLoc d)) from
      (StableHlo.reshape_result _ _ _ _ _ _ _).trans (by rw [val2_fst (by decide)]; rfl)]
  iintro ⟨Hb, Hx, Hi⟩
  rw [wp_ret]; imodintro
  iapply Hk
  isplitl [Hb]; · iexact Hb
  isplitl [Hx]; · iexact Hx
  iexists (shapeCast S819200 x shapeCasts_S16384x50_S819200 : Buf (Elt F) (iLoc d))
  isplitr; · ipureintro; exact flattens_shapeCast x _
  iexact Hi

/-- THE TRANSPOSE, ONE STEP: holding the boundary, the kept columns transposed (`keepT Pw`, where `Pw` agrees with the
    result on the lower 64 columns) and the result's buffer at any contents, the line runs and hands back the boundary,
    the kept columns unchanged, and the result's buffer at `Cert.Spec.G x Tb`. -/
theorem wp_transpose (d : Dev nD) (x : Cert.Spec.SX.Idx → BitVec 32) (Tb : Cert.Spec.ST.Idx → Elt F .f32) (Pw : Buf (Elt F) (pLoc d))
    (hP : ∀ (b : Fin 16384) (h : Fin 50) (k : Fin 64), Pw (ix3 b h (k.castLE (by decide))) = Cert.Spec.G x Tb (ix3 b h k))
    (Φ : PUnit → sProp 𝕄) :
    iprop(boundary (T d) ∗ (sLoc d ↦{fullShare} (keepT Pw : Buf (Elt F) (sLoc d)))
        ∗ (∃ f : Buf (Elt F) (rLoc d), rLoc d ↦{fullShare} f)
        ∗ ((boundary (T d) ∗ (sLoc d ↦{fullShare} (keepT Pw : Buf (Elt F) (sLoc d)))
              ∗ (rLoc d ↦{fullShare} (Cert.Spec.G x Tb : Buf (Elt F) (rLoc d)))) -∗ Φ ⟨⟩))
      ⊢ wp frame (wpE ((K (F := F)).defs (D (F := F))) 𝒱 (T d) none) Set.univ
          (hlo rfl (opTranspose (F := F)) (fun _ => .ret ⟨⟩)) Φ := by
  iintro ⟨Hb, Hs, ⟨%f, Hr⟩, Hk⟩
  iapply (wp_hlo 𝒱 (T d) none Set.univ (op := opTranspose (F := F)) (q := fun _ => fullShare)
    (F := val2 sD rD (keepT Pw : Buf (Elt F) (sLoc d)) f) (fun _ _ => rfl)) $$ [Hb Hs Hr]
  · isplitl [Hb]; · iexact Hb
    rw [transposeBufs_eq, val2_fst (by decide), val2_snd]
    isplitl [Hs]; · iexact Hs
    iexact Hr
  rw [transposeBufs_eq,
    (opTranspose (F := F)).result_of_not_mem (val2 sD rD (keepT Pw : Buf (Elt F) (sLoc d)) f) (b := sD) (show sD ∉ ({rD} : Finset (DevRef τ sig)) by decide),
    val2_fst (by decide),
    show (opTranspose (F := F)).result (val2 sD rD (keepT Pw : Buf (Elt F) (sLoc d)) f) rD = (Cert.Spec.G x Tb : Buf (Elt F) (rLoc d)) from
      (StableHlo.unary_result _ _ _ _ _ _).trans (by rw [val2_fst (by decide)]; exact transpose_keepT x Tb Pw hP _)]
  iintro ⟨Hb, Hs, Hr⟩
  rw [wp_ret]; imodintro
  iapply Hk
  isplitl [Hb]; · iexact Hb
  isplitl [Hs]; · iexact Hs
  iexact Hr

end Cert.Kernel.Run

end
-- ==== Proof.Kernel.TileSetup.lean ====
/-
  One vector subcore's task: the names of what it touches.

  The subcore owns two lists of 400 row numbers, two buffers of 400 widened rows and eight DMA semaphores; the launch hands
  them over among all it owns, and here they are taken out of that family by name. A word of the flat row numbers is a row
  number of the table, so a list just filled from them names rows of the table only, whatever it held before.
-/
import proofs.«206271_g21749714387155_cont_8to1_2007_29_alg».proof.Proof.Kernel.Iface
import Idealize.ShloMosaic.Lib.SparseCore.Stream
import Idealize.ShloMosaic.Lib.Transfers
import Idealize.ShloMosaic.Lib.Tactic

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The subcore's own memory, by name -/

section Setup

variable (d : Dev nD) (L : grid1.Coords)

/-- The widened table, the flat row numbers and the widened result as the subcore's kernel names them. -/
abbrev wV : Memref sig .scVector .hbm S1000000x128 .f32 := Memref.whole main_v1_scv
abbrev iV : Memref sig .scVector .hbm S819200 .i32 := Memref.whole main_v0_scv
abbrev pV : Memref sig .scVector .hbm S16384x50x128 .f32 := Memref.whole main_v2_scv
/-- The two lists of row numbers and the two buffers of rows. -/
abbrev lA : Memref sig .scVector .vmem S400 .i32 := Memref.whole cc1_scratch0
abbrev lB : Memref sig .scVector .vmem S400 .i32 := Memref.whole cc1_scratch1
abbrev rA : Memref sig .scVector .vmem S400x128 .f32 := Memref.whole cc1_scratch2
abbrev rB : Memref sig .scVector .vmem S400x128 .f32 := Memref.whole cc1_scratch3

/-- The cell of one of the subcore's DMA semaphores. -/
abbrev cellOf (s : DmaSems sig S_) : GSem nD τ sig := (V d (cV L) (jV L), .dma s.sem)

omit [FloatOps F] in
theorem cell_mem (s : DmaSems sig S_) (h : (SemLoc.dma s.sem : SemLoc sig).isScoped .scVector = true) :
    cellOf d L s ∈ ownCells (sig := sig) (V d (cV L) (jV L)) :=
  (mem_ownCells (g := cellOf d L s)).mpr ⟨rfl, h⟩

omit [FloatOps F] in
theorem cell_ne {s s' : DmaSems sig S_} (h : s.sem ≠ s'.sem) : cellOf d L s ≠ cellOf d L s' := fun e =>
  h (SemLoc.dma.inj (congrArg Prod.snd e))

/-- The subcore's eight DMA semaphores are among its own cells: they are them, at zero, and the rest. -/
def semsRest : Finset (GSem nD τ sig) :=
  ((((((((ownCells (sig := sig) (V d (cV L) (jV L))).erase (cellOf d L cc1_scratch4)).erase (cellOf d L cc1_scratch5)).erase (cellOf d L cc1_scratch6)).erase
    (cellOf d L cc1_scratch7)).erase (cellOf d L cc1_scoped0)).erase (cellOf d L cc1_scoped1)).erase (cellOf d L cc1_scoped2)).erase (cellOf d L cc1_scoped3)

omit [FloatOps F] in
theorem ownSems0_V :
    (ownSems0 (V d (cV L) (jV L)) : sProp 𝕄)
      = iprop(semVal (cellOf d L cc1_scratch4) 0 ∗ semVal (cellOf d L cc1_scratch5) 0 ∗ semVal (cellOf d L cc1_scratch6) 0 ∗ semVal (cellOf d L cc1_scratch7) 0
          ∗ semVal (cellOf d L cc1_scoped0) 0 ∗ semVal (cellOf d L cc1_scoped1) 0 ∗ semVal (cellOf d L cc1_scoped2) 0 ∗ semVal (cellOf d L cc1_scoped3) 0
          ∗ bigSep (semsRest d L) fun g => semVal g 0) := by
  unfold SparseCore.Cfg.ownSems0 semsRest
  have m4 := cell_mem d L cc1_scratch4 (by decide)
  have m5 := Finset.mem_erase.mpr ⟨cell_ne d L (s := cc1_scratch5) (s' := cc1_scratch4) (by decide), cell_mem d L cc1_scratch5 (by decide)⟩
  have m6 := Finset.mem_erase.mpr ⟨cell_ne d L (s := cc1_scratch6) (s' := cc1_scratch5) (by decide),
    Finset.mem_erase.mpr ⟨cell_ne d L (s := cc1_scratch6) (s' := cc1_scratch4) (by decide), cell_mem d L cc1_scratch6 (by decide)⟩⟩
  have m7 := Finset.mem_erase.mpr ⟨cell_ne d L (s := cc1_scratch7) (s' := cc1_scratch6) (by decide), Finset.mem_erase.mpr ⟨cell_ne d L (s := cc1_scratch7) (s' := cc1_scratch5) (by decide),
    Finset.mem_erase.mpr ⟨cell_ne d L (s := cc1_scratch7) (s' := cc1_scratch4) (by decide), cell_mem d L cc1_scratch7 (by decide)⟩⟩⟩
  have m8 := Finset.mem_erase.mpr ⟨cell_ne d L (s := cc1_scoped0) (s' := cc1_scratch7) (by decide), Finset.mem_erase.mpr ⟨cell_ne d L (s := cc1_scoped0) (s' := cc1_scratch6) (by decide),
    Finset.mem_erase.mpr ⟨cell_ne d L (s := cc1_scoped0) (s' := cc1_scratch5) (by decide),
    Finset.mem_erase.mpr ⟨cell_ne d L (s := cc1_scoped0) (s' := cc1_scratch4) (by decide), cell_mem d L cc1_scoped0 (by decide)⟩⟩⟩⟩
  have m9 := Finset.mem_erase.mpr ⟨cell_ne d L (s := cc1_scoped1) (s' := cc1_scoped0) (by decide), Finset.mem_erase.mpr ⟨cell_ne d L (s := cc1_scoped1) (s' := cc1_scratch7) (by decide),
    Finset.mem_erase.mpr ⟨cell_ne d L (s := cc1_scoped1) (s' := cc1_scratch6) (by decide), Finset.mem_erase.mpr ⟨cell_ne d L (s := cc1_scoped1) (s' := cc1_scratch5) (by decide),
    Finset.mem_erase.mpr ⟨cell_ne d L (s := cc1_scoped1) (s' := cc1_scratch4) (by decide), cell_mem d L cc1_scoped1 (by decide)⟩⟩⟩⟩⟩
  have m10 := Finset.mem_erase.mpr ⟨cell_ne d L (s := cc1_scoped2) (s' := cc1_scoped1) (by decide), Finset.mem_erase.mpr ⟨cell_ne d L (s := cc1_scoped2) (s' := cc1_scoped0) (by decide),
    Finset.mem_erase.mpr ⟨cell_ne d L (s := cc1_scoped2) (s' := cc1_scratch7) (by decide),
    Finset.mem_erase.mpr ⟨cell_ne d L (s := cc1_scoped2) (s' := cc1_scratch6) (by decide), Finset.mem_erase.mpr ⟨cell_ne d L (s := cc1_scoped2) (s' := cc1_scratch5) (by decide),
    Finset.mem_erase.mpr ⟨cell_ne d L (s := cc1_scoped2) (s' := cc1_scratch4) (by decide), cell_mem d L cc1_scoped2 (by decide)⟩⟩⟩⟩⟩⟩
  have m11 := Finset.mem_erase.mpr ⟨cell_ne d L (s := cc1_scoped3) (s' := cc1_scoped2) (by decide), Finset.mem_erase.mpr ⟨cell_ne d L (s := cc1_scoped3) (s' := cc1_scoped1) (by decide),
    Finset.mem_erase.mpr ⟨cell_ne d L (s := cc1_scoped3) (s' := cc1_scoped0) (by decide), Finset.mem_erase.mpr ⟨cell_ne d L (s := cc1_scoped3) (s' := cc1_scratch7) (by decide),
    Finset.mem_erase.mpr ⟨cell_ne d L (s := cc1_scoped3) (s' := cc1_scratch6) (by decide), Finset.mem_erase.mpr ⟨cell_ne d L (s := cc1_scoped3) (s' := cc1_scratch5) (by decide),
    Finset.mem_erase.mpr ⟨cell_ne d L (s := cc1_scoped3) (s' := cc1_scratch4) (by decide), cell_mem d L cc1_scoped3 (by decide)⟩⟩⟩⟩⟩⟩⟩
  rw [SparseCore.bigSep_erase' m4, SparseCore.bigSep_erase' m5, SparseCore.bigSep_erase' m6, SparseCore.bigSep_erase' m7,
    SparseCore.bigSep_erase' m8, SparseCore.bigSep_erase' m9, SparseCore.bigSep_erase' m10, SparseCore.bigSep_erase' m11]

/-- One of the subcore's own buffers. -/
abbrev refOf (b : Ref sig .scVector) : DevRef τ sig := (Proc.scVector (cV L) (jV L)).devRef b

omit [FloatOps F] in
theorem ref_mem (b : Ref sig .scVector) (h : (refOf L b).owner = .proc (Proc.scVector (cV L) (jV L))) : refOf L b ∈ ownRefs (sig := sig) (Proc.scVector (cV L) (jV L)) :=
  SparseCore.Cfg.mem_ownRefs_of_owner h

omit [FloatOps F] in
theorem ref_ne {b b' : Ref sig .scVector} (h : b ≠ b') : refOf L b ≠ refOf L b' := fun e => h (Proc.devRef_injective _ e)

def bufsRest : Finset (DevRef τ sig) :=
  ((((ownRefs (sig := sig) (τ := τ) (.scVector (cV L) (jV L))).erase (refOf L cc1_scratch0)).erase (refOf L cc1_scratch1)).erase (refOf L cc1_scratch2)).erase (refOf L cc1_scratch3)

omit [FloatOps F] in
/-- The two lists and the two buffers of rows are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (bufsRest L) fun b => iprop(∃ f, ((d, b) : Loc nD τ sig) ↦{fullShare} f)) := by
  unfold SparseCore.Cfg.ownBufs bufsRest
  have m0 := ref_mem L cc1_scratch0 rfl
  have m1 := Finset.mem_erase.mpr ⟨ref_ne L (b := cc1_scratch1) (b' := cc1_scratch0) (by decide), ref_mem L cc1_scratch1 rfl⟩
  have m2 := Finset.mem_erase.mpr ⟨ref_ne L (b := cc1_scratch2) (b' := cc1_scratch1) (by decide),
    Finset.mem_erase.mpr ⟨ref_ne L (b := cc1_scratch2) (b' := cc1_scratch0) (by decide), ref_mem L cc1_scratch2 rfl⟩⟩
  have m3 := Finset.mem_erase.mpr ⟨ref_ne L (b := cc1_scratch3) (b' := cc1_scratch2) (by decide), Finset.mem_erase.mpr ⟨ref_ne L (b := cc1_scratch3) (b' := cc1_scratch1) (by decide),
    Finset.mem_erase.mpr ⟨ref_ne L (b := cc1_scratch3) (b' := cc1_scratch0) (by decide), ref_mem L cc1_scratch3 rfl⟩⟩⟩
  refine (SparseCore.bigSep_erase' m0).trans ?_
  rw [SparseCore.bigSep_erase' m1, SparseCore.bigSep_erase' m2, SparseCore.bigSep_erase' m3]

end Setup

section Pts
variable (d : Dev nD) (L : grid1.Coords)

omit [FloatOps F] in
theorem pts_i (q : PosShare TreeShare) (f : Buf (Elt F) (iLoc d)) :
    ((iV).view.loc (V d (cV L) (jV L)) ↦{q} f : sProp 𝕄) = iLoc d ↦{q} f := rfl
omit [FloatOps F] in
theorem pts_w (q : PosShare TreeShare) (f : Buf (Elt F) (wLoc d)) :
    ((wV).view.loc (V d (cV L) (jV L)) ↦{q} f : sProp 𝕄) = wLoc d ↦{q} f := rfl
omit [FloatOps F] in
theorem pts_lA (f : Buf (Elt F) ((V d (cV L) (jV L)).loc cc1_scratch0)) :
    ((lA).view.loc (V d (cV L) (jV L)) ↦{fullShare} f : sProp 𝕄) = (V d (cV L) (jV L)).loc cc1_scratch0 ↦{fullShare} f := rfl
omit [FloatOps F] in
theorem pts_lB (f : Buf (Elt F) ((V d (cV L) (jV L)).loc cc1_scratch1)) :
    ((lB).view.loc (V d (cV L) (jV L)) ↦{fullShare} f : sProp 𝕄) = (V d (cV L) (jV L)).loc cc1_scratch1 ↦{fullShare} f := rfl
omit [FloatOps F] in
theorem pts_rA (f : Buf (Elt F) ((V d (cV L) (jV L)).loc cc1_scratch2)) :
    ((rA).view.loc (V d (cV L) (jV L)) ↦{fullShare} f : sProp 𝕄) = (V d (cV L) (jV L)).loc cc1_scratch2 ↦{fullShare} f := rfl
omit [FloatOps F] in
theorem pts_rB (f : Buf (Elt F) ((V d (cV L) (jV L)).loc cc1_scratch3)) :
    ((rB).view.loc (V d (cV L) (jV L)) ↦{fullShare} f : sProp 𝕄) = (V d (cV L) (jV L)).loc cc1_scratch3 ↦{fullShare} f := rfl
end Pts

section Hin
variable (d : Dev nD) (L : grid1.Coords)

/-- A word of the flat row numbers, read through a 400-word stretch of them, is a row number of the table. -/
theorem idx_read_lt {I : Buf (Elt F) (iLoc d)} (hI : ∀ j, (I j).toNat ≤ 999999) (off : Fin 1 → Nat) (hoff : ∀ a, off a + S400.size a ≤ S819200.size a)
    (x : S400.Idx) :
    BitVec.toNat (ReadAs.same.apply (View.read (Elt F) ((Memref.whole main_v0_scv : Memref sig .scVector .hbm S819200 .i32).slice (Rect.unit off S400.size hoff) (fun _ => rfl)).view I) x) < 1000000 :=
  Nat.lt_succ_of_le (hI _)

/-- The list A, just filled from a stretch of the flat row numbers, names rows of the table only — whatever it held before. -/
theorem hinA {I : Buf (Elt F) (iLoc d)} (hI : ∀ j, (I j).toNat ≤ 999999) (g : Buf (Elt F) ((V d (cV L) (jV L)).loc cc1_scratch0))
    (off : Fin 1 → Nat) (hoff : ∀ a, off a + S400.size a ≤ S819200.size a) :
    ∀ x : cc1_scratch0.ty.shape.Idx, BitVec.toNat (View.read (Elt F) (Memref.whole cc1_scratch0).view
      (View.write (Elt F) (Memref.whole cc1_scratch0).view g
        (ReadAs.same.apply (View.read (Elt F) ((Memref.whole main_v0_scv : Memref sig .scVector .hbm S819200 .i32).slice (Rect.unit off S400.size hoff) (fun _ => rfl)).view I)) Finset.univ) x) < 1000000 := by
  intro x
  rw [View.read_write_univ]
  exact idx_read_lt d hI off hoff x

theorem hinB {I : Buf (Elt F) (iLoc d)} (hI : ∀ j, (I j).toNat ≤ 999999) (g : Buf (Elt F) ((V d (cV L) (jV L)).loc cc1_scratch1))
    (off : Fin 1 → Nat) (hoff : ∀ a, off a + S400.size a ≤ S819200.size a) :
    ∀ x : cc1_scratch1.ty.shape.Idx, BitVec.toNat (View.read (Elt F) (Memref.whole cc1_scratch1).view
      (View.write (Elt F) (Memref.whole cc1_scratch1).view g
        (ReadAs.same.apply (View.read (Elt F) ((Memref.whole main_v0_scv : Memref sig .scVector .hbm S819200 .i32).slice (Rect.unit off S400.size hoff) (fun _ => rfl)).view I)) Finset.univ) x) < 1000000 := by
  intro x
  rw [View.read_write_univ]
  exact idx_read_lt d hI off hoff x

end Hin

end Cert.Kernel.Run

end
-- ==== Proof.Kernel.TileInv.lean ====
/-
  One vector subcore's task: what its loop keeps, and how the task's batch rows are cut.

  The loop's thirty-two trips each copy out two chunks of eight batch rows — from the rows A and from the rows B — and
  re-issue the two gathers for the chunks two ahead. Before trip `t` both gathers are in flight, for chunks `2 t` and
  `2 t + 1` (after the last trip: twice the last chunk, whose rows are never copied out), and the batch rows of the trips
  before hold the widened rows taken. The task's 512 batch rows are the trips' sixteen each, eight and eight.
-/
import proofs.«206271_g21749714387155_cont_8to1_2007_29_alg».proof.Proof.Kernel.TileSetup
import Idealize.ShloMosaic.Lib.SparseCore.Stream
import Idealize.ShloMosaic.Lib.Transfers
import Idealize.ShloMosaic.Lib.Tactic

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## What the loop keeps -/

section Inv

variable (d : Dev nD) (L : grid1.Coords) (I : Buf (Elt F) (iLoc d)) (Tw : Buf (Elt F) (wLoc d))

/-- The widened table as the gathers read it: all of it. -/
abbrev wS : Memref sig .scVector .hbm S1000000x128 .f32 :=
  wV.slice (Rect.unit (s := S1000000x128) ![0, 0] S1000000x128.size inb_S1000000x128_S1000000x128_0_0) (fun _ => rfl)

/-- The eight batch rows of the widened result that trip `t` fills from the rows A, and the eight it fills from the rows B. -/
abbrev rectA (t : Fin k1_t1_loop.trips) : Rect S16384x50x128 := Rect.unit (s := S16384x50x128) (k1_off3 L t) S8x50x128.size (k1_off3_inb L t)
abbrev rectB (t : Fin k1_t1_loop.trips) : Rect S16384x50x128 := Rect.unit (s := S16384x50x128) (k1_off4 L t) S8x50x128.size (k1_off4_inb L t)
abbrev vA (t : Fin k1_t1_loop.trips) : Memref sig .scVector .hbm S8x50x128 .f32 := pV.slice (rectA L t) (fun _ => rfl)
abbrev vB (t : Fin k1_t1_loop.trips) : Memref sig .scVector .hbm S8x50x128 .f32 := pV.slice (rectB L t) (fun _ => rfl)

/-- Where, in the flat row numbers, the list A (the list B) was filled from before trip `t`: the task's chunk `2 t`
    (`2 t + 1`), and the task's last chunk once there is no such chunk. -/
def aOff (t : ℕ) : ℕ := min (51200 * (L 1).val + 25600 * (L 0).val + 800 * t) (51200 * (L 1).val + 25600 * (L 0).val + 25200)
def bOff (t : ℕ) : ℕ := min (51200 * (L 1).val + 25600 * (L 0).val + 800 * t + 400) (51200 * (L 1).val + 25600 * (L 0).val + 25200)

/-- Word `n` of the flat row numbers. -/
def wordAt (n : ℕ) : BitVec 32 := if h : n < 819200 then I (ix1 (⟨n, h⟩ : Fin 819200)) else 0#32

/-- A buffer of 400 rows holds the widened table's rows that the 400 words from `o` on name. -/
def RowsOK (fr : S400x128.Idx → Elt F .f32) (o : ℕ) : Prop :=
  ∀ x : S400x128.Idx, fr x = Tw (ix2 (Cert.Spec.row (wordAt d I (o + (x 0).val))) (x 1 : Fin 128))

/-- The gather into the rows A (B) in flight: it delivers the rows, the list and the share of the table it reads. -/
def flightA (q : PosShare TreeShare) (fr : Buf (Elt F) ((rA).view.loc (V d (cV L) (jV L)))) (fl : Buf (Elt F) ((lA).view.loc (V d (cV L) (jV L)))) : sProp 𝕄 :=
  Transfers.Flight countersEmb (V d (cV L) (jV L)) (SemLoc.dma ⟨4, by decide⟩) (default : HIx 1) 1638400
    iprop((((rA).view.loc (V d (cV L) (jV L)) ↦{fullShare} fr) ∗ ((lA).view.loc (V d (cV L) (jV L)) ↦{fullShare} fl))
      ∗ ((wV).view.loc (V d (cV L) (jV L)) ↦[(wS).view.set]{q} Tw))
def flightB (q : PosShare TreeShare) (fr : Buf (Elt F) ((rB).view.loc (V d (cV L) (jV L)))) (fl : Buf (Elt F) ((lB).view.loc (V d (cV L) (jV L)))) : sProp 𝕄 :=
  Transfers.Flight countersEmb (V d (cV L) (jV L)) (SemLoc.dma ⟨5, by decide⟩) (default : HIx 1) 1638400
    iprop((((rB).view.loc (V d (cV L) (jV L)) ↦{fullShare} fr) ∗ ((lB).view.loc (V d (cV L) (jV L)) ↦{fullShare} fl))
      ∗ ((wV).view.loc (V d (cV L) (jV L)) ↦[(wS).view.set]{q} Tw))

/-- The batch rows trip `u` fills: the widened rows taken once it has run (`u < t`), anything before. -/
def pieceA (t : ℕ) (u : Fin k1_t1_loop.trips) : sProp 𝕄 :=
  if u.val < t then ((vA L u).view.loc (V d (cV L) (jV L)) ↦[(vA L u).view.set]{fullShare} (Cert.Spec.GW I Tw : Buf (Elt F) ((vA L u).view.loc (V d (cV L) (jV L)))))
  else iprop(∃ f, (vA L u).view.loc (V d (cV L) (jV L)) ↦[(vA L u).view.set]{fullShare} f)
def pieceB (t : ℕ) (u : Fin k1_t1_loop.trips) : sProp 𝕄 :=
  if u.val < t then ((vB L u).view.loc (V d (cV L) (jV L)) ↦[(vB L u).view.set]{fullShare} (Cert.Spec.GW I Tw : Buf (Elt F) ((vB L u).view.loc (V d (cV L) (jV L)))))
  else iprop(∃ f, (vB L u).view.loc (V d (cV L) (jV L)) ↦[(vB L u).view.set]{fullShare} f)
def pieces (t : ℕ) : sProp 𝕄 := bigSep Finset.univ fun u : Fin k1_t1_loop.trips => iprop(pieceA d L I Tw t u ∗ pieceB d L I Tw t u)

/-- Before trip `t`: both gathers in flight, for the task's chunks `2 t` and `2 t + 1`; the batch rows of the trips
    before hold the widened rows taken; the copy-outs' and the fetches' semaphores are at zero. -/
def inv (qi qw : PosShare TreeShare) (O : CellTallies nD τ sig (HIx 1)) (W : Waits sig (HIx 1)) (t : ℕ) (_ : PUnit) : sProp 𝕄 :=
  iprop(Transfers.MayWaits (V d (cV L) (jV L)) (none : HIx 1) O
    ∗ ((iV).view.loc (V d (cV L) (jV L)) ↦{qi} I)
    ∗ (∃ qa qb, ⌜(qa = qw.left ∧ qb = qw.right) ∨ (qa = qw.right ∧ qb = qw.left)⌝
        ∗ (∃ fr fl, ⌜RowsOK d I Tw ((rA).view.read (Elt F) fr) (aOff L t)⌝ ∗ flightA d L Tw qa fr fl)
        ∗ ((wV).view.loc (V d (cV L) (jV L)) ↦[Finset.univ \ (wS).view.set]{qa} Tw)
        ∗ (∃ fr fl, ⌜RowsOK d I Tw ((rB).view.read (Elt F) fr) (bOff L t)⌝ ∗ flightB d L Tw qb fr fl)
        ∗ ((wV).view.loc (V d (cV L) (jV L)) ↦[Finset.univ \ (wS).view.set]{qb} Tw))
    ∗ pieces d L I Tw t
    ∗ semVal (cellOf d L cc1_scratch6) 0 ∗ semVal (cellOf d L cc1_scratch7) 0 ∗ semVal (cellOf d L cc1_scoped2) 0 ∗ semVal (cellOf d L cc1_scoped3) 0
    ∗ ∃ W', ⌜∀ p ∈ W', p ∈ W ∨ p.2 = none⌝ ∗ owes (V d (cV L) (jV L)) O W')

end Inv

section PieceLemmas
variable (d : Dev nD) (L : grid1.Coords) (I : Buf (Elt F) (iLoc d)) (Tw : Buf (Elt F) (wLoc d))

omit [FloatOps F] in
theorem pieceA_not {t : ℕ} {u : Fin k1_t1_loop.trips} (h : ¬ u.val < t) :
    pieceA d L I Tw t u = iprop(∃ f, (vA L u).view.loc (V d (cV L) (jV L)) ↦[(vA L u).view.set]{fullShare} f) := by
  unfold pieceA; rw [if_neg h]
omit [FloatOps F] in
theorem pieceB_not {t : ℕ} {u : Fin k1_t1_loop.trips} (h : ¬ u.val < t) :
    pieceB d L I Tw t u = iprop(∃ f, (vB L u).view.loc (V d (cV L) (jV L)) ↦[(vB L u).view.set]{fullShare} f) := by
  unfold pieceB; rw [if_neg h]
omit [FloatOps F] in
theorem pieceA_done {t : ℕ} {u : Fin k1_t1_loop.trips} (h : u.val < t) :
    pieceA d L I Tw t u = ((vA L u).view.loc (V d (cV L) (jV L)) ↦[(vA L u).view.set]{fullShare} (Cert.Spec.GW I Tw : Buf (Elt F) ((vA L u).view.loc (V d (cV L) (jV L))))) := by
  unfold pieceA; rw [if_pos h]
omit [FloatOps F] in
theorem pieceB_done {t : ℕ} {u : Fin k1_t1_loop.trips} (h : u.val < t) :
    pieceB d L I Tw t u = ((vB L u).view.loc (V d (cV L) (jV L)) ↦[(vB L u).view.set]{fullShare} (Cert.Spec.GW I Tw : Buf (Elt F) ((vB L u).view.loc (V d (cV L) (jV L))))) := by
  unfold pieceB; rw [if_pos h]
end PieceLemmas

/-! ## The task's batch rows, trip by trip -/

section Geom
variable (L : grid1.Coords)

theorem trips_eq : k1_t1_loop.trips = 32 := by decide

/-- An index of the widened result lies in a box of whole batch rows exactly when its batch row does. -/
theorem mem_rows {off : Fin 3 → ℕ} {n : ℕ} {inb} (h1 : off 1 = 0) (h2 : off 2 = 0) (x : S16384x50x128.Idx) :
    x ∈ (Rect.unit (s := S16384x50x128) off ![n, 50, 128] inb).set ↔ off 0 ≤ (x 0).val ∧ (x 0).val < off 0 + n := by
  rw [Rect.mem_set_unit]
  constructor
  · intro h; exact h 0
  · intro h a
    match a with
    | 0 => exact h
    | 1 => rw [h1]; exact ⟨Nat.zero_le _, by simpa using (x 1).isLt⟩
    | 2 => rw [h2]; exact ⟨Nat.zero_le _, by simpa using (x 2).isLt⟩

theorem mem_rectA (t : Fin k1_t1_loop.trips) (x : S16384x50x128.Idx) :
    x ∈ (rectA L t).set ↔ 1024 * (L 1).val + 512 * (L 0).val + 16 * t.val ≤ (x 0).val ∧ (x 0).val < 1024 * (L 1).val + 512 * (L 0).val + 16 * t.val + 8 := by
  have e := k1_off3_eq L t
  rw [show (rectA L t) = Rect.unit (s := S16384x50x128) (k1_off3 L t) ![8, 50, 128] (k1_off3_inb L t) from rfl,
    mem_rows (by rw [e]; rfl) (by rw [e]; rfl), e]
  rfl

theorem mem_rectB (t : Fin k1_t1_loop.trips) (x : S16384x50x128.Idx) :
    x ∈ (rectB L t).set ↔ 1024 * (L 1).val + 512 * (L 0).val + 16 * t.val + 8 ≤ (x 0).val ∧ (x 0).val < 1024 * (L 1).val + 512 * (L 0).val + 16 * t.val + 16 := by
  have e := k1_off4_eq L t
  rw [show (rectB L t) = Rect.unit (s := S16384x50x128) (k1_off4 L t) ![8, 50, 128] (k1_off4_inb L t) from rfl,
    mem_rows (by rw [e]; rfl) (by rw [e]; rfl), e]
  rfl

theorem set_vA (t : Fin k1_t1_loop.trips) : (vA L t).view.set = (rectA L t).set := View.set_slice_whole _ _
theorem set_vB (t : Fin k1_t1_loop.trips) : (vB L t).view.set = (rectB L t).set := View.set_slice_whole _ _

theorem mem_pRows (x : S16384x50x128.Idx) :
    x ∈ pRows (wid L) ↔ 1024 * (L 1).val + 512 * (L 0).val ≤ (x 0).val ∧ (x 0).val < 1024 * (L 1).val + 512 * (L 0).val + 512 := by
  rw [show pRows (wid L) = (pRect (wid L)).set from View.set_slice_whole _ _, Rect.mem_set_unit]
  constructor
  · intro h
    have h0 := h 0
    simp only [Shape.partIx, Shape.partSize, wid, if_true] at h0
    have e : S16384x50x128.size 0 / 32 = 512 := by decide
    rw [e] at h0
    omega
  · intro h a
    match a with
    | 0 =>
      simp only [Shape.partIx, Shape.partSize, wid, if_true]
      have e : S16384x50x128.size 0 / 32 = 512 := by decide
      rw [e]; omega
    | 1 => exact ⟨by simp [Shape.partIx], by simpa [Shape.partIx, Shape.partSize] using (x 1).isLt⟩
    | 2 => exact ⟨by simp [Shape.partIx], by simpa [Shape.partIx, Shape.partSize] using (x 2).isLt⟩

end Geom

section Pieces
variable (d : Dev nD) (L : grid1.Coords) (I : Buf (Elt F) (iLoc d)) (Tw : Buf (Elt F) (wLoc d))

/-- The sixteen batch rows trip `u` fills. -/
def pairSet (u : Fin k1_t1_loop.trips) : Finset S16384x50x128.Idx := (rectA L u).set ∪ (rectB L u).set

theorem ab_disjoint (u : Fin k1_t1_loop.trips) : Disjoint (rectA L u).set (rectB L u).set := by
  rw [Finset.disjoint_left]
  intro x ha hb
  rw [mem_rectA] at ha
  rw [mem_rectB] at hb
  omega

theorem mem_pairSet (u : Fin k1_t1_loop.trips) (x : S16384x50x128.Idx) :
    x ∈ pairSet L u ↔ 1024 * (L 1).val + 512 * (L 0).val + 16 * u.val ≤ (x 0).val ∧ (x 0).val < 1024 * (L 1).val + 512 * (L 0).val + 16 * u.val + 16 := by
  unfold pairSet
  rw [Finset.mem_union, mem_rectA, mem_rectB]
  omega

theorem pairs_disjoint : ∀ u ∈ (Finset.univ : Finset (Fin k1_t1_loop.trips)), ∀ u' ∈ (Finset.univ : Finset (Fin k1_t1_loop.trips)), u ≠ u' →
    Disjoint (pairSet L u) (pairSet L u') := by
  intro u _ u' _ hne
  rw [Finset.disjoint_left]
  intro x ha hb
  rw [mem_pairSet] at ha hb
  have : u.val ≠ u'.val := fun e => hne (Fin.ext e)
  omega

theorem pairs_cover : (Finset.univ : Finset (Fin k1_t1_loop.trips)).biUnion (pairSet L) = pRows (wid L) := by
  ext x
  rw [Finset.mem_biUnion, mem_pRows]
  constructor
  · rintro ⟨u, -, hu⟩
    rw [mem_pairSet] at hu
    have h32 := trips_eq
    have := u.isLt
    omega
  · intro h
    refine ⟨⟨((x 0).val - (1024 * (L 1).val + 512 * (L 0).val)) / 16, by have h32 := trips_eq; omega⟩, Finset.mem_univ _, ?_⟩
    rw [mem_pairSet]
    show _ ≤ _ ∧ _ < _
    simp only []
    omega

end Pieces

section SplitJoin
variable (d : Dev nD) (L : grid1.Coords) (I : Buf (Elt F) (iLoc d)) (Tw : Buf (Elt F) (wLoc d))

omit [FloatOps F] in
/-- The task's batch rows are the trips' sixteen rows each, -/
theorem pRows_pairs (f : Buf (Elt F) (pLoc d)) :
    (pLoc d ↦[pRows (wid L)]{fullShare} f : sProp 𝕄) = bigSep Finset.univ fun u : Fin k1_t1_loop.trips => pLoc d ↦[pairSet L u]{fullShare} f := by
  rw [← pairs_cover L]
  exact pointsTo_biUnion (ℓ := pLoc d) Finset.univ (pairSet L) (pairs_disjoint L)

omit [FloatOps F] in
/-- each the eight rows from the rows A and the eight from the rows B. -/
theorem pair_split (u : Fin k1_t1_loop.trips) (f : Buf (Elt F) (pLoc d)) :
    (pLoc d ↦[pairSet L u]{fullShare} f : sProp 𝕄) ⊣⊢ iprop((pLoc d ↦[(rectA L u).set]{fullShare} f) ∗ (pLoc d ↦[(rectB L u).set]{fullShare} f)) :=
  pointsTo_union (ab_disjoint L u)

omit [FloatOps F] in
theorem pieces_split (P0 : Buf (Elt F) (pLoc d)) : (pLoc d ↦[pRows (wid L)]{fullShare} P0 : sProp 𝕄) ⊢ pieces d L I Tw 0 := by
  rw [pRows_pairs]; unfold pieces
  refine BI.bigSep_mono fun u _ => ?_
  rw [pieceA_not d L I Tw (Nat.not_lt_zero _), pieceB_not d L I Tw (Nat.not_lt_zero _), set_vA, set_vB]
  refine (pair_split d L u P0).1.trans ?_
  iintro ⟨HA, HB⟩
  isplitl [HA]
  · iexists P0; iexact HA
  · iexists P0; iexact HB

omit [FloatOps F] in
theorem pieces_join :
    pieces d L I Tw k1_t1_loop.trips ⊢ (pLoc d ↦[pRows (wid L)]{fullShare} (Cert.Spec.GW I Tw : Buf (Elt F) (pLoc d)) : sProp 𝕄) := by
  rw [pRows_pairs]; unfold pieces
  refine BI.bigSep_mono fun u _ => ?_
  rw [pieceA_done d L I Tw u.isLt, pieceB_done d L I Tw u.isLt, set_vA, set_vB]
  exact (pair_split d L u _).2

end SplitJoin

section Step
variable (d : Dev nD) (L : grid1.Coords) (I : Buf (Elt F) (iLoc d)) (Tw : Buf (Elt F) (wLoc d))

omit [FloatOps F] in
/-- Trip `k` done: its two pieces hold the widened rows taken; the other trips' pieces are as they were. -/
theorem pieces_step (k : Fin k1_t1_loop.trips) :
    iprop(((vA L k).view.loc (V d (cV L) (jV L)) ↦[(vA L k).view.set]{fullShare} (Cert.Spec.GW I Tw : Buf (Elt F) ((vA L k).view.loc (V d (cV L) (jV L)))))
        ∗ ((vB L k).view.loc (V d (cV L) (jV L)) ↦[(vB L k).view.set]{fullShare} (Cert.Spec.GW I Tw : Buf (Elt F) ((vB L k).view.loc (V d (cV L) (jV L)))))
        ∗ bigSep (Finset.univ.erase k) fun u : Fin k1_t1_loop.trips => iprop(pieceA d L I Tw k.val u ∗ pieceB d L I Tw k.val u))
      ⊢ bigSep Finset.univ fun u : Fin k1_t1_loop.trips => iprop(pieceA d L I Tw (k.val + 1) u ∗ pieceB d L I Tw (k.val + 1) u) := by
  rw [SparseCore.bigSep_erase' (Finset.mem_univ k), pieceA_done d L I Tw (Nat.lt_succ_self k.val), pieceB_done d L I Tw (Nat.lt_succ_self k.val)]
  have hc : (bigSep (Finset.univ.erase k) fun u : Fin k1_t1_loop.trips => iprop(pieceA d L I Tw k.val u ∗ pieceB d L I Tw k.val u) : sProp 𝕄)
      = bigSep (Finset.univ.erase k) fun u : Fin k1_t1_loop.trips => iprop(pieceA d L I Tw (k.val + 1) u ∗ pieceB d L I Tw (k.val + 1) u) := by
    refine bigSep_congr fun u hu => ?_
    have hne : u.val ≠ k.val := fun e => (Finset.mem_erase.mp hu).1 (Fin.ext e)
    unfold pieceA pieceB
    by_cases h : u.val < k.val
    · rw [if_pos h, if_pos h, if_pos (Nat.lt_succ_of_lt h), if_pos (Nat.lt_succ_of_lt h)]
    · have h' : ¬ u.val < k.val + 1 := by omega
      rw [if_neg h, if_neg h, if_neg h', if_neg h']
  rw [hc]
  iintro ⟨HA, HB, Hr⟩
  isplitl [HA HB]
  · isplitl [HA]; · iexact HA
    iexact HB
  · iexact Hr

end Step

end Cert.Kernel.Run

end
-- ==== Proof.Kernel.TileValue.lean ====
/-
  One vector subcore's task: what its transfers move.

  A list filled from 400 consecutive words of the flat row numbers, then a gather by that list, leaves in the 400 rows the
  widened table's rows those words name (each word is a row number, so the clamp in `Cert.Spec.row` does nothing). Read
  row-major as eight batch rows by fifty and copied out to batch rows `r0 …` of the widened result, with the words taken
  from `50 r0` on, they are there the widened rows taken: entry `(r0 + b, h, c)` is the table's row named by word
  `50 (r0 + b) + h`, column `c`.
-/
import proofs.«206271_g21749714387155_cont_8to1_2007_29_alg».proof.Proof.Kernel.TileInv
import Idealize.ShloMosaic.Lib.SparseCore.Stream
import Idealize.ShloMosaic.Lib.Transfers
import Idealize.ShloMosaic.Lib.Tactic

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## What the gathers and the copy-outs move -/

section Value
variable (d : Dev nD) (L : grid1.Coords) (I : Buf (Elt F) (iLoc d)) (Tw : Buf (Elt F) (wLoc d))

omit [FloatOps F] in
theorem wordAt_eq {n : ℕ} (h : n < 819200) : wordAt d I n = I (ix1 (⟨n, h⟩ : Fin 819200)) := dif_pos h

omit [FloatOps F] in
/-- A 400-word stretch of the flat row numbers reads them from its offset on. -/
theorem read_idx_slice (off : Fin 1 → ℕ) (hoff : ∀ a, off a + S400.size a ≤ S819200.size a) (x : S400.Idx) :
    ReadAs.same.apply (View.read (Elt F) ((iV).slice (Rect.unit off S400.size hoff) (fun _ => rfl)).view I) x = wordAt d I (off 0 + (x 0).val) := by
  have h0 : off 0 + 400 ≤ 819200 := hoff 0
  have hx : (x 0).val < 400 := (x 0).isLt
  have h : off 0 + (x 0).val < 819200 := by omega
  rw [wordAt_eq d I h]
  show I _ = I _
  congr 1
  funext a
  match a with
  | ⟨0, _⟩ => exact Fin.ext (by show ((Rect.unit (s := S819200) off ![400] hoff).emb x 0).val = _; rw [Rect.emb_apply]; simp)

omit [FloatOps F] in
theorem wordAt_le (hI : ∀ j, (I j).toNat ≤ 999999) (n : ℕ) : (wordAt d I n).toNat ≤ 999999 := by
  unfold wordAt
  split
  · exact hI _
  · simp

omit [FloatOps F] in
/-- The gathers read the widened table itself. -/
theorem read_wS : (wS).view.read (Elt F) Tw = Tw := by
  funext y
  show Tw _ = Tw _
  congr 1
  funext a
  match a with
  | ⟨0, _⟩ => exact Fin.ext (by show ((Rect.unit (s := S1000000x128) ![0, 0] S1000000x128.size inb_S1000000x128_S1000000x128_0_0).emb y 0).val = _; rw [Rect.emb_apply]; simp)
  | ⟨1, _⟩ => exact Fin.ext (by show ((Rect.unit (s := S1000000x128) ![0, 0] S1000000x128.size inb_S1000000x128_S1000000x128_0_0).emb y 1).val = _; rw [Rect.emb_apply]; simp)

omit [FloatOps F] in
/-- After a gather by a list just filled from the 400 words at `off`, the rows are the widened table's rows those words name. -/
theorem rowsOK_gather {κ : Kind} {sp : Space} (v : View sig κ sp S400x128 .f32) (fr : v.ty.Contents (Elt F))
    {κ' : Kind} {sp' : Space} (vl : View sig κ' sp' S400 .i32) (fl : vl.ty.Contents (Elt F))
    (hI : ∀ j, (I j).toNat ≤ 999999) (off : Fin 1 → ℕ) (hoff : ∀ a, off a + S400.size a ≤ S819200.size a)
    (hn : S400.numel = S400x128.size gathers_S1000000x128_S400x128.axis')
    (hin : ∀ x, (vl.read (Elt F) (vl.write (Elt F) fl (ReadAs.same.apply (((iV).slice (Rect.unit off S400.size hoff) (fun _ => rfl)).view.read (Elt F) I)) Finset.univ) x).toNat < S1000000x128.size gathers_S1000000x128_S400x128.axis)
    (o : ℕ) (ho : off 0 = o) :
    RowsOK d I Tw (v.read (Elt F) (v.writes (Elt F) fr [⟨Rect.whole S400x128, SparseCore.gatherPayload gathers_S1000000x128_S400x128 ((wS).view.read (Elt F) Tw)
      (SparseCore.rows (vl.read (Elt F) (vl.write (Elt F) fl (ReadAs.same.apply (((iV).slice (Rect.unit off S400.size hoff) (fun _ => rfl)).view.read (Elt F) I)) Finset.univ)) hn hin)⟩])) o := by
  subst ho
  rw [View.read_writes_whole, read_wS]
  intro x
  unfold SparseCore.gatherPayload
  congr 1
  funext b
  match b with
  | ⟨0, hb⟩ =>
    rw [show (⟨0, hb⟩ : Fin S1000000x128.rank) = gathers_S1000000x128_S400x128.axis from Fin.ext rfl, Shape.Gathers.idx_axis]
    apply Fin.ext
    unfold SparseCore.rows
    show BitVec.toNat _ = _
    rw [View.read_write_univ, read_idx_slice]
    show _ = (Cert.Spec.row (wordAt d I (off 0 + (x 0).val))).val
    rw [Cert.Spec.row_val_of_le _ (wordAt_le d I hI _)]
    have hy : ∀ k : Fin S400.numel, ((S400.rowMajor.symm k) 0).val = k.val := fun k => by
      rw [← Shape.rowMajor_val_one, Equiv.apply_symm_apply]
    rw [hy]
    rfl
  | ⟨1, hb⟩ =>
    apply Fin.ext
    rw [Shape.Gathers.idx_of_ne _ _ _ _ (show (⟨1, hb⟩ : Fin S1000000x128.rank).val ≠ 0 from Nat.one_ne_zero)]
    rfl

omit [FloatOps F] in
/-- Row-major, entry `(b, h, c)` of eight batch rows by fifty is entry `(50 b + h, c)` of four hundred rows. -/
theorem reshape_400 (hnum : S8x50x128.numel = S400x128.numel) (j : S8x50x128.Idx) :
    Shape.reshapeEquiv hnum j = ix2 (⟨50 * (j 0).val + (j 1).val, by have := (j 0).isLt; have := (j 1).isLt; simp at *; omega⟩ : Fin 400) (j 2 : Fin 128) := by
  apply Shape.reshapeEquiv_eq_of_rowMajor
  refine (Shape.rowMajor_val_two (d := ![400, 128]) _).trans ?_
  refine Eq.trans ?_ (Shape.rowMajor_val_three (d := ![8, 50, 128]) j).symm
  show (50 * (j 0).val + (j 1).val) * 128 + (j 2).val = ((j 0).val * 50 + (j 1).val) * 128 + (j 2).val
  omega

omit [FloatOps F] in
/-- Where an entry of the eight batch rows at `r0` lies in the widened result. -/
theorem emb_rows8 (r0 : ℕ) (hoff : ∀ a, (![r0, 0, 0] : Fin 3 → ℕ) a + S8x50x128.size a ≤ S16384x50x128.size a) (j : S8x50x128.Idx) :
    (((pV.slice (Rect.unit (s := S16384x50x128) ![r0, 0, 0] S8x50x128.size hoff) (fun _ => rfl)).view.emb j) 0).val = r0 + (j 0).val
    ∧ (((pV.slice (Rect.unit (s := S16384x50x128) ![r0, 0, 0] S8x50x128.size hoff) (fun _ => rfl)).view.emb j) 1).val = (j 1).val
    ∧ (((pV.slice (Rect.unit (s := S16384x50x128) ![r0, 0, 0] S8x50x128.size hoff) (fun _ => rfl)).view.emb j) 2).val = (j 2).val := by
  refine ⟨?_, ?_, ?_⟩
  · show ((Rect.unit (s := S16384x50x128) ![r0, 0, 0] S8x50x128.size hoff).emb j 0).val = _
    rw [Rect.emb_apply]; simp
  · show ((Rect.unit (s := S16384x50x128) ![r0, 0, 0] S8x50x128.size hoff).emb j 1).val = _
    rw [Rect.emb_apply]; simp
  · show ((Rect.unit (s := S16384x50x128) ![r0, 0, 0] S8x50x128.size hoff).emb j 2).val = _
    rw [Rect.emb_apply]; simp

omit [FloatOps F] in
/-- The widened rows taken, at an entry `(r0 + b, h, c)`: the widened table's row that word `50 (r0 + b) + h` names. -/
theorem GW_at (i : S16384x50x128.Idx) (r0 b h : ℕ) (c : Fin 128) (e0 : (i 0).val = r0 + b) (e1 : (i 1).val = h) (e2 : (i 2).val = c.val)
    (hn : 50 * r0 + (50 * b + h) < 819200) :
    (Cert.Spec.GW I Tw : Buf (Elt F) (pLoc d)) i = Tw (ix2 (Cert.Spec.row (wordAt d I (50 * r0 + (50 * b + h)))) c) := by
  rw [wordAt_eq d I hn]
  show Tw (ix2 (Cert.Spec.row (I (ix1 (Cert.Spec.flat (i 0) (i 1))))) (i 2 : Fin 128)) = _
  have k1 : Cert.Spec.flat (i 0) (i 1) = (⟨50 * r0 + (50 * b + h), hn⟩ : Fin 819200) := Fin.ext (by show 50 * (i 0).val + (i 1).val = 50 * r0 + (50 * b + h); omega)
  have k2 : (i 2 : Fin 128) = c := Fin.ext e2
  rw [k1, k2]

omit [FloatOps F] in
/-- Eight batch rows filled from four hundred rows that hold the widened table's rows named by the words from `50 r0` on
    hold, at batch rows `r0 …`, the widened rows taken. -/
theorem piece_value (m : Memref sig .scVector .vmem S400x128 .f32) (hm : m.IsWhole) (fr : m.view.ty.Contents (Elt F))
    (off : Fin 3 → ℕ) (hoff : ∀ a, off a + S8x50x128.size a ≤ S16384x50x128.size a) (r0 : ℕ) (e : off = ![r0, 0, 0]) (o : ℕ) (ho : o = 50 * r0)
    (h : RowsOK d I Tw (m.view.read (Elt F) fr) o) (fp : (pV.slice (Rect.unit off S8x50x128.size hoff) (fun _ => rfl)).view.ty.Contents (Elt F)) :
    ∀ i ∈ (pV.slice (Rect.unit off S8x50x128.size hoff) (fun _ => rfl)).view.set,
      ((pV.slice (Rect.unit off S8x50x128.size hoff) (fun _ => rfl)).view.writes (Elt F) fp
        [⟨Rect.whole S8x50x128, ReadAs.same.apply ((m.reshape S8x50x128 reshapes_S400x128_S8x50x128.1 reshapes_S400x128_S8x50x128.2 hm.contiguous).view.read (Elt F) fr)⟩]) i
        = (Cert.Spec.GW I Tw : Buf (Elt F) (pLoc d)) i := by
  subst e ho
  intro i hi
  obtain ⟨j, -, rfl⟩ := Finset.mem_map.mp hi
  have hw := congrFun (View.read_writes_whole (pV.slice (Rect.unit ![r0, 0, 0] S8x50x128.size hoff) (fun _ => rfl)).view fp
    (ReadAs.same.apply ((m.reshape S8x50x128 reshapes_S400x128_S8x50x128.1 reshapes_S400x128_S8x50x128.2 hm.contiguous).view.read (Elt F) fr))) j
  refine (show _ = _ from hw).trans ?_
  have hr : ReadAs.same.apply ((m.reshape S8x50x128 reshapes_S400x128_S8x50x128.1 reshapes_S400x128_S8x50x128.2 hm.contiguous).view.read (Elt F) fr) j
      = m.view.read (Elt F) fr (Shape.reshapeEquiv reshapes_S400x128_S8x50x128.1 j) := rfl
  have h0 : r0 + 8 ≤ 16384 := hoff 0
  have hj0 : (j 0).val < 8 := (j 0).isLt
  have hj1 : (j 1).val < 50 := (j 1).isLt
  obtain ⟨e0, e1, e2⟩ := emb_rows8 r0 hoff j
  rw [hr, h, reshape_400, GW_at d I Tw _ r0 (j 0).val (j 1).val (j 2) e0 e1 e2 (by omega)]

end Value

end Cert.Kernel.Run

end
-- ==== Proof.Kernel.Tile.lean ====
/-
  One vector subcore's task, at a symbolic grid point.

  The subcore fetches its first two chunks of row numbers and starts the two gathers; each of the thirty-two trips then
  waits for the rows A, starts their copy-out to eight batch rows of the widened result, does the same for the rows B,
  re-fetches each list and re-issues each gather once the copy-out that read the rows is done; after the loop it waits
  for the last two gathers. Every semaphore has at most one transfer outstanding, a list is re-fetched only after the gather
  that reads it was waited for, and rows are re-gathered only after their copy-out was waited for. The task's 512 batch
  rows end holding the widened rows taken, and the subcore's buffers, semaphores and shares are as they were.
-/
import proofs.«206271_g21749714387155_cont_8to1_2007_29_alg».proof.Proof.Kernel.TileValue
import Idealize.ShloMosaic.Lib.SparseCore.Stream
import Idealize.ShloMosaic.Lib.Transfers
import Idealize.ShloMosaic.Lib.Tactic

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

section TripP
variable (d : Dev nD) (L : grid1.Coords) (I : Buf (Elt F) (iLoc d)) (Tw : Buf (Elt F) (wLoc d))

omit [FloatOps F] in
theorem aOff_succ (k : Fin k1_t1_loop.trips) : (k1_off5 L k) 0 = aOff L (k.val + 1) := by
  rw [k1_off5_eq]; unfold aOff
  show min _ _ = min _ _
  omega
omit [FloatOps F] in
theorem bOff_succ (k : Fin k1_t1_loop.trips) : (k1_off6 L k) 0 = bOff L (k.val + 1) := by
  rw [k1_off6_eq]; unfold bOff
  show min _ _ = min _ _
  omega

/-- One trip. -/
theorem trip (hI : ∀ j, (I j).toNat ≤ 999999) (qi qw : PosShare TreeShare) (O : CellTallies nD τ sig (HIx 1)) (W : Waits sig (HIx 1))
    (v2 v3 v4 : BitVec 32) (k : Fin k1_t1_loop.trips) (acc : PUnit) :
    inv d L I Tw qi qw O W k.val acc
      ⊢ wp frame (wpE (defs₀ (F := F)) 𝒱₀ (V d (cV L) (jV L)) none) Set.univ
          (k1_t1_body L (Memref.whole main_v1_scv) (Memref.isWhole_whole _) (Memref.whole main_v0_scv) (Memref.isWhole_whole _) (Memref.whole main_v2_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3 v2 v3 v4 k acc)
          (inv d L I Tw qi qw O W (k.val + 1)) := by
  have hA := hinA (F := F) d L hI
  have hB := hinB (F := F) d L hI
  unfold inv pieces
  rw [SparseCore.bigSep_erase' (Finset.mem_univ k), pieceA_not d L I Tw (Nat.lt_irrefl k.val), pieceB_not d L I Tw (Nat.lt_irrefl k.val)]
  unfold flightA flightB
  iintro ⟨#Hmw, HI, ⟨%qa, %qb, %hq, ⟨%frA, %flA, %hrA, HfA⟩, HTa, ⟨%frB, %flB, %hrB, HfB⟩, HTb⟩, ⟨⟨⟨%fpA, HpA⟩, ⟨%fpB, HpB⟩⟩, Hrest⟩, H6, H7, H10, H11, %W', %hW', HO⟩
  unfold k1_t1_body
  sl_exec (disch := exact View.amount_pos _ _ (show 0 < S8x50x128.numel by decide))
  sl_step
  ihave HpA' := (Entails.of_eq (pointsTo_congr (piece_value d I Tw rA (Memref.isWhole_whole _) frA (k1_off3 L k) (k1_off3_inb L k) _ (k1_off3_eq L k) _ (by unfold aOff; have h32 := trips_eq; have := k.isLt; omega) hrA fpA))) $$ HpA
  ihave HpB' := (Entails.of_eq (pointsTo_congr (piece_value d I Tw rB (Memref.isWhole_whole _) frB (k1_off4 L k) (k1_off4_inb L k) _ (k1_off4_eq L k) _ (by unfold bOff; have h32 := trips_eq; have := k.isLt; omega) hrB fpB))) $$ HpB
  isplitr; · iexact Hmw
  isplitl [HI]; · iexact HI
  isplitl [HfA HTa HfB HTb]
  · iexists qa, qb
    isplitr; · ipureintro; exact hq
    isplitl [HfA]
    · iexists _, _
      isplitr
      rotate_left
      · iexact HfA
      · ipureintro; exact rowsOK_gather d I Tw _ _ _ _ hI _ _ _ _ _ (aOff_succ L k)
    isplitl [HTa]; · iexact HTa
    isplitl [HfB]
    · iexists _, _
      isplitr
      rotate_left
      · iexact HfB
      · ipureintro; exact rowsOK_gather d I Tw _ _ _ _ hI _ _ _ _ _ (bOff_succ L k)
    iexact HTb
  isplitl [HpA' HpB' Hrest]
  · iapply (pieces_step d L I Tw k)
    isplitl [HpA']; · iexact HpA'
    isplitl [HpB']; · iexact HpB'
    iexact Hrest
  isplitl [H6]; · iexact H6
  isplitl [H7]; · iexact H7
  isplitl [H10]; · iexact H10
  isplitl [H11]; · iexact H11
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
end TripP

section Main
variable (d : Dev nD) (L : grid1.Coords) (I : Buf (Elt F) (iLoc d)) (Tw : Buf (Elt F) (wLoc d))

omit [FloatOps F] in
theorem aOff_zero : (k1_off1 L) 0 = aOff L 0 := by
  rw [k1_off1_eq]; unfold aOff
  show 51200 * (L 1).val + 25600 * (L 0).val = min _ _
  omega
omit [FloatOps F] in
theorem bOff_zero : (k1_off2 L) 0 = bOff L 0 := by
  rw [k1_off2_eq]; unfold bOff
  show 51200 * (L 1).val + 25600 * (L 0).val + 400 = min _ _
  omega

omit [FloatOps F] in
/-- The two halves of a share, in either order, are the share. -/
theorem shares_join {qw qa qb : PosShare TreeShare} (hq : (qa = qw.left ∧ qb = qw.right) ∨ (qa = qw.right ∧ qb = qw.left))
    (ℓ : Loc nD τ sig) (f : Buf (Elt F) ℓ) : iprop((ℓ ↦{qa} f) ∗ (ℓ ↦{qb} f)) ⊢ (ℓ ↦{qw} f : sProp 𝕄) := by
  rcases hq with ⟨rfl, rfl⟩ | ⟨rfl, rfl⟩
  · exact (pointsTo_share (PosShare.mem_left_op_right qw)).2
  · exact sep_comm.1.trans (pointsTo_share (PosShare.mem_left_op_right qw)).2

theorem tile_body : TileBodyStmt F := by
  intro hF d L I Tw P0 qi qw hI O W hO
  have hA := hinA (F := F) d L hI
  have hB := hinB (F := F) d L hI
  rw [(K (F := F)).scopedBufs_V hF d (cV L) (jV L), SparseCore.Cfg.scopedSems0_V (Val := Elt F) d (cV L) (jV L), ownSems0_V, ownBufs_V]
  iintro ⟨#Hlv, -, ⟨HI, HT, HP⟩, ⟨⟨%f0, Hl0⟩, ⟨%f1, Hl1⟩, ⟨%f2, Hr0⟩, ⟨%f3, Hr1⟩, Hbufs⟩, ⟨H4, H5, H6, H7, H8, H9, H10, H11, Hsems⟩, HO⟩
  ihave Hmw := ((K (F := F)).mayWaits_none (thr := V d (cV L) (jV L)) hO) $$ Hlv
  ihave HI' := (Entails.of_eq (pts_i (F := F) d L _ _).symm) $$ HI
  ihave HT' := (Entails.of_eq (pts_w (F := F) d L _ _).symm) $$ HT
  ihave HT2 := (pointsTo_share (PosShare.mem_left_op_right qw)).1 $$ HT'
  icases HT2 with ⟨HTl, HTr⟩
  ihave HlA := (Entails.of_eq (pts_lA (F := F) d L _).symm) $$ Hl0
  ihave HlB := (Entails.of_eq (pts_lB (F := F) d L _).symm) $$ Hl1
  ihave HrA := (Entails.of_eq (pts_rA (F := F) d L _).symm) $$ Hr0
  ihave HrB := (Entails.of_eq (pts_rB (F := F) d L _).symm) $$ Hr1
  ihave Hpc := (pieces_split d L I Tw P0) $$ HP
  unfold cc1_gather_k
  sl_exec
  sl_for (inv d L I Tw qi qw O W) $$ [Hmw HI' H4 HTl H5 HTr Hpc H6 H7 H10 H11 HO]
  case region =>
    intro k acc
    exact trip d L I Tw hI qi qw O W _ _ _ k acc
  · unfold inv flightA flightB
    isplitr; · iexact Hmw
    isplitl [HI']; · iexact HI'
    isplitl [H4 HTl H5 HTr]
    · iexists qw.left, qw.right
      isplitr; · ipureintro; exact .inl ⟨rfl, rfl⟩
      isplitl [H4]
      · iexists _, _
        isplitr
        rotate_left
        · iexact H4
        · ipureintro; exact rowsOK_gather d I Tw _ _ _ _ hI _ _ _ _ _ (aOff_zero L)
      isplitl [HTl]; · iexact HTl
      isplitl [H5]
      · iexists _, _
        isplitr
        rotate_left
        · iexact H5
        · ipureintro; exact rowsOK_gather d I Tw _ _ _ _ hI _ _ _ _ _ (bOff_zero L)
      iexact HTr
    isplitl [Hpc]; · iexact Hpc
    isplitl [H6]; · iexact H6
    isplitl [H7]; · iexact H7
    isplitl [H10]; · iexact H10
    isplitl [H11]; · iexact H11
    iexists _; isplitr
    rotate_left
    · iexact HO
    · ipureintro; intro p hp
      rcases Finset.mem_insert.mp hp with rfl | hp
      · exact .inr rfl
      rcases Finset.mem_insert.mp hp with rfl | hp
      · exact .inr rfl
      · exact .inl hp
  iintro %acc HI
  unfold inv flightA flightB
  icases HI with ⟨-, HI', ⟨%qa, %qb, %hq, ⟨%frA, %flA, -, HfA⟩, HTa, ⟨%frB, %flB, -, HfB⟩, HTb⟩, Hpc, H6, H7, H10, H11, %W', %hW', HO⟩
  sl_exec
  sl_step
  isplitl [HI' HTa HTb Hpc]
  · isplitl [HI']; · iexact HI'
    isplitl [HTa HTb]
    · iapply (shares_join hq (wLoc d) Tw)
      isplitl [HTa]; · iexact HTa
      iexact HTb
    · iapply (pieces_join d L I Tw); iexact Hpc
  isplitl [HfA_dst HfA_dst_and HfB_dst HfB_dst_and Hbufs]
  · isplitl [HfA_dst_and]; · iexists _; iexact HfA_dst_and
    isplitl [HfB_dst_and]; · iexists _; iexact HfB_dst_and
    isplitl [HfA_dst]; · iexists _; iexact HfA_dst
    isplitl [HfB_dst]; · iexists _; iexact HfB_dst
    iexact Hbufs
  isplitl [HfA HfB H6 H7 H8 H9 H10 H11 Hsems]
  · isplitl [HfA]; · iexact HfA
    isplitl [HfB]; · iexact HfB
    isplitl [H6]; · iexact H6
    isplitl [H7]; · iexact H7
    isplitl [H8]; · iexact H8
    isplitl [H9]; · iexact H9
    isplitl [H10]; · iexact H10
    isplitl [H11]; · iexact H11
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    · exact hW' p hp
end Main

end Cert.Kernel.Run

end
-- ==== Proof.Kernel.RegionLib.lean ====
/-
  A property of every element a kernel region writes back is a property of the array it leaves.

  A pipelined kernel region writes an output array back block by block. When what the body leaves in the staging
  buffer is only CONSTRAINED (a relation between the contents it was handed and the contents it leaves), the array after
  the write-backs is known only as "its entry contents, each written-back block overwritten in point order by the moved
  part of SOME contents the body may have left". This module states the one induction a value proof needs over that
  description: if every element of every block that may be written back has a property `P` (stated of the array index it
  lands on and the value it carries), then every element of the final array that some written-back block covers has
  `P` — whichever point wrote it last wrote a value with the property.
-/
import Idealize.ShloMosaic.Lib.Pipeline.Value

noncomputable section

namespace Cert.Kernel.Run

open Idealize.ShloMosaic Idealize.ShloMosaic.Pipeline
open Idealize.SL Idealize.SL.RA Idealize.SL.Sem

variable {nD : Nat} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD} (rd : RDat τ Val Ix Name U Lvl cfg c)

/-- If every element of whatever the body may leave at a written-back point has `P` where it lands, an index under the
    block of a written-back point below `n` has `P` after the write-backs below `n`. -/
theorem ArrAt_forall_of_leaves (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → P i (F i)
  | 0, _, _, _, _, ht, _, _ => absurd ht (Nat.not_lt_zero _)
  | n + 1, F, hF, t, i, ht, hf, hi => by
    by_cases hn : n < cfg.N
    swap
    · -- past the grid nothing changes, and `t` is below `n`
      rw [rd.ArrAt_stable w (n + 1) (by omega), ← rd.ArrAt_stable w n (by omega)] at hF
      exact ArrAt_forall_of_leaves w P hP n F hF t i (by have := t.isLt; omega) hf hi
    rw [show n + 1 = (⟨n, hn⟩ : Fin cfg.N).val + 1 from rfl, rd.ArrAt_succ] at hF
    by_cases hfn : (cfg.win w).flush ⟨n, hn⟩ = true
    · rw [if_pos hfn] at hF
      obtain ⟨G₀, X, hG₀, hX, rfl⟩ := hF
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact ArrAt_forall_of_leaves w P hP n G₀ hG₀ t i (by omega) hf hi
    · rw [if_neg hfn] at hF
      have htn : t.val ≠ n := fun e => hfn (by have : t = ⟨n, hn⟩ := Fin.ext e; exact this ▸ hf)
      exact ArrAt_forall_of_leaves w P hP n F hF t i (by omega) hf hi

/-- When the written-back blocks cover the array, every element of the array the region leaves has `P`. -/
theorem ArrAt_forall_of_cover (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y)))
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F)
    (i : ((cfg.win w).arr.view.loc (c.tc : Thread nD τ)).2.ty.Idx) : P i (F i) := by
  obtain ⟨t, hf, hi⟩ := hcover i
  exact ArrAt_forall_of_leaves rd w P hP cfg.N F hF t i t.isLt hf hi

end Cert.Kernel.Run

end
-- ==== Proof.Kernel.Region0Body.lean ====
/-
  Kernel region 0, the body: one block of the table widened.

  The body is handed two staging buffers: the input block `[4000, 64]` (a block of 4000 rows of the table) and the output
  block `[4000, 128]`. It loads the input block whole, loads the lower-left `[4000, 64]` rectangle of the output block
  (and does nothing with it), and stores the input block into that rectangle. So afterwards the output block holds the
  input block on its lower 64 columns; its upper 64 columns hold whatever they held. The input block is unchanged.
-/
import proofs.«206271_g21749714387155_cont_8to1_2007_29_alg».proof.Proof.Kernel.Iface
import proofs.«206271_g21749714387155_cont_8to1_2007_29_alg».proof.Proof.Kernel.RegionLib
import Idealize.ShloMosaic.Lib.Pipeline.FrameBody
import Idealize.ShloMosaic.Lib.Pipeline.Value
import Idealize.ShloMosaic.Lib.Tactic

noncomputable section

namespace Cert.Kernel.Run

open Cert.Kernel Cert.Kernel.Gen

open Idealize.ShloMosaic Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MM F

/-! ## The body -/

/-- The input block whole, and the lower-left `[4000, 64]` rectangle of the output block. -/
abbrev r0in : Rect S4000x64 := Rect.unit (s := S4000x64) ![0, 0] S4000x64.size inb_S4000x64_S4000x64_0_0
abbrev r0out : Rect S4000x128 := Rect.unit (s := S4000x128) ![0, 0] S4000x64.size inb_S4000x128_S4000x64_0_0

/-- The output block `X` holds the input block `x0` on its lower 64 columns. -/
def Pads {α : Type} (x0 : S4000x64.Idx → α) (X : S4000x128.Idx → α) : Prop :=
  ∀ (r : Fin 4000) (k : Fin 64), X (ix2 r (k.castLE (by decide))) = x0 (ix2 r k)

/-- A buffer into whose lower-left rectangle the input block was stored holds it on its lower 64 columns, whatever it
    held before. -/
theorem pads_of_writes {sg : RefSig} {κ : Kind} {sp : Space} {Val : EltTy → Type} (v : View sg κ sp S4000x128 .f32)
    (f : v.ty.Contents Val) (x0 : S4000x64.Idx → Val .f32) :
    Pads x0 (v.read Val (v.writes Val f [⟨r0out, View.ld x0 r0in⟩])) := by
  intro r k
  have e1 : r0out.emb (ix2 (n0 := 4000) (n1 := 64) r k) = ix2 (n0 := 4000) (n1 := 128) r (k.castLE (by decide)) := by
    funext a; apply Fin.ext
    match a with
    | ⟨0, _⟩ => show 0 + 1 * r.val = r.val; omega
    | ⟨1, _⟩ => show 0 + 1 * k.val = k.val; omega
  rw [← e1, View.read_writes_cons_emb]
  show x0 (r0in.idx (ix2 (n0 := 4000) (n1 := 64) r k)) = _
  congr 1
  funext a; apply Fin.ext
  match a with
  | ⟨0, _⟩ => show 0 + 1 * r.val = r.val; omega
  | ⟨1, _⟩ => show 0 + 1 * k.val = k.val; omega

set_option maxHeartbeats 1000000 in
/-- The body: it keeps the input block and leaves the output block holding it on the lower 64 columns. -/
theorem sound_kernel0 (c : Dev nD) (E : Set ℕ) (i : grid0.Coords) (arg1 : Memref sig .tc .vmem S4000x64 .f32) (harg1 : arg1.IsWhole)
    (arg2 : Memref sig .tc .vmem S4000x128 .f32) (harg2 : arg2.IsWhole)
    (x0 : Vec F S4000x64 .f32) (d0 : Vec F S4000x128 .f32) (K : PUnit → sProp 𝕄) :
    iprop(owns (c.tc : Thread nD τ) arg1 fullShare x0 ∗ owns (c.tc : Thread nD τ) arg2 fullShare d0
        ∗ (iprop(owns (c.tc : Thread nD τ) arg1 fullShare x0 ∗ ∃ X, ⌜Pads x0 X⌝ ∗ owns (c.tc : Thread nD τ) arg2 fullShare X) -∗ K ⟨⟩))
      ⊢ wp frame (wpE (defs₀ (F := F)) Variants.none (c.tc : Thread nD τ) none) E (cc0__pad_body i arg1 harg1 arg2 harg2) K := by
  simp only [cc0__pad_body_eq_skeleton]; unfold cc0__pad_body_skel
  unfold owns
  iintro ⟨⟨%f0, %hf0, H0⟩, ⟨%f1, %hf1, H1⟩, Hk⟩
  subst hf0
  sl_exec
  sl_step
  iapply Hk
  isplitl [H0]
  · iexists f0; isplitr; · ipureintro; rfl
    iexact H0
  iexists _; isplitr
  swap
  · iexists _; isplitr
    swap; · iexact H1
    ipureintro; rfl
  ipureintro
  exact pads_of_writes _ _ _

end Cert.Kernel.Run

end
-- ==== Proof.Kernel.Region0Dat.lean ====
/-
  Kernel region 0, the proof data and the array the region leaves.

  The region runs 250 points; point `t` fetches rows `[4000 t, 4000 t + 4000)` of the table into the input's staging
  buffer, runs the body, and writes the output's staging buffer back to the same rows of the widened table. Because the
  body stores only the lower 64 columns of the output block, what the write-back leaves in the widened table is not a
  function of the table: it is CONSTRAINED — "block `t`, on the lower 64 columns, is block `t` of the table". The
  proof data says so as a relation on the output's staging buffer; the input's buffer is left as found.

  Every row of the widened table lies in exactly one block, every block is written back, and whichever write-back
  wrote an entry of the lower 64 columns last wrote the table's entry there: so the widened table the region leaves
  agrees with the table on the lower 64 columns (`Cert.Spec.Widens`).

  During the region the TensorCore owes the constant tallies `O` (the SparseCore call's start signals); its recorded
  waits stay within the set `W` it entered with, plus the staging cells' own pairs.
-/
import proofs.«206271_g21749714387155_cont_8to1_2007_29_alg».proof.Proof.Kernel.Iface
import proofs.«206271_g21749714387155_cont_8to1_2007_29_alg».proof.Proof.Kernel.RegionLib
import proofs.«206271_g21749714387155_cont_8to1_2007_29_alg».proof.Proof.Kernel.Region0Body
import Idealize.ShloMosaic.Lib.Pipeline.FrameBody
import Idealize.ShloMosaic.Lib.Pipeline.Value
import Idealize.ShloMosaic.Lib.Tactic

noncomputable section

namespace Cert.Kernel.Run

open Cert.Kernel Cert.Kernel.Gen

open Idealize.ShloMosaic Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MM F

/-! ## The proof data -/

/-- Block `t` of the table, as the fetch reads it. -/
def inBlk0 (c : Dev nD) (Tb : Buf (Elt F) (tLoc c)) (t : Fin cfg0.N) : ((cfg0.win 0).xblock (cfg0.grid.coords t)).Idx → Elt F (cfg0.win 0).elt :=
  ((cfg0.win 0).blk t).view.read (Elt F) Tb

/-- The proof data of the region: the table enters at `Tb` and the widened table at `f`; the body leaves the input's
    buffer as it found it, and the output's buffer holding block `t` of the table on its lower 64 columns; the core
    owes the constant tallies `O` throughout, with the recorded pairs within `W`. -/
def rdat0 (c : Dev nD) (Tb : Buf (Elt F) (tLoc c)) (f : Buf (Elt F) (wLoc c)) (O : CellTallies nD τ sig (HIx 1)) (W : Waits sig (HIx 1)) :
    RDat τ (Elt F) (HIx 1) ℕ UU ℕ cfg0 c where
  A w := match w with
    | ⟨0, _⟩ => Tb
    | ⟨1, _⟩ => f
  after w t := match w with
    | ⟨0, _⟩ => fun Y X => X = Y
    | ⟨1, _⟩ => fun _ X => Pads (inBlk0 c Tb t) X
  Φ _ := Pipeline.scopedRest (Ix := HIx 1) (Name := ℕ) (U := UU) (Lvl := ℕ) (Val := Elt F) spec0 c
  q _ := fullShare
  owed _ := O
  recorded _ := (↑W : Set (SemLoc sig × HIx 1))

theorem rdat0_A0 (c : Dev nD) (Tb f O W) : (rdat0 (F := F) c Tb f O W).A 0 = Tb := by dsimp only [rdat0]
theorem rdat0_A1 (c : Dev nD) (Tb f O W) : (rdat0 (F := F) c Tb f O W).A 1 = f := by dsimp only [rdat0]
theorem rdat0_after0 (c : Dev nD) (Tb f O W) (t Y X) : (rdat0 (F := F) c Tb f O W).after 0 t Y X = (X = Y) := by dsimp only [rdat0]
theorem rdat0_after1 (c : Dev nD) (Tb f O W) (t Y X) : (rdat0 (F := F) c Tb f O W).after 1 t Y X = Pads (inBlk0 c Tb t) X := by dsimp only [rdat0]

/-- What the body finds in the input's buffer: block `t` of the table. -/
theorem finds0_0 (c : Dev nD) (Tb f O W) (t : Fin cfg0.N) (Y) (hY : (rdat0 (F := F) c Tb f O W).Finds 0 t Y) : Y = inBlk0 c Tb t := by
  obtain ⟨d, hd⟩ := ((rdat0 c Tb f O W).finds_of_fetch (fetch0_0 t) Y).mp hY
  rw [hd]
  unfold RDat.fetched RDat.blockOf inBlk0
  rw [rdat0_A0]
  rfl

/-! ## The body obligation -/

theorem body_obligation0 (c : Dev nD) (Tb f O W) :
    (rdat0 (F := F) c Tb f O W).BodyObligation (defs₀ (F := F)) 𝒱₀ (none : HIx 1) Set.univ := fun t Y hY => by
  rw [bigSep_W0, bigSep_W0]
  have h0 := finds0_0 c Tb f O W t (Y 0) (hY 0)
  rw [show (rdat0 c Tb f O W).Φ t.succ = (rdat0 c Tb f O W).Φ t.castSucc from rfl,
    show (rdat0 c Tb f O W).owesAt (none : HIx 1) t.succ = (rdat0 c Tb f O W).owesAt (none : HIx 1) t.castSucc from rfl]
  simp only [rdat0_after0, rdat0_after1]
  rw [h0]
  iintro ⟨HΦ, Ho, H0, H1⟩
  iapply (sound_kernel0 (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (inBlk0 c Tb t) (Y 1) _)
  isplitl [H0]; · iexact H0
  isplitl [H1]; · iexact H1
  iintro ⟨H0, ⟨%X, %hX, H1⟩⟩
  isplitl [HΦ]; · iexact HΦ
  isplitl [Ho]; · iexact Ho
  isplitl [H0]
  · iexists _; isplitr; · ipureintro; rfl
    iexact H0
  · iexists X; isplitr; · ipureintro; exact hX
    iexact H1

/-! ## The array the region leaves -/

/-- The printed index maps, decided over the grid: block `t` of the table and of the widened table is rows `4000 t …`,
    all columns. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- An index of the widened table is in point `t`'s block iff each coordinate is in the block's range on its axis. -/
theorem mem_blk0_1 (t : Fin cfg0.N) (i : S1000000x128.Idx) :
    i ∈ ((cfg0.win 1).blk t).view.set ↔ ∀ a : Fin 2, win0_1.index t a * S4000x128.size a ≤ (i a).val ∧ (i a).val < win0_1.index t a * S4000x128.size a + S4000x128.size a := by
  show i ∈ ((View.whole main_v1).slice (win0_1.rect t)).set ↔ _
  rw [View.set_slice_whole, Rect.mem_set_unit]
  exact Iff.rfl

/-- An entry of the widened table in the lower 64 columns is the table's. -/
def LowerIs {α : Type} (Tb : Cert.Spec.ST.Idx → α) (i : S1000000x128.Idx) (v : α) : Prop :=
  ∀ h : (i 1).val < 64, v = Tb (ix2 (i 0 : Fin 1000000) (⟨(i 1).val, h⟩ : Fin 64))

theorem final0 (c : Dev nD) (Tb f O W) (G : Buf (Elt F) (wLoc c)) (hG : (rdat0 (F := F) c Tb f O W).ArrAt 1 cfg0.N G) :
    Cert.Spec.Widens (α := Elt F .f32) Tb G := by
  intro r d
  refine ArrAt_forall_of_cover (rdat0 c Tb f O W) 1 (fun i v => LowerIs Tb i v) ?hP ?hcover G hG
    (ix2 (n0 := 1000000) (n1 := 128) r (d.castLE (by decide))) d.isLt
  case hcover =>
    intro i
    have hi0 : (i 0).val < 1000000 := (i 0).isLt
    have hi1 : (i 1).val < 128 := (i 1).isLt
    refine ⟨⟨(i 0).val / 4000, by have : cfg0.N = 250 := N_0; omega⟩, flush0_1 _, ?_⟩
    rw [mem_blk0_1]
    obtain ⟨e0, e1, e2, e3⟩ := idx_facts0 ⟨(i 0).val / 4000, by have : cfg0.N = 250 := N_0; omega⟩
    intro a
    match a with
    | ⟨0, _⟩ => show win0_1.index _ (0 : Fin 2) * 4000 ≤ (i 0).val ∧ (i 0).val < win0_1.index _ (0 : Fin 2) * 4000 + 4000; rw [e2]; show (i 0).val / 4000 * 4000 ≤ (i 0).val ∧ (i 0).val < (i 0).val / 4000 * 4000 + 4000; omega
    | ⟨1, _⟩ => show win0_1.index _ (1 : Fin 2) * 128 ≤ (i 1).val ∧ (i 1).val < win0_1.index _ (1 : Fin 2) * 128 + 128; rw [e3]; omega
  case hP =>
    intro t _ X hX y
    obtain ⟨Y, -, hYX⟩ := hX
    rw [rdat0_after1] at hYX
    rw [cast_eq]
    intro h
    show X ((cfg0.win 1).xinj (cfg0.grid.coords t) y) = _
    obtain ⟨e0, e1, e2, e3⟩ := idx_facts0 t
    have hy1 : (y 1).val < 64 := by
      have h' : win0_1.index t (1 : Fin 2) * 128 + 1 * (y 1).val < 64 := h
      rw [e3] at h'; omega
    have ey : (cfg0.win 1).xinj (cfg0.grid.coords t) y
        = ix2 (n0 := 4000) (n1 := 128) (y 0) (Fin.castLE (n := 64) (by decide) ⟨(y 1).val, hy1⟩) := by
      funext a
      match a with
      | ⟨0, _⟩ => rfl
      | ⟨1, _⟩ => rfl
    rw [ey, hYX (y 0) ⟨(y 1).val, hy1⟩]
    unfold inBlk0
    show Tb (((cfg0.win 0).blk t).view.emb (ix2 (n0 := 4000) (n1 := 64) (y 0) ⟨(y 1).val, hy1⟩)) = _
    refine congrArg Tb (funext fun a => Fin.ext ?_)
    match a with
    | ⟨0, _⟩ =>
      show win0_0.index t (0 : Fin 2) * 4000 + 1 * (y 0).val = win0_1.index t (0 : Fin 2) * 4000 + 1 * (y 0).val
      rw [e0, e2]
    | ⟨1, _⟩ =>
      show win0_0.index t (1 : Fin 2) * 64 + 1 * (y 1).val = win0_1.index t (1 : Fin 2) * 128 + 1 * (y 1).val
      rw [e1, e3]

end Cert.Kernel.Run

end
-- ==== Proof.Kernel.Region0.lean ====
/-
  Kernel region 0 as one step of @main: the table widened.

  The region's record for the several-regions rule: the layout the launch decided, the body obligation, the evidence
  that the core may wait on its staging cells while it owes the constant tallies `O` (their index sits at the lowest
  level, every index `O` is positive at sits above it), and the four entailments of the region's protocol — at entry
  the table and the widened table's buffer become the region's two arrays and the owed tallies the first point's; the
  core's scoped buffers that stage nothing ride through the invariant; at exit the table is as it was (an input array
  is never written), the widened table holds some contents that agree with the table on the lower 64 columns, and the
  recorded waits are the ones the core entered with or the staging cells' own, whose index is `none`.

  The family of proof data has the other region's pipeline at a dummy that nothing consults.
-/
import proofs.«206271_g21749714387155_cont_8to1_2007_29_alg».proof.Proof.Kernel.Iface
import proofs.«206271_g21749714387155_cont_8to1_2007_29_alg».proof.Proof.Kernel.RegionLib
import proofs.«206271_g21749714387155_cont_8to1_2007_29_alg».proof.Proof.Kernel.Region0Dat
import Idealize.ShloMosaic.Lib.Pipeline.Regions
import Idealize.ShloMosaic.Lib.Pipeline.FrameBody
import Idealize.ShloMosaic.Lib.Pipeline.Value
import Idealize.ShloMosaic.Lib.Tactic

noncomputable section

namespace Cert.Kernel.Run

open Cert.Kernel Cert.Kernel.Gen

open Idealize.ShloMosaic Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MM F

/-! ## The region -/

theorem bigSep_fin0 {M : Type} [URA M] (Φ : Fin 0 → sProp M) : bigSep Finset.univ Φ = (BI.emp : sProp M) :=
  bigSep_univ_eq_bigSepL [] (by decide) (by decide) Φ

/-- The region's two arrays, whole: the table and the widened table. -/
theorem arrays0_eq (c : Dev nD) (Tb f O W)
    (Fa : (w : Fin cfg0.W) → Buf (Elt F) ((cfg0.win w).arr.view.loc (c.tc : Thread nD τ))) :
    ((rdat0 (F := F) c Tb f O W).arrays Fa : sProp 𝕄)
      = iprop((tLoc c ↦{fullShare} Fa 0) ∗ (wLoc c ↦{fullShare} Fa 1)) := by
  unfold RDat.arrays
  rw [bigSep_W0, (arr_whole0 0).set_eq_univ, (arr_whole0 1).set_eq_univ]
  rfl

/-- The two arrays after the write-backs below `n`. -/
theorem arraysAt0_eq (c : Dev nD) (Tb f O W) (n : Nat) :
    ((rdat0 (F := F) c Tb f O W).arraysAt n : sProp 𝕄)
      = iprop((∃ Fa : Buf (Elt F) (tLoc c), ⌜(rdat0 (F := F) c Tb f O W).ArrAt 0 n Fa⌝ ∗ (tLoc c ↦{fullShare} Fa))
          ∗ (∃ Fa : Buf (Elt F) (wLoc c), ⌜(rdat0 (F := F) c Tb f O W).ArrAt 1 n Fa⌝ ∗ (wLoc c ↦{fullShare} Fa))) := by
  unfold RDat.arraysAt
  rw [bigSep_W0, (arr_whole0 0).set_eq_univ, (arr_whole0 1).set_eq_univ]
  rfl

/-- No table is prefetched. -/
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

/-- Proof data for the other region, which this one does not consult. -/
def rdatOther2 (c : Dev nD) : RDat τ (Elt F) (HIx 1) ℕ UU ℕ cfg2 c where
  A _ := fun _ => default
  after _ _ _ _ := True
  Φ _ := iprop(emp)
  q _ := fullShare
  owed _ := 0

/-- The family of proof data: this region's at pipeline 0. -/
def rdats0 (TbA : (c : Dev nD) → Buf (Elt F) (tLoc c)) (fA : (c : Dev nD) → Buf (Elt F) (wLoc c))
    (OA : Dev nD → CellTallies nD τ sig (HIx 1)) (WA : Dev nD → Waits sig (HIx 1)) :
    (p : Fin 2) → (c : Dev nD) → RDat τ (Elt F) (HIx 1) ℕ UU ℕ (Pipeline.pin (pcfgs (F := F)) adm p) c
  | ⟨0, _⟩ => fun c => rdat0 c (TbA c) (fA c) (OA c) (WA c)
  | ⟨1, _⟩ => fun c => rdatOther2 c

set_option backward.isDefEq.respectTransparency.types false in
/-- The region's record: layout, body obligation, wait evidence, and the four entailments around its two states. -/
def reg0 (TbA : (c : Dev nD) → Buf (Elt F) (tLoc c)) (fA : (c : Dev nD) → Buf (Elt F) (wLoc c))
    (OA : Dev nD → CellTallies nD τ sig (HIx 1)) (WA : Dev nD → Waits sig (HIx 1)) (hO : ∀ c g, OA c g none = 0) :
    Pipeline.RDat.RegionSeg (pcfgs (F := F)) adm (rdats0 TbA fA OA WA) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation0 c (TbA c) (fA c) (OA c) (WA c)
  hwaits c := Pipeline.RDat.cellsWaits_of_cut (Pipeline.pin (pcfgs (F := F)) adm) (rdats0 TbA fA OA WA) (none : HIx 1) 0 c 0 (OA c)
    (fun _ => rfl) (fun _ _ => Finset.mem_univ _) (fun _ _ => Nat.le_refl _)
    (fun g i h => by
      match i with
      | none => rw [hO c g] at h; exact absurd h (Nat.lt_irrefl _)
      | some q => exact ⟨Finset.mem_univ _, (K (F := F)).lev_some_pos g q⟩)
  pre c := iprop((tLoc c ↦{fullShare} TbA c) ∗ (wLoc c ↦{fullShare} fA c) ∗ owes (c.tc : Thread nD τ) (OA c) (WA c))
  post c := post0 c (TbA c) (OA c) (WA c)
  X _ := iprop(emp)
  Y _ := iprop(emp)
  Z _ := iprop(emp)
  hentry c := by
    rw [Pipeline.ownSems0_none, prefHeld0]
    show iprop(((tLoc c ↦{fullShare} TbA c) ∗ (wLoc c ↦{fullShare} fA c) ∗ owes (c.tc : Thread nD τ) (OA c) (WA c)) ∗ emp ∗ levAts (K (F := F)).L (K (F := F)).lev)
      ⊢ |={Set.univ}=> iprop((rdat0 c (TbA c) (fA c) (OA c) (WA c)).arrays (rdat0 c (TbA c) (fA c) (OA c) (WA c)).A ∗ emp
          ∗ (rdat0 c (TbA c) (fA c) (OA c) (WA c)).owesAt (none : HIx 1) 0 ∗ emp ∗ emp)
    rw [arrays0_eq, rdat0_A0, rdat0_A1]
    iintro ⟨⟨Ht, Hw, HO⟩, -, -⟩
    imodintro
    isplitl [Ht Hw]
    · isplitl [Ht]; · iexact Ht
      iexact Hw
    isplitr; · iempintro
    isplitl [HO]
    · iexists (WA c); isplitr; · ipureintro; exact fun p hp => Or.inl hp
      iexact HO
    isplitr <;> iempintro
  hin c := by
    show iprop(emp ∗ Pipeline.prefHeld (pcfgs (F := F) 0).pre c (fun _ => fullShare) (adm (F := F) 0).1 ∗ Pipeline.scopedRest spec0 c)
      ⊢ Pipeline.scopedRest (Ix := HIx 1) (Name := ℕ) (U := UU) (Lvl := ℕ) (Val := Elt F) spec0 c
    iintro ⟨-, -, H⟩; iexact H
  hout c := by
    rw [Pipeline.ownSems0_none]
    show Pipeline.scopedRest (Ix := HIx 1) (Name := ℕ) (U := UU) (Lvl := ℕ) (Val := Elt F) spec0 c
      ⊢ iprop(emp ∗ emp ∗ Pipeline.scopedRest spec0 c)
    iintro H
    isplitr; · iempintro
    isplitr; · iempintro
    iexact H
  hexit c := by
    show iprop((rdat0 c (TbA c) (fA c) (OA c) (WA c)).arraysAt cfg0.N ∗ (rdat0 c (TbA c) (fA c) (OA c) (WA c)).owesAt (none : HIx 1) (Fin.last cfg0.N) ∗ emp ∗ emp)
      ⊢ |={Set.univ}=> post0 c (TbA c) (OA c) (WA c)
    rw [arraysAt0_eq]
    unfold post0
    iintro ⟨⟨⟨%F0, %hF0, Ht⟩, ⟨%F1, %hF1, Hw⟩⟩, ⟨%W', %hW', HO⟩, -, -⟩
    imodintro
    rw [(rdat0 c (TbA c) (fA c) (OA c) (WA c)).ArrAt_in 0 rfl] at hF0
    rw [rdat0_A0] at hF0
    subst hF0
    isplitl [Ht]; · iexact Ht
    isplitl [Hw]
    · iexists F1; isplitr; · ipureintro; exact final0 c (TbA c) (fA c) (OA c) (WA c) F1 hF1
      iexact Hw
    iexists W'; isplitr
    · ipureintro
      intro p hp
      rcases hW' hp with h | ⟨w, s, rfl⟩
      · exact Or.inl h
      · exact Or.inr rfl
    iexact HO

/-! ## The region as one step -/

/-- REGION 0, ONE STEP: the table kept, the widened table left at contents that agree with the table on the lower 64
    columns, the start signals still owed. -/
theorem region0_wp : Region0Stmt F := by
  intro c Tb O W hO α k Q
  unfold pre0
  iintro ⟨Hk, Hb, ⟨Ht, ⟨%f, Hw⟩, HO⟩, #Hlev, Hg, Htok⟩
  iapply (Pipeline.RDat.RegionSeg.wp (pcfgs (F := F)) adm (rdats0 (fun _ => Tb) (fun _ => f) (fun _ => O) (fun _ => W)) (none : HIx 1)
    Gen.cellOf_inj EP defs₀ 𝒱₀ (K (F := F)).L (K (F := F)).lev (reg0 (fun _ => Tb) (fun _ => f) (fun _ => O) (fun _ => W) (fun _ => hO)) c none
    (fun u hu => nomatch hu) k Q) $$ [Hk Hb Ht Hw HO Hg Htok]
  isplitl [Hk]; · iexact Hk
  isplitl [Hb]; · iexact Hb
  rw [show (reg0 (F := F) (fun _ => Tb) (fun _ => f) (fun _ => O) (fun _ => W) (fun _ => hO)).pre c
      = iprop((tLoc c ↦{fullShare} Tb) ∗ (wLoc c ↦{fullShare} f) ∗ owes (c.tc : Thread nD τ) O W) from rfl]
  isplitl [Ht Hw HO]
  · isplitl [Ht]; · iexact Ht
    isplitl [Hw]; · iexact Hw
    iexact HO
  isplitr; · iexact Hlev
  isplitl [Hg]; · iexact Hg
  iexact Htok

end Cert.Kernel.Run

end
-- ==== Proof.Kernel.Region2.lean ====
/-
  The second kernel region of @main: the lower 64 columns of the widened rows taken, transposed.

  The region runs over 64 points. At point `t` the pipeline fetches block `t` of the widened rows taken — batch rows
  `256 t … 256 t + 255`, each `50 × 128` — into a staging buffer; the body loads the lower 64 columns of that buffer, a
  `[256, 50, 64]` vector, transposes it to `[50, 64, 256]` (entry `(h, k, b)` is entry `(b, h, k)`) and stores it over the
  whole output staging buffer; the pipeline writes that buffer back to columns `256 t … 256 t + 255` of the last axis of
  the kept columns, `[50, 64, 16384]`. The 64 output blocks tile that array, so after the region its entry `(h, k, b)` is
  entry `(b, h, k)` of the widened rows taken on the lower 64 columns: `keepT`.

  The proof data states what the body leaves as a relation: the input's buffer as found, the output's buffer equal to the
  transposed lower columns of the input block at the point. What the array may hold after the write-backs is then read by
  the induction of the shared module: every element a written-back block carries is the element of `keepT` where it lands,
  and every index of the array is under some block.

  During the region the TensorCore owes a constant tally `O`, none of it at the index `none` at which the pipeline's own
  waits are recorded and whose level, zero, lies below the level of every index at which `O` is positive: so the staging
  cells may be waited on throughout. The pairs recorded before the region bound what the body may have recorded; what
  the pipeline adds is at the index `none`.
-/
import proofs.«206271_g21749714387155_cont_8to1_2007_29_alg».proof.Proof.Kernel.Iface
import proofs.«206271_g21749714387155_cont_8to1_2007_29_alg».proof.Proof.Kernel.RegionLib
import Idealize.ShloMosaic.Lib.Pipeline.FrameBody
import Idealize.ShloMosaic.Lib.Pipeline.Value
import Idealize.ShloMosaic.Lib.Tactic

noncomputable section

namespace Cert.Kernel.Run

open Cert.Kernel Cert.Kernel.Gen

open Idealize.ShloMosaic Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MM F

namespace Region2
/-! ## The body -/

abbrev r2in : Rect S256x50x128 := Rect.unit (s := S256x50x128) ![0, 0, 0] S256x50x64.size inb_S256x50x128_S256x50x64_0_0_0
abbrev r2out : Rect S50x64x256 := Rect.unit (s := S50x64x256) ![0, 0, 0] S50x64x256.size inb_S50x64x256_S50x64x256_0_0_0

theorem hz3 : (![0, 0, 0] : Fin 3 → Nat) = fun _ => 0 := funext fun a => by fin_cases a <;> rfl

/-- What the body leaves in the output block, from the input block. -/
def out2 (x0 : Vec F S256x50x128 .f32) : Vec F S50x64x256 .f32 :=
  View.canon [⟨r2out, k2_pay1 (View.ld x0 r2in)⟩]

theorem cover2 (p0 : Vec F S50x64x256 .f32) (y : S50x64x256.Idx) :
    ∃ pc ∈ ([⟨r2out, p0⟩] : List (View.Piece (Elt F) S50x64x256 .f32)), y ∈ pc.1.set :=
  ⟨_, List.mem_singleton_self _, View.mem_set_unit_zero hz3 inb_S50x64x256_S50x64x256_0_0_0 y⟩

set_option maxHeartbeats 1000000 in
theorem sound_kernel2 (c : Dev nD) (E : Set ℕ) (i : grid2.Coords) (arg1 : Memref sig .tc .vmem S256x50x128 .f32) (harg1 : arg1.IsWhole)
    (arg2 : Memref sig .tc .vmem S50x64x256 .f32) (harg2 : arg2.IsWhole)
    (x0 : Vec F S256x50x128 .f32) (K : PUnit → sProp 𝕄) :
    iprop(owns (c.tc : Thread nD τ) arg1 fullShare x0 ∗ (∃ d, owns (c.tc : Thread nD τ) arg2 fullShare d)
        ∗ (iprop(owns (c.tc : Thread nD τ) arg1 fullShare x0 ∗ owns (c.tc : Thread nD τ) arg2 fullShare (out2 x0)) -∗ K ⟨⟩))
      ⊢ wp frame (wpE (defs₀ (F := F)) Variants.none (c.tc : Thread nD τ) none) E (cc2__slice_body i arg1 harg1 arg2 harg2) K := by
  simp only [cc2__slice_body_eq_skeleton]; unfold cc2__slice_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2 _)

/-- The block the body leaves, read at an index: entry (h, k, b) is entry (b, h, k) of the input block. -/
theorem out2_apply (x0 : Vec F S256x50x128 .f32) (h : Fin 50) (k : Fin 64) (b : Fin 256) :
    out2 x0 (ix3 h k b) = x0 (ix3 b h (k.castLE (by decide))) := by
  unfold out2
  rw [View.canon_unit_zero hz3 inb_S50x64x256_S50x64x256_0_0_0]
  unfold k2_pay1
  rw [shapeCast_self]
  refine (transpose_apply _ _ _ _ (ix3 b h k) ?_).trans ?_
  · intro a
    match a with
    | ⟨0, _⟩ => rfl
    | ⟨1, _⟩ => rfl
    | ⟨2, _⟩ => rfl
  · show x0 (r2in.idx (ix3 b h k)) = _
    congr 1
    funext a; apply Fin.ext
    match a with
    | ⟨0, _⟩ => show 0 + 1 * b.val = b.val; omega
    | ⟨1, _⟩ => show 0 + 1 * h.val = h.val; omega
    | ⟨2, _⟩ => show 0 + 1 * k.val = k.val; omega

/-! ## The proof data -/

/-- Block `t` of the widened rows taken, as the fetch reads it. -/
def inBlk2 (c : Dev nD) (Pw : Buf (Elt F) (pLoc c)) (t : Fin cfg2.N) : ((cfg2.win 0).xblock (cfg2.grid.coords t)).Idx → Elt F (cfg2.win 0).elt :=
  ((cfg2.win 0).blk t).view.read (Elt F) Pw

def rdat2 (c : Dev nD) (Pw : Buf (Elt F) (pLoc c)) (f : Buf (Elt F) (sLoc c)) (O : CellTallies nD τ sig (HIx 1)) (W : Waits sig (HIx 1)) :
    RDat τ (Elt F) (HIx 1) ℕ UU ℕ cfg2 c where
  A w := match w with
    | ⟨0, _⟩ => Pw
    | ⟨1, _⟩ => f
  after w t := match w with
    | ⟨0, _⟩ => fun Y X => X = Y
    | ⟨1, _⟩ => fun _ X => X = out2 (inBlk2 c Pw t)
  Φ _ := Pipeline.scopedRest (Ix := HIx 1) (Name := ℕ) (U := UU) (Lvl := ℕ) (Val := Elt F) spec2 c
  q _ := fullShare
  owed _ := O
  recorded _ := (↑W : Set (SemLoc sig × HIx 1))

theorem rdat2_A0 (c : Dev nD) (Pw f O W) : (rdat2 (F := F) c Pw f O W).A 0 = Pw := by dsimp only [rdat2]
theorem rdat2_A1 (c : Dev nD) (Pw f O W) : (rdat2 (F := F) c Pw f O W).A 1 = f := by dsimp only [rdat2]
theorem rdat2_after0 (c : Dev nD) (Pw f O W) (t Y X) : (rdat2 (F := F) c Pw f O W).after 0 t Y X = (X = Y) := by dsimp only [rdat2]
theorem rdat2_after1 (c : Dev nD) (Pw f O W) (t Y X) : (rdat2 (F := F) c Pw f O W).after 1 t Y X = (X = out2 (inBlk2 c Pw t)) := by dsimp only [rdat2]

/-- What the body finds in the input's buffer: block `t`. -/
theorem finds2_0 (c : Dev nD) (Pw f O W) (t : Fin cfg2.N) (Y) (hY : (rdat2 (F := F) c Pw f O W).Finds 0 t Y) : Y = inBlk2 c Pw t := by
  obtain ⟨d, hd⟩ := ((rdat2 c Pw f O W).finds_of_fetch (fetch2_0 t) Y).mp hY
  rw [hd]
  unfold RDat.fetched RDat.blockOf inBlk2
  rw [rdat2_A0]
  rfl
/-! ## The body obligation -/

theorem body_obligation2 (c : Dev nD) (Pw f O W) :
    (rdat2 (F := F) c Pw f O W).BodyObligation (defs₀ (F := F)) 𝒱₀ (none : HIx 1) Set.univ := fun t Y hY => by
  rw [bigSep_W2, bigSep_W2]
  have h0 := finds2_0 c Pw f O W t (Y 0) (hY 0)
  rw [show (rdat2 c Pw f O W).Φ t.succ = (rdat2 c Pw f O W).Φ t.castSucc from rfl,
    show (rdat2 c Pw f O W).owesAt (none : HIx 1) t.succ = (rdat2 c Pw f O W).owesAt (none : HIx 1) t.castSucc from rfl]
  simp only [rdat2_after0, rdat2_after1]
  rw [h0]
  iintro ⟨HΦ, Ho, H0, H1⟩
  iapply (sound_kernel2 (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (inBlk2 c Pw t) _)
  isplitl [H0]; · iexact H0
  isplitl [H1]; · iexists _; iexact H1
  iintro ⟨H0, H1⟩
  isplitl [HΦ]; · iexact HΦ
  isplitl [Ho]; · iexact Ho
  isplitl [H0]
  · iexists _; isplitr; · ipureintro; rfl
    iexact H0
  · iexists _; isplitr; · ipureintro; rfl
    iexact H1

/-! ## The array the region leaves -/

/-- The printed index maps, decided over the grid: the input's block `t` is batch rows `256 t …`, the output's is
    columns `256 t …` of the last axis. -/
theorem idx_facts2 : ∀ t : Fin cfg2.N, win2_0.index t (0 : Fin 3) = t.val ∧ win2_0.index t (1 : Fin 3) = 0 ∧ win2_0.index t (2 : Fin 3) = 0
    ∧ win2_1.index t (0 : Fin 3) = 0 ∧ win2_1.index t (1 : Fin 3) = 0 ∧ win2_1.index t (2 : Fin 3) = t.val :=
  (by decide +kernel : ∀ t : Fin grid2.N, _)

/-- An index of the kept columns is in point `t`'s block iff each coordinate is in the block's range on its axis. -/
theorem mem_blk2_1 (t : Fin cfg2.N) (i : S50x64x16384.Idx) :
    i ∈ ((cfg2.win 1).blk t).view.set ↔ ∀ a : Fin 3, win2_1.index t a * S50x64x256.size a ≤ (i a).val ∧ (i a).val < win2_1.index t a * S50x64x256.size a + S50x64x256.size a := by
  show i ∈ ((View.whole main_v3).slice (win2_1.rect t)).set ↔ _
  rw [View.set_slice_whole, Rect.mem_set_unit]
  exact Iff.rfl

theorem final2 (c : Dev nD) (Pw f O W) (G : Buf (Elt F) (sLoc c)) (hG : (rdat2 (F := F) c Pw f O W).ArrAt 1 cfg2.N G) :
    G = (keepT Pw : Buf (Elt F) (sLoc c)) := by
  funext i
  refine ArrAt_forall_of_cover (rdat2 c Pw f O W) 1 (fun i v => v = keepT Pw i) ?hP ?hcover G hG i
  case hcover =>
    intro i
    have hi0 : (i 0).val < 50 := (i 0).isLt
    have hi1 : (i 1).val < 64 := (i 1).isLt
    have hi2 : (i 2).val < 16384 := (i 2).isLt
    refine ⟨⟨(i 2).val / 256, by have : cfg2.N = 64 := N_2; omega⟩, flush2_1 _, ?_⟩
    rw [mem_blk2_1]
    obtain ⟨e0, e1, e2, e3, e4, e5⟩ := idx_facts2 ⟨(i 2).val / 256, by have : cfg2.N = 64 := N_2; omega⟩
    intro a
    match a with
    | ⟨0, _⟩ => show win2_1.index _ (0 : Fin 3) * 50 ≤ (i 0).val ∧ (i 0).val < win2_1.index _ (0 : Fin 3) * 50 + 50; rw [e3]; omega
    | ⟨1, _⟩ => show win2_1.index _ (1 : Fin 3) * 64 ≤ (i 1).val ∧ (i 1).val < win2_1.index _ (1 : Fin 3) * 64 + 64; rw [e4]; omega
    | ⟨2, _⟩ => show win2_1.index _ (2 : Fin 3) * 256 ≤ (i 2).val ∧ (i 2).val < win2_1.index _ (2 : Fin 3) * 256 + 256; rw [e5]; show (i 2).val / 256 * 256 ≤ (i 2).val ∧ (i 2).val < (i 2).val / 256 * 256 + 256; omega
  case hP =>
    intro t _ X hX y
    obtain ⟨Y, -, hYX⟩ := hX
    rw [rdat2_after1] at hYX
    subst hYX
    obtain ⟨h, k, b, rfl⟩ : ∃ (h : Fin 50) (k : Fin 64) (b : Fin 256), y = (ix3 h k b : S50x64x256.Idx) :=
      ⟨y 0, y 1, y 2, eq_ix3 (n0 := 50) (n1 := 64) (n2 := 256) y⟩
    rw [cast_eq]
    refine (show _ = out2 (inBlk2 c Pw t) (ix3 h k b) from rfl).trans ((out2_apply _ h k b).trans ?_)
    unfold keepT inBlk2
    show Pw (((cfg2.win 0).blk t).view.emb (ix3 b h (k.castLE (by decide)))) = _
    refine congrArg Pw (funext fun a => Fin.ext ?_)
    obtain ⟨e0, e1, e2, e3, e4, e5⟩ := idx_facts2 t
    match a with
    | ⟨0, _⟩ =>
      show win2_0.index t (0 : Fin 3) * 256 + 1 * b.val = win2_1.index t (2 : Fin 3) * 256 + 1 * b.val
      rw [e0, e5]
    | ⟨1, _⟩ =>
      show win2_0.index t (1 : Fin 3) * 50 + 1 * h.val = win2_1.index t (0 : Fin 3) * 50 + 1 * h.val
      rw [e1, e3]
    | ⟨2, _⟩ =>
      show win2_0.index t (2 : Fin 3) * 128 + 1 * k.val = win2_1.index t (1 : Fin 3) * 64 + 1 * k.val
      rw [e2, e4]

/-! ## Entry and exit -/

/-- The windows' arrays, held whole at the full share, are the buffers behind them. -/
theorem pt2_0 (c : Dev nD) (Pw f O W) (G : Buf (Elt F) (pLoc c)) :
    (((cfg2.win 0).arr.view.loc (c.tc : Thread nD τ) ↦[(cfg2.win 0).arr.view.set]{(rdat2 (F := F) c Pw f O W).share 0} G) : sProp 𝕄)
      = (pLoc c ↦{fullShare} G) := by
  rw [(arr_whole2 0).set_eq_univ, (rdat2 c Pw f O W).share_full (fun _ => rfl)]
theorem pt2_1 (c : Dev nD) (Pw f O W) (G : Buf (Elt F) (sLoc c)) :
    (((cfg2.win 1).arr.view.loc (c.tc : Thread nD τ) ↦[(cfg2.win 1).arr.view.set]{(rdat2 (F := F) c Pw f O W).share 1} G) : sProp 𝕄)
      = (sLoc c ↦{fullShare} G) := by
  rw [(arr_whole2 1).set_eq_univ, (rdat2 c Pw f O W).share_full (fun _ => rfl)]

/-- ENTRY: the two arrays and the core's `owes` as the pipeline takes them. -/
theorem entry2 (c : Dev nD) (Pw f O W) :
    iprop((pLoc c ↦{fullShare} Pw) ∗ (sLoc c ↦{fullShare} f) ∗ owes (c.tc : Thread nD τ) O W)
      ⊢ (iprop((rdat2 (F := F) c Pw f O W).arrays (rdat2 c Pw f O W).A ∗ (rdat2 c Pw f O W).owesAt (none : HIx 1) 0) : sProp 𝕄) := by
  unfold RDat.arrays
  rw [bigSep_W2, pt2_0, pt2_1, rdat2_A0, rdat2_A1]
  iintro ⟨Hp, Hs, HO⟩
  isplitl [Hp Hs]
  · isplitl [Hp] <;> iassumption
  iexists W; isplitr
  · ipureintro; exact fun p hp => Or.inl hp
  iexact HO

/-- EXIT: the widened rows taken as they were, the kept columns at their closed form, the waits recorded at the
    staging cells' index only. -/
theorem exit2 (c : Dev nD) (Pw f O W) :
    iprop((rdat2 (F := F) c Pw f O W).arraysAt cfg2.N ∗ (rdat2 c Pw f O W).owesAt (none : HIx 1) (Fin.last cfg2.N))
      ⊢ (post2 c Pw O W : sProp 𝕄) := by
  unfold RDat.arraysAt post2
  rw [bigSep_W2]
  iintro ⟨⟨⟨%F0, %hF0, H0⟩, ⟨%F1, %hF1, H1⟩⟩, ⟨%W', %hW', HO⟩⟩
  have e0 : F0 = Pw := by
    rw [(rdat2 c Pw f O W).ArrAt_in 0 rfl] at hF0
    exact hF0.trans (rdat2_A0 c Pw f O W)
  have e1 : F1 = (keepT Pw : Buf (Elt F) (sLoc c)) := final2 c Pw f O W F1 hF1
  subst e0
  subst e1
  isplitl [H0]
  · iapply (Entails.of_eq (pt2_0 c F0 f O W F0)); iexact H0
  isplitl [H1]
  · iapply (Entails.of_eq (pt2_1 c F0 f O W _)); iexact H1
  iexists W'; isplitr
  · ipureintro
    intro p hp
    rcases hW' hp with h | ⟨w, s, rfl⟩
    · exact Or.inl h
    · exact Or.inr rfl
  iexact HO

/-! ## The region -/

/-- Proof data for the other region, which this one does not consult. -/
def rdatOther0 (c : Dev nD) : RDat τ (Elt F) (HIx 1) ℕ UU ℕ cfg0 c where
  A _ := fun _ => Classical.arbitrary _
  after _ _ _ _ := True
  Φ _ := iprop(emp)
  q _ := fullShare
  owed _ := 0

/-- The family of proof data: this region's at pipeline 1. -/
def rdats2 (PwA : (c : Dev nD) → Buf (Elt F) (pLoc c)) (fA : (c : Dev nD) → Buf (Elt F) (sLoc c))
    (OA : Dev nD → CellTallies nD τ sig (HIx 1)) (WA : Dev nD → Waits sig (HIx 1)) :
    (p : Fin 2) → (c : Dev nD) → RDat τ (Elt F) (HIx 1) ℕ UU ℕ (Pipeline.pin (pcfgs (F := F)) adm p) c
  | ⟨0, _⟩ => fun c => rdatOther0 c
  | ⟨1, _⟩ => fun c => rdat2 c (PwA c) (fA c) (OA c) (WA c)

/-! ## The same, stated of the family at this region's pipeline -/

section Family

variable (PwA : (c : Dev nD) → Buf (Elt F) (pLoc c)) (fA : (c : Dev nD) → Buf (Elt F) (sLoc c))
  (OA : Dev nD → CellTallies nD τ sig (HIx 1)) (WA : Dev nD → Waits sig (HIx 1))

theorem Φ2_fam (c : Dev nD) (t : Fin ((Pipeline.pin (pcfgs (F := F)) adm 1).N + 1)) :
    (rdats2 PwA fA OA WA 1 c).Φ t = (Pipeline.scopedRest (Pipeline.pin (pcfgs (F := F)) adm 1).spec c : sProp 𝕄) := rfl

theorem entry2_fam (c : Dev nD) :
    iprop((pLoc c ↦{fullShare} PwA c) ∗ (sLoc c ↦{fullShare} fA c) ∗ owes (c.tc : Thread nD τ) (OA c) (WA c))
      ⊢ (iprop((rdats2 PwA fA OA WA 1 c).arrays (rdats2 PwA fA OA WA 1 c).A ∗ (rdats2 PwA fA OA WA 1 c).owesAt (none : HIx 1) 0) : sProp 𝕄) :=
  entry2 (F := F) c (PwA c) (fA c) (OA c) (WA c)

theorem exit2_fam (c : Dev nD) :
    iprop((rdats2 PwA fA OA WA 1 c).arraysAt (Pipeline.pin (pcfgs (F := F)) adm 1).N ∗ (rdats2 PwA fA OA WA 1 c).owesAt (none : HIx 1) (Fin.last (Pipeline.pin (pcfgs (F := F)) adm 1).N))
      ⊢ (post2 c (PwA c) (OA c) (WA c) : sProp 𝕄) :=
  exit2 (F := F) c (PwA c) (fA c) (OA c) (WA c)

theorem body2_fam (c : Dev nD) : (rdats2 PwA fA OA WA 1 c).BodyObligation (defs₀ (F := F)) 𝒱₀ (none : HIx 1) Set.univ :=
  body_obligation2 c (PwA c) (fA c) (OA c) (WA c)

theorem waits2_fam (hO : ∀ c g, OA c g none = 0) (c : Dev nD) :
    (levAts (K (F := F)).L (K (F := F)).lev : sProp 𝕄) ⊢ Pipeline.RDat.cellsWaits (Pipeline.pin (pcfgs (F := F)) adm) (rdats2 PwA fA OA WA) (none : HIx 1) 1 c :=
  Pipeline.RDat.cellsWaits_of_cut (Pipeline.pin (pcfgs (F := F)) adm) (rdats2 PwA fA OA WA) (none : HIx 1) 1 c 0 (OA c)
    (fun _ => rfl) (fun _ _ => Finset.mem_univ _) (fun _ _ => Nat.le_refl _)
    (fun g i h => by
      match i with
      | none => rw [hO c g] at h; exact absurd h (Nat.lt_irrefl _)
      | some q => exact ⟨Finset.mem_univ _, (K (F := F)).lev_some_pos g q⟩)

end Family

section Fields

variable (PwA : (c : Dev nD) → Buf (Elt F) (pLoc c)) (fA : (c : Dev nD) → Buf (Elt F) (sLoc c))
  (OA : Dev nD → CellTallies nD τ sig (HIx 1)) (WA : Dev nD → Waits sig (HIx 1))

/-- The thread state the region is entered from, with the kept columns' entry contents named. -/
def pre2f (c : Dev nD) : sProp 𝕄 :=
  iprop((pLoc c ↦{fullShare} PwA c) ∗ (sLoc c ↦{fullShare} fA c) ∗ owes (c.tc : Thread nD τ) (OA c) (WA c))

theorem hentry2 (c : Dev nD) :
    iprop(pre2f PwA fA OA WA c ∗ Pipeline.ownSems0 (fun k : PEmpty => k.elim) c ∗ levAts (K (F := F)).L (K (F := F)).lev)
      ⊢ |={Set.univ}=> (iprop((rdats2 PwA fA OA WA 1 c).arrays (rdats2 PwA fA OA WA 1 c).A ∗ Pipeline.prefHeld (pcfgs (F := F) 1).pre c (fun _ => fullShare) (adm 1).1
          ∗ (rdats2 PwA fA OA WA 1 c).owesAt (none : HIx 1) 0 ∗ emp ∗ emp) : sProp 𝕄) := by
  unfold pre2f
  iintro ⟨Hpre, -, -⟩
  ihave H := (entry2_fam (F := F) PwA fA OA WA c) $$ Hpre
  icases H with ⟨Ha, HO⟩
  imodintro
  isplitl [Ha]; · iexact Ha
  isplitr
  · unfold Pipeline.prefHeld; rw [show (Finset.univ : Finset (Fin 0)) = ∅ from rfl, BI.bigSep_empty]; iempintro
  isplitl [HO]; · iexact HO
  isplitr <;> iempintro

theorem hin2 (c : Dev nD) :
    iprop(emp ∗ Pipeline.prefHeld (pcfgs (F := F) 1).pre c (fun _ => fullShare) (adm 1).1 ∗ Pipeline.scopedRest (Pipeline.pin (pcfgs (F := F)) adm 1).spec c)
      ⊢ ((rdats2 PwA fA OA WA 1 c).Φ 0 : sProp 𝕄) := by
  rw [Φ2_fam]
  iintro ⟨-, -, Hr⟩
  iexact Hr

theorem hout2 (c : Dev nD) :
    (rdats2 PwA fA OA WA 1 c).Φ (Fin.last (Pipeline.pin (pcfgs (F := F)) adm 1).N)
      ⊢ (iprop(emp ∗ Pipeline.ownSems0 (fun k : PEmpty => k.elim) c ∗ Pipeline.scopedRest (Pipeline.pin (pcfgs (F := F)) adm 1).spec c) : sProp 𝕄) := by
  rw [Φ2_fam, Pipeline.ownSems0_none]
  iintro Hr
  isplitr; · iempintro
  isplitr; · iempintro
  iexact Hr

theorem hexit2 (c : Dev nD) :
    iprop((rdats2 PwA fA OA WA 1 c).arraysAt (Pipeline.pin (pcfgs (F := F)) adm 1).N ∗ (rdats2 PwA fA OA WA 1 c).owesAt (none : HIx 1) (Fin.last (Pipeline.pin (pcfgs (F := F)) adm 1).N) ∗ emp ∗ emp)
      ⊢ |={Set.univ}=> (post2 c (PwA c) (OA c) (WA c) : sProp 𝕄) := by
  iintro ⟨Ha, HO, -, -⟩
  imodintro
  iapply (exit2_fam (F := F) PwA fA OA WA c)
  isplitl [Ha] <;> iassumption

end Fields

set_option backward.isDefEq.respectTransparency.types false in
/-- The region as the library's rule takes it. -/
def reg2 (PwA : (c : Dev nD) → Buf (Elt F) (pLoc c)) (fA : (c : Dev nD) → Buf (Elt F) (sLoc c))
    (OA : Dev nD → CellTallies nD τ sig (HIx 1)) (WA : Dev nD → Waits sig (HIx 1)) (hO : ∀ c g, OA c g none = 0) :
    Pipeline.RDat.RegionSeg (pcfgs (F := F)) adm (rdats2 PwA fA OA WA) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2_fam PwA fA OA WA c
  hwaits c := waits2_fam PwA fA OA WA hO c
  pre c := pre2f PwA fA OA WA c
  post c := post2 c (PwA c) (OA c) (WA c)
  X _ := iprop(emp)
  Y _ := iprop(emp)
  Z _ := iprop(emp)
  hentry c := hentry2 PwA fA OA WA c
  hin c := hin2 PwA fA OA WA c
  hout c := hout2 PwA fA OA WA c
  hexit c := hexit2 PwA fA OA WA c

/-- The region rule at one device's contents given for every device. -/
theorem region2_wp_all (PwA : (c : Dev nD) → Buf (Elt F) (pLoc c)) (fA : (c : Dev nD) → Buf (Elt F) (sLoc c))
    (OA : Dev nD → CellTallies nD τ sig (HIx 1)) (WA : Dev nD → Waits sig (HIx 1)) (hO : ∀ c g, OA c g none = 0) (c : Dev nD)
    {α : Type} (k : PUnit → Prog (TpuEff nD τ sig (Elt F) (ΛP (F := F)) .tc) α) (Q : α → sProp (MM F)) :
    iprop((iprop(boundary (c.tc : Thread nD τ) ∗ post2 c (PwA c) (OA c) (WA c)) -∗ wp frame (wpE (D (F := F)) 𝒱 (c.tc : Thread nD τ) none) Set.univ (k ⟨⟩) Q)
        ∗ boundary (c.tc : Thread nD τ)
        ∗ pre2f PwA fA OA WA c
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q :=
  Pipeline.RDat.RegionSeg.wp (pcfgs (F := F)) adm (rdats2 PwA fA OA WA) (none : HIx 1) cellOf_inj EP defs₀ 𝒱₀ (K (F := F)).L (K (F := F)).lev
    (reg2 PwA fA OA WA hO) c none (fun _ h => absurd h (Option.not_mem_none _)) k Q

/-! ## The statement -/

/-- One device's contents given for every device: the mesh has one. -/
def spread {β : Dev nD → Type} (c : Dev nD) (x : β c) : (c' : Dev nD) → β c' := fun c' => (Subsingleton.elim c c') ▸ x

theorem spread_self {β : Dev nD → Type} (c : Dev nD) (x : β c) : spread c x c = x := rfl

theorem main : Region2Stmt F := by
  intro c Pw O W hO α k Q
  unfold pre2
  iintro ⟨Hk, Hb, ⟨Hp, ⟨%f, Hs⟩, HO⟩, Hlev, Hg, Ht⟩
  have key := region2_wp_all (F := F) (spread (β := fun c => Buf (Elt F) (pLoc c)) c Pw) (spread (β := fun c => Buf (Elt F) (sLoc c)) c f)
    (fun _ => O) (fun _ => W) (fun _ g => hO g) c k Q
  unfold pre2f at key
  rw [spread_self, spread_self] at key
  iapply key
  isplitl [Hk]; · iexact Hk
  isplitl [Hb]; · iexact Hb
  isplitl [Hp Hs HO]
  · isplitl [Hp]; · iexact Hp
    isplitl [Hs] <;> iassumption
  isplitl [Hlev]; · iexact Hlev
  isplitl [Hg] <;> iassumption

end Region2

/-- The second kernel region: from the widened rows taken to the kept columns, transposed. -/
theorem region2_wp : Region2Stmt F := Region2.main

end Cert.Kernel.Run

end
-- ==== Proof.Kernel.Whole.lean ====
/-
  The program's run with every part in place: the vector subcores' task, the two kernel regions and the two host
  operations are the theorems of their own modules, and the precondition's bound on the row numbers is all that is asked
  of the launch memory.
-/
import proofs.«206271_g21749714387155_cont_8to1_2007_29_alg».proof.Proof.Kernel.Run
import proofs.«206271_g21749714387155_cont_8to1_2007_29_alg».proof.Proof.Kernel.Host
import proofs.«206271_g21749714387155_cont_8to1_2007_29_alg».proof.Proof.Kernel.Tile
import proofs.«206271_g21749714387155_cont_8to1_2007_29_alg».proof.Proof.Kernel.Region0
import proofs.«206271_g21749714387155_cont_8to1_2007_29_alg».proof.Proof.Kernel.Region2

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ) (ρ : Dev nD → PrngReg)

variable [FloatOps F] [∀ e, Nonempty (Elt F e)]

theorem run (hpre : PreOK m) :
    θ_run (Cert.Kernel.defs (F := F)) (Cert.Kernel.threads (F := F)) ⟨m, fun _ => 0, ρ⟩ (QC m) :=
  run_main m ρ tile_body region0_wp region2_wp (fun d x Φ => wp_reshape d x Φ) (fun d x Tb Pw hP Φ => wp_transpose d x Tb Pw hP Φ) hpre

end Cert.Kernel.Run

end
-- ==== Proof.KernelIdeal.Common.lean ====
/-
  The program as the SparseCore launch theorem sees it, and the names the other modules share.

  @main runs on the TensorCore: it lays the row numbers out flat, widens the table to 128 columns in a first kernel
  region, starts the one SparseCore call — thirty-two vector subcores, each taking 25600 widened rows by its stretch of
  the flat row numbers into its 512 batch rows of the widened result —, waits for it, keeps the lower 64 columns
  (transposed) in a second kernel region, and transposes back. The resource algebra has three parts side by side: the
  rounds of the SparseCore handshakes, the rounds of the two kernel regions' staging cells, and the counters of the
  subcores' own transfers.
-/
import proofs.«206271_g21749714387155_cont_8to1_2007_29_alg».proof.KernelIdeal
import proofs.«206271_g21749714387155_cont_8to1_2007_29_alg».proof.Proof.Gen.KernelIdeal
import proofs.«206271_g21749714387155_cont_8to1_2007_29_alg».proof.Proof.Gen.KernelIdeal.Skeleton
import proofs.«206271_g21749714387155_cont_8to1_2007_29_alg».proof.Proof.Gen.KernelIdeal.Launch
import proofs.«206271_g21749714387155_cont_8to1_2007_29_alg».proof.Proof.Gen.KernelIdeal.Points
import proofs.«206271_g21749714387155_cont_8to1_2007_29_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The handshakes' rounds, the kernel regions' staging cells' rounds, the transfers' counters. -/
abbrev UU : Type := UH × (UR sig nD τ × Counters)

abbrev MM (F : FTy → Type) : Type := MT nD τ sig (HIx 1) (Elt F) ℕ UU ℕ

abbrev EH : Emb UH (MM F) := embL
abbrev EP : Emb (UR sig nD τ) (MM F) := (Emb.inl : Emb (UR sig nD τ) (UR sig nD τ × Counters)).trans embR

instance EP_landsIn : (EP : Emb (UR sig nD τ) (MM F)).LandsIn (upEmb : UEmb _ (MM F)) := by unfold EP; infer_instance

/-! ## The arrays -/

/-- The row numbers `x`, the table, the flat row numbers, the widened table, the widened rows taken, the kept columns
    transposed, the result: as the TensorCore of device `d` names them. -/
abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev wLoc (d : Dev nD) : Loc nD τ sig := (SparseCore.T d).loc main_v1
abbrev pLoc (d : Dev nD) : Loc nD τ sig := (SparseCore.T d).loc main_v2
abbrev sLoc (d : Dev nD) : Loc nD τ sig := (SparseCore.T d).loc main_v3
abbrev rLoc (d : Dev nD) : Loc nD τ sig := (SparseCore.T d).loc main_v4

/-! ## The kernel regions' tables: neither has a prefetched table -/

abbrev adm : (p : Fin 2) → (pcfgs (F := F) p).Adm := fun p => (cfgs p).toPCfg_adm

/-! ## The vector subcores' tasks -/

/-- The SparseCore and the vector subcore that grid point `L` of the call runs on. -/
abbrev cV (L : grid1.Coords) : Fin τ.nSC := (L 0).castLE hcore1
abbrev jV (L : grid1.Coords) : Fin τ.nSub := (L 1).castLE hsub1

/-- The task's number among the thirty-two: twice the subcore's plus the SparseCore's. -/
def wid (L : grid1.Coords) : Fin 32 :=
  ⟨2 * (L 1).val + (L 0).val, by
    have h0 : (L 0).val < 2 := (L 0).isLt
    have h1 : (L 1).val < 16 := (L 1).isLt
    omega⟩

/-- Thirty-two tasks share the 16384 batch rows of the widened result, 512 each. -/
theorem pdiv : 32 ∣ S16384x50x128.size 0 := ⟨512, rfl⟩
/-- Task `w`'s batch rows `[512 w, 512 w + 512)` of the widened result, as a box and as a set of indices. -/
abbrev pRect (w : Fin 32) : Rect S16384x50x128 := Rect.part (s := S16384x50x128) (a₀ := 0) pdiv w
abbrev pRows (w : Fin 32) : Finset S16384x50x128.Idx :=
  ((Memref.whole main_v2_scv : Memref sig .scVector .hbm S16384x50x128 .f32).view.slice (pRect w)).set

end Cert.KernelIdeal.Run

end
-- ==== Proof.KernelIdeal.Iface.lean ====
/-
  The three statements the launch is assembled from, each proved in a module of its own: one vector subcore's task, and
  the two kernel regions of @main on the TensorCore.

  * The task of the vector subcore at grid point `L`: holding a read share of the flat row numbers (contents `I`, every
    word a row number of the table) and of the widened table (contents `Tw`), and its own 512 batch rows of the widened
    result, it ends with those rows holding the widened rows taken, `Cert.Spec.GW I Tw`, the shares unchanged.
  * Region 0 widens the table: it keeps the table and leaves the widened table at SOME contents that agree with the table
    on the lower 64 columns (the upper 64 columns of each block are whatever the staging buffer held).
  * Region 2 keeps the lower 64 columns of the widened rows taken, transposed: entry `(h, k, b)` is entry `(b, h, k)`.

  During both regions the TensorCore owes the SparseCore call's start signals (tallies `O`, none at the kernels' own
  index); a region's own waits are recorded at that index only.
-/
import proofs.«206271_g21749714387155_cont_8to1_2007_29_alg».proof.Proof.KernelIdeal.Common

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## One vector subcore's task -/

def TileBodyStmt (F : FTy → Type) [FloatOps F] : Prop :=
  ∀ (hF : (K (F := F)).Facts) (d : Dev nD) (L : grid1.Coords)
    (I : Buf (Elt F) (iLoc d)) (Tw : Buf (Elt F) (wLoc d)) (P0 : Buf (Elt F) (pLoc d)) (qi qw : PosShare TreeShare)
    (hI : ∀ j, (I j).toNat ≤ 999999)
    (O : CellTallies nD τ sig (HIx 1)) (W : Waits sig (HIx 1)) (hO : ∀ g, O g none = 0),
    iprop(levAts (K (F := F)).L (K (F := F)).lev ∗ emp
        ∗ ((iLoc d ↦{qi} I) ∗ (wLoc d ↦{qw} Tw) ∗ (pLoc d ↦[pRows (wid L)]{fullShare} P0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1_gather_k L (Memref.whole main_v1_scv) (Memref.isWhole_whole _) (Memref.whole main_v0_scv) (Memref.isWhole_whole _) (Memref.whole main_v2_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3)
          (fun _ => iprop(((iLoc d ↦{qi} I) ∗ (wLoc d ↦{qw} Tw) ∗ (pLoc d ↦[pRows (wid L)]{fullShare} (Cert.Spec.GW I Tw : Buf (Elt F) (pLoc d))))
            ∗ scopedBufs (V d (cV L) (jV L)) ∗ scopedSems0 (V d (cV L) (jV L))
            ∗ ∃ W', ⌜∀ p ∈ W', p ∈ W ∨ p.2 = none⌝ ∗ owes (V d (cV L) (jV L)) O W')) : sProp (MM F))

/-! ## Region 0: the table widened -/

def pre0 (c : Dev nD) (Tb : Buf (Elt F) (tLoc c)) (O : CellTallies nD τ sig (HIx 1)) (W : Waits sig (HIx 1)) : sProp 𝕄 :=
  iprop((tLoc c ↦{fullShare} Tb) ∗ (∃ f : Buf (Elt F) (wLoc c), wLoc c ↦{fullShare} f) ∗ owes (c.tc : Thread nD τ) O W)

def post0 (c : Dev nD) (Tb : Buf (Elt F) (tLoc c)) (O : CellTallies nD τ sig (HIx 1)) (W : Waits sig (HIx 1)) : sProp 𝕄 :=
  iprop((tLoc c ↦{fullShare} Tb) ∗ (∃ Tw : Buf (Elt F) (wLoc c), ⌜Cert.Spec.Widens Tb Tw⌝ ∗ (wLoc c ↦{fullShare} Tw))
    ∗ ∃ W', ⌜∀ p ∈ W', p ∈ W ∨ p.2 = none⌝ ∗ owes (c.tc : Thread nD τ) O W')

def Region0Stmt (F : FTy → Type) [FloatOps F] : Prop :=
  ∀ (c : Dev nD) (Tb : Buf (Elt F) (tLoc c)) (O : CellTallies nD τ sig (HIx 1)) (W : Waits sig (HIx 1)) (hO : ∀ g, O g none = 0)
    {α : Type} (k : PUnit → Prog (TpuEff nD τ sig (Elt F) (ΛP (F := F)) .tc) α) (Q : α → sProp (MM F)),
    iprop((iprop(boundary (c.tc : Thread nD τ) ∗ post0 c Tb O W) -∗ wp frame (wpE (D (F := F)) 𝒱 (c.tc : Thread nD τ) none) Set.univ (k ⟨⟩) Q)
        ∗ boundary (c.tc : Thread nD τ) ∗ pre0 c Tb O W ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q

/-! ## Region 2: the lower 64 columns kept, transposed -/

/-- Entry `(h, k, b)` is entry `(b, h, k)` of the widened rows taken. -/
def keepT {α : Type} (Pw : Cert.Spec.SP.Idx → α) : S50x64x16384.Idx → α :=
  fun i => Pw (ix3 (i 2 : Fin 16384) (i 0 : Fin 50) ((i 1 : Fin 64).castLE (by decide)))

def pre2 (c : Dev nD) (Pw : Buf (Elt F) (pLoc c)) (O : CellTallies nD τ sig (HIx 1)) (W : Waits sig (HIx 1)) : sProp 𝕄 :=
  iprop((pLoc c ↦{fullShare} Pw) ∗ (∃ f : Buf (Elt F) (sLoc c), sLoc c ↦{fullShare} f) ∗ owes (c.tc : Thread nD τ) O W)

def post2 (c : Dev nD) (Pw : Buf (Elt F) (pLoc c)) (O : CellTallies nD τ sig (HIx 1)) (W : Waits sig (HIx 1)) : sProp 𝕄 :=
  iprop((pLoc c ↦{fullShare} Pw) ∗ (sLoc c ↦{fullShare} (keepT Pw : Buf (Elt F) (sLoc c)))
    ∗ ∃ W', ⌜∀ p ∈ W', p ∈ W ∨ p.2 = none⌝ ∗ owes (c.tc : Thread nD τ) O W')

def Region2Stmt (F : FTy → Type) [FloatOps F] : Prop :=
  ∀ (c : Dev nD) (Pw : Buf (Elt F) (pLoc c)) (O : CellTallies nD τ sig (HIx 1)) (W : Waits sig (HIx 1)) (hO : ∀ g, O g none = 0)
    {α : Type} (k : PUnit → Prog (TpuEff nD τ sig (Elt F) (ΛP (F := F)) .tc) α) (Q : α → sProp (MM F)),
    iprop((iprop(boundary (c.tc : Thread nD τ) ∗ post2 c Pw O W) -∗ wp frame (wpE (D (F := F)) 𝒱 (c.tc : Thread nD τ) none) Set.univ (k ⟨⟩) Q)
        ∗ boundary (c.tc : Thread nD τ) ∗ pre2 c Pw O W ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q

end Cert.KernelIdeal.Run

end
-- ==== Proof.KernelIdeal.Pay.lean ====
/-
  What the SparseCore call's handshakes carry.

  The one call has thirty-two tasks, task `w = 2 i + c` on vector subcore `i` of SparseCore `c`. A task is handed a
  read share of the flat row numbers and of the widened table — their contents are whatever the host reshape and the
  first kernel region left, known only through what they say of the arguments: the flat row numbers ARE the row
  numbers, the widened table agrees with the table on the lower 64 columns — and its own 512 batch rows of the widened
  result, at any contents. It hands back those rows holding the widened rows taken. A SparseCore's share of the call is
  its sixteen tasks' side by side, so the split of a SparseCore's operands among its tasks is the identity.
-/
import proofs.«206271_g21749714387155_cont_8to1_2007_29_alg».proof.Proof.KernelIdeal.Iface

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ)

/-- The task that vector subcore `i` of SparseCore `c` runs. -/
def widCI (c : Fin ((K (F := F)).nCore 0)) (i : Fin ((K (F := F)).nSub 0)) : Fin 32 :=
  ⟨2 * i.val + c.val, by
    have hc : c.val < 2 := c.isLt
    have hi : i.val < 16 := i.isLt
    omega⟩

/-- What the arguments say of the flat row numbers `I` and the widened table `Tw`. -/
def Faithful (d : Dev nD) (I : Buf (Elt F) (iLoc d)) (Tw : Buf (Elt F) (wLoc d)) : Prop :=
  Cert.Spec.Flattens (m (xLoc d)) I ∧ Cert.Spec.Widens (α := Elt F .f32) (m (tLoc d)) Tw

/-- What task `w` is handed. -/
def goRes (d : Dev nD) (w : Fin 32) : sProp 𝕄 :=
  iprop(∃ (I : Buf (Elt F) (iLoc d)) (Tw : Buf (Elt F) (wLoc d)), ⌜Faithful m d I Tw⌝
    ∗ (iLoc d ↦{shareTok fullShare 32 w} I) ∗ (wLoc d ↦{shareTok fullShare 32 w} Tw)
    ∗ ∃ P0 : Buf (Elt F) (pLoc d), pLoc d ↦[pRows w]{fullShare} P0)

/-- What task `w` hands back: its rows of the widened result at the widened rows taken. -/
def tdRes (d : Dev nD) (w : Fin 32) : sProp 𝕄 :=
  iprop(∃ (I : Buf (Elt F) (iLoc d)) (Tw : Buf (Elt F) (wLoc d)), ⌜Faithful m d I Tw⌝
    ∗ (pLoc d ↦[pRows w]{fullShare} (Cert.Spec.GW (α := Elt F .f32) I Tw : Buf (Elt F) (pLoc d))))

def P : (K (F := F)).Pay (nD := nD) (Val := Elt F) (Name := ℕ) (U := UU) where
  st := fun q d c => match q with | 0 => bigSep Finset.univ fun i : Fin ((K (F := F)).nSub 0) => goRes m d (widCI c i)
  dn := fun q d c => match q with | 0 => bigSep Finset.univ fun i : Fin ((K (F := F)).nSub 0) => tdRes m d (widCI c i)
  go := fun q d c i => match q with | 0 => goRes m d (widCI c i)
  td := fun q d c i => match q with | 0 => tdRes m d (widCI c i)
  x := fun _ _ => iprop(emp)

instance goRes_storable (d : Dev nD) (w : Fin 32) : BI.Storable (upEmb : UEmb _ 𝕄) (goRes m d w) := by unfold goRes; infer_instance
instance tdRes_storable (d : Dev nD) (w : Fin 32) : BI.Storable (upEmb : UEmb _ 𝕄) (tdRes m d w) := by unfold tdRes; infer_instance

instance P_storable : (P (F := F) m).IsStorable where
  st q d c := match q with
    | 0 => (inferInstance : BI.Storable (upEmb : UEmb _ 𝕄) (bigSep Finset.univ fun i : Fin ((K (F := F)).nSub 0) => goRes m d (widCI c i)))
  dn q d c := match q with
    | 0 => (inferInstance : BI.Storable (upEmb : UEmb _ 𝕄) (bigSep Finset.univ fun i : Fin ((K (F := F)).nSub 0) => tdRes m d (widCI c i)))
  go q d c i := match q with | 0 => (inferInstance : BI.Storable (upEmb : UEmb _ 𝕄) (goRes m d (widCI c i)))
  td q d c i := match q with | 0 => (inferInstance : BI.Storable (upEmb : UEmb _ 𝕄) (tdRes m d (widCI c i)))

/-- A SparseCore's operands are its tasks' side by side, and so are its results. -/
theorem vecSplit : (K (F := F)).VecSplit' (P m) 0 := by
  intro d c
  show (bigSep Finset.univ fun i : Fin ((K (F := F)).nSub 0) => goRes m d (widCI c i)) ⊢ |={Set.univ}=> iprop(
      (bigSep Finset.univ fun i : Fin ((K (F := F)).nSub 0) => goRes m d (widCI c i))
      ∗ ((bigSep Finset.univ fun i : Fin ((K (F := F)).nSub 0) => tdRes m d (widCI c i))
          -∗ (bigSep Finset.univ fun i : Fin ((K (F := F)).nSub 0) => tdRes m d (widCI c i))))
  iintro H; imodintro
  isplitl [H]; · iexact H
  iintro H; iexact H

end Cert.KernelIdeal.Run

end
-- ==== Proof.KernelIdeal.TileObl.lean ====
/-
  The vector-subcore kernel's obligation to the launch: one task, from what it is handed to what it hands back.

  The task is the kernel function at the grid point of its SparseCore and subcore. It is handed its read shares and its
  rows with the contents quantified; opened, they are what the task's own statement takes, and its conclusion — the rows
  at the widened rows taken — is what it hands back. Every flat position is `50 b + h` for one `(b, h)`, so every flat
  row number is a row number of the argument and, by the precondition, a row of the table.
-/
import proofs.«206271_g21749714387155_cont_8to1_2007_29_alg».proof.Proof.KernelIdeal.Pay

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ)

/-- Every flat position is `50 b + h`. -/
theorem flat_surj (n : Fin 819200) : ∃ (b : Fin 16384) (h : Fin 50), Cert.Spec.flat b h = n :=
  ⟨⟨n.val / 50, by have := n.isLt; omega⟩, ⟨n.val % 50, Nat.mod_lt _ (by decide)⟩, Fin.ext (by
    show 50 * (n.val / 50) + n.val % 50 = n.val
    exact Nat.div_add_mod n.val 50)⟩

/-- What the proof asks of the launch memory: every row number is a row of the table. -/
def PreOK : Prop := ∀ (d : Dev nD) (j : Cert.Spec.SX.Idx), ((m (xLoc d) : Cert.Spec.SX.Idx → BitVec 32) j).toNat ≤ 999999

/-- Then so is every flat row number. -/
theorem flat_ok (hpre : PreOK m) (d : Dev nD) (I : Buf (Elt F) (iLoc d)) (hI : Cert.Spec.Flattens (m (xLoc d)) I) :
    ∀ j, ((I : Cert.Spec.SI.Idx → BitVec 32) j).toNat ≤ 999999 := by
  intro j
  obtain ⟨b, h, e⟩ := flat_surj (j 0)
  have ej : j = ix1 (Cert.Spec.flat b h) := by rw [e]; exact eq_ix1 j
  rw [ej, hI b h]
  exact hpre d _

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          (Memref.whole main_v1_scv) (Memref.isWhole_whole _) (Memref.whole main_v0_scv) (Memref.isWhole_whole _) (Memref.whole main_v2_scv) (Memref.isWhole_whole _)
          (Memref.whole cc1_scratch0) (Memref.isWhole_whole _) (Memref.whole cc1_scratch1) (Memref.isWhole_whole _) (Memref.whole cc1_scratch2) (Memref.isWhole_whole _) (Memref.whole cc1_scratch3) (Memref.isWhole_whole _)
          cc1_scratch4 cc1_scratch5 cc1_scratch6 cc1_scratch7 cc1_scoped0 cc1_scoped1 cc1_scoped2 cc1_scoped3) ⟨⟩ c s := rfl

/-- The task's result and what else it gives back, as the launch reads them. -/
theorem task_post (d : Dev nD) (w : Fin 32) (I : Buf (Elt F) (iLoc d)) (Tw : Buf (Elt F) (wLoc d)) (hf : Faithful m d I Tw)
    {thr : Thread nD τ} {qi qw : PosShare TreeShare} {B C : sProp 𝕄} {O : CellTallies nD τ sig (HIx 1)} {W : Waits sig (HIx 1)} {q : Fin 1} :
    iprop(((iLoc d ↦{qi} I) ∗ (wLoc d ↦{qw} Tw) ∗ (pLoc d ↦[pRows w]{fullShare} (Cert.Spec.GW (α := Elt F .f32) I Tw : Buf (Elt F) (pLoc d))))
        ∗ B ∗ C ∗ ∃ W', ⌜∀ p ∈ W', p ∈ W ∨ p.2 = none⌝ ∗ owes thr O W')
      ⊢ iprop(tdRes m d w ∗ B ∗ C ∗ ∃ W', ⌜∀ p ∈ W', p ∈ W ∨ p.2 = none ∨ p.2 = some q⌝ ∗ owes thr O W') := by
  iintro ⟨⟨-, -, Hp⟩, HB, HC, %W', %hW', HO⟩
  isplitl [Hp]
  · unfold tdRes
    iexists I; iexists Tw
    isplitr; · ipureintro; exact hf
    iexact Hp
  isplitl [HB]; · iexact HB
  isplitl [HC]; · iexact HC
  iexists W'; isplitr
  · ipureintro; exact fun p hp => (hW' p hp).imp_right Or.inl
  · iexact HO

theorem tileObl (hT : TileBodyStmt F) (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(levAts (K (F := F)).L (K (F := F)).lev ∗ emp ∗ goRes m d (widCI c i) ∗ _ ∗ _ ∗ _) ⊢ _
  unfold goRes
  iintro ⟨Hlv, -, ⟨%I, %Tw, %hf, Hi, Hw, %P0, Hp⟩, Hb, Hs, HO⟩
  iapply ((hT hF d (coordsV ⟨_, hc.1⟩ ⟨_, hc.2⟩) I Tw P0 (shareTok fullShare 32 (widCI c i)) (shareTok fullShare 32 (widCI c i))
      (flat_ok m hpre d I hf.1) O W hO).trans
    (wp_mono frame _ _ fun _ => task_post m d (widCI c i) I Tw hf (qi := shareTok fullShare 32 (widCI c i)) (qw := shareTok fullShare 32 (widCI c i))))
  isplitl [Hlv]; · iexact Hlv
  isplitr; · iempintro
  isplitl [Hi Hw Hp]
  · isplitl [Hi]; · iexact Hi
    isplitl [Hw]; · iexact Hw
    iexact Hp
  isplitl [Hb]; · iexact Hb
  isplitl [Hs]; · iexact Hs
  iexact HO

end Cert.KernelIdeal.Run

end
-- ==== Proof.KernelIdeal.Split.lean ====
/-
  The widened result dealt out to the thirty-two tasks, and gathered back.

  The 16384 batch rows of the widened result are thirty-two disjoint stretches of 512, one per task; the flat row numbers
  and the widened table, which every task reads whole, go out as one read share per task. Task `w = 2 i + c` runs on
  subcore `i` of SparseCore `c`, and `(c, i) ↦ 2 i + c` is a bijection onto the thirty-two. When the tasks are done each
  stretch holds the widened rows taken, for SOME flat row numbers and widened table faithful to the arguments; on the
  lower 64 columns that is the result, whatever they were, so the stretches join into one array that agrees with the
  result there.
-/
import proofs.«206271_g21749714387155_cont_8to1_2007_29_alg».proof.Proof.KernelIdeal.TileObl

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ)

/-! ## The rows of the widened result, task by task -/

theorem pRows_eq (w : Fin 32) : pRows w = (pRect w).set := by
  show ((View.whole (main_v2_scv : Ref sig .scVector)).slice (pRect w)).set = _
  rw [View.set_slice]; exact Finset.map_refl

theorem pRows_disjoint : ∀ i ∈ (Finset.univ : Finset (Fin 32)), ∀ j ∈ (Finset.univ : Finset (Fin 32)), i ≠ j → Disjoint (pRows i) (pRows j) :=
  fun i _ j _ h => by rw [pRows_eq, pRows_eq]; exact Rect.part_disjoint pdiv h

theorem pRows_cover : (Finset.univ : Finset (Fin 32)).biUnion pRows = Finset.univ :=
  (Finset.biUnion_congr rfl fun i _ => pRows_eq i).trans (Rect.biUnion_part pdiv)

theorem pPts_rows (d : Dev nD) (f : Buf (Elt F) (pLoc d)) :
    (pLoc d ↦{fullShare} f : sProp 𝕄) = bigSep Finset.univ fun w : Fin 32 => pLoc d ↦[pRows w]{fullShare} f := by
  rw [← pointsTo_biUnion Finset.univ (ℓ := pLoc d) pRows pRows_disjoint, pRows_cover]; try rfl

/-! ## Dealing out -/

theorem goRes_intro (d : Dev nD) (w : Fin 32) (I : Buf (Elt F) (iLoc d)) (Tw : Buf (Elt F) (wLoc d)) (P0 : Buf (Elt F) (pLoc d))
    (hf : Faithful m d I Tw) :
    iprop((iLoc d ↦{shareTok fullShare 32 w} I) ∗ (wLoc d ↦{shareTok fullShare 32 w} Tw) ∗ (pLoc d ↦[pRows w]{fullShare} P0))
      ⊢ (goRes m d w : sProp 𝕄) := by
  unfold goRes
  iintro ⟨Hi, Hw, Hp⟩
  iexists I; iexists Tw
  isplitr; · ipureintro; exact hf
  isplitl [Hi]; · iexact Hi
  isplitl [Hw]; · iexact Hw
  iexists P0; iexact Hp

/-- The three arrays whole are, task by task, a read share of the first two and the task's stretch of the third. -/
theorem go_split (d : Dev nD) (I : Buf (Elt F) (iLoc d)) (Tw : Buf (Elt F) (wLoc d)) (P0 : Buf (Elt F) (pLoc d)) :
    iprop((iLoc d ↦{fullShare} I) ∗ (wLoc d ↦{fullShare} Tw) ∗ (pLoc d ↦{fullShare} P0))
      ⊢ (bigSep Finset.univ fun w : Fin 32 =>
          iprop((iLoc d ↦{shareTok fullShare 32 w} I) ∗ (wLoc d ↦{shareTok fullShare 32 w} Tw) ∗ (pLoc d ↦[pRows w]{fullShare} P0)) : sProp 𝕄) := by
  rw [bigSep_sep', bigSep_sep', pPts_rows]
  iintro ⟨Hi, Hw, Hp⟩
  ihave Hi' := (Transfers.pointsTo_toks_split (ℓ := iLoc d) (S := Finset.univ) (f := I) fullShare 32) $$ Hi
  icases Hi' with ⟨-, Hi'⟩
  ihave Hw' := (Transfers.pointsTo_toks_split (ℓ := wLoc d) (S := Finset.univ) (f := Tw) fullShare 32) $$ Hw
  icases Hw' with ⟨-, Hw'⟩
  isplitl [Hi']; · iexact Hi'
  isplitl [Hw']; · iexact Hw'
  iexact Hp

/-- The three arrays whole are every task's handful. -/
theorem go_all (d : Dev nD) (I : Buf (Elt F) (iLoc d)) (Tw : Buf (Elt F) (wLoc d)) (P0 : Buf (Elt F) (pLoc d)) (hf : Faithful m d I Tw) :
    iprop((iLoc d ↦{fullShare} I) ∗ (wLoc d ↦{fullShare} Tw) ∗ (pLoc d ↦{fullShare} P0))
      ⊢ (bigSep Finset.univ fun w : Fin 32 => goRes m d w : sProp 𝕄) :=
  (go_split d I Tw P0).trans (bigSep_mono fun w _ => goRes_intro m d w I Tw P0 hf)

/-! ## The tasks by SparseCore and subcore -/

def taskEquiv : Fin ((K (F := F)).nCore 0) × Fin ((K (F := F)).nSub 0) ≃ Fin 32 where
  toFun p := widCI p.1 p.2
  invFun w := (⟨w.val % 2, Nat.mod_lt _ (by decide)⟩, ⟨w.val / 2, by have := w.isLt; show w.val / 2 < 16; omega⟩)
  left_inv p := by
    obtain ⟨c, i⟩ := p
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem bigSep_tasks (Φ : Fin 32 → sProp 𝕄) :
    bigSep Finset.univ Φ = bigSep Finset.univ fun c : Fin ((K (F := F)).nCore 0) => bigSep Finset.univ fun i : Fin ((K (F := F)).nSub 0) => Φ (widCI c i) := by
  rw [bigSep_univ_equiv (taskEquiv (F := F)) Φ, bigSep_univ_prod]; rfl

/-! ## Gathering back -/

/-- The widened result agrees with the result on the lower 64 columns. -/
def Good (d : Dev nD) (Pw : Buf (Elt F) (pLoc d)) : Prop :=
  ∀ (b : Fin 16384) (h : Fin 50) (k : Fin 64),
    (Pw : Cert.Spec.SP.Idx → Elt F .f32) (ix3 b h (k.castLE (by decide))) = Cert.Spec.G (α := Elt F .f32) (m (xLoc d)) (m (tLoc d)) (ix3 b h k)

/-- A task's stretch at the widened rows taken agrees with the result on the lower 64 columns. -/
theorem tdRes_weaken (d : Dev nD) (w : Fin 32) :
    (tdRes m d w : sProp 𝕄) ⊢ iprop(∃ f : Buf (Elt F) (pLoc d),
      ⌜∀ (b : Fin 16384) (h : Fin 50) (k : Fin 64), (f : Cert.Spec.SP.Idx → Elt F .f32) (ix3 b h (k.castLE (by decide)))
          = Cert.Spec.G (α := Elt F .f32) (m (xLoc d)) (m (tLoc d)) (ix3 b h k)⌝ ∗ (pLoc d ↦[pRows w]{fullShare} f)) := by
  unfold tdRes
  iintro ⟨%I, %Tw, %hf, Hp⟩
  iexists (Cert.Spec.GW (α := Elt F .f32) I Tw : Buf (Elt F) (pLoc d))
  isplitr
  · ipureintro; exact fun b h k => Cert.Spec.GW_eq_G hf.1 hf.2 b h k
  · iexact Hp

variable [∀ e, Nonempty (Elt F e)]

theorem td_all (d : Dev nD) :
    (bigSep Finset.univ fun w : Fin 32 => tdRes m d w : sProp 𝕄)
      ⊢ iprop(∃ Pw : Buf (Elt F) (pLoc d), ⌜Good m d Pw⌝ ∗ (pLoc d ↦{fullShare} Pw)) := by
  refine (bigSep_mono fun w _ => tdRes_weaken m d w).trans ?_
  have : Nonempty (Buf (Elt F) (pLoc d)) := ⟨fun _ => Classical.arbitrary _⟩
  refine (bigSep_exists_pi Finset.univ (fun (w : Fin 32) (f : Buf (Elt F) (pLoc d)) =>
    iprop(⌜∀ (b : Fin 16384) (h : Fin 50) (k : Fin 64), (f : Cert.Spec.SP.Idx → Elt F .f32) (ix3 b h (k.castLE (by decide)))
          = Cert.Spec.G (α := Elt F .f32) (m (xLoc d)) (m (tLoc d)) (ix3 b h k)⌝ ∗ (pLoc d ↦[pRows w]{fullShare} f)))).trans ?_
  iintro ⟨%fs, H⟩
  ihave H' := (bigSep_pure_sep Finset.univ _ _) $$ H
  icases H' with ⟨%hgood, H⟩
  ihave H'' := (pointsTo_biUnion_join (ℓ := pLoc d) (q := fullShare) (Val := Elt F) Finset.univ pRows fs (fs 0) pRows_disjoint) $$ H
  icases H'' with ⟨%g, %hg, Hg⟩
  rw [pRows_cover]
  iexists g
  isplitr
  · ipureintro
    intro b h k
    obtain ⟨w, hw⟩ := Rect.exists_mem_part pdiv (ix3 b h (k.castLE (by decide)) : S16384x50x128.Idx)
    rw [hg w (Finset.mem_univ _) _ (by rw [pRows_eq]; exact hw)]
    exact hgood w (Finset.mem_univ _) b h k
  · iexact Hg

end Cert.KernelIdeal.Run

end
-- ==== Proof.KernelIdeal.Elem.lean ====
/-
  The launch element of the ghost state, and how the final state is read.

  The launch element is the handshakes' initial rounds, the two kernel regions' staging cells' initial rounds, and the
  unit of the transfers' counters. The middle part funds, on every core and for each region, the cells' ghost state and the
  duty tokens the region's entry consumes: that is what @main is handed beside the launch's own deal. At the end @main
  holds the two arguments at their launch contents and the result at the function of them both programs compute; held
  beside the state interpretation of a final state they say what that state's memory holds.
-/
import proofs.«206271_g21749714387155_cont_8to1_2007_29_alg».proof.Proof.KernelIdeal.Split

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ) (ρ : Dev nD → PrngReg)

/-! ## The launch element -/

def u₀ : UU :=
  (initOf (K (F := F)).hsCells (K (F := F)).hsToks,
    (initOf (Pipeline.cells (cfgs) cellOf_inj) (Pipeline.launchToks (cfgs) cellOf_inj), 1))

/-- What @main on device `d` is handed for its two kernel regions. -/
def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (cfgs) cellOf_inj) (Pipeline.launchToks (cfgs) cellOf_inj), (1 : Counters)) : UR sig nD τ × Counters)) $$ Hu
  icases H with ⟨HH, HR⟩
  ihave HR' := (own_pair_emb (embR : Emb (UR sig nD τ × Counters) 𝕄) (initOf (Pipeline.cells (cfgs) cellOf_inj) (Pipeline.launchToks (cfgs) cellOf_inj)) (1 : Counters)) $$ HR
  icases HR' with ⟨HP, -⟩
  imod (Pipeline.fund_ghost (nD := nD) (τ := τ) (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]; · iexact Hg
    iexact Ht
  · rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), bigSep_emp']
    iempintro

/-! ## The end -/

/-- What @main holds at its end: the arguments as at launch, the result at what both programs compute. -/
abbrev FIN (d : Dev nD) : sProp 𝕄 :=
  iprop((xLoc d ↦{fullShare} m (xLoc d)) ∗ (tLoc d ↦{fullShare} m (tLoc d))
    ∗ (rLoc d ↦{fullShare} (Cert.Spec.G (α := Elt F .f32) (m (xLoc d)) (m (tLoc d)) : Buf (Elt F) (rLoc d))))

def fq (d : Dev nD) (s' : Phys nD τ sig (Elt F)) : Prop :=
  s'.mem.mem (rLoc d) = (Cert.Spec.G (α := Elt F .f32) (m (xLoc d)) (m (tLoc d)) : Buf (Elt F) (rLoc d))
    ∧ s'.mem.mem (xLoc d) = m (xLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare)
    (f := (Cert.Spec.G (α := Elt F .f32) (m (xLoc d)) (m (tLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- What the run claims of a final memory. -/
def QC : PUnit × MemSt nD τ sig (Elt F) → Prop := fun r => ∀ c : Dev nD,
  r.2.mem (rLoc c) = (Cert.Spec.G (α := Elt F .f32) (m (xLoc c)) (m (tLoc c)) : Buf (Elt F) (rLoc c))
    ∧ r.2.mem (xLoc c) = m (xLoc c) ∧ r.2.mem (tLoc c) = m (tLoc c)

end Cert.KernelIdeal.Run

end
-- ==== Proof.KernelIdeal.Main.lean ====
/-
  @main on the TensorCore, between the launch's deal and the program's end.

  @main lays the row numbers out flat (a host reshape), widens the table (kernel region 0), hands the SparseCore call
  its operands and waits for it, keeps the lower 64 columns transposed (kernel region 2), and transposes back.

  * Each kernel region is a call of the inner body table; under the program's table it is that call lifted. During a
    region the TensorCore still owes the call's start signals (before the call) or nothing (after it): the region
    borrows what the core owes and gives it back with waits recorded at the kernels' own index only, which the core's
    bound on its recorded waits ignores.
  * Before the call the three arrays the tasks touch are dealt out — a read share of the flat row numbers and of the
    widened table per task, and each task's 512 batch rows of the widened result —, the tasks numbered by SparseCore and
    subcore; after it the thirty-two stretches join into one array that agrees with the result on its lower 64 columns.
  * The second region keeps exactly those columns, so the final transpose is the result.
-/
import proofs.«206271_g21749714387155_cont_8to1_2007_29_alg».proof.Proof.KernelIdeal.Elem

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ) (ρ : Dev nD → PrngReg)

/-- The TensorCore's unscoped buffers are the seven arrays of @main. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (iLoc d ↦{fullShare} W main_v0)
      ∗ (wLoc d ↦{fullShare} W main_v1) ∗ (pLoc d ↦{fullShare} W main_v2) ∗ (sLoc d ↦{fullShare} W main_v3) ∗ (rLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the TensorCore owes for the SparseCore call sits at the call's index, never at the kernels' own. -/
theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

variable [FloatOps F]

/-- The host reshape as one step: the row numbers kept, the flat row numbers written. -/
def ReshapeStmt (F : FTy → Type) [FloatOps F] : Prop :=
  ∀ (d : Dev nD) (x : Buf (Elt F) (xLoc d)) (Φ : PUnit → sProp (MM F)),
    iprop(boundary (T d) ∗ (xLoc d ↦{fullShare} x) ∗ (∃ f : Buf (Elt F) (iLoc d), iLoc d ↦{fullShare} f)
        ∗ ((boundary (T d) ∗ (xLoc d ↦{fullShare} x)
              ∗ ∃ I : Buf (Elt F) (iLoc d), ⌜Cert.Spec.Flattens x I⌝ ∗ (iLoc d ↦{fullShare} I)) -∗ Φ ⟨⟩))
      ⊢ wp frame (wpE ((K (F := F)).defs (D (F := F))) 𝒱 (T d) none) Set.univ
          (hlo rfl (StableHlo.reshape main_arg0 main_v0 rfl shapeCasts_S16384x50_S819200 : HloOp τ sig (Elt F)) (fun _ => .ret ⟨⟩)) Φ

/-- The host transpose as one step: from the kept columns transposed to the result. -/
def TransposeStmt (F : FTy → Type) [FloatOps F] : Prop :=
  ∀ (d : Dev nD) (x : Cert.Spec.SX.Idx → BitVec 32) (Tb : Cert.Spec.ST.Idx → Elt F .f32) (Pw : Buf (Elt F) (pLoc d))
    (hP : ∀ (b : Fin 16384) (h : Fin 50) (k : Fin 64), (Pw : Cert.Spec.SP.Idx → Elt F .f32) (ix3 b h (k.castLE (by decide))) = Cert.Spec.G x Tb (ix3 b h k))
    (Φ : PUnit → sProp (MM F)),
    iprop(boundary (T d) ∗ (sLoc d ↦{fullShare} (keepT Pw : Buf (Elt F) (sLoc d)))
        ∗ (∃ f : Buf (Elt F) (rLoc d), rLoc d ↦{fullShare} f)
        ∗ ((boundary (T d) ∗ (sLoc d ↦{fullShare} (keepT Pw : Buf (Elt F) (sLoc d)))
              ∗ (rLoc d ↦{fullShare} (Cert.Spec.G x Tb : Buf (Elt F) (rLoc d)))) -∗ Φ ⟨⟩))
      ⊢ wp frame (wpE ((K (F := F)).defs (D (F := F))) 𝒱 (T d) none) Set.univ
          (hlo rfl (StableHlo.unary main_v3 main_v4 ((transpose S16384x50x64 [2, 0, 1] · transposes_S50x64x16384_S16384x50x64_2_0_1) : (⟨S50x64x16384, .f32⟩ : BufTy).Contents (Elt F) → (⟨S16384x50x64, .f32⟩ : BufTy).Contents (Elt F)) : HloOp τ sig (Elt F)) (fun _ => .ret ⟨⟩)) Φ

variable [∀ e, Nonempty (Elt F e)]

/-! ## Borrowing what the TensorCore owes -/

/-- The TensorCore's state before call `n` lends out what it owes, and is re-formed from the same tallies under waits still within its bound. -/
theorem tcSt_owes (d : Dev nD) (n : ℕ) :
    ((K (F := F)).tcSt EH d n : sProp 𝕄) ⊢ iprop(∃ W, ⌜(K (F := F)).WBelow (SparseCore.T d) W (8 * n)⌝ ∗ owes (SparseCore.T d) ((K (F := F)).Otc d n) W
      ∗ ((∃ W', ⌜(K (F := F)).WBelow (SparseCore.T d) W' (8 * n)⌝ ∗ owes (SparseCore.T d) ((K (F := F)).Otc d n) W') -∗ (K (F := F)).tcSt EH d n)) := by
  unfold SparseCore.Cfg.tcSt
  iintro ⟨⟨%W, %hW, HO⟩, Hrest⟩
  iexists W
  isplitr; · ipureintro; exact hW
  isplitl [HO]; · iexact HO
  iintro H'
  isplitl [H']; · iexact H'
  iexact Hrest

/-- Waits recorded at the kernels' own index keep the bound. -/
theorem WBelow_of_none {thr : Thread nD τ} {W W' : Waits sig (HIx 1)} {b : ℕ} (hW : (K (F := F)).WBelow thr W b)
    (hW' : ∀ p ∈ W', p ∈ W ∨ p.2 = none) : (K (F := F)).WBelow thr W' b := fun p hp => by
  rcases hW' p hp with h | h
  · exact hW p h
  · show (K (F := F)).lev (thr, p.1) p.2 ≤ b
    rw [h, SparseCore.Cfg.lev_none]; exact Nat.zero_le _

/-! ## The two kernel regions, entered from @main -/

/-- Region 0 under the inner body table, from the TensorCore's state before the call. -/
theorem enter0_inner (h0 : Region0Stmt F) (κ : GSem nD τ sig → ℕ) (d : Dev nD) (Tb : Buf (Elt F) (tLoc d)) (Φ : PUnit → sProp 𝕄) :
    iprop((K (F := F)).ctx EH (P m) κ ∗ (K (F := F)).tcSt EH d 0 ∗ boundary (SparseCore.T d) ∗ (tLoc d ↦{fullShare} Tb)
        ∗ (∃ f : Buf (Elt F) (wLoc d), wLoc d ↦{fullShare} f)
        ∗ Pipeline.cellsGhost (Pipeline.pin (pcfgs (F := F)) adm) EP 0 d ∗ Pipeline.toksInit (Pipeline.pin (pcfgs (F := F)) adm) EP 0 d
        ∗ (((K (F := F)).tcSt EH d 0 ∗ boundary (SparseCore.T d) ∗ (tLoc d ↦{fullShare} Tb)
              ∗ ∃ Tw : Buf (Elt F) (wLoc d), ⌜Cert.Spec.Widens Tb Tw⌝ ∗ (wLoc d ↦{fullShare} Tw)) -∗ Φ ⟨⟩))
      ⊢ wp frame (wpE (D (F := F)) 𝒱 (SparseCore.T d) none) Set.univ
          (.op (.customCall (Pipeline.entry 0) ()) .ret : Prog (TpuEff nD τ sig (Elt F) (ΛP (F := F)) .tc) PUnit) Φ := by
  iintro ⟨#Hctx, Hst, Hb, Ht, Hw, Hg, Htk, Hk⟩
  ihave Hlev := ((K (F := F)).ctx_levAts (EH := EH) (P := P m) κ) $$ Hctx
  ihave H := (tcSt_owes (F := F) d 0) $$ Hst
  icases H with ⟨%W, %hW, HO, Hback⟩
  iapply (h0 d Tb ((K (F := F)).Otc d 0) W (Otc_none d 0) (fun _ => .ret ⟨⟩) Φ) $$ [Hk Hback Hb Ht Hw HO Hlev Hg Htk]
  isplitl [Hk Hback]
  · iintro ⟨Hb, H⟩
    unfold post0
    icases H with ⟨Ht, Hw, %W', %hW', HO⟩
    simp only [wp_ret]
    imodintro
    iapply Hk
    isplitl [Hback HO]
    · iapply Hback
      iexists W'
      isplitr; · ipureintro; exact WBelow_of_none hW hW'
      iexact HO
    isplitl [Hb]; · iexact Hb
    isplitl [Ht]; · iexact Ht
    iexact Hw
  isplitl [Hb]; · iexact Hb
  isplitl [Ht Hw HO]
  · unfold pre0
    isplitl [Ht]; · iexact Ht
    isplitl [Hw]; · iexact Hw
    iexact HO
  isplitr; · iexact Hlev
  isplitl [Hg]; · iexact Hg
  iexact Htk

set_option backward.isDefEq.respectTransparency.types false in
theorem enter0 (h0 : Region0Stmt F) (κ : GSem nD τ sig → ℕ) (d : Dev nD) (Tb : Buf (Elt F) (tLoc d)) (Φ : PUnit → sProp 𝕄) :
    iprop((K (F := F)).ctx EH (P m) κ ∗ (K (F := F)).tcSt EH d 0 ∗ boundary (SparseCore.T d) ∗ (tLoc d ↦{fullShare} Tb)
        ∗ (∃ f : Buf (Elt F) (wLoc d), wLoc d ↦{fullShare} f)
        ∗ Pipeline.cellsGhost (Pipeline.pin (pcfgs (F := F)) adm) EP 0 d ∗ Pipeline.toksInit (Pipeline.pin (pcfgs (F := F)) adm) EP 0 d
        ∗ (((K (F := F)).tcSt EH d 0 ∗ boundary (SparseCore.T d) ∗ (tLoc d ↦{fullShare} Tb)
              ∗ ∃ Tw : Buf (Elt F) (wLoc d), ⌜Cert.Spec.Widens Tb Tw⌝ ∗ (wLoc d ↦{fullShare} Tw)) -∗ Φ ⟨⟩))
      ⊢ wp frame (wpE ((K (F := F)).defs (D (F := F))) 𝒱 (SparseCore.T d) none) Set.univ
          (Prog.lift (.customCall (SparseCore.inner (Pipeline.entry 0)) ())) Φ :=
  (enter0_inner m h0 κ d Tb Φ).trans ((K (F := F)).wp_liftProg (D (F := F)) 𝒱 (SparseCore.T d) (Set.univ : Set ℕ) none
    (.op (.customCall (Pipeline.entry 0) ()) .ret : Prog (TpuEff nD τ sig (Elt F) (ΛP (F := F)) .tc) PUnit) Φ)

/-- Region 2 under the inner body table, from the TensorCore's state after the call. -/
theorem enter2_inner (h2 : Region2Stmt F) (κ : GSem nD τ sig → ℕ) (d : Dev nD) (Pw : Buf (Elt F) (pLoc d)) (Φ : PUnit → sProp 𝕄) :
    iprop((K (F := F)).ctx EH (P m) κ ∗ (K (F := F)).tcSt EH d 1 ∗ boundary (SparseCore.T d) ∗ (pLoc d ↦{fullShare} Pw)
        ∗ (∃ f : Buf (Elt F) (sLoc d), sLoc d ↦{fullShare} f)
        ∗ Pipeline.cellsGhost (Pipeline.pin (pcfgs (F := F)) adm) EP 1 d ∗ Pipeline.toksInit (Pipeline.pin (pcfgs (F := F)) adm) EP 1 d
        ∗ (((K (F := F)).tcSt EH d 1 ∗ boundary (SparseCore.T d) ∗ (pLoc d ↦{fullShare} Pw)
              ∗ (sLoc d ↦{fullShare} (keepT Pw : Buf (Elt F) (sLoc d)))) -∗ Φ ⟨⟩))
      ⊢ wp frame (wpE (D (F := F)) 𝒱 (SparseCore.T d) none) Set.univ
          (.op (.customCall (Pipeline.entry 1) ()) .ret : Prog (TpuEff nD τ sig (Elt F) (ΛP (F := F)) .tc) PUnit) Φ := by
  iintro ⟨#Hctx, Hst, Hb, Hp, Hs, Hg, Htk, Hk⟩
  ihave Hlev := ((K (F := F)).ctx_levAts (EH := EH) (P := P m) κ) $$ Hctx
  ihave H := (tcSt_owes (F := F) d 1) $$ Hst
  icases H with ⟨%W, %hW, HO, Hback⟩
  iapply (h2 d Pw ((K (F := F)).Otc d 1) W (Otc_none d 1) (fun _ => .ret ⟨⟩) Φ) $$ [Hk Hback Hb Hp Hs HO Hlev Hg Htk]
  isplitl [Hk Hback]
  · iintro ⟨Hb, H⟩
    unfold post2
    icases H with ⟨Hp, Hs, %W', %hW', HO⟩
    simp only [wp_ret]
    imodintro
    iapply Hk
    isplitl [Hback HO]
    · iapply Hback
      iexists W'
      isplitr; · ipureintro; exact WBelow_of_none hW hW'
      iexact HO
    isplitl [Hb]; · iexact Hb
    isplitl [Hp]; · iexact Hp
    iexact Hs
  isplitl [Hb]; · iexact Hb
  isplitl [Hp Hs HO]
  · unfold pre2
    isplitl [Hp]; · iexact Hp
    isplitl [Hs]; · iexact Hs
    iexact HO
  isplitr; · iexact Hlev
  isplitl [Hg]; · iexact Hg
  iexact Htk

set_option backward.isDefEq.respectTransparency.types false in
theorem enter2 (h2 : Region2Stmt F) (κ : GSem nD τ sig → ℕ) (d : Dev nD) (Pw : Buf (Elt F) (pLoc d)) (Φ : PUnit → sProp 𝕄) :
    iprop((K (F := F)).ctx EH (P m) κ ∗ (K (F := F)).tcSt EH d 1 ∗ boundary (SparseCore.T d) ∗ (pLoc d ↦{fullShare} Pw)
        ∗ (∃ f : Buf (Elt F) (sLoc d), sLoc d ↦{fullShare} f)
        ∗ Pipeline.cellsGhost (Pipeline.pin (pcfgs (F := F)) adm) EP 1 d ∗ Pipeline.toksInit (Pipeline.pin (pcfgs (F := F)) adm) EP 1 d
        ∗ (((K (F := F)).tcSt EH d 1 ∗ boundary (SparseCore.T d) ∗ (pLoc d ↦{fullShare} Pw)
              ∗ (sLoc d ↦{fullShare} (keepT Pw : Buf (Elt F) (sLoc d)))) -∗ Φ ⟨⟩))
      ⊢ wp frame (wpE ((K (F := F)).defs (D (F := F))) 𝒱 (SparseCore.T d) none) Set.univ
          (Prog.lift (.customCall (SparseCore.inner (Pipeline.entry 1)) ())) Φ :=
  (enter2_inner m h2 κ d Pw Φ).trans ((K (F := F)).wp_liftProg (D (F := F)) 𝒱 (SparseCore.T d) (Set.univ : Set ℕ) none
    (.op (.customCall (Pipeline.entry 1) ()) .ret : Prog (TpuEff nD τ sig (Elt F) (ΛP (F := F)) .tc) PUnit) Φ)

/-! ## @main on the TensorCore -/

theorem st0_eq (d : Dev nD) :
    (bigSep Finset.univ fun c : Fin ((K (F := F)).nCore 0) => (P m).st 0 d c) = (bigSep Finset.univ fun w : Fin 32 => goRes m d w : sProp 𝕄) :=
  (bigSep_tasks (F := F) (fun w => goRes m d w)).symm
theorem dn0_eq (d : Dev nD) :
    (bigSep Finset.univ fun c : Fin ((K (F := F)).nCore 0) => (P m).dn 0 d c) = (bigSep Finset.univ fun w : Fin 32 => tdRes m d w : sProp 𝕄) :=
  (bigSep_tasks (F := F) (fun w => tdRes m d w)).symm

variable (ρ : Dev nD → PrngReg)

theorem hmain (h0 : Region0Stmt F) (h2 : Region2Stmt F) (hR : ReshapeStmt F) (hX : TransposeStmt F) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq, bigSep_univ_two, bigSep_univ_two]
  simp only [main, wp_bind, wp_pure]
  iintro ⟨#Hctx, Hst, ⟨Hb, ⟨Hx, Ht, Hi, Hw, Hp, Hs, Hr⟩, -, -⟩, ⟨Hg0, Hg1⟩, ⟨Hk0, Hk1⟩⟩
  -- the row numbers laid out flat
  iapply (hR d (m (xLoc d)) _) $$ [Hb Hx Hi Hst Ht Hw Hp Hs Hr Hg0 Hg1 Hk0 Hk1]
  isplitl [Hb]; · iexact Hb
  isplitl [Hx]; · iexact Hx
  isplitl [Hi]; · iexists _; iexact Hi
  iintro ⟨Hb, Hx, %I, %hI, Hi⟩
  -- the table widened
  iapply (enter0 m h0 κ d (m (tLoc d)) _) $$ [Hst Hb Ht Hw Hg0 Hk0 Hx Hi Hp Hs Hr Hg1 Hk1]
  isplitr; · iexact Hctx
  isplitl [Hst]; · iexact Hst
  isplitl [Hb]; · iexact Hb
  isplitl [Ht]; · iexact Ht
  isplitl [Hw]; · iexists _; iexact Hw
  isplitl [Hg0]; · iexact Hg0
  isplitl [Hk0]; · iexact Hk0
  iintro ⟨Hst, Hb, Ht, %Tw, %hTw, Hw⟩
  -- the SparseCore call
  ihave Hgo := ((go_all m d I Tw _ ⟨hI, hTw⟩).trans (Entails.of_eq (st0_eq m d).symm)) $$ [Hi Hw Hp]
  · isplitl [Hi]; · iexact Hi
    isplitl [Hw]; · iexact Hw
    iexact Hp
  iapply ((K (F := F)).wp_run (D (F := F)) 𝒱 (EH := EH) (P := P m) κ d 0) $$ [Hst Hgo Hb Hx Ht Hs Hr Hg1 Hk1]
  isplitr; · iexact Hctx
  isplitl [Hst]; · iexact Hst
  isplitl [Hgo]; · iexact Hgo
  iintro ⟨Hst, Hdn⟩
  ihave Hp := ((Entails.of_eq (dn0_eq m d)).trans (td_all m d)) $$ Hdn
  icases Hp with ⟨%Pw, %hPw, Hp⟩
  -- the lower 64 columns kept, transposed
  iapply (enter2 m h2 κ d Pw _) $$ [Hst Hb Hp Hs Hg1 Hk1 Hx Ht Hr]
  isplitr; · iexact Hctx
  isplitl [Hst]; · iexact Hst
  isplitl [Hb]; · iexact Hb
  isplitl [Hp]; · iexact Hp
  isplitl [Hs]; · iexists _; iexact Hs
  isplitl [Hg1]; · iexact Hg1
  isplitl [Hk1]; · iexact Hk1
  iintro ⟨Hst, Hb, Hp, Hs⟩
  -- transposed back
  iapply (hX d (m (xLoc d)) (m (tLoc d)) Pw hPw _) $$ [Hb Hs Hr Hst Hx Ht]
  isplitl [Hb]; · iexact Hb
  isplitl [Hs]; · iexact Hs
  isplitl [Hr]; · iexists _; iexact Hr
  iintro ⟨Hb, Hs, Hr⟩
  imodintro
  isplitl [Hst]; · iexact Hst
  isplitl [Hx]; · iexact Hx
  isplitl [Ht]; · iexact Ht
  iexact Hr

end Cert.KernelIdeal.Run

end
-- ==== Proof.KernelIdeal.Run.lean ====
/-
  The program's run: every weakly fair execution of the TensorCore's @main beside the two sequencers and the thirty-two
  vector subcores terminates, nothing faulting, and ends with the two arguments as at launch and the result holding,
  at `(b, h, d)`, the table's entry in column `d` of the row `x[b, h]` names.

  It is the SparseCore launch theorem at this program: the one vector-subcore kernel's task, the split of a SparseCore's
  operands among its tasks (the identity here), the launch element, @main, and the read-off of the final state.
-/
import proofs.«206271_g21749714387155_cont_8to1_2007_29_alg».proof.Proof.KernelIdeal.Main

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ) (ρ : Dev nD → PrngReg)

variable [FloatOps F] [∀ e, Nonempty (Elt F e)]

theorem run_main (hT : TileBodyStmt F) (h0 : Region0Stmt F) (h2 : Region2Stmt F) (hR : ReshapeStmt F) (hX : TransposeStmt F) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT facts hpre)
    (fun q _ => match q with | 0 => SparseCore.Cfg.VecSplit.of_plain (vecSplit m))
    m ρ main (fun d => G (F := F) d) (FIN m) (u₀ (F := F)) (sep_elim_left.trans (hu₀ m)) (hmain m ρ h0 h2 hR hX) (fq m) (hfin m) (QC m) (fun _ h => h)

end Cert.KernelIdeal.Run

end
-- ==== Proof.KernelIdeal.Host.lean ====
/-
  The two host operations of @main, each as one step with its value.

  @main's first line lays the row numbers `x : [16384, 50]` out flat in row-major order, so position `50 b + h` of the
  flat array holds `x[b, h]`. Its last line transposes the kept columns `[50, 64, 16384]` back to `[16384, 50, 64]`:
  entry `(b, h, k)` of the result is entry `(h, k, b)` of the kept columns, which is entry `(b, h, k)` of the widened
  rows taken; where those agree with the result on the lower 64 columns, the transpose is the result.

  Each line is one host operation on the TensorCore. Holding what the core holds between kernel regions and the
  operation's two buffers whole, the operation runs and gives them back, the written one at the operation's value of
  the read one; the read one is unchanged.
-/
import proofs.«206271_g21749714387155_cont_8to1_2007_29_alg».proof.Proof.KernelIdeal.Iface
import Idealize.ShloMosaic.Lib.Pipeline.Value
import Idealize.ShloMosaic.Lib.ValueLayout

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The two host operations' values -/

/-- The row numbers laid out flat in row-major order: position `50 b + h` holds `x[b, h]`. -/
theorem flattens_shapeCast (x : Cert.Spec.SX.Idx → BitVec 32) (h : S16384x50.ShapeCasts S819200) :
    Cert.Spec.Flattens x (shapeCast S819200 x h) := by
  unfold Cert.Spec.Flattens
  intro b c
  refine shapeCast_apply x h (ix1 (Cert.Spec.flat b c)) (ix2 b c) ?_
  rw [Shape.rowMajor_val_two, Shape.rowMajor_val_one]
  show b.val * 50 + c.val = 50 * b.val + c.val
  omega

/-- The kept columns, transposed back: if the widened rows taken agree with the result on the lower 64 columns, the
    transpose of the kept columns is the result. -/
theorem transpose_keepT {α : Type} (x : Cert.Spec.SX.Idx → BitVec 32) (Tb : Cert.Spec.ST.Idx → α) (Pw : Cert.Spec.SP.Idx → α)
    (hP : ∀ (b : Fin 16384) (h : Fin 50) (k : Fin 64), Pw (ix3 b h (k.castLE (by decide))) = Cert.Spec.G x Tb (ix3 b h k))
    (ht : S50x64x16384.Transposes [2, 0, 1] S16384x50x64) :
    transpose S16384x50x64 [2, 0, 1] (keepT Pw) ht = Cert.Spec.G x Tb := by
  funext i
  obtain ⟨b, h, k, rfl⟩ : ∃ (b : Fin 16384) (h : Fin 50) (k : Fin 64), i = ix3 b h k := ⟨_, _, _, eq_ix3 i⟩
  refine (transpose_apply [2, 0, 1] (keepT Pw) ht (ix3 b h k) (ix3 h k b)
    (fun c => match c with | ⟨0, _⟩ => rfl | ⟨1, _⟩ => rfl | ⟨2, _⟩ => rfl)).trans ?_
  exact hP b h k

/-! ## The two host operations as steps of @main -/

/-- @main's first line: the row numbers laid out flat. -/
abbrev opReshape : HloOp τ sig (Elt F) := StableHlo.reshape main_arg0 main_v0 rfl shapeCasts_S16384x50_S819200

/-- @main's last line: the kept columns transposed back. -/
abbrev opTranspose : HloOp τ sig (Elt F) :=
  StableHlo.unary main_v3 main_v4 ((transpose S16384x50x64 [2, 0, 1] · transposes_S50x64x16384_S16384x50x64_2_0_1) : (⟨S50x64x16384, .f32⟩ : BufTy).Contents (Elt F) → (⟨S16384x50x64, .f32⟩ : BufTy).Contents (Elt F))

/-- The row numbers, the flat row numbers, the kept columns and the result as device buffers. -/
abbrev xD : DevRef τ sig := Proc.devRef .tc (main_arg0 : Ref sig .tc)
abbrev iD : DevRef τ sig := Proc.devRef .tc (main_v0 : Ref sig .tc)
abbrev sD : DevRef τ sig := Proc.devRef .tc (main_v3 : Ref sig .tc)
abbrev rD : DevRef τ sig := Proc.devRef .tc (main_v4 : Ref sig .tc)

/-- Contents for every buffer: `u` at buffer `a`, `v` at buffer `b`, anything elsewhere. -/
def val2 (a b : DevRef τ sig) (u : a.ty.Contents (Elt F)) (v : b.ty.Contents (Elt F)) : Valuation τ sig (Elt F) :=
  Function.update (Function.update (fun _ _ => default) a u) b v

theorem val2_fst {a b : DevRef τ sig} (hab : a ≠ b) (u : a.ty.Contents (Elt F)) (v : b.ty.Contents (Elt F)) :
    val2 a b u v a = u := by
  unfold val2
  rw [Function.update_of_ne hab, Function.update_self]

theorem val2_snd (a b : DevRef τ sig) (u : a.ty.Contents (Elt F)) (v : b.ty.Contents (Elt F)) :
    val2 a b u v b = v := Function.update_self _ _ _

/-- The reshape's buffers held at contents `W`: the row numbers and the flat row numbers. -/
theorem reshapeBufs_eq (d : Dev nD) (W : Valuation τ sig (Elt F)) :
    (bigSep (opReshape (F := F)).bufs (fun b => ((d, b) : Loc nD τ sig) ↦{fullShare} W b) : sProp 𝕄)
      = iprop((xLoc d ↦{fullShare} W xD) ∗ (iLoc d ↦{fullShare} W iD)) := by
  show bigSep ({xD, iD} : Finset (DevRef τ sig)) (fun b => ((d, b) : Loc nD τ sig) ↦{fullShare} W b) = _
  rw [SparseCore.bigSep_insert' (by decide), bigSep_singleton]

/-- The transpose's buffers held at contents `W`: the kept columns and the result. -/
theorem transposeBufs_eq (d : Dev nD) (W : Valuation τ sig (Elt F)) :
    (bigSep (opTranspose (F := F)).bufs (fun b => ((d, b) : Loc nD τ sig) ↦{fullShare} W b) : sProp 𝕄)
      = iprop((sLoc d ↦{fullShare} W sD) ∗ (rLoc d ↦{fullShare} W rD)) := by
  show bigSep ({sD, rD} : Finset (DevRef τ sig)) (fun b => ((d, b) : Loc nD τ sig) ↦{fullShare} W b) = _
  rw [SparseCore.bigSep_insert' (by decide), bigSep_singleton]

/-- THE RESHAPE, ONE STEP: holding the boundary, the row numbers `x` and the flat row numbers' buffer at any contents,
    the line runs and hands back the boundary, `x` unchanged, and the flat buffer at contents `I` that are `x` laid out
    flat. -/
theorem wp_reshape (d : Dev nD) (x : Buf (Elt F) (xLoc d)) (Φ : PUnit → sProp 𝕄) :
    iprop(boundary (T d) ∗ (xLoc d ↦{fullShare} x) ∗ (∃ f : Buf (Elt F) (iLoc d), iLoc d ↦{fullShare} f)
        ∗ ((boundary (T d) ∗ (xLoc d ↦{fullShare} x)
              ∗ ∃ I : Buf (Elt F) (iLoc d), ⌜Cert.Spec.Flattens x I⌝ ∗ (iLoc d ↦{fullShare} I)) -∗ Φ ⟨⟩))
      ⊢ wp frame (wpE ((K (F := F)).defs (D (F := F))) 𝒱 (T d) none) Set.univ
          (hlo rfl (opReshape (F := F)) (fun _ => .ret ⟨⟩)) Φ := by
  iintro ⟨Hb, Hx, ⟨%f, Hi⟩, Hk⟩
  iapply (wp_hlo 𝒱 (T d) none Set.univ (op := opReshape (F := F)) (q := fun _ => fullShare) (F := val2 xD iD x f) (fun _ _ => rfl)) $$ [Hb Hx Hi]
  · isplitl [Hb]; · iexact Hb
    rw [reshapeBufs_eq, val2_fst (by decide), val2_snd]
    isplitl [Hx]; · iexact Hx
    iexact Hi
  rw [reshapeBufs_eq, (opReshape (F := F)).result_of_not_mem (val2 xD iD x f) (b := xD) (show xD ∉ ({iD} : Finset (DevRef τ sig)) by decide),
    val2_fst (by decide),
    show (opReshape (F := F)).result (val2 xD iD x f) iD = (shapeCast S819200 x shapeCasts_S16384x50_S819200 : Buf (Elt F) (iLoc d)) from
      (StableHlo.reshape_result _ _ _ _ _ _ _).trans (by rw [val2_fst (by decide)]; rfl)]
  iintro ⟨Hb, Hx, Hi⟩
  rw [wp_ret]; imodintro
  iapply Hk
  isplitl [Hb]; · iexact Hb
  isplitl [Hx]; · iexact Hx
  iexists (shapeCast S819200 x shapeCasts_S16384x50_S819200 : Buf (Elt F) (iLoc d))
  isplitr; · ipureintro; exact flattens_shapeCast x _
  iexact Hi

/-- THE TRANSPOSE, ONE STEP: holding the boundary, the kept columns transposed (`keepT Pw`, where `Pw` agrees with the
    result on the lower 64 columns) and the result's buffer at any contents, the line runs and hands back the boundary,
    the kept columns unchanged, and the result's buffer at `Cert.Spec.G x Tb`. -/
theorem wp_transpose (d : Dev nD) (x : Cert.Spec.SX.Idx → BitVec 32) (Tb : Cert.Spec.ST.Idx → Elt F .f32) (Pw : Buf (Elt F) (pLoc d))
    (hP : ∀ (b : Fin 16384) (h : Fin 50) (k : Fin 64), Pw (ix3 b h (k.castLE (by decide))) = Cert.Spec.G x Tb (ix3 b h k))
    (Φ : PUnit → sProp 𝕄) :
    iprop(boundary (T d) ∗ (sLoc d ↦{fullShare} (keepT Pw : Buf (Elt F) (sLoc d)))
        ∗ (∃ f : Buf (Elt F) (rLoc d), rLoc d ↦{fullShare} f)
        ∗ ((boundary (T d) ∗ (sLoc d ↦{fullShare} (keepT Pw : Buf (Elt F) (sLoc d)))
              ∗ (rLoc d ↦{fullShare} (Cert.Spec.G x Tb : Buf (Elt F) (rLoc d)))) -∗ Φ ⟨⟩))
      ⊢ wp frame (wpE ((K (F := F)).defs (D (F := F))) 𝒱 (T d) none) Set.univ
          (hlo rfl (opTranspose (F := F)) (fun _ => .ret ⟨⟩)) Φ := by
  iintro ⟨Hb, Hs, ⟨%f, Hr⟩, Hk⟩
  iapply (wp_hlo 𝒱 (T d) none Set.univ (op := opTranspose (F := F)) (q := fun _ => fullShare)
    (F := val2 sD rD (keepT Pw : Buf (Elt F) (sLoc d)) f) (fun _ _ => rfl)) $$ [Hb Hs Hr]
  · isplitl [Hb]; · iexact Hb
    rw [transposeBufs_eq, val2_fst (by decide), val2_snd]
    isplitl [Hs]; · iexact Hs
    iexact Hr
  rw [transposeBufs_eq,
    (opTranspose (F := F)).result_of_not_mem (val2 sD rD (keepT Pw : Buf (Elt F) (sLoc d)) f) (b := sD) (show sD ∉ ({rD} : Finset (DevRef τ sig)) by decide),
    val2_fst (by decide),
    show (opTranspose (F := F)).result (val2 sD rD (keepT Pw : Buf (Elt F) (sLoc d)) f) rD = (Cert.Spec.G x Tb : Buf (Elt F) (rLoc d)) from
      (StableHlo.unary_result _ _ _ _ _ _).trans (by rw [val2_fst (by decide)]; exact transpose_keepT x Tb Pw hP _)]
  iintro ⟨Hb, Hs, Hr⟩
  rw [wp_ret]; imodintro
  iapply Hk
  isplitl [Hb]; · iexact Hb
  isplitl [Hs]; · iexact Hs
  iexact Hr

end Cert.KernelIdeal.Run

end
-- ==== Proof.KernelIdeal.TileSetup.lean ====
/-
  One vector subcore's task: the names of what it touches.

  The subcore owns two lists of 400 row numbers, two buffers of 400 widened rows and eight DMA semaphores; the launch hands
  them over among all it owns, and here they are taken out of that family by name. A word of the flat row numbers is a row
  number of the table, so a list just filled from them names rows of the table only, whatever it held before.
-/
import proofs.«206271_g21749714387155_cont_8to1_2007_29_alg».proof.Proof.KernelIdeal.Iface
import Idealize.ShloMosaic.Lib.SparseCore.Stream
import Idealize.ShloMosaic.Lib.Transfers
import Idealize.ShloMosaic.Lib.Tactic

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The subcore's own memory, by name -/

section Setup

variable (d : Dev nD) (L : grid1.Coords)

/-- The widened table, the flat row numbers and the widened result as the subcore's kernel names them. -/
abbrev wV : Memref sig .scVector .hbm S1000000x128 .f32 := Memref.whole main_v1_scv
abbrev iV : Memref sig .scVector .hbm S819200 .i32 := Memref.whole main_v0_scv
abbrev pV : Memref sig .scVector .hbm S16384x50x128 .f32 := Memref.whole main_v2_scv
/-- The two lists of row numbers and the two buffers of rows. -/
abbrev lA : Memref sig .scVector .vmem S400 .i32 := Memref.whole cc1_scratch0
abbrev lB : Memref sig .scVector .vmem S400 .i32 := Memref.whole cc1_scratch1
abbrev rA : Memref sig .scVector .vmem S400x128 .f32 := Memref.whole cc1_scratch2
abbrev rB : Memref sig .scVector .vmem S400x128 .f32 := Memref.whole cc1_scratch3

/-- The cell of one of the subcore's DMA semaphores. -/
abbrev cellOf (s : DmaSems sig S_) : GSem nD τ sig := (V d (cV L) (jV L), .dma s.sem)

omit [FloatOps F] in
theorem cell_mem (s : DmaSems sig S_) (h : (SemLoc.dma s.sem : SemLoc sig).isScoped .scVector = true) :
    cellOf d L s ∈ ownCells (sig := sig) (V d (cV L) (jV L)) :=
  (mem_ownCells (g := cellOf d L s)).mpr ⟨rfl, h⟩

omit [FloatOps F] in
theorem cell_ne {s s' : DmaSems sig S_} (h : s.sem ≠ s'.sem) : cellOf d L s ≠ cellOf d L s' := fun e =>
  h (SemLoc.dma.inj (congrArg Prod.snd e))

/-- The subcore's eight DMA semaphores are among its own cells: they are them, at zero, and the rest. -/
def semsRest : Finset (GSem nD τ sig) :=
  ((((((((ownCells (sig := sig) (V d (cV L) (jV L))).erase (cellOf d L cc1_scratch4)).erase (cellOf d L cc1_scratch5)).erase (cellOf d L cc1_scratch6)).erase
    (cellOf d L cc1_scratch7)).erase (cellOf d L cc1_scoped0)).erase (cellOf d L cc1_scoped1)).erase (cellOf d L cc1_scoped2)).erase (cellOf d L cc1_scoped3)

omit [FloatOps F] in
theorem ownSems0_V :
    (ownSems0 (V d (cV L) (jV L)) : sProp 𝕄)
      = iprop(semVal (cellOf d L cc1_scratch4) 0 ∗ semVal (cellOf d L cc1_scratch5) 0 ∗ semVal (cellOf d L cc1_scratch6) 0 ∗ semVal (cellOf d L cc1_scratch7) 0
          ∗ semVal (cellOf d L cc1_scoped0) 0 ∗ semVal (cellOf d L cc1_scoped1) 0 ∗ semVal (cellOf d L cc1_scoped2) 0 ∗ semVal (cellOf d L cc1_scoped3) 0
          ∗ bigSep (semsRest d L) fun g => semVal g 0) := by
  unfold SparseCore.Cfg.ownSems0 semsRest
  have m4 := cell_mem d L cc1_scratch4 (by decide)
  have m5 := Finset.mem_erase.mpr ⟨cell_ne d L (s := cc1_scratch5) (s' := cc1_scratch4) (by decide), cell_mem d L cc1_scratch5 (by decide)⟩
  have m6 := Finset.mem_erase.mpr ⟨cell_ne d L (s := cc1_scratch6) (s' := cc1_scratch5) (by decide),
    Finset.mem_erase.mpr ⟨cell_ne d L (s := cc1_scratch6) (s' := cc1_scratch4) (by decide), cell_mem d L cc1_scratch6 (by decide)⟩⟩
  have m7 := Finset.mem_erase.mpr ⟨cell_ne d L (s := cc1_scratch7) (s' := cc1_scratch6) (by decide), Finset.mem_erase.mpr ⟨cell_ne d L (s := cc1_scratch7) (s' := cc1_scratch5) (by decide),
    Finset.mem_erase.mpr ⟨cell_ne d L (s := cc1_scratch7) (s' := cc1_scratch4) (by decide), cell_mem d L cc1_scratch7 (by decide)⟩⟩⟩
  have m8 := Finset.mem_erase.mpr ⟨cell_ne d L (s := cc1_scoped0) (s' := cc1_scratch7) (by decide), Finset.mem_erase.mpr ⟨cell_ne d L (s := cc1_scoped0) (s' := cc1_scratch6) (by decide),
    Finset.mem_erase.mpr ⟨cell_ne d L (s := cc1_scoped0) (s' := cc1_scratch5) (by decide),
    Finset.mem_erase.mpr ⟨cell_ne d L (s := cc1_scoped0) (s' := cc1_scratch4) (by decide), cell_mem d L cc1_scoped0 (by decide)⟩⟩⟩⟩
  have m9 := Finset.mem_erase.mpr ⟨cell_ne d L (s := cc1_scoped1) (s' := cc1_scoped0) (by decide), Finset.mem_erase.mpr ⟨cell_ne d L (s := cc1_scoped1) (s' := cc1_scratch7) (by decide),
    Finset.mem_erase.mpr ⟨cell_ne d L (s := cc1_scoped1) (s' := cc1_scratch6) (by decide), Finset.mem_erase.mpr ⟨cell_ne d L (s := cc1_scoped1) (s' := cc1_scratch5) (by decide),
    Finset.mem_erase.mpr ⟨cell_ne d L (s := cc1_scoped1) (s' := cc1_scratch4) (by decide), cell_mem d L cc1_scoped1 (by decide)⟩⟩⟩⟩⟩
  have m10 := Finset.mem_erase.mpr ⟨cell_ne d L (s := cc1_scoped2) (s' := cc1_scoped1) (by decide), Finset.mem_erase.mpr ⟨cell_ne d L (s := cc1_scoped2) (s' := cc1_scoped0) (by decide),
    Finset.mem_erase.mpr ⟨cell_ne d L (s := cc1_scoped2) (s' := cc1_scratch7) (by decide),
    Finset.mem_erase.mpr ⟨cell_ne d L (s := cc1_scoped2) (s' := cc1_scratch6) (by decide), Finset.mem_erase.mpr ⟨cell_ne d L (s := cc1_scoped2) (s' := cc1_scratch5) (by decide),
    Finset.mem_erase.mpr ⟨cell_ne d L (s := cc1_scoped2) (s' := cc1_scratch4) (by decide), cell_mem d L cc1_scoped2 (by decide)⟩⟩⟩⟩⟩⟩
  have m11 := Finset.mem_erase.mpr ⟨cell_ne d L (s := cc1_scoped3) (s' := cc1_scoped2) (by decide), Finset.mem_erase.mpr ⟨cell_ne d L (s := cc1_scoped3) (s' := cc1_scoped1) (by decide),
    Finset.mem_erase.mpr ⟨cell_ne d L (s := cc1_scoped3) (s' := cc1_scoped0) (by decide), Finset.mem_erase.mpr ⟨cell_ne d L (s := cc1_scoped3) (s' := cc1_scratch7) (by decide),
    Finset.mem_erase.mpr ⟨cell_ne d L (s := cc1_scoped3) (s' := cc1_scratch6) (by decide), Finset.mem_erase.mpr ⟨cell_ne d L (s := cc1_scoped3) (s' := cc1_scratch5) (by decide),
    Finset.mem_erase.mpr ⟨cell_ne d L (s := cc1_scoped3) (s' := cc1_scratch4) (by decide), cell_mem d L cc1_scoped3 (by decide)⟩⟩⟩⟩⟩⟩⟩
  rw [SparseCore.bigSep_erase' m4, SparseCore.bigSep_erase' m5, SparseCore.bigSep_erase' m6, SparseCore.bigSep_erase' m7,
    SparseCore.bigSep_erase' m8, SparseCore.bigSep_erase' m9, SparseCore.bigSep_erase' m10, SparseCore.bigSep_erase' m11]

/-- One of the subcore's own buffers. -/
abbrev refOf (b : Ref sig .scVector) : DevRef τ sig := (Proc.scVector (cV L) (jV L)).devRef b

omit [FloatOps F] in
theorem ref_mem (b : Ref sig .scVector) (h : (refOf L b).owner = .proc (Proc.scVector (cV L) (jV L))) : refOf L b ∈ ownRefs (sig := sig) (Proc.scVector (cV L) (jV L)) :=
  SparseCore.Cfg.mem_ownRefs_of_owner h

omit [FloatOps F] in
theorem ref_ne {b b' : Ref sig .scVector} (h : b ≠ b') : refOf L b ≠ refOf L b' := fun e => h (Proc.devRef_injective _ e)

def bufsRest : Finset (DevRef τ sig) :=
  ((((ownRefs (sig := sig) (τ := τ) (.scVector (cV L) (jV L))).erase (refOf L cc1_scratch0)).erase (refOf L cc1_scratch1)).erase (refOf L cc1_scratch2)).erase (refOf L cc1_scratch3)

omit [FloatOps F] in
/-- The two lists and the two buffers of rows are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (bufsRest L) fun b => iprop(∃ f, ((d, b) : Loc nD τ sig) ↦{fullShare} f)) := by
  unfold SparseCore.Cfg.ownBufs bufsRest
  have m0 := ref_mem L cc1_scratch0 rfl
  have m1 := Finset.mem_erase.mpr ⟨ref_ne L (b := cc1_scratch1) (b' := cc1_scratch0) (by decide), ref_mem L cc1_scratch1 rfl⟩
  have m2 := Finset.mem_erase.mpr ⟨ref_ne L (b := cc1_scratch2) (b' := cc1_scratch1) (by decide),
    Finset.mem_erase.mpr ⟨ref_ne L (b := cc1_scratch2) (b' := cc1_scratch0) (by decide), ref_mem L cc1_scratch2 rfl⟩⟩
  have m3 := Finset.mem_erase.mpr ⟨ref_ne L (b := cc1_scratch3) (b' := cc1_scratch2) (by decide), Finset.mem_erase.mpr ⟨ref_ne L (b := cc1_scratch3) (b' := cc1_scratch1) (by decide),
    Finset.mem_erase.mpr ⟨ref_ne L (b := cc1_scratch3) (b' := cc1_scratch0) (by decide), ref_mem L cc1_scratch3 rfl⟩⟩⟩
  refine (SparseCore.bigSep_erase' m0).trans ?_
  rw [SparseCore.bigSep_erase' m1, SparseCore.bigSep_erase' m2, SparseCore.bigSep_erase' m3]

end Setup

section Pts
variable (d : Dev nD) (L : grid1.Coords)

omit [FloatOps F] in
theorem pts_i (q : PosShare TreeShare) (f : Buf (Elt F) (iLoc d)) :
    ((iV).view.loc (V d (cV L) (jV L)) ↦{q} f : sProp 𝕄) = iLoc d ↦{q} f := rfl
omit [FloatOps F] in
theorem pts_w (q : PosShare TreeShare) (f : Buf (Elt F) (wLoc d)) :
    ((wV).view.loc (V d (cV L) (jV L)) ↦{q} f : sProp 𝕄) = wLoc d ↦{q} f := rfl
omit [FloatOps F] in
theorem pts_lA (f : Buf (Elt F) ((V d (cV L) (jV L)).loc cc1_scratch0)) :
    ((lA).view.loc (V d (cV L) (jV L)) ↦{fullShare} f : sProp 𝕄) = (V d (cV L) (jV L)).loc cc1_scratch0 ↦{fullShare} f := rfl
omit [FloatOps F] in
theorem pts_lB (f : Buf (Elt F) ((V d (cV L) (jV L)).loc cc1_scratch1)) :
    ((lB).view.loc (V d (cV L) (jV L)) ↦{fullShare} f : sProp 𝕄) = (V d (cV L) (jV L)).loc cc1_scratch1 ↦{fullShare} f := rfl
omit [FloatOps F] in
theorem pts_rA (f : Buf (Elt F) ((V d (cV L) (jV L)).loc cc1_scratch2)) :
    ((rA).view.loc (V d (cV L) (jV L)) ↦{fullShare} f : sProp 𝕄) = (V d (cV L) (jV L)).loc cc1_scratch2 ↦{fullShare} f := rfl
omit [FloatOps F] in
theorem pts_rB (f : Buf (Elt F) ((V d (cV L) (jV L)).loc cc1_scratch3)) :
    ((rB).view.loc (V d (cV L) (jV L)) ↦{fullShare} f : sProp 𝕄) = (V d (cV L) (jV L)).loc cc1_scratch3 ↦{fullShare} f := rfl
end Pts

section Hin
variable (d : Dev nD) (L : grid1.Coords)

/-- A word of the flat row numbers, read through a 400-word stretch of them, is a row number of the table. -/
theorem idx_read_lt {I : Buf (Elt F) (iLoc d)} (hI : ∀ j, (I j).toNat ≤ 999999) (off : Fin 1 → Nat) (hoff : ∀ a, off a + S400.size a ≤ S819200.size a)
    (x : S400.Idx) :
    BitVec.toNat (ReadAs.same.apply (View.read (Elt F) ((Memref.whole main_v0_scv : Memref sig .scVector .hbm S819200 .i32).slice (Rect.unit off S400.size hoff) (fun _ => rfl)).view I) x) < 1000000 :=
  Nat.lt_succ_of_le (hI _)

/-- The list A, just filled from a stretch of the flat row numbers, names rows of the table only — whatever it held before. -/
theorem hinA {I : Buf (Elt F) (iLoc d)} (hI : ∀ j, (I j).toNat ≤ 999999) (g : Buf (Elt F) ((V d (cV L) (jV L)).loc cc1_scratch0))
    (off : Fin 1 → Nat) (hoff : ∀ a, off a + S400.size a ≤ S819200.size a) :
    ∀ x : cc1_scratch0.ty.shape.Idx, BitVec.toNat (View.read (Elt F) (Memref.whole cc1_scratch0).view
      (View.write (Elt F) (Memref.whole cc1_scratch0).view g
        (ReadAs.same.apply (View.read (Elt F) ((Memref.whole main_v0_scv : Memref sig .scVector .hbm S819200 .i32).slice (Rect.unit off S400.size hoff) (fun _ => rfl)).view I)) Finset.univ) x) < 1000000 := by
  intro x
  rw [View.read_write_univ]
  exact idx_read_lt d hI off hoff x

theorem hinB {I : Buf (Elt F) (iLoc d)} (hI : ∀ j, (I j).toNat ≤ 999999) (g : Buf (Elt F) ((V d (cV L) (jV L)).loc cc1_scratch1))
    (off : Fin 1 → Nat) (hoff : ∀ a, off a + S400.size a ≤ S819200.size a) :
    ∀ x : cc1_scratch1.ty.shape.Idx, BitVec.toNat (View.read (Elt F) (Memref.whole cc1_scratch1).view
      (View.write (Elt F) (Memref.whole cc1_scratch1).view g
        (ReadAs.same.apply (View.read (Elt F) ((Memref.whole main_v0_scv : Memref sig .scVector .hbm S819200 .i32).slice (Rect.unit off S400.size hoff) (fun _ => rfl)).view I)) Finset.univ) x) < 1000000 := by
  intro x
  rw [View.read_write_univ]
  exact idx_read_lt d hI off hoff x

end Hin

end Cert.KernelIdeal.Run

end
-- ==== Proof.KernelIdeal.TileInv.lean ====
/-
  One vector subcore's task: what its loop keeps, and how the task's batch rows are cut.

  The loop's thirty-two trips each copy out two chunks of eight batch rows — from the rows A and from the rows B — and
  re-issue the two gathers for the chunks two ahead. Before trip `t` both gathers are in flight, for chunks `2 t` and
  `2 t + 1` (after the last trip: twice the last chunk, whose rows are never copied out), and the batch rows of the trips
  before hold the widened rows taken. The task's 512 batch rows are the trips' sixteen each, eight and eight.
-/
import proofs.«206271_g21749714387155_cont_8to1_2007_29_alg».proof.Proof.KernelIdeal.TileSetup
import Idealize.ShloMosaic.Lib.SparseCore.Stream
import Idealize.ShloMosaic.Lib.Transfers
import Idealize.ShloMosaic.Lib.Tactic

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## What the loop keeps -/

section Inv

variable (d : Dev nD) (L : grid1.Coords) (I : Buf (Elt F) (iLoc d)) (Tw : Buf (Elt F) (wLoc d))

/-- The widened table as the gathers read it: all of it. -/
abbrev wS : Memref sig .scVector .hbm S1000000x128 .f32 :=
  wV.slice (Rect.unit (s := S1000000x128) ![0, 0] S1000000x128.size inb_S1000000x128_S1000000x128_0_0) (fun _ => rfl)

/-- The eight batch rows of the widened result that trip `t` fills from the rows A, and the eight it fills from the rows B. -/
abbrev rectA (t : Fin k1_t1_loop.trips) : Rect S16384x50x128 := Rect.unit (s := S16384x50x128) (k1_off3 L t) S8x50x128.size (k1_off3_inb L t)
abbrev rectB (t : Fin k1_t1_loop.trips) : Rect S16384x50x128 := Rect.unit (s := S16384x50x128) (k1_off4 L t) S8x50x128.size (k1_off4_inb L t)
abbrev vA (t : Fin k1_t1_loop.trips) : Memref sig .scVector .hbm S8x50x128 .f32 := pV.slice (rectA L t) (fun _ => rfl)
abbrev vB (t : Fin k1_t1_loop.trips) : Memref sig .scVector .hbm S8x50x128 .f32 := pV.slice (rectB L t) (fun _ => rfl)

/-- Where, in the flat row numbers, the list A (the list B) was filled from before trip `t`: the task's chunk `2 t`
    (`2 t + 1`), and the task's last chunk once there is no such chunk. -/
def aOff (t : ℕ) : ℕ := min (51200 * (L 1).val + 25600 * (L 0).val + 800 * t) (51200 * (L 1).val + 25600 * (L 0).val + 25200)
def bOff (t : ℕ) : ℕ := min (51200 * (L 1).val + 25600 * (L 0).val + 800 * t + 400) (51200 * (L 1).val + 25600 * (L 0).val + 25200)

/-- Word `n` of the flat row numbers. -/
def wordAt (n : ℕ) : BitVec 32 := if h : n < 819200 then I (ix1 (⟨n, h⟩ : Fin 819200)) else 0#32

/-- A buffer of 400 rows holds the widened table's rows that the 400 words from `o` on name. -/
def RowsOK (fr : S400x128.Idx → Elt F .f32) (o : ℕ) : Prop :=
  ∀ x : S400x128.Idx, fr x = Tw (ix2 (Cert.Spec.row (wordAt d I (o + (x 0).val))) (x 1 : Fin 128))

/-- The gather into the rows A (B) in flight: it delivers the rows, the list and the share of the table it reads. -/
def flightA (q : PosShare TreeShare) (fr : Buf (Elt F) ((rA).view.loc (V d (cV L) (jV L)))) (fl : Buf (Elt F) ((lA).view.loc (V d (cV L) (jV L)))) : sProp 𝕄 :=
  Transfers.Flight countersEmb (V d (cV L) (jV L)) (SemLoc.dma ⟨4, by decide⟩) (default : HIx 1) 1638400
    iprop((((rA).view.loc (V d (cV L) (jV L)) ↦{fullShare} fr) ∗ ((lA).view.loc (V d (cV L) (jV L)) ↦{fullShare} fl))
      ∗ ((wV).view.loc (V d (cV L) (jV L)) ↦[(wS).view.set]{q} Tw))
def flightB (q : PosShare TreeShare) (fr : Buf (Elt F) ((rB).view.loc (V d (cV L) (jV L)))) (fl : Buf (Elt F) ((lB).view.loc (V d (cV L) (jV L)))) : sProp 𝕄 :=
  Transfers.Flight countersEmb (V d (cV L) (jV L)) (SemLoc.dma ⟨5, by decide⟩) (default : HIx 1) 1638400
    iprop((((rB).view.loc (V d (cV L) (jV L)) ↦{fullShare} fr) ∗ ((lB).view.loc (V d (cV L) (jV L)) ↦{fullShare} fl))
      ∗ ((wV).view.loc (V d (cV L) (jV L)) ↦[(wS).view.set]{q} Tw))

/-- The batch rows trip `u` fills: the widened rows taken once it has run (`u < t`), anything before. -/
def pieceA (t : ℕ) (u : Fin k1_t1_loop.trips) : sProp 𝕄 :=
  if u.val < t then ((vA L u).view.loc (V d (cV L) (jV L)) ↦[(vA L u).view.set]{fullShare} (Cert.Spec.GW I Tw : Buf (Elt F) ((vA L u).view.loc (V d (cV L) (jV L)))))
  else iprop(∃ f, (vA L u).view.loc (V d (cV L) (jV L)) ↦[(vA L u).view.set]{fullShare} f)
def pieceB (t : ℕ) (u : Fin k1_t1_loop.trips) : sProp 𝕄 :=
  if u.val < t then ((vB L u).view.loc (V d (cV L) (jV L)) ↦[(vB L u).view.set]{fullShare} (Cert.Spec.GW I Tw : Buf (Elt F) ((vB L u).view.loc (V d (cV L) (jV L)))))
  else iprop(∃ f, (vB L u).view.loc (V d (cV L) (jV L)) ↦[(vB L u).view.set]{fullShare} f)
def pieces (t : ℕ) : sProp 𝕄 := bigSep Finset.univ fun u : Fin k1_t1_loop.trips => iprop(pieceA d L I Tw t u ∗ pieceB d L I Tw t u)

/-- Before trip `t`: both gathers in flight, for the task's chunks `2 t` and `2 t + 1`; the batch rows of the trips
    before hold the widened rows taken; the copy-outs' and the fetches' semaphores are at zero. -/
def inv (qi qw : PosShare TreeShare) (O : CellTallies nD τ sig (HIx 1)) (W : Waits sig (HIx 1)) (t : ℕ) (_ : PUnit) : sProp 𝕄 :=
  iprop(Transfers.MayWaits (V d (cV L) (jV L)) (none : HIx 1) O
    ∗ ((iV).view.loc (V d (cV L) (jV L)) ↦{qi} I)
    ∗ (∃ qa qb, ⌜(qa = qw.left ∧ qb = qw.right) ∨ (qa = qw.right ∧ qb = qw.left)⌝
        ∗ (∃ fr fl, ⌜RowsOK d I Tw ((rA).view.read (Elt F) fr) (aOff L t)⌝ ∗ flightA d L Tw qa fr fl)
        ∗ ((wV).view.loc (V d (cV L) (jV L)) ↦[Finset.univ \ (wS).view.set]{qa} Tw)
        ∗ (∃ fr fl, ⌜RowsOK d I Tw ((rB).view.read (Elt F) fr) (bOff L t)⌝ ∗ flightB d L Tw qb fr fl)
        ∗ ((wV).view.loc (V d (cV L) (jV L)) ↦[Finset.univ \ (wS).view.set]{qb} Tw))
    ∗ pieces d L I Tw t
    ∗ semVal (cellOf d L cc1_scratch6) 0 ∗ semVal (cellOf d L cc1_scratch7) 0 ∗ semVal (cellOf d L cc1_scoped2) 0 ∗ semVal (cellOf d L cc1_scoped3) 0
    ∗ ∃ W', ⌜∀ p ∈ W', p ∈ W ∨ p.2 = none⌝ ∗ owes (V d (cV L) (jV L)) O W')

end Inv

section PieceLemmas
variable (d : Dev nD) (L : grid1.Coords) (I : Buf (Elt F) (iLoc d)) (Tw : Buf (Elt F) (wLoc d))

omit [FloatOps F] in
theorem pieceA_not {t : ℕ} {u : Fin k1_t1_loop.trips} (h : ¬ u.val < t) :
    pieceA d L I Tw t u = iprop(∃ f, (vA L u).view.loc (V d (cV L) (jV L)) ↦[(vA L u).view.set]{fullShare} f) := by
  unfold pieceA; rw [if_neg h]
omit [FloatOps F] in
theorem pieceB_not {t : ℕ} {u : Fin k1_t1_loop.trips} (h : ¬ u.val < t) :
    pieceB d L I Tw t u = iprop(∃ f, (vB L u).view.loc (V d (cV L) (jV L)) ↦[(vB L u).view.set]{fullShare} f) := by
  unfold pieceB; rw [if_neg h]
omit [FloatOps F] in
theorem pieceA_done {t : ℕ} {u : Fin k1_t1_loop.trips} (h : u.val < t) :
    pieceA d L I Tw t u = ((vA L u).view.loc (V d (cV L) (jV L)) ↦[(vA L u).view.set]{fullShare} (Cert.Spec.GW I Tw : Buf (Elt F) ((vA L u).view.loc (V d (cV L) (jV L))))) := by
  unfold pieceA; rw [if_pos h]
omit [FloatOps F] in
theorem pieceB_done {t : ℕ} {u : Fin k1_t1_loop.trips} (h : u.val < t) :
    pieceB d L I Tw t u = ((vB L u).view.loc (V d (cV L) (jV L)) ↦[(vB L u).view.set]{fullShare} (Cert.Spec.GW I Tw : Buf (Elt F) ((vB L u).view.loc (V d (cV L) (jV L))))) := by
  unfold pieceB; rw [if_pos h]
end PieceLemmas

/-! ## The task's batch rows, trip by trip -/

section Geom
variable (L : grid1.Coords)

theorem trips_eq : k1_t1_loop.trips = 32 := by decide

/-- An index of the widened result lies in a box of whole batch rows exactly when its batch row does. -/
theorem mem_rows {off : Fin 3 → ℕ} {n : ℕ} {inb} (h1 : off 1 = 0) (h2 : off 2 = 0) (x : S16384x50x128.Idx) :
    x ∈ (Rect.unit (s := S16384x50x128) off ![n, 50, 128] inb).set ↔ off 0 ≤ (x 0).val ∧ (x 0).val < off 0 + n := by
  rw [Rect.mem_set_unit]
  constructor
  · intro h; exact h 0
  · intro h a
    match a with
    | 0 => exact h
    | 1 => rw [h1]; exact ⟨Nat.zero_le _, by simpa using (x 1).isLt⟩
    | 2 => rw [h2]; exact ⟨Nat.zero_le _, by simpa using (x 2).isLt⟩

theorem mem_rectA (t : Fin k1_t1_loop.trips) (x : S16384x50x128.Idx) :
    x ∈ (rectA L t).set ↔ 1024 * (L 1).val + 512 * (L 0).val + 16 * t.val ≤ (x 0).val ∧ (x 0).val < 1024 * (L 1).val + 512 * (L 0).val + 16 * t.val + 8 := by
  have e := k1_off3_eq L t
  rw [show (rectA L t) = Rect.unit (s := S16384x50x128) (k1_off3 L t) ![8, 50, 128] (k1_off3_inb L t) from rfl,
    mem_rows (by rw [e]; rfl) (by rw [e]; rfl), e]
  rfl

theorem mem_rectB (t : Fin k1_t1_loop.trips) (x : S16384x50x128.Idx) :
    x ∈ (rectB L t).set ↔ 1024 * (L 1).val + 512 * (L 0).val + 16 * t.val + 8 ≤ (x 0).val ∧ (x 0).val < 1024 * (L 1).val + 512 * (L 0).val + 16 * t.val + 16 := by
  have e := k1_off4_eq L t
  rw [show (rectB L t) = Rect.unit (s := S16384x50x128) (k1_off4 L t) ![8, 50, 128] (k1_off4_inb L t) from rfl,
    mem_rows (by rw [e]; rfl) (by rw [e]; rfl), e]
  rfl

theorem set_vA (t : Fin k1_t1_loop.trips) : (vA L t).view.set = (rectA L t).set := View.set_slice_whole _ _
theorem set_vB (t : Fin k1_t1_loop.trips) : (vB L t).view.set = (rectB L t).set := View.set_slice_whole _ _

theorem mem_pRows (x : S16384x50x128.Idx) :
    x ∈ pRows (wid L) ↔ 1024 * (L 1).val + 512 * (L 0).val ≤ (x 0).val ∧ (x 0).val < 1024 * (L 1).val + 512 * (L 0).val + 512 := by
  rw [show pRows (wid L) = (pRect (wid L)).set from View.set_slice_whole _ _, Rect.mem_set_unit]
  constructor
  · intro h
    have h0 := h 0
    simp only [Shape.partIx, Shape.partSize, wid, if_true] at h0
    have e : S16384x50x128.size 0 / 32 = 512 := by decide
    rw [e] at h0
    omega
  · intro h a
    match a with
    | 0 =>
      simp only [Shape.partIx, Shape.partSize, wid, if_true]
      have e : S16384x50x128.size 0 / 32 = 512 := by decide
      rw [e]; omega
    | 1 => exact ⟨by simp [Shape.partIx], by simpa [Shape.partIx, Shape.partSize] using (x 1).isLt⟩
    | 2 => exact ⟨by simp [Shape.partIx], by simpa [Shape.partIx, Shape.partSize] using (x 2).isLt⟩

end Geom

section Pieces
variable (d : Dev nD) (L : grid1.Coords) (I : Buf (Elt F) (iLoc d)) (Tw : Buf (Elt F) (wLoc d))

/-- The sixteen batch rows trip `u` fills. -/
def pairSet (u : Fin k1_t1_loop.trips) : Finset S16384x50x128.Idx := (rectA L u).set ∪ (rectB L u).set

theorem ab_disjoint (u : Fin k1_t1_loop.trips) : Disjoint (rectA L u).set (rectB L u).set := by
  rw [Finset.disjoint_left]
  intro x ha hb
  rw [mem_rectA] at ha
  rw [mem_rectB] at hb
  omega

theorem mem_pairSet (u : Fin k1_t1_loop.trips) (x : S16384x50x128.Idx) :
    x ∈ pairSet L u ↔ 1024 * (L 1).val + 512 * (L 0).val + 16 * u.val ≤ (x 0).val ∧ (x 0).val < 1024 * (L 1).val + 512 * (L 0).val + 16 * u.val + 16 := by
  unfold pairSet
  rw [Finset.mem_union, mem_rectA, mem_rectB]
  omega

theorem pairs_disjoint : ∀ u ∈ (Finset.univ : Finset (Fin k1_t1_loop.trips)), ∀ u' ∈ (Finset.univ : Finset (Fin k1_t1_loop.trips)), u ≠ u' →
    Disjoint (pairSet L u) (pairSet L u') := by
  intro u _ u' _ hne
  rw [Finset.disjoint_left]
  intro x ha hb
  rw [mem_pairSet] at ha hb
  have : u.val ≠ u'.val := fun e => hne (Fin.ext e)
  omega

theorem pairs_cover : (Finset.univ : Finset (Fin k1_t1_loop.trips)).biUnion (pairSet L) = pRows (wid L) := by
  ext x
  rw [Finset.mem_biUnion, mem_pRows]
  constructor
  · rintro ⟨u, -, hu⟩
    rw [mem_pairSet] at hu
    have h32 := trips_eq
    have := u.isLt
    omega
  · intro h
    refine ⟨⟨((x 0).val - (1024 * (L 1).val + 512 * (L 0).val)) / 16, by have h32 := trips_eq; omega⟩, Finset.mem_univ _, ?_⟩
    rw [mem_pairSet]
    show _ ≤ _ ∧ _ < _
    simp only []
    omega

end Pieces

section SplitJoin
variable (d : Dev nD) (L : grid1.Coords) (I : Buf (Elt F) (iLoc d)) (Tw : Buf (Elt F) (wLoc d))

omit [FloatOps F] in
/-- The task's batch rows are the trips' sixteen rows each, -/
theorem pRows_pairs (f : Buf (Elt F) (pLoc d)) :
    (pLoc d ↦[pRows (wid L)]{fullShare} f : sProp 𝕄) = bigSep Finset.univ fun u : Fin k1_t1_loop.trips => pLoc d ↦[pairSet L u]{fullShare} f := by
  rw [← pairs_cover L]
  exact pointsTo_biUnion (ℓ := pLoc d) Finset.univ (pairSet L) (pairs_disjoint L)

omit [FloatOps F] in
/-- each the eight rows from the rows A and the eight from the rows B. -/
theorem pair_split (u : Fin k1_t1_loop.trips) (f : Buf (Elt F) (pLoc d)) :
    (pLoc d ↦[pairSet L u]{fullShare} f : sProp 𝕄) ⊣⊢ iprop((pLoc d ↦[(rectA L u).set]{fullShare} f) ∗ (pLoc d ↦[(rectB L u).set]{fullShare} f)) :=
  pointsTo_union (ab_disjoint L u)

omit [FloatOps F] in
theorem pieces_split (P0 : Buf (Elt F) (pLoc d)) : (pLoc d ↦[pRows (wid L)]{fullShare} P0 : sProp 𝕄) ⊢ pieces d L I Tw 0 := by
  rw [pRows_pairs]; unfold pieces
  refine BI.bigSep_mono fun u _ => ?_
  rw [pieceA_not d L I Tw (Nat.not_lt_zero _), pieceB_not d L I Tw (Nat.not_lt_zero _), set_vA, set_vB]
  refine (pair_split d L u P0).1.trans ?_
  iintro ⟨HA, HB⟩
  isplitl [HA]
  · iexists P0; iexact HA
  · iexists P0; iexact HB

omit [FloatOps F] in
theorem pieces_join :
    pieces d L I Tw k1_t1_loop.trips ⊢ (pLoc d ↦[pRows (wid L)]{fullShare} (Cert.Spec.GW I Tw : Buf (Elt F) (pLoc d)) : sProp 𝕄) := by
  rw [pRows_pairs]; unfold pieces
  refine BI.bigSep_mono fun u _ => ?_
  rw [pieceA_done d L I Tw u.isLt, pieceB_done d L I Tw u.isLt, set_vA, set_vB]
  exact (pair_split d L u _).2

end SplitJoin

section Step
variable (d : Dev nD) (L : grid1.Coords) (I : Buf (Elt F) (iLoc d)) (Tw : Buf (Elt F) (wLoc d))

omit [FloatOps F] in
/-- Trip `k` done: its two pieces hold the widened rows taken; the other trips' pieces are as they were. -/
theorem pieces_step (k : Fin k1_t1_loop.trips) :
    iprop(((vA L k).view.loc (V d (cV L) (jV L)) ↦[(vA L k).view.set]{fullShare} (Cert.Spec.GW I Tw : Buf (Elt F) ((vA L k).view.loc (V d (cV L) (jV L)))))
        ∗ ((vB L k).view.loc (V d (cV L) (jV L)) ↦[(vB L k).view.set]{fullShare} (Cert.Spec.GW I Tw : Buf (Elt F) ((vB L k).view.loc (V d (cV L) (jV L)))))
        ∗ bigSep (Finset.univ.erase k) fun u : Fin k1_t1_loop.trips => iprop(pieceA d L I Tw k.val u ∗ pieceB d L I Tw k.val u))
      ⊢ bigSep Finset.univ fun u : Fin k1_t1_loop.trips => iprop(pieceA d L I Tw (k.val + 1) u ∗ pieceB d L I Tw (k.val + 1) u) := by
  rw [SparseCore.bigSep_erase' (Finset.mem_univ k), pieceA_done d L I Tw (Nat.lt_succ_self k.val), pieceB_done d L I Tw (Nat.lt_succ_self k.val)]
  have hc : (bigSep (Finset.univ.erase k) fun u : Fin k1_t1_loop.trips => iprop(pieceA d L I Tw k.val u ∗ pieceB d L I Tw k.val u) : sProp 𝕄)
      = bigSep (Finset.univ.erase k) fun u : Fin k1_t1_loop.trips => iprop(pieceA d L I Tw (k.val + 1) u ∗ pieceB d L I Tw (k.val + 1) u) := by
    refine bigSep_congr fun u hu => ?_
    have hne : u.val ≠ k.val := fun e => (Finset.mem_erase.mp hu).1 (Fin.ext e)
    unfold pieceA pieceB
    by_cases h : u.val < k.val
    · rw [if_pos h, if_pos h, if_pos (Nat.lt_succ_of_lt h), if_pos (Nat.lt_succ_of_lt h)]
    · have h' : ¬ u.val < k.val + 1 := by omega
      rw [if_neg h, if_neg h, if_neg h', if_neg h']
  rw [hc]
  iintro ⟨HA, HB, Hr⟩
  isplitl [HA HB]
  · isplitl [HA]; · iexact HA
    iexact HB
  · iexact Hr

end Step

end Cert.KernelIdeal.Run

end
-- ==== Proof.KernelIdeal.TileValue.lean ====
/-
  One vector subcore's task: what its transfers move.

  A list filled from 400 consecutive words of the flat row numbers, then a gather by that list, leaves in the 400 rows the
  widened table's rows those words name (each word is a row number, so the clamp in `Cert.Spec.row` does nothing). Read
  row-major as eight batch rows by fifty and copied out to batch rows `r0 …` of the widened result, with the words taken
  from `50 r0` on, they are there the widened rows taken: entry `(r0 + b, h, c)` is the table's row named by word
  `50 (r0 + b) + h`, column `c`.
-/
import proofs.«206271_g21749714387155_cont_8to1_2007_29_alg».proof.Proof.KernelIdeal.TileInv
import Idealize.ShloMosaic.Lib.SparseCore.Stream
import Idealize.ShloMosaic.Lib.Transfers
import Idealize.ShloMosaic.Lib.Tactic

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## What the gathers and the copy-outs move -/

section Value
variable (d : Dev nD) (L : grid1.Coords) (I : Buf (Elt F) (iLoc d)) (Tw : Buf (Elt F) (wLoc d))

omit [FloatOps F] in
theorem wordAt_eq {n : ℕ} (h : n < 819200) : wordAt d I n = I (ix1 (⟨n, h⟩ : Fin 819200)) := dif_pos h

omit [FloatOps F] in
/-- A 400-word stretch of the flat row numbers reads them from its offset on. -/
theorem read_idx_slice (off : Fin 1 → ℕ) (hoff : ∀ a, off a + S400.size a ≤ S819200.size a) (x : S400.Idx) :
    ReadAs.same.apply (View.read (Elt F) ((iV).slice (Rect.unit off S400.size hoff) (fun _ => rfl)).view I) x = wordAt d I (off 0 + (x 0).val) := by
  have h0 : off 0 + 400 ≤ 819200 := hoff 0
  have hx : (x 0).val < 400 := (x 0).isLt
  have h : off 0 + (x 0).val < 819200 := by omega
  rw [wordAt_eq d I h]
  show I _ = I _
  congr 1
  funext a
  match a with
  | ⟨0, _⟩ => exact Fin.ext (by show ((Rect.unit (s := S819200) off ![400] hoff).emb x 0).val = _; rw [Rect.emb_apply]; simp)

omit [FloatOps F] in
theorem wordAt_le (hI : ∀ j, (I j).toNat ≤ 999999) (n : ℕ) : (wordAt d I n).toNat ≤ 999999 := by
  unfold wordAt
  split
  · exact hI _
  · simp

omit [FloatOps F] in
/-- The gathers read the widened table itself. -/
theorem read_wS : (wS).view.read (Elt F) Tw = Tw := by
  funext y
  show Tw _ = Tw _
  congr 1
  funext a
  match a with
  | ⟨0, _⟩ => exact Fin.ext (by show ((Rect.unit (s := S1000000x128) ![0, 0] S1000000x128.size inb_S1000000x128_S1000000x128_0_0).emb y 0).val = _; rw [Rect.emb_apply]; simp)
  | ⟨1, _⟩ => exact Fin.ext (by show ((Rect.unit (s := S1000000x128) ![0, 0] S1000000x128.size inb_S1000000x128_S1000000x128_0_0).emb y 1).val = _; rw [Rect.emb_apply]; simp)

omit [FloatOps F] in
/-- After a gather by a list just filled from the 400 words at `off`, the rows are the widened table's rows those words name. -/
theorem rowsOK_gather {κ : Kind} {sp : Space} (v : View sig κ sp S400x128 .f32) (fr : v.ty.Contents (Elt F))
    {κ' : Kind} {sp' : Space} (vl : View sig κ' sp' S400 .i32) (fl : vl.ty.Contents (Elt F))
    (hI : ∀ j, (I j).toNat ≤ 999999) (off : Fin 1 → ℕ) (hoff : ∀ a, off a + S400.size a ≤ S819200.size a)
    (hn : S400.numel = S400x128.size gathers_S1000000x128_S400x128.axis')
    (hin : ∀ x, (vl.read (Elt F) (vl.write (Elt F) fl (ReadAs.same.apply (((iV).slice (Rect.unit off S400.size hoff) (fun _ => rfl)).view.read (Elt F) I)) Finset.univ) x).toNat < S1000000x128.size gathers_S1000000x128_S400x128.axis)
    (o : ℕ) (ho : off 0 = o) :
    RowsOK d I Tw (v.read (Elt F) (v.writes (Elt F) fr [⟨Rect.whole S400x128, SparseCore.gatherPayload gathers_S1000000x128_S400x128 ((wS).view.read (Elt F) Tw)
      (SparseCore.rows (vl.read (Elt F) (vl.write (Elt F) fl (ReadAs.same.apply (((iV).slice (Rect.unit off S400.size hoff) (fun _ => rfl)).view.read (Elt F) I)) Finset.univ)) hn hin)⟩])) o := by
  subst ho
  rw [View.read_writes_whole, read_wS]
  intro x
  unfold SparseCore.gatherPayload
  congr 1
  funext b
  match b with
  | ⟨0, hb⟩ =>
    rw [show (⟨0, hb⟩ : Fin S1000000x128.rank) = gathers_S1000000x128_S400x128.axis from Fin.ext rfl, Shape.Gathers.idx_axis]
    apply Fin.ext
    unfold SparseCore.rows
    show BitVec.toNat _ = _
    rw [View.read_write_univ, read_idx_slice]
    show _ = (Cert.Spec.row (wordAt d I (off 0 + (x 0).val))).val
    rw [Cert.Spec.row_val_of_le _ (wordAt_le d I hI _)]
    have hy : ∀ k : Fin S400.numel, ((S400.rowMajor.symm k) 0).val = k.val := fun k => by
      rw [← Shape.rowMajor_val_one, Equiv.apply_symm_apply]
    rw [hy]
    rfl
  | ⟨1, hb⟩ =>
    apply Fin.ext
    rw [Shape.Gathers.idx_of_ne _ _ _ _ (show (⟨1, hb⟩ : Fin S1000000x128.rank).val ≠ 0 from Nat.one_ne_zero)]
    rfl

omit [FloatOps F] in
/-- Row-major, entry `(b, h, c)` of eight batch rows by fifty is entry `(50 b + h, c)` of four hundred rows. -/
theorem reshape_400 (hnum : S8x50x128.numel = S400x128.numel) (j : S8x50x128.Idx) :
    Shape.reshapeEquiv hnum j = ix2 (⟨50 * (j 0).val + (j 1).val, by have := (j 0).isLt; have := (j 1).isLt; simp at *; omega⟩ : Fin 400) (j 2 : Fin 128) := by
  apply Shape.reshapeEquiv_eq_of_rowMajor
  refine (Shape.rowMajor_val_two (d := ![400, 128]) _).trans ?_
  refine Eq.trans ?_ (Shape.rowMajor_val_three (d := ![8, 50, 128]) j).symm
  show (50 * (j 0).val + (j 1).val) * 128 + (j 2).val = ((j 0).val * 50 + (j 1).val) * 128 + (j 2).val
  omega

omit [FloatOps F] in
/-- Where an entry of the eight batch rows at `r0` lies in the widened result. -/
theorem emb_rows8 (r0 : ℕ) (hoff : ∀ a, (![r0, 0, 0] : Fin 3 → ℕ) a + S8x50x128.size a ≤ S16384x50x128.size a) (j : S8x50x128.Idx) :
    (((pV.slice (Rect.unit (s := S16384x50x128) ![r0, 0, 0] S8x50x128.size hoff) (fun _ => rfl)).view.emb j) 0).val = r0 + (j 0).val
    ∧ (((pV.slice (Rect.unit (s := S16384x50x128) ![r0, 0, 0] S8x50x128.size hoff) (fun _ => rfl)).view.emb j) 1).val = (j 1).val
    ∧ (((pV.slice (Rect.unit (s := S16384x50x128) ![r0, 0, 0] S8x50x128.size hoff) (fun _ => rfl)).view.emb j) 2).val = (j 2).val := by
  refine ⟨?_, ?_, ?_⟩
  · show ((Rect.unit (s := S16384x50x128) ![r0, 0, 0] S8x50x128.size hoff).emb j 0).val = _
    rw [Rect.emb_apply]; simp
  · show ((Rect.unit (s := S16384x50x128) ![r0, 0, 0] S8x50x128.size hoff).emb j 1).val = _
    rw [Rect.emb_apply]; simp
  · show ((Rect.unit (s := S16384x50x128) ![r0, 0, 0] S8x50x128.size hoff).emb j 2).val = _
    rw [Rect.emb_apply]; simp

omit [FloatOps F] in
/-- The widened rows taken, at an entry `(r0 + b, h, c)`: the widened table's row that word `50 (r0 + b) + h` names. -/
theorem GW_at (i : S16384x50x128.Idx) (r0 b h : ℕ) (c : Fin 128) (e0 : (i 0).val = r0 + b) (e1 : (i 1).val = h) (e2 : (i 2).val = c.val)
    (hn : 50 * r0 + (50 * b + h) < 819200) :
    (Cert.Spec.GW I Tw : Buf (Elt F) (pLoc d)) i = Tw (ix2 (Cert.Spec.row (wordAt d I (50 * r0 + (50 * b + h)))) c) := by
  rw [wordAt_eq d I hn]
  show Tw (ix2 (Cert.Spec.row (I (ix1 (Cert.Spec.flat (i 0) (i 1))))) (i 2 : Fin 128)) = _
  have k1 : Cert.Spec.flat (i 0) (i 1) = (⟨50 * r0 + (50 * b + h), hn⟩ : Fin 819200) := Fin.ext (by show 50 * (i 0).val + (i 1).val = 50 * r0 + (50 * b + h); omega)
  have k2 : (i 2 : Fin 128) = c := Fin.ext e2
  rw [k1, k2]

omit [FloatOps F] in
/-- Eight batch rows filled from four hundred rows that hold the widened table's rows named by the words from `50 r0` on
    hold, at batch rows `r0 …`, the widened rows taken. -/
theorem piece_value (m : Memref sig .scVector .vmem S400x128 .f32) (hm : m.IsWhole) (fr : m.view.ty.Contents (Elt F))
    (off : Fin 3 → ℕ) (hoff : ∀ a, off a + S8x50x128.size a ≤ S16384x50x128.size a) (r0 : ℕ) (e : off = ![r0, 0, 0]) (o : ℕ) (ho : o = 50 * r0)
    (h : RowsOK d I Tw (m.view.read (Elt F) fr) o) (fp : (pV.slice (Rect.unit off S8x50x128.size hoff) (fun _ => rfl)).view.ty.Contents (Elt F)) :
    ∀ i ∈ (pV.slice (Rect.unit off S8x50x128.size hoff) (fun _ => rfl)).view.set,
      ((pV.slice (Rect.unit off S8x50x128.size hoff) (fun _ => rfl)).view.writes (Elt F) fp
        [⟨Rect.whole S8x50x128, ReadAs.same.apply ((m.reshape S8x50x128 reshapes_S400x128_S8x50x128.1 reshapes_S400x128_S8x50x128.2 hm.contiguous).view.read (Elt F) fr)⟩]) i
        = (Cert.Spec.GW I Tw : Buf (Elt F) (pLoc d)) i := by
  subst e ho
  intro i hi
  obtain ⟨j, -, rfl⟩ := Finset.mem_map.mp hi
  have hw := congrFun (View.read_writes_whole (pV.slice (Rect.unit ![r0, 0, 0] S8x50x128.size hoff) (fun _ => rfl)).view fp
    (ReadAs.same.apply ((m.reshape S8x50x128 reshapes_S400x128_S8x50x128.1 reshapes_S400x128_S8x50x128.2 hm.contiguous).view.read (Elt F) fr))) j
  refine (show _ = _ from hw).trans ?_
  have hr : ReadAs.same.apply ((m.reshape S8x50x128 reshapes_S400x128_S8x50x128.1 reshapes_S400x128_S8x50x128.2 hm.contiguous).view.read (Elt F) fr) j
      = m.view.read (Elt F) fr (Shape.reshapeEquiv reshapes_S400x128_S8x50x128.1 j) := rfl
  have h0 : r0 + 8 ≤ 16384 := hoff 0
  have hj0 : (j 0).val < 8 := (j 0).isLt
  have hj1 : (j 1).val < 50 := (j 1).isLt
  obtain ⟨e0, e1, e2⟩ := emb_rows8 r0 hoff j
  rw [hr, h, reshape_400, GW_at d I Tw _ r0 (j 0).val (j 1).val (j 2) e0 e1 e2 (by omega)]

end Value

end Cert.KernelIdeal.Run

end
-- ==== Proof.KernelIdeal.Tile.lean ====
/-
  One vector subcore's task, at a symbolic grid point.

  The subcore fetches its first two chunks of row numbers and starts the two gathers; each of the thirty-two trips then
  waits for the rows A, starts their copy-out to eight batch rows of the widened result, does the same for the rows B,
  re-fetches each list and re-issues each gather once the copy-out that read the rows is done; after the loop it waits
  for the last two gathers. Every semaphore has at most one transfer outstanding, a list is re-fetched only after the gather
  that reads it was waited for, and rows are re-gathered only after their copy-out was waited for. The task's 512 batch
  rows end holding the widened rows taken, and the subcore's buffers, semaphores and shares are as they were.
-/
import proofs.«206271_g21749714387155_cont_8to1_2007_29_alg».proof.Proof.KernelIdeal.TileValue
import Idealize.ShloMosaic.Lib.SparseCore.Stream
import Idealize.ShloMosaic.Lib.Transfers
import Idealize.ShloMosaic.Lib.Tactic

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

section TripP
variable (d : Dev nD) (L : grid1.Coords) (I : Buf (Elt F) (iLoc d)) (Tw : Buf (Elt F) (wLoc d))

omit [FloatOps F] in
theorem aOff_succ (k : Fin k1_t1_loop.trips) : (k1_off5 L k) 0 = aOff L (k.val + 1) := by
  rw [k1_off5_eq]; unfold aOff
  show min _ _ = min _ _
  omega
omit [FloatOps F] in
theorem bOff_succ (k : Fin k1_t1_loop.trips) : (k1_off6 L k) 0 = bOff L (k.val + 1) := by
  rw [k1_off6_eq]; unfold bOff
  show min _ _ = min _ _
  omega

/-- One trip. -/
theorem trip (hI : ∀ j, (I j).toNat ≤ 999999) (qi qw : PosShare TreeShare) (O : CellTallies nD τ sig (HIx 1)) (W : Waits sig (HIx 1))
    (v2 v3 v4 : BitVec 32) (k : Fin k1_t1_loop.trips) (acc : PUnit) :
    inv d L I Tw qi qw O W k.val acc
      ⊢ wp frame (wpE (defs₀ (F := F)) 𝒱₀ (V d (cV L) (jV L)) none) Set.univ
          (k1_t1_body L (Memref.whole main_v1_scv) (Memref.isWhole_whole _) (Memref.whole main_v0_scv) (Memref.isWhole_whole _) (Memref.whole main_v2_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3 v2 v3 v4 k acc)
          (inv d L I Tw qi qw O W (k.val + 1)) := by
  have hA := hinA (F := F) d L hI
  have hB := hinB (F := F) d L hI
  unfold inv pieces
  rw [SparseCore.bigSep_erase' (Finset.mem_univ k), pieceA_not d L I Tw (Nat.lt_irrefl k.val), pieceB_not d L I Tw (Nat.lt_irrefl k.val)]
  unfold flightA flightB
  iintro ⟨#Hmw, HI, ⟨%qa, %qb, %hq, ⟨%frA, %flA, %hrA, HfA⟩, HTa, ⟨%frB, %flB, %hrB, HfB⟩, HTb⟩, ⟨⟨⟨%fpA, HpA⟩, ⟨%fpB, HpB⟩⟩, Hrest⟩, H6, H7, H10, H11, %W', %hW', HO⟩
  unfold k1_t1_body
  sl_exec (disch := exact View.amount_pos _ _ (show 0 < S8x50x128.numel by decide))
  sl_step
  ihave HpA' := (Entails.of_eq (pointsTo_congr (piece_value d I Tw rA (Memref.isWhole_whole _) frA (k1_off3 L k) (k1_off3_inb L k) _ (k1_off3_eq L k) _ (by unfold aOff; have h32 := trips_eq; have := k.isLt; omega) hrA fpA))) $$ HpA
  ihave HpB' := (Entails.of_eq (pointsTo_congr (piece_value d I Tw rB (Memref.isWhole_whole _) frB (k1_off4 L k) (k1_off4_inb L k) _ (k1_off4_eq L k) _ (by unfold bOff; have h32 := trips_eq; have := k.isLt; omega) hrB fpB))) $$ HpB
  isplitr; · iexact Hmw
  isplitl [HI]; · iexact HI
  isplitl [HfA HTa HfB HTb]
  · iexists qa, qb
    isplitr; · ipureintro; exact hq
    isplitl [HfA]
    · iexists _, _
      isplitr
      rotate_left
      · iexact HfA
      · ipureintro; exact rowsOK_gather d I Tw _ _ _ _ hI _ _ _ _ _ (aOff_succ L k)
    isplitl [HTa]; · iexact HTa
    isplitl [HfB]
    · iexists _, _
      isplitr
      rotate_left
      · iexact HfB
      · ipureintro; exact rowsOK_gather d I Tw _ _ _ _ hI _ _ _ _ _ (bOff_succ L k)
    iexact HTb
  isplitl [HpA' HpB' Hrest]
  · iapply (pieces_step d L I Tw k)
    isplitl [HpA']; · iexact HpA'
    isplitl [HpB']; · iexact HpB'
    iexact Hrest
  isplitl [H6]; · iexact H6
  isplitl [H7]; · iexact H7
  isplitl [H10]; · iexact H10
  isplitl [H11]; · iexact H11
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
end TripP

section Main
variable (d : Dev nD) (L : grid1.Coords) (I : Buf (Elt F) (iLoc d)) (Tw : Buf (Elt F) (wLoc d))

omit [FloatOps F] in
theorem aOff_zero : (k1_off1 L) 0 = aOff L 0 := by
  rw [k1_off1_eq]; unfold aOff
  show 51200 * (L 1).val + 25600 * (L 0).val = min _ _
  omega
omit [FloatOps F] in
theorem bOff_zero : (k1_off2 L) 0 = bOff L 0 := by
  rw [k1_off2_eq]; unfold bOff
  show 51200 * (L 1).val + 25600 * (L 0).val + 400 = min _ _
  omega

omit [FloatOps F] in
/-- The two halves of a share, in either order, are the share. -/
theorem shares_join {qw qa qb : PosShare TreeShare} (hq : (qa = qw.left ∧ qb = qw.right) ∨ (qa = qw.right ∧ qb = qw.left))
    (ℓ : Loc nD τ sig) (f : Buf (Elt F) ℓ) : iprop((ℓ ↦{qa} f) ∗ (ℓ ↦{qb} f)) ⊢ (ℓ ↦{qw} f : sProp 𝕄) := by
  rcases hq with ⟨rfl, rfl⟩ | ⟨rfl, rfl⟩
  · exact (pointsTo_share (PosShare.mem_left_op_right qw)).2
  · exact sep_comm.1.trans (pointsTo_share (PosShare.mem_left_op_right qw)).2

theorem tile_body : TileBodyStmt F := by
  intro hF d L I Tw P0 qi qw hI O W hO
  have hA := hinA (F := F) d L hI
  have hB := hinB (F := F) d L hI
  rw [(K (F := F)).scopedBufs_V hF d (cV L) (jV L), SparseCore.Cfg.scopedSems0_V (Val := Elt F) d (cV L) (jV L), ownSems0_V, ownBufs_V]
  iintro ⟨#Hlv, -, ⟨HI, HT, HP⟩, ⟨⟨%f0, Hl0⟩, ⟨%f1, Hl1⟩, ⟨%f2, Hr0⟩, ⟨%f3, Hr1⟩, Hbufs⟩, ⟨H4, H5, H6, H7, H8, H9, H10, H11, Hsems⟩, HO⟩
  ihave Hmw := ((K (F := F)).mayWaits_none (thr := V d (cV L) (jV L)) hO) $$ Hlv
  ihave HI' := (Entails.of_eq (pts_i (F := F) d L _ _).symm) $$ HI
  ihave HT' := (Entails.of_eq (pts_w (F := F) d L _ _).symm) $$ HT
  ihave HT2 := (pointsTo_share (PosShare.mem_left_op_right qw)).1 $$ HT'
  icases HT2 with ⟨HTl, HTr⟩
  ihave HlA := (Entails.of_eq (pts_lA (F := F) d L _).symm) $$ Hl0
  ihave HlB := (Entails.of_eq (pts_lB (F := F) d L _).symm) $$ Hl1
  ihave HrA := (Entails.of_eq (pts_rA (F := F) d L _).symm) $$ Hr0
  ihave HrB := (Entails.of_eq (pts_rB (F := F) d L _).symm) $$ Hr1
  ihave Hpc := (pieces_split d L I Tw P0) $$ HP
  unfold cc1_gather_k
  sl_exec
  sl_for (inv d L I Tw qi qw O W) $$ [Hmw HI' H4 HTl H5 HTr Hpc H6 H7 H10 H11 HO]
  case region =>
    intro k acc
    exact trip d L I Tw hI qi qw O W _ _ _ k acc
  · unfold inv flightA flightB
    isplitr; · iexact Hmw
    isplitl [HI']; · iexact HI'
    isplitl [H4 HTl H5 HTr]
    · iexists qw.left, qw.right
      isplitr; · ipureintro; exact .inl ⟨rfl, rfl⟩
      isplitl [H4]
      · iexists _, _
        isplitr
        rotate_left
        · iexact H4
        · ipureintro; exact rowsOK_gather d I Tw _ _ _ _ hI _ _ _ _ _ (aOff_zero L)
      isplitl [HTl]; · iexact HTl
      isplitl [H5]
      · iexists _, _
        isplitr
        rotate_left
        · iexact H5
        · ipureintro; exact rowsOK_gather d I Tw _ _ _ _ hI _ _ _ _ _ (bOff_zero L)
      iexact HTr
    isplitl [Hpc]; · iexact Hpc
    isplitl [H6]; · iexact H6
    isplitl [H7]; · iexact H7
    isplitl [H10]; · iexact H10
    isplitl [H11]; · iexact H11
    iexists _; isplitr
    rotate_left
    · iexact HO
    · ipureintro; intro p hp
      rcases Finset.mem_insert.mp hp with rfl | hp
      · exact .inr rfl
      rcases Finset.mem_insert.mp hp with rfl | hp
      · exact .inr rfl
      · exact .inl hp
  iintro %acc HI
  unfold inv flightA flightB
  icases HI with ⟨-, HI', ⟨%qa, %qb, %hq, ⟨%frA, %flA, -, HfA⟩, HTa, ⟨%frB, %flB, -, HfB⟩, HTb⟩, Hpc, H6, H7, H10, H11, %W', %hW', HO⟩
  sl_exec
  sl_step
  isplitl [HI' HTa HTb Hpc]
  · isplitl [HI']; · iexact HI'
    isplitl [HTa HTb]
    · iapply (shares_join hq (wLoc d) Tw)
      isplitl [HTa]; · iexact HTa
      iexact HTb
    · iapply (pieces_join d L I Tw); iexact Hpc
  isplitl [HfA_dst HfA_dst_and HfB_dst HfB_dst_and Hbufs]
  · isplitl [HfA_dst_and]; · iexists _; iexact HfA_dst_and
    isplitl [HfB_dst_and]; · iexists _; iexact HfB_dst_and
    isplitl [HfA_dst]; · iexists _; iexact HfA_dst
    isplitl [HfB_dst]; · iexists _; iexact HfB_dst
    iexact Hbufs
  isplitl [HfA HfB H6 H7 H8 H9 H10 H11 Hsems]
  · isplitl [HfA]; · iexact HfA
    isplitl [HfB]; · iexact HfB
    isplitl [H6]; · iexact H6
    isplitl [H7]; · iexact H7
    isplitl [H8]; · iexact H8
    isplitl [H9]; · iexact H9
    isplitl [H10]; · iexact H10
    isplitl [H11]; · iexact H11
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    · exact hW' p hp
end Main

end Cert.KernelIdeal.Run

end
-- ==== Proof.KernelIdeal.RegionLib.lean ====
/-
  A property of every element a kernel region writes back is a property of the array it leaves.

  A pipelined kernel region writes an output array back block by block. When what the body leaves in the staging
  buffer is only CONSTRAINED (a relation between the contents it was handed and the contents it leaves), the array after
  the write-backs is known only as "its entry contents, each written-back block overwritten in point order by the moved
  part of SOME contents the body may have left". This module states the one induction a value proof needs over that
  description: if every element of every block that may be written back has a property `P` (stated of the array index it
  lands on and the value it carries), then every element of the final array that some written-back block covers has
  `P` — whichever point wrote it last wrote a value with the property.
-/
import Idealize.ShloMosaic.Lib.Pipeline.Value

noncomputable section

namespace Cert.KernelIdeal.Run

open Idealize.ShloMosaic Idealize.ShloMosaic.Pipeline
open Idealize.SL Idealize.SL.RA Idealize.SL.Sem

variable {nD : Nat} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD} (rd : RDat τ Val Ix Name U Lvl cfg c)

/-- If every element of whatever the body may leave at a written-back point has `P` where it lands, an index under the
    block of a written-back point below `n` has `P` after the write-backs below `n`. -/
theorem ArrAt_forall_of_leaves (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → P i (F i)
  | 0, _, _, _, _, ht, _, _ => absurd ht (Nat.not_lt_zero _)
  | n + 1, F, hF, t, i, ht, hf, hi => by
    by_cases hn : n < cfg.N
    swap
    · -- past the grid nothing changes, and `t` is below `n`
      rw [rd.ArrAt_stable w (n + 1) (by omega), ← rd.ArrAt_stable w n (by omega)] at hF
      exact ArrAt_forall_of_leaves w P hP n F hF t i (by have := t.isLt; omega) hf hi
    rw [show n + 1 = (⟨n, hn⟩ : Fin cfg.N).val + 1 from rfl, rd.ArrAt_succ] at hF
    by_cases hfn : (cfg.win w).flush ⟨n, hn⟩ = true
    · rw [if_pos hfn] at hF
      obtain ⟨G₀, X, hG₀, hX, rfl⟩ := hF
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact ArrAt_forall_of_leaves w P hP n G₀ hG₀ t i (by omega) hf hi
    · rw [if_neg hfn] at hF
      have htn : t.val ≠ n := fun e => hfn (by have : t = ⟨n, hn⟩ := Fin.ext e; exact this ▸ hf)
      exact ArrAt_forall_of_leaves w P hP n F hF t i (by omega) hf hi

/-- When the written-back blocks cover the array, every element of the array the region leaves has `P`. -/
theorem ArrAt_forall_of_cover (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y)))
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F)
    (i : ((cfg.win w).arr.view.loc (c.tc : Thread nD τ)).2.ty.Idx) : P i (F i) := by
  obtain ⟨t, hf, hi⟩ := hcover i
  exact ArrAt_forall_of_leaves rd w P hP cfg.N F hF t i t.isLt hf hi

end Cert.KernelIdeal.Run

end
-- ==== Proof.KernelIdeal.Region0Body.lean ====
/-
  Kernel region 0, the body: one block of the table widened.

  The body is handed two staging buffers: the input block `[4000, 64]` (a block of 4000 rows of the table) and the output
  block `[4000, 128]`. It loads the input block whole, loads the lower-left `[4000, 64]` rectangle of the output block
  (and does nothing with it), and stores the input block into that rectangle. So afterwards the output block holds the
  input block on its lower 64 columns; its upper 64 columns hold whatever they held. The input block is unchanged.
-/
import proofs.«206271_g21749714387155_cont_8to1_2007_29_alg».proof.Proof.KernelIdeal.Iface
import proofs.«206271_g21749714387155_cont_8to1_2007_29_alg».proof.Proof.KernelIdeal.RegionLib
import Idealize.ShloMosaic.Lib.Pipeline.FrameBody
import Idealize.ShloMosaic.Lib.Pipeline.Value
import Idealize.ShloMosaic.Lib.Tactic

noncomputable section

namespace Cert.KernelIdeal.Run

open Cert.KernelIdeal Cert.KernelIdeal.Gen

open Idealize.ShloMosaic Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MM F

/-! ## The body -/

/-- The input block whole, and the lower-left `[4000, 64]` rectangle of the output block. -/
abbrev r0in : Rect S4000x64 := Rect.unit (s := S4000x64) ![0, 0] S4000x64.size inb_S4000x64_S4000x64_0_0
abbrev r0out : Rect S4000x128 := Rect.unit (s := S4000x128) ![0, 0] S4000x64.size inb_S4000x128_S4000x64_0_0

/-- The output block `X` holds the input block `x0` on its lower 64 columns. -/
def Pads {α : Type} (x0 : S4000x64.Idx → α) (X : S4000x128.Idx → α) : Prop :=
  ∀ (r : Fin 4000) (k : Fin 64), X (ix2 r (k.castLE (by decide))) = x0 (ix2 r k)

/-- A buffer into whose lower-left rectangle the input block was stored holds it on its lower 64 columns, whatever it
    held before. -/
theorem pads_of_writes {sg : RefSig} {κ : Kind} {sp : Space} {Val : EltTy → Type} (v : View sg κ sp S4000x128 .f32)
    (f : v.ty.Contents Val) (x0 : S4000x64.Idx → Val .f32) :
    Pads x0 (v.read Val (v.writes Val f [⟨r0out, View.ld x0 r0in⟩])) := by
  intro r k
  have e1 : r0out.emb (ix2 (n0 := 4000) (n1 := 64) r k) = ix2 (n0 := 4000) (n1 := 128) r (k.castLE (by decide)) := by
    funext a; apply Fin.ext
    match a with
    | ⟨0, _⟩ => show 0 + 1 * r.val = r.val; omega
    | ⟨1, _⟩ => show 0 + 1 * k.val = k.val; omega
  rw [← e1, View.read_writes_cons_emb]
  show x0 (r0in.idx (ix2 (n0 := 4000) (n1 := 64) r k)) = _
  congr 1
  funext a; apply Fin.ext
  match a with
  | ⟨0, _⟩ => show 0 + 1 * r.val = r.val; omega
  | ⟨1, _⟩ => show 0 + 1 * k.val = k.val; omega

set_option maxHeartbeats 1000000 in
/-- The body: it keeps the input block and leaves the output block holding it on the lower 64 columns. -/
theorem sound_kernel0 (c : Dev nD) (E : Set ℕ) (i : grid0.Coords) (arg1 : Memref sig .tc .vmem S4000x64 .f32) (harg1 : arg1.IsWhole)
    (arg2 : Memref sig .tc .vmem S4000x128 .f32) (harg2 : arg2.IsWhole)
    (x0 : Vec F S4000x64 .f32) (d0 : Vec F S4000x128 .f32) (K : PUnit → sProp 𝕄) :
    iprop(owns (c.tc : Thread nD τ) arg1 fullShare x0 ∗ owns (c.tc : Thread nD τ) arg2 fullShare d0
        ∗ (iprop(owns (c.tc : Thread nD τ) arg1 fullShare x0 ∗ ∃ X, ⌜Pads x0 X⌝ ∗ owns (c.tc : Thread nD τ) arg2 fullShare X) -∗ K ⟨⟩))
      ⊢ wp frame (wpE (defs₀ (F := F)) Variants.none (c.tc : Thread nD τ) none) E (cc0__pad_body i arg1 harg1 arg2 harg2) K := by
  simp only [cc0__pad_body_eq_skeleton]; unfold cc0__pad_body_skel
  unfold owns
  iintro ⟨⟨%f0, %hf0, H0⟩, ⟨%f1, %hf1, H1⟩, Hk⟩
  subst hf0
  sl_exec
  sl_step
  iapply Hk
  isplitl [H0]
  · iexists f0; isplitr; · ipureintro; rfl
    iexact H0
  iexists _; isplitr
  swap
  · iexists _; isplitr
    swap; · iexact H1
    ipureintro; rfl
  ipureintro
  exact pads_of_writes _ _ _

end Cert.KernelIdeal.Run

end
-- ==== Proof.KernelIdeal.Region0Dat.lean ====
/-
  Kernel region 0, the proof data and the array the region leaves.

  The region runs 250 points; point `t` fetches rows `[4000 t, 4000 t + 4000)` of the table into the input's staging
  buffer, runs the body, and writes the output's staging buffer back to the same rows of the widened table. Because the
  body stores only the lower 64 columns of the output block, what the write-back leaves in the widened table is not a
  function of the table: it is CONSTRAINED — "block `t`, on the lower 64 columns, is block `t` of the table". The
  proof data says so as a relation on the output's staging buffer; the input's buffer is left as found.

  Every row of the widened table lies in exactly one block, every block is written back, and whichever write-back
  wrote an entry of the lower 64 columns last wrote the table's entry there: so the widened table the region leaves
  agrees with the table on the lower 64 columns (`Cert.Spec.Widens`).

  During the region the TensorCore owes the constant tallies `O` (the SparseCore call's start signals); its recorded
  waits stay within the set `W` it entered with, plus the staging cells' own pairs.
-/
import proofs.«206271_g21749714387155_cont_8to1_2007_29_alg».proof.Proof.KernelIdeal.Iface
import proofs.«206271_g21749714387155_cont_8to1_2007_29_alg».proof.Proof.KernelIdeal.RegionLib
import proofs.«206271_g21749714387155_cont_8to1_2007_29_alg».proof.Proof.KernelIdeal.Region0Body
import Idealize.ShloMosaic.Lib.Pipeline.FrameBody
import Idealize.ShloMosaic.Lib.Pipeline.Value
import Idealize.ShloMosaic.Lib.Tactic

noncomputable section

namespace Cert.KernelIdeal.Run

open Cert.KernelIdeal Cert.KernelIdeal.Gen

open Idealize.ShloMosaic Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MM F

/-! ## The proof data -/

/-- Block `t` of the table, as the fetch reads it. -/
def inBlk0 (c : Dev nD) (Tb : Buf (Elt F) (tLoc c)) (t : Fin cfg0.N) : ((cfg0.win 0).xblock (cfg0.grid.coords t)).Idx → Elt F (cfg0.win 0).elt :=
  ((cfg0.win 0).blk t).view.read (Elt F) Tb

/-- The proof data of the region: the table enters at `Tb` and the widened table at `f`; the body leaves the input's
    buffer as it found it, and the output's buffer holding block `t` of the table on its lower 64 columns; the core
    owes the constant tallies `O` throughout, with the recorded pairs within `W`. -/
def rdat0 (c : Dev nD) (Tb : Buf (Elt F) (tLoc c)) (f : Buf (Elt F) (wLoc c)) (O : CellTallies nD τ sig (HIx 1)) (W : Waits sig (HIx 1)) :
    RDat τ (Elt F) (HIx 1) ℕ UU ℕ cfg0 c where
  A w := match w with
    | ⟨0, _⟩ => Tb
    | ⟨1, _⟩ => f
  after w t := match w with
    | ⟨0, _⟩ => fun Y X => X = Y
    | ⟨1, _⟩ => fun _ X => Pads (inBlk0 c Tb t) X
  Φ _ := Pipeline.scopedRest (Ix := HIx 1) (Name := ℕ) (U := UU) (Lvl := ℕ) (Val := Elt F) spec0 c
  q _ := fullShare
  owed _ := O
  recorded _ := (↑W : Set (SemLoc sig × HIx 1))

theorem rdat0_A0 (c : Dev nD) (Tb f O W) : (rdat0 (F := F) c Tb f O W).A 0 = Tb := by dsimp only [rdat0]
theorem rdat0_A1 (c : Dev nD) (Tb f O W) : (rdat0 (F := F) c Tb f O W).A 1 = f := by dsimp only [rdat0]
theorem rdat0_after0 (c : Dev nD) (Tb f O W) (t Y X) : (rdat0 (F := F) c Tb f O W).after 0 t Y X = (X = Y) := by dsimp only [rdat0]
theorem rdat0_after1 (c : Dev nD) (Tb f O W) (t Y X) : (rdat0 (F := F) c Tb f O W).after 1 t Y X = Pads (inBlk0 c Tb t) X := by dsimp only [rdat0]

/-- What the body finds in the input's buffer: block `t` of the table. -/
theorem finds0_0 (c : Dev nD) (Tb f O W) (t : Fin cfg0.N) (Y) (hY : (rdat0 (F := F) c Tb f O W).Finds 0 t Y) : Y = inBlk0 c Tb t := by
  obtain ⟨d, hd⟩ := ((rdat0 c Tb f O W).finds_of_fetch (fetch0_0 t) Y).mp hY
  rw [hd]
  unfold RDat.fetched RDat.blockOf inBlk0
  rw [rdat0_A0]
  rfl

/-! ## The body obligation -/

theorem body_obligation0 (c : Dev nD) (Tb f O W) :
    (rdat0 (F := F) c Tb f O W).BodyObligation (defs₀ (F := F)) 𝒱₀ (none : HIx 1) Set.univ := fun t Y hY => by
  rw [bigSep_W0, bigSep_W0]
  have h0 := finds0_0 c Tb f O W t (Y 0) (hY 0)
  rw [show (rdat0 c Tb f O W).Φ t.succ = (rdat0 c Tb f O W).Φ t.castSucc from rfl,
    show (rdat0 c Tb f O W).owesAt (none : HIx 1) t.succ = (rdat0 c Tb f O W).owesAt (none : HIx 1) t.castSucc from rfl]
  simp only [rdat0_after0, rdat0_after1]
  rw [h0]
  iintro ⟨HΦ, Ho, H0, H1⟩
  iapply (sound_kernel0 (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (inBlk0 c Tb t) (Y 1) _)
  isplitl [H0]; · iexact H0
  isplitl [H1]; · iexact H1
  iintro ⟨H0, ⟨%X, %hX, H1⟩⟩
  isplitl [HΦ]; · iexact HΦ
  isplitl [Ho]; · iexact Ho
  isplitl [H0]
  · iexists _; isplitr; · ipureintro; rfl
    iexact H0
  · iexists X; isplitr; · ipureintro; exact hX
    iexact H1

/-! ## The array the region leaves -/

/-- The printed index maps, decided over the grid: block `t` of the table and of the widened table is rows `4000 t …`,
    all columns. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- An index of the widened table is in point `t`'s block iff each coordinate is in the block's range on its axis. -/
theorem mem_blk0_1 (t : Fin cfg0.N) (i : S1000000x128.Idx) :
    i ∈ ((cfg0.win 1).blk t).view.set ↔ ∀ a : Fin 2, win0_1.index t a * S4000x128.size a ≤ (i a).val ∧ (i a).val < win0_1.index t a * S4000x128.size a + S4000x128.size a := by
  show i ∈ ((View.whole main_v1).slice (win0_1.rect t)).set ↔ _
  rw [View.set_slice_whole, Rect.mem_set_unit]
  exact Iff.rfl

/-- An entry of the widened table in the lower 64 columns is the table's. -/
def LowerIs {α : Type} (Tb : Cert.Spec.ST.Idx → α) (i : S1000000x128.Idx) (v : α) : Prop :=
  ∀ h : (i 1).val < 64, v = Tb (ix2 (i 0 : Fin 1000000) (⟨(i 1).val, h⟩ : Fin 64))

theorem final0 (c : Dev nD) (Tb f O W) (G : Buf (Elt F) (wLoc c)) (hG : (rdat0 (F := F) c Tb f O W).ArrAt 1 cfg0.N G) :
    Cert.Spec.Widens (α := Elt F .f32) Tb G := by
  intro r d
  refine ArrAt_forall_of_cover (rdat0 c Tb f O W) 1 (fun i v => LowerIs Tb i v) ?hP ?hcover G hG
    (ix2 (n0 := 1000000) (n1 := 128) r (d.castLE (by decide))) d.isLt
  case hcover =>
    intro i
    have hi0 : (i 0).val < 1000000 := (i 0).isLt
    have hi1 : (i 1).val < 128 := (i 1).isLt
    refine ⟨⟨(i 0).val / 4000, by have : cfg0.N = 250 := N_0; omega⟩, flush0_1 _, ?_⟩
    rw [mem_blk0_1]
    obtain ⟨e0, e1, e2, e3⟩ := idx_facts0 ⟨(i 0).val / 4000, by have : cfg0.N = 250 := N_0; omega⟩
    intro a
    match a with
    | ⟨0, _⟩ => show win0_1.index _ (0 : Fin 2) * 4000 ≤ (i 0).val ∧ (i 0).val < win0_1.index _ (0 : Fin 2) * 4000 + 4000; rw [e2]; show (i 0).val / 4000 * 4000 ≤ (i 0).val ∧ (i 0).val < (i 0).val / 4000 * 4000 + 4000; omega
    | ⟨1, _⟩ => show win0_1.index _ (1 : Fin 2) * 128 ≤ (i 1).val ∧ (i 1).val < win0_1.index _ (1 : Fin 2) * 128 + 128; rw [e3]; omega
  case hP =>
    intro t _ X hX y
    obtain ⟨Y, -, hYX⟩ := hX
    rw [rdat0_after1] at hYX
    rw [cast_eq]
    intro h
    show X ((cfg0.win 1).xinj (cfg0.grid.coords t) y) = _
    obtain ⟨e0, e1, e2, e3⟩ := idx_facts0 t
    have hy1 : (y 1).val < 64 := by
      have h' : win0_1.index t (1 : Fin 2) * 128 + 1 * (y 1).val < 64 := h
      rw [e3] at h'; omega
    have ey : (cfg0.win 1).xinj (cfg0.grid.coords t) y
        = ix2 (n0 := 4000) (n1 := 128) (y 0) (Fin.castLE (n := 64) (by decide) ⟨(y 1).val, hy1⟩) := by
      funext a
      match a with
      | ⟨0, _⟩ => rfl
      | ⟨1, _⟩ => rfl
    rw [ey, hYX (y 0) ⟨(y 1).val, hy1⟩]
    unfold inBlk0
    show Tb (((cfg0.win 0).blk t).view.emb (ix2 (n0 := 4000) (n1 := 64) (y 0) ⟨(y 1).val, hy1⟩)) = _
    refine congrArg Tb (funext fun a => Fin.ext ?_)
    match a with
    | ⟨0, _⟩ =>
      show win0_0.index t (0 : Fin 2) * 4000 + 1 * (y 0).val = win0_1.index t (0 : Fin 2) * 4000 + 1 * (y 0).val
      rw [e0, e2]
    | ⟨1, _⟩ =>
      show win0_0.index t (1 : Fin 2) * 64 + 1 * (y 1).val = win0_1.index t (1 : Fin 2) * 128 + 1 * (y 1).val
      rw [e1, e3]

end Cert.KernelIdeal.Run

end
-- ==== Proof.KernelIdeal.Region0.lean ====
/-
  Kernel region 0 as one step of @main: the table widened.

  The region's record for the several-regions rule: the layout the launch decided, the body obligation, the evidence
  that the core may wait on its staging cells while it owes the constant tallies `O` (their index sits at the lowest
  level, every index `O` is positive at sits above it), and the four entailments of the region's protocol — at entry
  the table and the widened table's buffer become the region's two arrays and the owed tallies the first point's; the
  core's scoped buffers that stage nothing ride through the invariant; at exit the table is as it was (an input array
  is never written), the widened table holds some contents that agree with the table on the lower 64 columns, and the
  recorded waits are the ones the core entered with or the staging cells' own, whose index is `none`.

  The family of proof data has the other region's pipeline at a dummy that nothing consults.
-/
import proofs.«206271_g21749714387155_cont_8to1_2007_29_alg».proof.Proof.KernelIdeal.Iface
import proofs.«206271_g21749714387155_cont_8to1_2007_29_alg».proof.Proof.KernelIdeal.RegionLib
import proofs.«206271_g21749714387155_cont_8to1_2007_29_alg».proof.Proof.KernelIdeal.Region0Dat
import Idealize.ShloMosaic.Lib.Pipeline.Regions
import Idealize.ShloMosaic.Lib.Pipeline.FrameBody
import Idealize.ShloMosaic.Lib.Pipeline.Value
import Idealize.ShloMosaic.Lib.Tactic

noncomputable section

namespace Cert.KernelIdeal.Run

open Cert.KernelIdeal Cert.KernelIdeal.Gen

open Idealize.ShloMosaic Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MM F

/-! ## The region -/

theorem bigSep_fin0 {M : Type} [URA M] (Φ : Fin 0 → sProp M) : bigSep Finset.univ Φ = (BI.emp : sProp M) :=
  bigSep_univ_eq_bigSepL [] (by decide) (by decide) Φ

/-- The region's two arrays, whole: the table and the widened table. -/
theorem arrays0_eq (c : Dev nD) (Tb f O W)
    (Fa : (w : Fin cfg0.W) → Buf (Elt F) ((cfg0.win w).arr.view.loc (c.tc : Thread nD τ))) :
    ((rdat0 (F := F) c Tb f O W).arrays Fa : sProp 𝕄)
      = iprop((tLoc c ↦{fullShare} Fa 0) ∗ (wLoc c ↦{fullShare} Fa 1)) := by
  unfold RDat.arrays
  rw [bigSep_W0, (arr_whole0 0).set_eq_univ, (arr_whole0 1).set_eq_univ]
  rfl

/-- The two arrays after the write-backs below `n`. -/
theorem arraysAt0_eq (c : Dev nD) (Tb f O W) (n : Nat) :
    ((rdat0 (F := F) c Tb f O W).arraysAt n : sProp 𝕄)
      = iprop((∃ Fa : Buf (Elt F) (tLoc c), ⌜(rdat0 (F := F) c Tb f O W).ArrAt 0 n Fa⌝ ∗ (tLoc c ↦{fullShare} Fa))
          ∗ (∃ Fa : Buf (Elt F) (wLoc c), ⌜(rdat0 (F := F) c Tb f O W).ArrAt 1 n Fa⌝ ∗ (wLoc c ↦{fullShare} Fa))) := by
  unfold RDat.arraysAt
  rw [bigSep_W0, (arr_whole0 0).set_eq_univ, (arr_whole0 1).set_eq_univ]
  rfl

/-- No table is prefetched. -/
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

/-- Proof data for the other region, which this one does not consult. -/
def rdatOther2 (c : Dev nD) : RDat τ (Elt F) (HIx 1) ℕ UU ℕ cfg2 c where
  A _ := fun _ => default
  after _ _ _ _ := True
  Φ _ := iprop(emp)
  q _ := fullShare
  owed _ := 0

/-- The family of proof data: this region's at pipeline 0. -/
def rdats0 (TbA : (c : Dev nD) → Buf (Elt F) (tLoc c)) (fA : (c : Dev nD) → Buf (Elt F) (wLoc c))
    (OA : Dev nD → CellTallies nD τ sig (HIx 1)) (WA : Dev nD → Waits sig (HIx 1)) :
    (p : Fin 2) → (c : Dev nD) → RDat τ (Elt F) (HIx 1) ℕ UU ℕ (Pipeline.pin (pcfgs (F := F)) adm p) c
  | ⟨0, _⟩ => fun c => rdat0 c (TbA c) (fA c) (OA c) (WA c)
  | ⟨1, _⟩ => fun c => rdatOther2 c

set_option backward.isDefEq.respectTransparency.types false in
/-- The region's record: layout, body obligation, wait evidence, and the four entailments around its two states. -/
def reg0 (TbA : (c : Dev nD) → Buf (Elt F) (tLoc c)) (fA : (c : Dev nD) → Buf (Elt F) (wLoc c))
    (OA : Dev nD → CellTallies nD τ sig (HIx 1)) (WA : Dev nD → Waits sig (HIx 1)) (hO : ∀ c g, OA c g none = 0) :
    Pipeline.RDat.RegionSeg (pcfgs (F := F)) adm (rdats0 TbA fA OA WA) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation0 c (TbA c) (fA c) (OA c) (WA c)
  hwaits c := Pipeline.RDat.cellsWaits_of_cut (Pipeline.pin (pcfgs (F := F)) adm) (rdats0 TbA fA OA WA) (none : HIx 1) 0 c 0 (OA c)
    (fun _ => rfl) (fun _ _ => Finset.mem_univ _) (fun _ _ => Nat.le_refl _)
    (fun g i h => by
      match i with
      | none => rw [hO c g] at h; exact absurd h (Nat.lt_irrefl _)
      | some q => exact ⟨Finset.mem_univ _, (K (F := F)).lev_some_pos g q⟩)
  pre c := iprop((tLoc c ↦{fullShare} TbA c) ∗ (wLoc c ↦{fullShare} fA c) ∗ owes (c.tc : Thread nD τ) (OA c) (WA c))
  post c := post0 c (TbA c) (OA c) (WA c)
  X _ := iprop(emp)
  Y _ := iprop(emp)
  Z _ := iprop(emp)
  hentry c := by
    rw [Pipeline.ownSems0_none, prefHeld0]
    show iprop(((tLoc c ↦{fullShare} TbA c) ∗ (wLoc c ↦{fullShare} fA c) ∗ owes (c.tc : Thread nD τ) (OA c) (WA c)) ∗ emp ∗ levAts (K (F := F)).L (K (F := F)).lev)
      ⊢ |={Set.univ}=> iprop((rdat0 c (TbA c) (fA c) (OA c) (WA c)).arrays (rdat0 c (TbA c) (fA c) (OA c) (WA c)).A ∗ emp
          ∗ (rdat0 c (TbA c) (fA c) (OA c) (WA c)).owesAt (none : HIx 1) 0 ∗ emp ∗ emp)
    rw [arrays0_eq, rdat0_A0, rdat0_A1]
    iintro ⟨⟨Ht, Hw, HO⟩, -, -⟩
    imodintro
    isplitl [Ht Hw]
    · isplitl [Ht]; · iexact Ht
      iexact Hw
    isplitr; · iempintro
    isplitl [HO]
    · iexists (WA c); isplitr; · ipureintro; exact fun p hp => Or.inl hp
      iexact HO
    isplitr <;> iempintro
  hin c := by
    show iprop(emp ∗ Pipeline.prefHeld (pcfgs (F := F) 0).pre c (fun _ => fullShare) (adm (F := F) 0).1 ∗ Pipeline.scopedRest spec0 c)
      ⊢ Pipeline.scopedRest (Ix := HIx 1) (Name := ℕ) (U := UU) (Lvl := ℕ) (Val := Elt F) spec0 c
    iintro ⟨-, -, H⟩; iexact H
  hout c := by
    rw [Pipeline.ownSems0_none]
    show Pipeline.scopedRest (Ix := HIx 1) (Name := ℕ) (U := UU) (Lvl := ℕ) (Val := Elt F) spec0 c
      ⊢ iprop(emp ∗ emp ∗ Pipeline.scopedRest spec0 c)
    iintro H
    isplitr; · iempintro
    isplitr; · iempintro
    iexact H
  hexit c := by
    show iprop((rdat0 c (TbA c) (fA c) (OA c) (WA c)).arraysAt cfg0.N ∗ (rdat0 c (TbA c) (fA c) (OA c) (WA c)).owesAt (none : HIx 1) (Fin.last cfg0.N) ∗ emp ∗ emp)
      ⊢ |={Set.univ}=> post0 c (TbA c) (OA c) (WA c)
    rw [arraysAt0_eq]
    unfold post0
    iintro ⟨⟨⟨%F0, %hF0, Ht⟩, ⟨%F1, %hF1, Hw⟩⟩, ⟨%W', %hW', HO⟩, -, -⟩
    imodintro
    rw [(rdat0 c (TbA c) (fA c) (OA c) (WA c)).ArrAt_in 0 rfl] at hF0
    rw [rdat0_A0] at hF0
    subst hF0
    isplitl [Ht]; · iexact Ht
    isplitl [Hw]
    · iexists F1; isplitr; · ipureintro; exact final0 c (TbA c) (fA c) (OA c) (WA c) F1 hF1
      iexact Hw
    iexists W'; isplitr
    · ipureintro
      intro p hp
      rcases hW' hp with h | ⟨w, s, rfl⟩
      · exact Or.inl h
      · exact Or.inr rfl
    iexact HO

/-! ## The region as one step -/

/-- REGION 0, ONE STEP: the table kept, the widened table left at contents that agree with the table on the lower 64
    columns, the start signals still owed. -/
theorem region0_wp : Region0Stmt F := by
  intro c Tb O W hO α k Q
  unfold pre0
  iintro ⟨Hk, Hb, ⟨Ht, ⟨%f, Hw⟩, HO⟩, #Hlev, Hg, Htok⟩
  iapply (Pipeline.RDat.RegionSeg.wp (pcfgs (F := F)) adm (rdats0 (fun _ => Tb) (fun _ => f) (fun _ => O) (fun _ => W)) (none : HIx 1)
    Gen.cellOf_inj EP defs₀ 𝒱₀ (K (F := F)).L (K (F := F)).lev (reg0 (fun _ => Tb) (fun _ => f) (fun _ => O) (fun _ => W) (fun _ => hO)) c none
    (fun u hu => nomatch hu) k Q) $$ [Hk Hb Ht Hw HO Hg Htok]
  isplitl [Hk]; · iexact Hk
  isplitl [Hb]; · iexact Hb
  rw [show (reg0 (F := F) (fun _ => Tb) (fun _ => f) (fun _ => O) (fun _ => W) (fun _ => hO)).pre c
      = iprop((tLoc c ↦{fullShare} Tb) ∗ (wLoc c ↦{fullShare} f) ∗ owes (c.tc : Thread nD τ) O W) from rfl]
  isplitl [Ht Hw HO]
  · isplitl [Ht]; · iexact Ht
    isplitl [Hw]; · iexact Hw
    iexact HO
  isplitr; · iexact Hlev
  isplitl [Hg]; · iexact Hg
  iexact Htok

end Cert.KernelIdeal.Run

end
-- ==== Proof.KernelIdeal.Region2.lean ====
/-
  The second kernel region of @main: the lower 64 columns of the widened rows taken, transposed.

  The region runs over 64 points. At point `t` the pipeline fetches block `t` of the widened rows taken — batch rows
  `256 t … 256 t + 255`, each `50 × 128` — into a staging buffer; the body loads the lower 64 columns of that buffer, a
  `[256, 50, 64]` vector, transposes it to `[50, 64, 256]` (entry `(h, k, b)` is entry `(b, h, k)`) and stores it over the
  whole output staging buffer; the pipeline writes that buffer back to columns `256 t … 256 t + 255` of the last axis of
  the kept columns, `[50, 64, 16384]`. The 64 output blocks tile that array, so after the region its entry `(h, k, b)` is
  entry `(b, h, k)` of the widened rows taken on the lower 64 columns: `keepT`.

  The proof data states what the body leaves as a relation: the input's buffer as found, the output's buffer equal to the
  transposed lower columns of the input block at the point. What the array may hold after the write-backs is then read by
  the induction of the shared module: every element a written-back block carries is the element of `keepT` where it lands,
  and every index of the array is under some block.

  During the region the TensorCore owes a constant tally `O`, none of it at the index `none` at which the pipeline's own
  waits are recorded and whose level, zero, lies below the level of every index at which `O` is positive: so the staging
  cells may be waited on throughout. The pairs recorded before the region bound what the body may have recorded; what
  the pipeline adds is at the index `none`.
-/
import proofs.«206271_g21749714387155_cont_8to1_2007_29_alg».proof.Proof.KernelIdeal.Iface
import proofs.«206271_g21749714387155_cont_8to1_2007_29_alg».proof.Proof.KernelIdeal.RegionLib
import Idealize.ShloMosaic.Lib.Pipeline.FrameBody
import Idealize.ShloMosaic.Lib.Pipeline.Value
import Idealize.ShloMosaic.Lib.Tactic

noncomputable section

namespace Cert.KernelIdeal.Run

open Cert.KernelIdeal Cert.KernelIdeal.Gen

open Idealize.ShloMosaic Idealize.ShloMosaic.ValueIdx Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MM F

namespace Region2
/-! ## The body -/

abbrev r2in : Rect S256x50x128 := Rect.unit (s := S256x50x128) ![0, 0, 0] S256x50x64.size inb_S256x50x128_S256x50x64_0_0_0
abbrev r2out : Rect S50x64x256 := Rect.unit (s := S50x64x256) ![0, 0, 0] S50x64x256.size inb_S50x64x256_S50x64x256_0_0_0

theorem hz3 : (![0, 0, 0] : Fin 3 → Nat) = fun _ => 0 := funext fun a => by fin_cases a <;> rfl

/-- What the body leaves in the output block, from the input block. -/
def out2 (x0 : Vec F S256x50x128 .f32) : Vec F S50x64x256 .f32 :=
  View.canon [⟨r2out, k2_pay1 (View.ld x0 r2in)⟩]

theorem cover2 (p0 : Vec F S50x64x256 .f32) (y : S50x64x256.Idx) :
    ∃ pc ∈ ([⟨r2out, p0⟩] : List (View.Piece (Elt F) S50x64x256 .f32)), y ∈ pc.1.set :=
  ⟨_, List.mem_singleton_self _, View.mem_set_unit_zero hz3 inb_S50x64x256_S50x64x256_0_0_0 y⟩

set_option maxHeartbeats 1000000 in
theorem sound_kernel2 (c : Dev nD) (E : Set ℕ) (i : grid2.Coords) (arg1 : Memref sig .tc .vmem S256x50x128 .f32) (harg1 : arg1.IsWhole)
    (arg2 : Memref sig .tc .vmem S50x64x256 .f32) (harg2 : arg2.IsWhole)
    (x0 : Vec F S256x50x128 .f32) (K : PUnit → sProp 𝕄) :
    iprop(owns (c.tc : Thread nD τ) arg1 fullShare x0 ∗ (∃ d, owns (c.tc : Thread nD τ) arg2 fullShare d)
        ∗ (iprop(owns (c.tc : Thread nD τ) arg1 fullShare x0 ∗ owns (c.tc : Thread nD τ) arg2 fullShare (out2 x0)) -∗ K ⟨⟩))
      ⊢ wp frame (wpE (defs₀ (F := F)) Variants.none (c.tc : Thread nD τ) none) E (cc2__slice_body i arg1 harg1 arg2 harg2) K := by
  simp only [cc2__slice_body_eq_skeleton]; unfold cc2__slice_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2 _)

/-- The block the body leaves, read at an index: entry (h, k, b) is entry (b, h, k) of the input block. -/
theorem out2_apply (x0 : Vec F S256x50x128 .f32) (h : Fin 50) (k : Fin 64) (b : Fin 256) :
    out2 x0 (ix3 h k b) = x0 (ix3 b h (k.castLE (by decide))) := by
  unfold out2
  rw [View.canon_unit_zero hz3 inb_S50x64x256_S50x64x256_0_0_0]
  unfold k2_pay1
  rw [shapeCast_self]
  refine (transpose_apply _ _ _ _ (ix3 b h k) ?_).trans ?_
  · intro a
    match a with
    | ⟨0, _⟩ => rfl
    | ⟨1, _⟩ => rfl
    | ⟨2, _⟩ => rfl
  · show x0 (r2in.idx (ix3 b h k)) = _
    congr 1
    funext a; apply Fin.ext
    match a with
    | ⟨0, _⟩ => show 0 + 1 * b.val = b.val; omega
    | ⟨1, _⟩ => show 0 + 1 * h.val = h.val; omega
    | ⟨2, _⟩ => show 0 + 1 * k.val = k.val; omega

/-! ## The proof data -/

/-- Block `t` of the widened rows taken, as the fetch reads it. -/
def inBlk2 (c : Dev nD) (Pw : Buf (Elt F) (pLoc c)) (t : Fin cfg2.N) : ((cfg2.win 0).xblock (cfg2.grid.coords t)).Idx → Elt F (cfg2.win 0).elt :=
  ((cfg2.win 0).blk t).view.read (Elt F) Pw

def rdat2 (c : Dev nD) (Pw : Buf (Elt F) (pLoc c)) (f : Buf (Elt F) (sLoc c)) (O : CellTallies nD τ sig (HIx 1)) (W : Waits sig (HIx 1)) :
    RDat τ (Elt F) (HIx 1) ℕ UU ℕ cfg2 c where
  A w := match w with
    | ⟨0, _⟩ => Pw
    | ⟨1, _⟩ => f
  after w t := match w with
    | ⟨0, _⟩ => fun Y X => X = Y
    | ⟨1, _⟩ => fun _ X => X = out2 (inBlk2 c Pw t)
  Φ _ := Pipeline.scopedRest (Ix := HIx 1) (Name := ℕ) (U := UU) (Lvl := ℕ) (Val := Elt F) spec2 c
  q _ := fullShare
  owed _ := O
  recorded _ := (↑W : Set (SemLoc sig × HIx 1))

theorem rdat2_A0 (c : Dev nD) (Pw f O W) : (rdat2 (F := F) c Pw f O W).A 0 = Pw := by dsimp only [rdat2]
theorem rdat2_A1 (c : Dev nD) (Pw f O W) : (rdat2 (F := F) c Pw f O W).A 1 = f := by dsimp only [rdat2]
theorem rdat2_after0 (c : Dev nD) (Pw f O W) (t Y X) : (rdat2 (F := F) c Pw f O W).after 0 t Y X = (X = Y) := by dsimp only [rdat2]
theorem rdat2_after1 (c : Dev nD) (Pw f O W) (t Y X) : (rdat2 (F := F) c Pw f O W).after 1 t Y X = (X = out2 (inBlk2 c Pw t)) := by dsimp only [rdat2]

/-- What the body finds in the input's buffer: block `t`. -/
theorem finds2_0 (c : Dev nD) (Pw f O W) (t : Fin cfg2.N) (Y) (hY : (rdat2 (F := F) c Pw f O W).Finds 0 t Y) : Y = inBlk2 c Pw t := by
  obtain ⟨d, hd⟩ := ((rdat2 c Pw f O W).finds_of_fetch (fetch2_0 t) Y).mp hY
  rw [hd]
  unfold RDat.fetched RDat.blockOf inBlk2
  rw [rdat2_A0]
  rfl
/-! ## The body obligation -/

theorem body_obligation2 (c : Dev nD) (Pw f O W) :
    (rdat2 (F := F) c Pw f O W).BodyObligation (defs₀ (F := F)) 𝒱₀ (none : HIx 1) Set.univ := fun t Y hY => by
  rw [bigSep_W2, bigSep_W2]
  have h0 := finds2_0 c Pw f O W t (Y 0) (hY 0)
  rw [show (rdat2 c Pw f O W).Φ t.succ = (rdat2 c Pw f O W).Φ t.castSucc from rfl,
    show (rdat2 c Pw f O W).owesAt (none : HIx 1) t.succ = (rdat2 c Pw f O W).owesAt (none : HIx 1) t.castSucc from rfl]
  simp only [rdat2_after0, rdat2_after1]
  rw [h0]
  iintro ⟨HΦ, Ho, H0, H1⟩
  iapply (sound_kernel2 (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (inBlk2 c Pw t) _)
  isplitl [H0]; · iexact H0
  isplitl [H1]; · iexists _; iexact H1
  iintro ⟨H0, H1⟩
  isplitl [HΦ]; · iexact HΦ
  isplitl [Ho]; · iexact Ho
  isplitl [H0]
  · iexists _; isplitr; · ipureintro; rfl
    iexact H0
  · iexists _; isplitr; · ipureintro; rfl
    iexact H1

/-! ## The array the region leaves -/

/-- The printed index maps, decided over the grid: the input's block `t` is batch rows `256 t …`, the output's is
    columns `256 t …` of the last axis. -/
theorem idx_facts2 : ∀ t : Fin cfg2.N, win2_0.index t (0 : Fin 3) = t.val ∧ win2_0.index t (1 : Fin 3) = 0 ∧ win2_0.index t (2 : Fin 3) = 0
    ∧ win2_1.index t (0 : Fin 3) = 0 ∧ win2_1.index t (1 : Fin 3) = 0 ∧ win2_1.index t (2 : Fin 3) = t.val :=
  (by decide +kernel : ∀ t : Fin grid2.N, _)

/-- An index of the kept columns is in point `t`'s block iff each coordinate is in the block's range on its axis. -/
theorem mem_blk2_1 (t : Fin cfg2.N) (i : S50x64x16384.Idx) :
    i ∈ ((cfg2.win 1).blk t).view.set ↔ ∀ a : Fin 3, win2_1.index t a * S50x64x256.size a ≤ (i a).val ∧ (i a).val < win2_1.index t a * S50x64x256.size a + S50x64x256.size a := by
  show i ∈ ((View.whole main_v3).slice (win2_1.rect t)).set ↔ _
  rw [View.set_slice_whole, Rect.mem_set_unit]
  exact Iff.rfl

theorem final2 (c : Dev nD) (Pw f O W) (G : Buf (Elt F) (sLoc c)) (hG : (rdat2 (F := F) c Pw f O W).ArrAt 1 cfg2.N G) :
    G = (keepT Pw : Buf (Elt F) (sLoc c)) := by
  funext i
  refine ArrAt_forall_of_cover (rdat2 c Pw f O W) 1 (fun i v => v = keepT Pw i) ?hP ?hcover G hG i
  case hcover =>
    intro i
    have hi0 : (i 0).val < 50 := (i 0).isLt
    have hi1 : (i 1).val < 64 := (i 1).isLt
    have hi2 : (i 2).val < 16384 := (i 2).isLt
    refine ⟨⟨(i 2).val / 256, by have : cfg2.N = 64 := N_2; omega⟩, flush2_1 _, ?_⟩
    rw [mem_blk2_1]
    obtain ⟨e0, e1, e2, e3, e4, e5⟩ := idx_facts2 ⟨(i 2).val / 256, by have : cfg2.N = 64 := N_2; omega⟩
    intro a
    match a with
    | ⟨0, _⟩ => show win2_1.index _ (0 : Fin 3) * 50 ≤ (i 0).val ∧ (i 0).val < win2_1.index _ (0 : Fin 3) * 50 + 50; rw [e3]; omega
    | ⟨1, _⟩ => show win2_1.index _ (1 : Fin 3) * 64 ≤ (i 1).val ∧ (i 1).val < win2_1.index _ (1 : Fin 3) * 64 + 64; rw [e4]; omega
    | ⟨2, _⟩ => show win2_1.index _ (2 : Fin 3) * 256 ≤ (i 2).val ∧ (i 2).val < win2_1.index _ (2 : Fin 3) * 256 + 256; rw [e5]; show (i 2).val / 256 * 256 ≤ (i 2).val ∧ (i 2).val < (i 2).val / 256 * 256 + 256; omega
  case hP =>
    intro t _ X hX y
    obtain ⟨Y, -, hYX⟩ := hX
    rw [rdat2_after1] at hYX
    subst hYX
    obtain ⟨h, k, b, rfl⟩ : ∃ (h : Fin 50) (k : Fin 64) (b : Fin 256), y = (ix3 h k b : S50x64x256.Idx) :=
      ⟨y 0, y 1, y 2, eq_ix3 (n0 := 50) (n1 := 64) (n2 := 256) y⟩
    rw [cast_eq]
    refine (show _ = out2 (inBlk2 c Pw t) (ix3 h k b) from rfl).trans ((out2_apply _ h k b).trans ?_)
    unfold keepT inBlk2
    show Pw (((cfg2.win 0).blk t).view.emb (ix3 b h (k.castLE (by decide)))) = _
    refine congrArg Pw (funext fun a => Fin.ext ?_)
    obtain ⟨e0, e1, e2, e3, e4, e5⟩ := idx_facts2 t
    match a with
    | ⟨0, _⟩ =>
      show win2_0.index t (0 : Fin 3) * 256 + 1 * b.val = win2_1.index t (2 : Fin 3) * 256 + 1 * b.val
      rw [e0, e5]
    | ⟨1, _⟩ =>
      show win2_0.index t (1 : Fin 3) * 50 + 1 * h.val = win2_1.index t (0 : Fin 3) * 50 + 1 * h.val
      rw [e1, e3]
    | ⟨2, _⟩ =>
      show win2_0.index t (2 : Fin 3) * 128 + 1 * k.val = win2_1.index t (1 : Fin 3) * 64 + 1 * k.val
      rw [e2, e4]

/-! ## Entry and exit -/

/-- The windows' arrays, held whole at the full share, are the buffers behind them. -/
theorem pt2_0 (c : Dev nD) (Pw f O W) (G : Buf (Elt F) (pLoc c)) :
    (((cfg2.win 0).arr.view.loc (c.tc : Thread nD τ) ↦[(cfg2.win 0).arr.view.set]{(rdat2 (F := F) c Pw f O W).share 0} G) : sProp 𝕄)
      = (pLoc c ↦{fullShare} G) := by
  rw [(arr_whole2 0).set_eq_univ, (rdat2 c Pw f O W).share_full (fun _ => rfl)]
theorem pt2_1 (c : Dev nD) (Pw f O W) (G : Buf (Elt F) (sLoc c)) :
    (((cfg2.win 1).arr.view.loc (c.tc : Thread nD τ) ↦[(cfg2.win 1).arr.view.set]{(rdat2 (F := F) c Pw f O W).share 1} G) : sProp 𝕄)
      = (sLoc c ↦{fullShare} G) := by
  rw [(arr_whole2 1).set_eq_univ, (rdat2 c Pw f O W).share_full (fun _ => rfl)]

/-- ENTRY: the two arrays and the core's `owes` as the pipeline takes them. -/
theorem entry2 (c : Dev nD) (Pw f O W) :
    iprop((pLoc c ↦{fullShare} Pw) ∗ (sLoc c ↦{fullShare} f) ∗ owes (c.tc : Thread nD τ) O W)
      ⊢ (iprop((rdat2 (F := F) c Pw f O W).arrays (rdat2 c Pw f O W).A ∗ (rdat2 c Pw f O W).owesAt (none : HIx 1) 0) : sProp 𝕄) := by
  unfold RDat.arrays
  rw [bigSep_W2, pt2_0, pt2_1, rdat2_A0, rdat2_A1]
  iintro ⟨Hp, Hs, HO⟩
  isplitl [Hp Hs]
  · isplitl [Hp] <;> iassumption
  iexists W; isplitr
  · ipureintro; exact fun p hp => Or.inl hp
  iexact HO

/-- EXIT: the widened rows taken as they were, the kept columns at their closed form, the waits recorded at the
    staging cells' index only. -/
theorem exit2 (c : Dev nD) (Pw f O W) :
    iprop((rdat2 (F := F) c Pw f O W).arraysAt cfg2.N ∗ (rdat2 c Pw f O W).owesAt (none : HIx 1) (Fin.last cfg2.N))
      ⊢ (post2 c Pw O W : sProp 𝕄) := by
  unfold RDat.arraysAt post2
  rw [bigSep_W2]
  iintro ⟨⟨⟨%F0, %hF0, H0⟩, ⟨%F1, %hF1, H1⟩⟩, ⟨%W', %hW', HO⟩⟩
  have e0 : F0 = Pw := by
    rw [(rdat2 c Pw f O W).ArrAt_in 0 rfl] at hF0
    exact hF0.trans (rdat2_A0 c Pw f O W)
  have e1 : F1 = (keepT Pw : Buf (Elt F) (sLoc c)) := final2 c Pw f O W F1 hF1
  subst e0
  subst e1
  isplitl [H0]
  · iapply (Entails.of_eq (pt2_0 c F0 f O W F0)); iexact H0
  isplitl [H1]
  · iapply (Entails.of_eq (pt2_1 c F0 f O W _)); iexact H1
  iexists W'; isplitr
  · ipureintro
    intro p hp
    rcases hW' hp with h | ⟨w, s, rfl⟩
    · exact Or.inl h
    · exact Or.inr rfl
  iexact HO

/-! ## The region -/

/-- Proof data for the other region, which this one does not consult. -/
def rdatOther0 (c : Dev nD) : RDat τ (Elt F) (HIx 1) ℕ UU ℕ cfg0 c where
  A _ := fun _ => Classical.arbitrary _
  after _ _ _ _ := True
  Φ _ := iprop(emp)
  q _ := fullShare
  owed _ := 0

/-- The family of proof data: this region's at pipeline 1. -/
def rdats2 (PwA : (c : Dev nD) → Buf (Elt F) (pLoc c)) (fA : (c : Dev nD) → Buf (Elt F) (sLoc c))
    (OA : Dev nD → CellTallies nD τ sig (HIx 1)) (WA : Dev nD → Waits sig (HIx 1)) :
    (p : Fin 2) → (c : Dev nD) → RDat τ (Elt F) (HIx 1) ℕ UU ℕ (Pipeline.pin (pcfgs (F := F)) adm p) c
  | ⟨0, _⟩ => fun c => rdatOther0 c
  | ⟨1, _⟩ => fun c => rdat2 c (PwA c) (fA c) (OA c) (WA c)

/-! ## The same, stated of the family at this region's pipeline -/

section Family

variable (PwA : (c : Dev nD) → Buf (Elt F) (pLoc c)) (fA : (c : Dev nD) → Buf (Elt F) (sLoc c))
  (OA : Dev nD → CellTallies nD τ sig (HIx 1)) (WA : Dev nD → Waits sig (HIx 1))

theorem Φ2_fam (c : Dev nD) (t : Fin ((Pipeline.pin (pcfgs (F := F)) adm 1).N + 1)) :
    (rdats2 PwA fA OA WA 1 c).Φ t = (Pipeline.scopedRest (Pipeline.pin (pcfgs (F := F)) adm 1).spec c : sProp 𝕄) := rfl

theorem entry2_fam (c : Dev nD) :
    iprop((pLoc c ↦{fullShare} PwA c) ∗ (sLoc c ↦{fullShare} fA c) ∗ owes (c.tc : Thread nD τ) (OA c) (WA c))
      ⊢ (iprop((rdats2 PwA fA OA WA 1 c).arrays (rdats2 PwA fA OA WA 1 c).A ∗ (rdats2 PwA fA OA WA 1 c).owesAt (none : HIx 1) 0) : sProp 𝕄) :=
  entry2 (F := F) c (PwA c) (fA c) (OA c) (WA c)

theorem exit2_fam (c : Dev nD) :
    iprop((rdats2 PwA fA OA WA 1 c).arraysAt (Pipeline.pin (pcfgs (F := F)) adm 1).N ∗ (rdats2 PwA fA OA WA 1 c).owesAt (none : HIx 1) (Fin.last (Pipeline.pin (pcfgs (F := F)) adm 1).N))
      ⊢ (post2 c (PwA c) (OA c) (WA c) : sProp 𝕄) :=
  exit2 (F := F) c (PwA c) (fA c) (OA c) (WA c)

theorem body2_fam (c : Dev nD) : (rdats2 PwA fA OA WA 1 c).BodyObligation (defs₀ (F := F)) 𝒱₀ (none : HIx 1) Set.univ :=
  body_obligation2 c (PwA c) (fA c) (OA c) (WA c)

theorem waits2_fam (hO : ∀ c g, OA c g none = 0) (c : Dev nD) :
    (levAts (K (F := F)).L (K (F := F)).lev : sProp 𝕄) ⊢ Pipeline.RDat.cellsWaits (Pipeline.pin (pcfgs (F := F)) adm) (rdats2 PwA fA OA WA) (none : HIx 1) 1 c :=
  Pipeline.RDat.cellsWaits_of_cut (Pipeline.pin (pcfgs (F := F)) adm) (rdats2 PwA fA OA WA) (none : HIx 1) 1 c 0 (OA c)
    (fun _ => rfl) (fun _ _ => Finset.mem_univ _) (fun _ _ => Nat.le_refl _)
    (fun g i h => by
      match i with
      | none => rw [hO c g] at h; exact absurd h (Nat.lt_irrefl _)
      | some q => exact ⟨Finset.mem_univ _, (K (F := F)).lev_some_pos g q⟩)

end Family

section Fields

variable (PwA : (c : Dev nD) → Buf (Elt F) (pLoc c)) (fA : (c : Dev nD) → Buf (Elt F) (sLoc c))
  (OA : Dev nD → CellTallies nD τ sig (HIx 1)) (WA : Dev nD → Waits sig (HIx 1))

/-- The thread state the region is entered from, with the kept columns' entry contents named. -/
def pre2f (c : Dev nD) : sProp 𝕄 :=
  iprop((pLoc c ↦{fullShare} PwA c) ∗ (sLoc c ↦{fullShare} fA c) ∗ owes (c.tc : Thread nD τ) (OA c) (WA c))

theorem hentry2 (c : Dev nD) :
    iprop(pre2f PwA fA OA WA c ∗ Pipeline.ownSems0 (fun k : PEmpty => k.elim) c ∗ levAts (K (F := F)).L (K (F := F)).lev)
      ⊢ |={Set.univ}=> (iprop((rdats2 PwA fA OA WA 1 c).arrays (rdats2 PwA fA OA WA 1 c).A ∗ Pipeline.prefHeld (pcfgs (F := F) 1).pre c (fun _ => fullShare) (adm 1).1
          ∗ (rdats2 PwA fA OA WA 1 c).owesAt (none : HIx 1) 0 ∗ emp ∗ emp) : sProp 𝕄) := by
  unfold pre2f
  iintro ⟨Hpre, -, -⟩
  ihave H := (entry2_fam (F := F) PwA fA OA WA c) $$ Hpre
  icases H with ⟨Ha, HO⟩
  imodintro
  isplitl [Ha]; · iexact Ha
  isplitr
  · unfold Pipeline.prefHeld; rw [show (Finset.univ : Finset (Fin 0)) = ∅ from rfl, BI.bigSep_empty]; iempintro
  isplitl [HO]; · iexact HO
  isplitr <;> iempintro

theorem hin2 (c : Dev nD) :
    iprop(emp ∗ Pipeline.prefHeld (pcfgs (F := F) 1).pre c (fun _ => fullShare) (adm 1).1 ∗ Pipeline.scopedRest (Pipeline.pin (pcfgs (F := F)) adm 1).spec c)
      ⊢ ((rdats2 PwA fA OA WA 1 c).Φ 0 : sProp 𝕄) := by
  rw [Φ2_fam]
  iintro ⟨-, -, Hr⟩
  iexact Hr

theorem hout2 (c : Dev nD) :
    (rdats2 PwA fA OA WA 1 c).Φ (Fin.last (Pipeline.pin (pcfgs (F := F)) adm 1).N)
      ⊢ (iprop(emp ∗ Pipeline.ownSems0 (fun k : PEmpty => k.elim) c ∗ Pipeline.scopedRest (Pipeline.pin (pcfgs (F := F)) adm 1).spec c) : sProp 𝕄) := by
  rw [Φ2_fam, Pipeline.ownSems0_none]
  iintro Hr
  isplitr; · iempintro
  isplitr; · iempintro
  iexact Hr

theorem hexit2 (c : Dev nD) :
    iprop((rdats2 PwA fA OA WA 1 c).arraysAt (Pipeline.pin (pcfgs (F := F)) adm 1).N ∗ (rdats2 PwA fA OA WA 1 c).owesAt (none : HIx 1) (Fin.last (Pipeline.pin (pcfgs (F := F)) adm 1).N) ∗ emp ∗ emp)
      ⊢ |={Set.univ}=> (post2 c (PwA c) (OA c) (WA c) : sProp 𝕄) := by
  iintro ⟨Ha, HO, -, -⟩
  imodintro
  iapply (exit2_fam (F := F) PwA fA OA WA c)
  isplitl [Ha] <;> iassumption

end Fields

set_option backward.isDefEq.respectTransparency.types false in
/-- The region as the library's rule takes it. -/
def reg2 (PwA : (c : Dev nD) → Buf (Elt F) (pLoc c)) (fA : (c : Dev nD) → Buf (Elt F) (sLoc c))
    (OA : Dev nD → CellTallies nD τ sig (HIx 1)) (WA : Dev nD → Waits sig (HIx 1)) (hO : ∀ c g, OA c g none = 0) :
    Pipeline.RDat.RegionSeg (pcfgs (F := F)) adm (rdats2 PwA fA OA WA) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2_fam PwA fA OA WA c
  hwaits c := waits2_fam PwA fA OA WA hO c
  pre c := pre2f PwA fA OA WA c
  post c := post2 c (PwA c) (OA c) (WA c)
  X _ := iprop(emp)
  Y _ := iprop(emp)
  Z _ := iprop(emp)
  hentry c := hentry2 PwA fA OA WA c
  hin c := hin2 PwA fA OA WA c
  hout c := hout2 PwA fA OA WA c
  hexit c := hexit2 PwA fA OA WA c

/-- The region rule at one device's contents given for every device. -/
theorem region2_wp_all (PwA : (c : Dev nD) → Buf (Elt F) (pLoc c)) (fA : (c : Dev nD) → Buf (Elt F) (sLoc c))
    (OA : Dev nD → CellTallies nD τ sig (HIx 1)) (WA : Dev nD → Waits sig (HIx 1)) (hO : ∀ c g, OA c g none = 0) (c : Dev nD)
    {α : Type} (k : PUnit → Prog (TpuEff nD τ sig (Elt F) (ΛP (F := F)) .tc) α) (Q : α → sProp (MM F)) :
    iprop((iprop(boundary (c.tc : Thread nD τ) ∗ post2 c (PwA c) (OA c) (WA c)) -∗ wp frame (wpE (D (F := F)) 𝒱 (c.tc : Thread nD τ) none) Set.univ (k ⟨⟩) Q)
        ∗ boundary (c.tc : Thread nD τ)
        ∗ pre2f PwA fA OA WA c
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q :=
  Pipeline.RDat.RegionSeg.wp (pcfgs (F := F)) adm (rdats2 PwA fA OA WA) (none : HIx 1) cellOf_inj EP defs₀ 𝒱₀ (K (F := F)).L (K (F := F)).lev
    (reg2 PwA fA OA WA hO) c none (fun _ h => absurd h (Option.not_mem_none _)) k Q

/-! ## The statement -/

/-- One device's contents given for every device: the mesh has one. -/
def spread {β : Dev nD → Type} (c : Dev nD) (x : β c) : (c' : Dev nD) → β c' := fun c' => (Subsingleton.elim c c') ▸ x

theorem spread_self {β : Dev nD → Type} (c : Dev nD) (x : β c) : spread c x c = x := rfl

theorem main : Region2Stmt F := by
  intro c Pw O W hO α k Q
  unfold pre2
  iintro ⟨Hk, Hb, ⟨Hp, ⟨%f, Hs⟩, HO⟩, Hlev, Hg, Ht⟩
  have key := region2_wp_all (F := F) (spread (β := fun c => Buf (Elt F) (pLoc c)) c Pw) (spread (β := fun c => Buf (Elt F) (sLoc c)) c f)
    (fun _ => O) (fun _ => W) (fun _ g => hO g) c k Q
  unfold pre2f at key
  rw [spread_self, spread_self] at key
  iapply key
  isplitl [Hk]; · iexact Hk
  isplitl [Hb]; · iexact Hb
  isplitl [Hp Hs HO]
  · isplitl [Hp]; · iexact Hp
    isplitl [Hs] <;> iassumption
  isplitl [Hlev]; · iexact Hlev
  isplitl [Hg] <;> iassumption

end Region2

/-- The second kernel region: from the widened rows taken to the kept columns, transposed. -/
theorem region2_wp : Region2Stmt F := Region2.main

end Cert.KernelIdeal.Run

end
-- ==== Proof.KernelIdeal.Whole.lean ====
/-
  The program's run with every part in place: the vector subcores' task, the two kernel regions and the two host
  operations are the theorems of their own modules, and the precondition's bound on the row numbers is all that is asked
  of the launch memory.
-/
import proofs.«206271_g21749714387155_cont_8to1_2007_29_alg».proof.Proof.KernelIdeal.Run
import proofs.«206271_g21749714387155_cont_8to1_2007_29_alg».proof.Proof.KernelIdeal.Host
import proofs.«206271_g21749714387155_cont_8to1_2007_29_alg».proof.Proof.KernelIdeal.Tile
import proofs.«206271_g21749714387155_cont_8to1_2007_29_alg».proof.Proof.KernelIdeal.Region0
import proofs.«206271_g21749714387155_cont_8to1_2007_29_alg».proof.Proof.KernelIdeal.Region2

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

variable (m : (ℓ : Loc nD τ sig) → Buf (Elt F) ℓ) (ρ : Dev nD → PrngReg)

variable [FloatOps F] [∀ e, Nonempty (Elt F e)]

theorem run (hpre : PreOK m) :
    θ_run (Cert.KernelIdeal.defs (F := F)) (Cert.KernelIdeal.threads (F := F)) ⟨m, fun _ => 0, ρ⟩ (QC m) :=
  run_main m ρ tile_body region0_wp region2_wp (fun d x Φ => wp_reshape d x Φ) (fun d x Tb Pw hP Φ => wp_transpose d x Tb Pw hP Φ) hpre

end Cert.KernelIdeal.Run

end
-- ==== Proof.RefOps.lean ====
/-
  The reference as a line of host operations, and its run.

  The reference is `jnp.take(table, x, axis=0)`: its entry function calls one function, which calls one more (a
  three-way select). Both calls unfold to their bodies, so the program is one straight line of 23 operations, each
  writing one buffer of its own from buffers written earlier or from the two arguments. Written out as a list, the
  line's run is the library's run of a straight line: every execution terminates, and every buffer ends at the fold of
  the operations over the contents at launch.
-/
import proofs.«206271_g21749714387155_cont_8to1_2007_29_alg».proof.Defs
import proofs.«206271_g21749714387155_cont_8to1_2007_29_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The program's 23 operations, in order: the two calls unfolded, each operation over the buffers that the calls'
    records name (the inner call's select writes the record `main_call0.call0`'s one buffer). -/
abbrev ops : List (HloOp τ sig (Elt F)) :=
  [ TRef.nullary main_call0.c (constantI S_ 32 0#32),
    TRef.unary main_call0.c main_call0.v0 (broadcastInDim S16384x50 ![] bcast_S_S16384x50),
    TRef.binary (.of main_arg0 : TRef sig ⟨S16384x50, .i32⟩) main_call0.v0 main_call0.v1 (cmpi .slt),
    TRef.nullary main_call0.c_0 (constantI S_ 32 1000000#32),
    TRef.unary main_call0.c_0 main_call0.v2 (broadcastInDim S16384x50 ![] bcast_S_S16384x50),
    TRef.binary (.of main_arg0 : TRef sig ⟨S16384x50, .i32⟩) main_call0.v2 main_call0.v3 (addi),
    TRef.ternary main_call0.v1 main_call0.v3 (.of main_arg0 : TRef sig ⟨S16384x50, .i32⟩) main_call0.call0.v0 select,
    TRef.unary main_call0.call0.v0 main_call0.v5 (broadcastInDim S16384x50x1 ![0, 1] bcast_S16384x50_S16384x50x1_0_1),
    TRef.nullary main_call0.c_1 (constantI S1 32 999999#32),
    TRef.nullary main_call0.c_2 (constantI S_ 32 0#32),
    TRef.unary main_call0.c_2 main_call0.v6 (broadcastInDim S16384x50x1 ![] bcast_S_S16384x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x50x1 ![0, 1, 2] bcast_S1x1x1_S16384x50x1_0_1_2),
    TRef.binary main_call0.v5 main_call0.v9 main_call0.v10 (cmpi .sle),
    TRef.binary main_call0.v7 main_call0.v10 main_call0.v11 (andi),
    TRef.nullary main_call0.c_3 (constantI S_ 1 1#1),
    TRef.binary main_call0.v11 main_call0.c_3 main_call0.v12 (fun x v => Host.reduce IntOp.andi x v reducesTo_S16384x50x1_S16384x50_d2 h_S_),
    TRef.binary (.of main_arg1 : TRef sig ⟨S1000000x64, .f32⟩) main_call0.v5 main_call0.v13 (fun x i => Host.gather gather_S1000000x64_S16384x50x1_S16384x50x64_2_0_n_n_0_2_164 x i),
    TRef.unary main_call0.v12 main_call0.v14 (broadcastInDim S16384x50x64 ![0, 1] bcast_S16384x50_S16384x50x64_0_1),
    TRef.nullary main_call0.cst (constant S_ .f32 0x7FC00000#32),
    TRef.unary main_call0.cst main_call0.v15 (broadcastInDim S16384x50x64 ![] bcast_S_S16384x50x64),
    TRef.ternary main_call0.v14 main_call0.v13 main_call0.v15 main_call0.v16 select ]

set_option maxRecDepth 8192 in
/-- The entry function is the line of the 23 operations. -/
theorem main_eq (c : Dev nD) : main (F := F) c = seq ops := rfl

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
/-- From any memory with zero counters every weakly fair execution of the reference terminates with each buffer at
    the fold of the 23 operations over the contents at launch. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibHostFold.lean ====
/-
  A line of single-assignment host operations, read at one operation.

  A line of host operations runs in order from buffer contents `V` and ends with contents `after ops V`. When the line
  is `pre ++ op :: post`, the operation `op` writes the one buffer `y` and reads `a`, `b`, …, and the operations of
  `post` write none of `y`, `a`, `b`, … (every buffer is written once, and never after it has been read), then `op`'s
  defining equation holds of the FINAL contents `W = after ops V`:

      W y = f (W a) (W b) .

  For: `post` leaves `y`, `a`, `b` alone, so `W` there is what `op` left; `op` left `f` of what `pre` left at `a`, `b`
  in `y`, and (`a ≠ y`, `b ≠ y`) left `a`, `b` alone.

  "The operations of `post` do not write `r`" is stated through a LIST `Wl` of references that holds everything `post`
  writes (`WritesIn post Wl`) and `r ∉ Wl`: membership in a list of references is decided by computation. When `Wl` is
  the list of `post`'s result references in order, `WritesIn post Wl` is one `rfl` per operation
  (`WritesIn.cons_head`; the tactic `writes_in`). For a whole stretch of the program this is stated once (`Outs`), and an
  operation is then addressed by its position in the stretch (`binary_at` and its companions).
-/
import Idealize.ShloMosaic.Lib.StableHlo.Run
import Idealize.ShloMosaic.Lib.Pipeline.Frame

noncomputable section

namespace Cert.HostFold

open Idealize.ShloMosaic Idealize.ShloMosaic.StableHlo

variable {τ : Topo} {sig : RefSig} {Val : EltTy → Type}

/-! ## What a line writes -/

/-- Every buffer the line `ops` writes is the buffer of a reference in the list `Wl`. -/
def WritesIn (ops : List (HloOp τ sig Val)) (Wl : List (Ref sig .tc)) : Prop :=
  ∀ op ∈ ops, op.writes ⊆ (Wl.map (Proc.devRef (τ := τ) .tc)).toFinset

/-- The same as a `List.Forall`, the form the fold's own lemma takes. -/
theorem writesIn_iff_forall {ops : List (HloOp τ sig Val)} {Wl : List (Ref sig .tc)} :
    WritesIn ops Wl ↔ ops.Forall fun op => op.writes ⊆ (Wl.map (Proc.devRef (τ := τ) .tc)).toFinset :=
  List.forall_iff_forall_mem.symm

/-- The empty line writes nothing. -/
theorem WritesIn.nil {Wl : List (Ref sig .tc)} : WritesIn ([] : List (HloOp τ sig Val)) Wl :=
  fun _ h => absurd h List.not_mem_nil

/-- One more operation in front, its writes in the list. -/
theorem WritesIn.cons {op : HloOp τ sig Val} {ops : List (HloOp τ sig Val)} {Wl : List (Ref sig .tc)}
    (h : op.writes ⊆ (Wl.map (Proc.devRef (τ := τ) .tc)).toFinset) (hr : WritesIn ops Wl) : WritesIn (op :: ops) Wl :=
  fun o ho => by
    rcases List.mem_cons.mp ho with rfl | ho
    · exact h
    · exact hr o ho

/-- A longer list of references still holds the line's writes. -/
theorem WritesIn.mono {ops : List (HloOp τ sig Val)} {Wl Wl' : List (Ref sig .tc)} (h : WritesIn ops Wl)
    (hsub : Wl ⊆ Wl') : WritesIn ops Wl' :=
  fun o ho => (h o ho).trans fun _ hd => by
    obtain ⟨r, hr, he⟩ := List.mem_map.mp (List.mem_toFinset.mp hd)
    exact List.mem_toFinset.mpr (List.mem_map.mpr ⟨r, hsub hr, he⟩)

/-- One more operation in front that writes the one buffer `y`, `y` a member of the list. -/
theorem WritesIn.cons_of_mem {op : HloOp τ sig Val} {ops : List (HloOp τ sig Val)} {Wl : List (Ref sig .tc)}
    {y : Ref sig .tc} (h : op.writes = {Proc.devRef .tc y}) (hy : y ∈ Wl) (hr : WritesIn ops Wl) :
    WritesIn (op :: ops) Wl :=
  WritesIn.cons (by
    rw [h, Finset.singleton_subset_iff, List.mem_toFinset]
    exact List.mem_map_of_mem hy) hr

/-- One more operation in front that writes the one buffer `y`, and `y` put in front of the list: the list of the
    line's result references IN ORDER holds its writes, by one `rfl` per operation and no search. -/
theorem WritesIn.cons_head {op : HloOp τ sig Val} {ops : List (HloOp τ sig Val)} {Wl : List (Ref sig .tc)}
    {y : Ref sig .tc} (h : op.writes = {Proc.devRef .tc y}) (hr : WritesIn ops Wl) :
    WritesIn (op :: ops) (y :: Wl) :=
  WritesIn.cons_of_mem h List.mem_cons_self (hr.mono (List.subset_cons_self y Wl))

/-- Two lines in a row write what the two lists hold together. -/
theorem WritesIn.append {l₁ l₂ : List (HloOp τ sig Val)} {W₁ W₂ : List (Ref sig .tc)} (h₁ : WritesIn l₁ W₁)
    (h₂ : WritesIn l₂ W₂) : WritesIn (l₁ ++ l₂) (W₁ ++ W₂) :=
  fun o ho => by
    rcases List.mem_append.mp ho with ho | ho
    · exact (h₁.mono (List.subset_append_left W₁ W₂)) o ho
    · exact (h₂.mono (List.subset_append_right W₁ W₂)) o ho

/-- A reference in neither of two lists is not in their concatenation. -/
theorem not_mem_append {r : Ref sig .tc} {W₁ W₂ : List (Ref sig .tc)} (h₁ : r ∉ W₁) (h₂ : r ∉ W₂) : r ∉ W₁ ++ W₂ :=
  fun h => (List.mem_append.mp h).elim h₁ h₂

/-- Proves `WritesIn ops Wl` for a written-out line `ops` of operations that each write one buffer and the list `Wl`
    of their result references in the same order. -/
macro "writes_in" : tactic =>
  `(tactic| repeat (first | exact WritesIn.nil | refine WritesIn.cons_head rfl ?_))

/-- A REFERENCE THE LINE DOES NOT WRITE KEEPS ITS CONTENTS. -/
theorem after_keep {ops : List (HloOp τ sig Val)} {Wl : List (Ref sig .tc)} (hW : WritesIn ops Wl) {r : Ref sig .tc}
    (hr : r ∉ Wl) (V : Valuation τ sig Val) : after ops V (Proc.devRef .tc r) = V (Proc.devRef .tc r) :=
  after_of_writes_sub ops V (writesIn_iff_forall.mp hW) hr

/-! ## The fold at a split -/

/-- The fold of `pre ++ op :: post`: run `pre`, then `op`, then `post`. -/
theorem after_split (pre post : List (HloOp τ sig Val)) (op : HloOp τ sig Val) (V : Valuation τ sig Val) :
    after (pre ++ op :: post) V = after post (op.result (after pre V)) := by
  rw [StableHlo.after_append, after_cons]

/-- At a reference `post` does not write, the final contents are what `op` left. -/
theorem after_split_keep (pre post : List (HloOp τ sig Val)) (op : HloOp τ sig Val) (V : Valuation τ sig Val)
    {Wl : List (Ref sig .tc)} (hW : WritesIn post Wl) {r : Ref sig .tc} (hr : r ∉ Wl) :
    after (pre ++ op :: post) V (Proc.devRef .tc r) = op.result (after pre V) (Proc.devRef .tc r) := by
  rw [after_split, after_keep hW hr]

/-- At a reference neither `op` nor `post` writes, the final contents are what `pre` left. -/
theorem after_split_read (pre post : List (HloOp τ sig Val)) (op : HloOp τ sig Val) (V : Valuation τ sig Val)
    {Wl : List (Ref sig .tc)} (hW : WritesIn post Wl) {r : Ref sig .tc} (hr : r ∉ Wl)
    (hop : Proc.devRef .tc r ∉ op.writes) :
    after (pre ++ op :: post) V (Proc.devRef .tc r) = after pre V (Proc.devRef .tc r) := by
  rw [after_split_keep pre post op V hW hr, op.result_of_not_mem _ hop]

/-- A line split as `pre ++ op :: post`, followed by a later line, is split as `pre ++ op :: (post ++ later)`. -/
theorem split_append {ops pre post : List (HloOp τ sig Val)} {op : HloOp τ sig Val} (hops : ops = pre ++ op :: post)
    (later : List (HloOp τ sig Val)) : ops ++ later = pre ++ op :: (post ++ later) := by
  rw [hops, List.append_assoc, List.cons_append]

/-! ## An operation's defining equation on the final contents -/

section Final

variable {ops pre post : List (HloOp τ sig Val)} {Wl : List (Ref sig .tc)} (V : Valuation τ sig Val)

/-- NULLARY: `W y = v`. -/
theorem nullary_final {y : Ref sig .tc} {v : y.ty.Contents Val} {hy}
    (hops : ops = pre ++ nullary (τ := τ) y v hy :: post) (hW : WritesIn post Wl) (hyW : y ∉ Wl) :
    after ops V (Proc.devRef .tc y) = v := by
  subst hops
  rw [after_split_keep pre post _ V hW hyW, nullary_result]

/-- UNARY: `W y = f (W x)`. -/
theorem unary_final {x y : Ref sig .tc} {f : x.ty.Contents Val → y.ty.Contents Val} {hx hy}
    (hops : ops = pre ++ unary (τ := τ) x y f hx hy :: post) (hW : WritesIn post Wl)
    (hyW : y ∉ Wl) (hxW : x ∉ Wl) (hxy : x ≠ y) :
    after ops V (Proc.devRef .tc y) = f (after ops V (Proc.devRef .tc x)) := by
  subst hops
  rw [after_split_keep pre post _ V hW hyW, after_split_keep pre post _ V hW hxW, unary_result,
    unary_result_ne x y f hx hy _ hxy]

/-- BINARY: `W y = f (W a) (W b)`. -/
theorem binary_final {a b y : Ref sig .tc} {f : a.ty.Contents Val → b.ty.Contents Val → y.ty.Contents Val} {ha hb hy}
    (hops : ops = pre ++ binary (τ := τ) a b y f ha hb hy :: post) (hW : WritesIn post Wl)
    (hyW : y ∉ Wl) (haW : a ∉ Wl) (hbW : b ∉ Wl) (hay : a ≠ y) (hby : b ≠ y) :
    after ops V (Proc.devRef .tc y) = f (after ops V (Proc.devRef .tc a)) (after ops V (Proc.devRef .tc b)) := by
  subst hops
  rw [after_split_keep pre post _ V hW hyW, after_split_keep pre post _ V hW haW,
    after_split_keep pre post _ V hW hbW, binary_result, binary_result_ne a b y f ha hb hy _ hay,
    binary_result_ne a b y f ha hb hy _ hby]

/-- TERNARY: `W y = f (W c) (W a) (W b)`. -/
theorem ternary_final {c a b y : Ref sig .tc}
    {f : c.ty.Contents Val → a.ty.Contents Val → b.ty.Contents Val → y.ty.Contents Val} {hc ha hb hy}
    (hops : ops = pre ++ ternary (τ := τ) c a b y f hc ha hb hy :: post) (hW : WritesIn post Wl)
    (hyW : y ∉ Wl) (hcW : c ∉ Wl) (haW : a ∉ Wl) (hbW : b ∉ Wl) (hcy : c ≠ y) (hay : a ≠ y) (hby : b ≠ y) :
    after ops V (Proc.devRef .tc y)
      = f (after ops V (Proc.devRef .tc c)) (after ops V (Proc.devRef .tc a)) (after ops V (Proc.devRef .tc b)) := by
  subst hops
  rw [after_split_keep pre post _ V hW hyW, after_split_keep pre post _ V hW hcW,
    after_split_keep pre post _ V hW haW, after_split_keep pre post _ V hW hbW, ternary_result,
    ternary_result_ne a b c y f hc ha hb hy _ hcy, ternary_result_ne a b c y f hc ha hb hy _ hay,
    ternary_result_ne a b c y f hc ha hb hy _ hby]

/-- QUATERNARY: `W y = f (W a) (W b) (W c) (W e)`. -/
theorem quaternary_final {a b c e y : Ref sig .tc}
    {f : a.ty.Contents Val → b.ty.Contents Val → c.ty.Contents Val → e.ty.Contents Val → y.ty.Contents Val}
    {ha hb hc he hy}
    (hops : ops = pre ++ quaternary (τ := τ) a b c e y f ha hb hc he hy :: post) (hW : WritesIn post Wl)
    (hyW : y ∉ Wl) (haW : a ∉ Wl) (hbW : b ∉ Wl) (hcW : c ∉ Wl) (heW : e ∉ Wl)
    (hay : a ≠ y) (hby : b ≠ y) (hcy : c ≠ y) (hey : e ≠ y) :
    after ops V (Proc.devRef .tc y)
      = f (after ops V (Proc.devRef .tc a)) (after ops V (Proc.devRef .tc b)) (after ops V (Proc.devRef .tc c))
          (after ops V (Proc.devRef .tc e)) := by
  subst hops
  rw [after_split_keep pre post _ V hW hyW, after_split_keep pre post _ V hW haW,
    after_split_keep pre post _ V hW hbW, after_split_keep pre post _ V hW hcW,
    after_split_keep pre post _ V hW heW, quaternary_result,
    quaternary_result_ne a b c e y f ha hb hc he hy _ hay, quaternary_result_ne a b c e y f ha hb hc he hy _ hby,
    quaternary_result_ne a b c e y f ha hb hc he hy _ hcy, quaternary_result_ne a b c e y f ha hb hc he hy _ hey]

/-- RESHAPE: `W y` is `W x` recast to `y`'s shape. -/
theorem reshape_final {x y : Ref sig .tc} {he : x.ty.elt = y.ty.elt} {hn : x.ty.shape.ShapeCasts y.ty.shape} {hx hy}
    (hops : ops = pre ++ reshape (τ := τ) (Val := Val) x y he hn hx hy :: post) (hW : WritesIn post Wl)
    (hyW : y ∉ Wl) (hxW : x ∉ Wl) (hxy : x ≠ y) :
    after ops V (Proc.devRef .tc y)
      = fun i => he ▸ shapeCast y.ty.shape (after ops V (Proc.devRef .tc x)) hn i := by
  subst hops
  rw [after_split_keep pre post _ V hW hyW, after_split_keep pre post _ V hW hxW, reshape_result,
    reshape_result_ne x y he hn hx hy _ hxy]

end Final

/-! ## A stretch with its result references in order

For a stretch of the program state ONCE that its operations write, one each and in order, the buffers of the references
`Wl` (`Outs ops Wl`: one `rfl` per operation, the tactic `outs_in_order`). Then what follows position `p` writes
only `Wl.drop (p + 1)`, with no further pass over the operations, and an operation is addressed by its position. -/

/-- The operations of the line write one buffer each: the buffers of the references `Wl`, in order. -/
def Outs (ops : List (HloOp τ sig Val)) (Wl : List (Ref sig .tc)) : Prop :=
  List.Forall₂ (fun op y => op.writes = {Proc.devRef (τ := τ) .tc y}) ops Wl

/-- The empty line, the empty list. -/
theorem Outs.nil : Outs ([] : List (HloOp τ sig Val)) [] := List.Forall₂.nil

/-- One more operation in front, its result reference in front. -/
theorem Outs.cons {op : HloOp τ sig Val} {ops : List (HloOp τ sig Val)} {Wl : List (Ref sig .tc)} {y : Ref sig .tc}
    (h : op.writes = {Proc.devRef .tc y}) (hr : Outs ops Wl) : Outs (op :: ops) (y :: Wl) :=
  List.Forall₂.cons h hr

/-- The list of result references holds the line's writes. -/
theorem Outs.writesIn {ops : List (HloOp τ sig Val)} {Wl : List (Ref sig .tc)} (h : Outs ops Wl) : WritesIn ops Wl := by
  induction h with
  | nil => exact WritesIn.nil
  | cons h _ ih => exact WritesIn.cons_head h ih

/-- What follows position `k` writes the references that follow position `k`. -/
theorem Outs.drop {ops : List (HloOp τ sig Val)} {Wl : List (Ref sig .tc)} (h : Outs ops Wl) (k : Nat) :
    Outs (ops.drop k) (Wl.drop k) :=
  List.forall₂_drop k h

/-- The first `k` operations write the first `k` references. -/
theorem Outs.take {ops : List (HloOp τ sig Val)} {Wl : List (Ref sig .tc)} (h : Outs ops Wl) (k : Nat) :
    Outs (ops.take k) (Wl.take k) :=
  List.forall₂_take k h

/-- Two stretches in a row. -/
theorem Outs.append {l₁ l₂ : List (HloOp τ sig Val)} {W₁ W₂ : List (Ref sig .tc)} (h₁ : Outs l₁ W₁) (h₂ : Outs l₂ W₂) :
    Outs (l₁ ++ l₂) (W₁ ++ W₂) := by
  induction h₁ with
  | nil => exact h₂
  | cons h _ ih => exact Outs.cons h ih

/-- Proves `Outs ops Wl` for a written-out line `ops` of operations that each write one buffer and the list `Wl` of
    their result references in the same order. -/
macro "outs_in_order" : tactic =>
  `(tactic| repeat (first | exact Outs.nil | refine Outs.cons rfl ?_))

/-- A line split at the operation in position `p`. -/
theorem split_at {ops : List (HloOp τ sig Val)} {p : Nat} {op : HloOp τ sig Val} (hp : ops[p]? = some op) :
    ops = ops.take p ++ op :: ops.drop (p + 1) := by
  obtain ⟨h, rfl⟩ := List.getElem?_eq_some_iff.mp hp
  rw [← List.drop_eq_getElem_cons h, List.take_append_drop]

/-- In a list of references without repetition, the one at position `p` does not occur after position `p`: a stretch
    that writes every buffer once never writes an operation's result again. -/
theorem not_mem_drop_succ_of_nodup {Wl : List (Ref sig .tc)} (hn : Wl.Nodup) {p : Nat} {y : Ref sig .tc}
    (hy : Wl[p]? = some y) : y ∉ Wl.drop (p + 1) := by
  obtain ⟨h, rfl⟩ := List.getElem?_eq_some_iff.mp hy
  have hd : (Wl.drop p).Nodup := List.Nodup.sublist (List.drop_sublist p Wl) hn
  rw [List.drop_eq_getElem_cons h] at hd
  exact (List.nodup_cons.mp hd).1

section At

variable {ops : List (HloOp τ sig Val)} {Wl : List (Ref sig .tc)} (V : Valuation τ sig Val)

/-- NULLARY at position `p` of a stretch: `W y = v`. -/
theorem nullary_at (hO : Outs ops Wl) (p : Nat) {y : Ref sig .tc} {v : y.ty.Contents Val} {hy}
    (hp : ops[p]? = some (nullary (τ := τ) y v hy)) (hyW : y ∉ Wl.drop (p + 1)) :
    after ops V (Proc.devRef .tc y) = v :=
  nullary_final V (split_at hp) (hO.drop (p + 1)).writesIn hyW

/-- UNARY at position `p` of a stretch: `W y = f (W x)`. -/
theorem unary_at (hO : Outs ops Wl) (p : Nat) {x y : Ref sig .tc} {f : x.ty.Contents Val → y.ty.Contents Val} {hx hy}
    (hp : ops[p]? = some (unary (τ := τ) x y f hx hy)) (hyW : y ∉ Wl.drop (p + 1)) (hxW : x ∉ Wl.drop (p + 1))
    (hxy : x ≠ y) :
    after ops V (Proc.devRef .tc y) = f (after ops V (Proc.devRef .tc x)) :=
  unary_final V (split_at hp) (hO.drop (p + 1)).writesIn hyW hxW hxy

/-- BINARY at position `p` of a stretch: `W y = f (W a) (W b)`. -/
theorem binary_at (hO : Outs ops Wl) (p : Nat) {a b y : Ref sig .tc} {f : a.ty.Contents Val → b.ty.Contents Val → y.ty.Contents Val} {ha hb hy}
    (hp : ops[p]? = some (binary (τ := τ) a b y f ha hb hy)) (hyW : y ∉ Wl.drop (p + 1)) (haW : a ∉ Wl.drop (p + 1))
    (hbW : b ∉ Wl.drop (p + 1)) (hay : a ≠ y) (hby : b ≠ y) :
    after ops V (Proc.devRef .tc y) = f (after ops V (Proc.devRef .tc a)) (after ops V (Proc.devRef .tc b)) :=
  binary_final V (split_at hp) (hO.drop (p + 1)).writesIn hyW haW hbW hay hby

/-- TERNARY at position `p` of a stretch: `W y = f (W c) (W a) (W b)`. -/
theorem ternary_at (hO : Outs ops Wl) (p : Nat) {c a b y : Ref sig .tc}
    {f : c.ty.Contents Val → a.ty.Contents Val → b.ty.Contents Val → y.ty.Contents Val} {hc ha hb hy}
    (hp : ops[p]? = some (ternary (τ := τ) c a b y f hc ha hb hy)) (hyW : y ∉ Wl.drop (p + 1))
    (hcW : c ∉ Wl.drop (p + 1)) (haW : a ∉ Wl.drop (p + 1)) (hbW : b ∉ Wl.drop (p + 1))
    (hcy : c ≠ y) (hay : a ≠ y) (hby : b ≠ y) :
    after ops V (Proc.devRef .tc y)
      = f (after ops V (Proc.devRef .tc c)) (after ops V (Proc.devRef .tc a)) (after ops V (Proc.devRef .tc b)) :=
  ternary_final V (split_at hp) (hO.drop (p + 1)).writesIn hyW hcW haW hbW hcy hay hby

/-- RESHAPE at position `p` of a stretch. -/
theorem reshape_at (hO : Outs ops Wl) (p : Nat) {x y : Ref sig .tc} {he : x.ty.elt = y.ty.elt} {hn : x.ty.shape.ShapeCasts y.ty.shape} {hx hy}
    (hp : ops[p]? = some (reshape (τ := τ) (Val := Val) x y he hn hx hy)) (hyW : y ∉ Wl.drop (p + 1))
    (hxW : x ∉ Wl.drop (p + 1)) (hxy : x ≠ y) :
    after ops V (Proc.devRef .tc y)
      = fun i => he ▸ shapeCast y.ty.shape (after ops V (Proc.devRef .tc x)) hn i :=
  reshape_final V (split_at hp) (hO.drop (p + 1)).writesIn hyW hxW hxy

end At

/-! ## Through later lines

An equation between the contents at some references survives any later line that writes none of them: with
`W' = after later W`, `W' r = W r` at each. So an operation's equation proved for its own stretch of the program holds
for the stretch followed by the later stretches. Either restate the split with `split_append`, `WritesIn.append` and
`not_mem_append` and use the lemmas above at the whole line, or carry the equation over with the lemmas below. -/

section Later

variable {later : List (HloOp τ sig Val)} {Wl : List (Ref sig .tc)} {W : Valuation τ sig Val}

/-- NULLARY through a later line. -/
theorem nullary_later {y : Ref sig .tc} {v : y.ty.Contents Val} (h : W (Proc.devRef .tc y) = v)
    (hL : WritesIn later Wl) (hyW : y ∉ Wl) : after later W (Proc.devRef .tc y) = v := by
  rw [after_keep hL hyW, h]

/-- UNARY through a later line. -/
theorem unary_later {x y : Ref sig .tc} {f : x.ty.Contents Val → y.ty.Contents Val}
    (h : W (Proc.devRef .tc y) = f (W (Proc.devRef .tc x))) (hL : WritesIn later Wl) (hyW : y ∉ Wl) (hxW : x ∉ Wl) :
    after later W (Proc.devRef .tc y) = f (after later W (Proc.devRef .tc x)) := by
  rw [after_keep hL hyW, after_keep hL hxW, h]

/-- BINARY through a later line. -/
theorem binary_later {a b y : Ref sig .tc} {f : a.ty.Contents Val → b.ty.Contents Val → y.ty.Contents Val}
    (h : W (Proc.devRef .tc y) = f (W (Proc.devRef .tc a)) (W (Proc.devRef .tc b))) (hL : WritesIn later Wl)
    (hyW : y ∉ Wl) (haW : a ∉ Wl) (hbW : b ∉ Wl) :
    after later W (Proc.devRef .tc y)
      = f (after later W (Proc.devRef .tc a)) (after later W (Proc.devRef .tc b)) := by
  rw [after_keep hL hyW, after_keep hL haW, after_keep hL hbW, h]

/-- TERNARY through a later line. -/
theorem ternary_later {c a b y : Ref sig .tc}
    {f : c.ty.Contents Val → a.ty.Contents Val → b.ty.Contents Val → y.ty.Contents Val}
    (h : W (Proc.devRef .tc y) = f (W (Proc.devRef .tc c)) (W (Proc.devRef .tc a)) (W (Proc.devRef .tc b)))
    (hL : WritesIn later Wl) (hyW : y ∉ Wl) (hcW : c ∉ Wl) (haW : a ∉ Wl) (hbW : b ∉ Wl) :
    after later W (Proc.devRef .tc y)
      = f (after later W (Proc.devRef .tc c)) (after later W (Proc.devRef .tc a))
          (after later W (Proc.devRef .tc b)) := by
  rw [after_keep hL hyW, after_keep hL hcW, after_keep hL haW, after_keep hL hbW, h]

/-- The fold of a stretch followed by a later line is the later line's fold of the stretch's. -/
theorem after_stretch (ops later : List (HloOp τ sig Val)) (V : Valuation τ sig Val) :
    after (ops ++ later) V = after later (after ops V) :=
  StableHlo.after_append ops later V

/-- BINARY, for a stretch followed by a later line that writes none of `y`, `a`, `b`: the equation on the final
    contents of the whole. -/
theorem binary_final_append {ops pre post later : List (HloOp τ sig Val)} {Wl' : List (Ref sig .tc)}
    (V : Valuation τ sig Val) {a b y : Ref sig .tc}
    {f : a.ty.Contents Val → b.ty.Contents Val → y.ty.Contents Val} {ha hb hy}
    (hops : ops = pre ++ binary (τ := τ) a b y f ha hb hy :: post) (hW : WritesIn post Wl') (hL : WritesIn later Wl)
    (hyW : y ∉ Wl') (haW : a ∉ Wl') (hbW : b ∉ Wl') (hyL : y ∉ Wl) (haL : a ∉ Wl) (hbL : b ∉ Wl)
    (hay : a ≠ y) (hby : b ≠ y) :
    after (ops ++ later) V (Proc.devRef .tc y)
      = f (after (ops ++ later) V (Proc.devRef .tc a)) (after (ops ++ later) V (Proc.devRef .tc b)) := by
  rw [after_stretch]
  exact binary_later (binary_final V hops hW hyW haW hbW hay hby) hL hyL haL hbL

end Later

end Cert.HostFold
-- ==== Proof.RefEqs.lean ====
/-
  The reference's operations, each as an equation between the buffers' final contents.

  The line of 23 operations writes every buffer once, and reads a buffer only after writing it. So on the contents
  `W` that the line ends with, every operation's defining equation holds: `W y = f (W a) (W b)` for the operation that
  writes `y` from `a` and `b`; and the two arguments, which no operation writes, end as they began.

  An operation of a called function is stated over references that carry their array type, and moves its function
  to each buffer's own type along an equation between the two types. At the call's buffers the two types are the same
  type and the move is the identity (`cast_eq`): each equation below is the operation's with those moves removed.
-/
import proofs.«206271_g21749714387155_cont_8to1_2007_29_alg».proof.Proof.RefOps
import proofs.«206271_g21749714387155_cont_8to1_2007_29_alg».proof.Proof.LibHostFold

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo Cert.HostFold

variable {F : FTy → Type} [FloatOps F] [Cert.ReferenceIdeal.Facts]

/-- The buffers the operations write, in order. -/
abbrev outs : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

set_option maxRecDepth 8192 in
/-- Each operation writes the one buffer listed at its position. -/
theorem outs_ops : Outs (ops (F := F)) outs := by outs_in_order

/-- No operation writes the row numbers. -/
theorem keep_x (V : Valuation τ sig (Elt F)) :
    after (ops (F := F)) V (main_arg0 : DevRef τ sig) = V (main_arg0 : DevRef τ sig) :=
  after_keep outs_ops.writesIn (by decide) V

/-- No operation writes the table. -/
theorem keep_T (V : Valuation τ sig (Elt F)) :
    after (ops (F := F)) V (main_arg1 : DevRef τ sig) = V (main_arg1 : DevRef τ sig) :=
  after_keep outs_ops.writesIn (by decide) V

/-- Closes an operation's equation on the final contents from the same equation with the identity moves between a
    buffer's type and its array type still in it. -/
local macro "at_final " e:term : tactic =>
  `(tactic| (have e' := $e; simp only [cast_eq] at e'; exact e'))

/-- Operation 0, the zero the wrap test compares with. -/
theorem eq_c (V : Valuation τ sig (Elt F)) :
    after (ops (F := F)) V (main_call0_c : DevRef τ sig)
      = (constantI S_ 32 0#32 : (⟨S_, .i32⟩ : BufTy).Contents (Elt F)) := by
  at_final nullary_at V outs_ops 0 rfl (by decide)

/-- Operation 1, that zero at every row number. -/
theorem eq_v0 (V : Valuation τ sig (Elt F)) :
    after (ops (F := F)) V (main_call0_v0 : DevRef τ sig)
      = (broadcastInDim S16384x50 ![] bcast_S_S16384x50 : (⟨S_, .i32⟩ : BufTy).Contents (Elt F) → (⟨S16384x50, .i32⟩ : BufTy).Contents (Elt F))
          (after (ops (F := F)) V (main_call0_c : DevRef τ sig)) := by
  at_final unary_at V outs_ops 1 rfl (by decide) (by decide) (by decide)

/-- Operation 2, which row numbers are negative. -/
theorem eq_v1 (V : Valuation τ sig (Elt F)) :
    after (ops (F := F)) V (main_call0_v1 : DevRef τ sig)
      = (cmpi .slt : (⟨S16384x50, .i32⟩ : BufTy).Contents (Elt F) → (⟨S16384x50, .i32⟩ : BufTy).Contents (Elt F) → (⟨S16384x50, .i1⟩ : BufTy).Contents (Elt F))
          (after (ops (F := F)) V (main_arg0 : DevRef τ sig)) (after (ops (F := F)) V (main_call0_v0 : DevRef τ sig)) := by
  at_final binary_at V outs_ops 2 rfl (by decide) (by decide) (by decide) (by decide) (by decide)

/-- Operation 3, the number of rows. -/
theorem eq_c_0 (V : Valuation τ sig (Elt F)) :
    after (ops (F := F)) V (main_call0_c_0 : DevRef τ sig)
      = (constantI S_ 32 1000000#32 : (⟨S_, .i32⟩ : BufTy).Contents (Elt F)) := by
  at_final nullary_at V outs_ops 3 rfl (by decide)

/-- Operation 4, the number of rows at every row number. -/
theorem eq_v2 (V : Valuation τ sig (Elt F)) :
    after (ops (F := F)) V (main_call0_v2 : DevRef τ sig)
      = (broadcastInDim S16384x50 ![] bcast_S_S16384x50 : (⟨S_, .i32⟩ : BufTy).Contents (Elt F) → (⟨S16384x50, .i32⟩ : BufTy).Contents (Elt F))
          (after (ops (F := F)) V (main_call0_c_0 : DevRef τ sig)) := by
  at_final unary_at V outs_ops 4 rfl (by decide) (by decide) (by decide)

/-- Operation 5, the row numbers plus the number of rows. -/
theorem eq_v3 (V : Valuation τ sig (Elt F)) :
    after (ops (F := F)) V (main_call0_v3 : DevRef τ sig)
      = (addi : (⟨S16384x50, .i32⟩ : BufTy).Contents (Elt F) → (⟨S16384x50, .i32⟩ : BufTy).Contents (Elt F) → (⟨S16384x50, .i32⟩ : BufTy).Contents (Elt F))
          (after (ops (F := F)) V (main_arg0 : DevRef τ sig)) (after (ops (F := F)) V (main_call0_v2 : DevRef τ sig)) := by
  at_final binary_at V outs_ops 5 rfl (by decide) (by decide) (by decide) (by decide) (by decide)

/-- Operation 6, the row numbers, the negative ones wrapped. -/
theorem eq_v4 (V : Valuation τ sig (Elt F)) :
    after (ops (F := F)) V (main_call0_v4 : DevRef τ sig)
      = (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F))
          (after (ops (F := F)) V (main_call0_v1 : DevRef τ sig)) (after (ops (F := F)) V (main_call0_v3 : DevRef τ sig)) (after (ops (F := F)) V (main_arg0 : DevRef τ sig)) := by
  at_final ternary_at V outs_ops 6 rfl (by decide) (by decide) (by decide) (by decide) (by decide) (by decide) (by decide)

/-- Operation 7, the wrapped row numbers with a trailing axis of one. -/
theorem eq_v5 (V : Valuation τ sig (Elt F)) :
    after (ops (F := F)) V (main_call0_v5 : DevRef τ sig)
      = (broadcastInDim S16384x50x1 ![0, 1] bcast_S16384x50_S16384x50x1_0_1 : (⟨S16384x50, .i32⟩ : BufTy).Contents (Elt F) → (⟨S16384x50x1, .i32⟩ : BufTy).Contents (Elt F))
          (after (ops (F := F)) V (main_call0_v4 : DevRef τ sig)) := by
  at_final unary_at V outs_ops 7 rfl (by decide) (by decide) (by decide)

/-- Operation 8, the last row. -/
theorem eq_c_1 (V : Valuation τ sig (Elt F)) :
    after (ops (F := F)) V (main_call0_c_1 : DevRef τ sig)
      = (constantI S1 32 999999#32 : (⟨S1, .i32⟩ : BufTy).Contents (Elt F)) := by
  at_final nullary_at V outs_ops 8 rfl (by decide)

/-- Operation 9, the zero of the range test. -/
theorem eq_c_2 (V : Valuation τ sig (Elt F)) :
    after (ops (F := F)) V (main_call0_c_2 : DevRef τ sig)
      = (constantI S_ 32 0#32 : (⟨S_, .i32⟩ : BufTy).Contents (Elt F)) := by
  at_final nullary_at V outs_ops 9 rfl (by decide)

/-- Operation 10, that zero at every row number. -/
theorem eq_v6 (V : Valuation τ sig (Elt F)) :
    after (ops (F := F)) V (main_call0_v6 : DevRef τ sig)
      = (broadcastInDim S16384x50x1 ![] bcast_S_S16384x50x1 : (⟨S_, .i32⟩ : BufTy).Contents (Elt F) → (⟨S16384x50x1, .i32⟩ : BufTy).Contents (Elt F))
          (after (ops (F := F)) V (main_call0_c_2 : DevRef τ sig)) := by
  at_final unary_at V outs_ops 10 rfl (by decide) (by decide) (by decide)

/-- Operation 11, which wrapped row numbers are not negative. -/
theorem eq_v7 (V : Valuation τ sig (Elt F)) :
    after (ops (F := F)) V (main_call0_v7 : DevRef τ sig)
      = (cmpi .sge : (⟨S16384x50x1, .i32⟩ : BufTy).Contents (Elt F) → (⟨S16384x50x1, .i32⟩ : BufTy).Contents (Elt F) → (⟨S16384x50x1, .i1⟩ : BufTy).Contents (Elt F))
          (after (ops (F := F)) V (main_call0_v5 : DevRef τ sig)) (after (ops (F := F)) V (main_call0_v6 : DevRef τ sig)) := by
  at_final binary_at V outs_ops 11 rfl (by decide) (by decide) (by decide) (by decide) (by decide)

/-- Operation 12, the last row, three axes of one. -/
theorem eq_v8 (V : Valuation τ sig (Elt F)) :
    after (ops (F := F)) V (main_call0_v8 : DevRef τ sig)
      = (broadcastInDim S1x1x1 ![2] bcast_S1_S1x1x1_2 : (⟨S1, .i32⟩ : BufTy).Contents (Elt F) → (⟨S1x1x1, .i32⟩ : BufTy).Contents (Elt F))
          (after (ops (F := F)) V (main_call0_c_1 : DevRef τ sig)) := by
  at_final unary_at V outs_ops 12 rfl (by decide) (by decide) (by decide)

/-- Operation 13, the last row at every row number. -/
theorem eq_v9 (V : Valuation τ sig (Elt F)) :
    after (ops (F := F)) V (main_call0_v9 : DevRef τ sig)
      = (broadcastInDim S16384x50x1 ![0, 1, 2] bcast_S1x1x1_S16384x50x1_0_1_2 : (⟨S1x1x1, .i32⟩ : BufTy).Contents (Elt F) → (⟨S16384x50x1, .i32⟩ : BufTy).Contents (Elt F))
          (after (ops (F := F)) V (main_call0_v8 : DevRef τ sig)) := by
  at_final unary_at V outs_ops 13 rfl (by decide) (by decide) (by decide)

/-- Operation 14, which wrapped row numbers are at most the last row. -/
theorem eq_v10 (V : Valuation τ sig (Elt F)) :
    after (ops (F := F)) V (main_call0_v10 : DevRef τ sig)
      = (cmpi .sle : (⟨S16384x50x1, .i32⟩ : BufTy).Contents (Elt F) → (⟨S16384x50x1, .i32⟩ : BufTy).Contents (Elt F) → (⟨S16384x50x1, .i1⟩ : BufTy).Contents (Elt F))
          (after (ops (F := F)) V (main_call0_v5 : DevRef τ sig)) (after (ops (F := F)) V (main_call0_v9 : DevRef τ sig)) := by
  at_final binary_at V outs_ops 14 rfl (by decide) (by decide) (by decide) (by decide) (by decide)

/-- Operation 15, which wrapped row numbers are rows. -/
theorem eq_v11 (V : Valuation τ sig (Elt F)) :
    after (ops (F := F)) V (main_call0_v11 : DevRef τ sig)
      = (andi : (⟨S16384x50x1, .i1⟩ : BufTy).Contents (Elt F) → (⟨S16384x50x1, .i1⟩ : BufTy).Contents (Elt F) → (⟨S16384x50x1, .i1⟩ : BufTy).Contents (Elt F))
          (after (ops (F := F)) V (main_call0_v7 : DevRef τ sig)) (after (ops (F := F)) V (main_call0_v10 : DevRef τ sig)) := by
  at_final binary_at V outs_ops 15 rfl (by decide) (by decide) (by decide) (by decide) (by decide)

/-- Operation 16, the initial value of the reduction. -/
theorem eq_c_3 (V : Valuation τ sig (Elt F)) :
    after (ops (F := F)) V (main_call0_c_3 : DevRef τ sig)
      = (constantI S_ 1 1#1 : (⟨S_, .i1⟩ : BufTy).Contents (Elt F)) := by
  at_final nullary_at V outs_ops 16 rfl (by decide)

/-- Operation 17, the range test reduced over the trailing axis. -/
theorem eq_v12 (V : Valuation τ sig (Elt F)) :
    after (ops (F := F)) V (main_call0_v12 : DevRef τ sig)
      = Host.reduce IntOp.andi (after (ops (F := F)) V (main_call0_v11 : DevRef τ sig) : IVec S16384x50x1 1)
          (after (ops (F := F)) V (main_call0_c_3 : DevRef τ sig) : IVec S_ 1) reducesTo_S16384x50x1_S16384x50_d2 h_S_ := by
  at_final binary_at V outs_ops 17 rfl (by decide) (by decide) (by decide) (by decide) (by decide)

/-- Operation 18, the rows gathered. -/
theorem eq_v13 (V : Valuation τ sig (Elt F)) :
    after (ops (F := F)) V (main_call0_v13 : DevRef τ sig)
      = Host.gather gather_S1000000x64_S16384x50x1_S16384x50x64_2_0_n_n_0_2_164
          (after (ops (F := F)) V (main_arg1 : DevRef τ sig) : FVec F S1000000x64 .f32) (after (ops (F := F)) V (main_call0_v5 : DevRef τ sig) : IVec S16384x50x1 32) := by
  at_final binary_at V outs_ops 18 rfl (by decide) (by decide) (by decide) (by decide) (by decide)

/-- Operation 19, the range test at every column. -/
theorem eq_v14 (V : Valuation τ sig (Elt F)) :
    after (ops (F := F)) V (main_call0_v14 : DevRef τ sig)
      = (broadcastInDim S16384x50x64 ![0, 1] bcast_S16384x50_S16384x50x64_0_1 : (⟨S16384x50, .i1⟩ : BufTy).Contents (Elt F) → (⟨S16384x50x64, .i1⟩ : BufTy).Contents (Elt F))
          (after (ops (F := F)) V (main_call0_v12 : DevRef τ sig)) := by
  at_final unary_at V outs_ops 19 rfl (by decide) (by decide) (by decide)

/-- Operation 20, the fill value. -/
theorem eq_cst (V : Valuation τ sig (Elt F)) :
    after (ops (F := F)) V (main_call0_cst : DevRef τ sig)
      = (constant S_ .f32 0x7FC00000#32 : (⟨S_, .f32⟩ : BufTy).Contents (Elt F)) := by
  at_final nullary_at V outs_ops 20 rfl (by decide)

/-- Operation 21, the fill value at every entry. -/
theorem eq_v15 (V : Valuation τ sig (Elt F)) :
    after (ops (F := F)) V (main_call0_v15 : DevRef τ sig)
      = (broadcastInDim S16384x50x64 ![] bcast_S_S16384x50x64 : (⟨S_, .f32⟩ : BufTy).Contents (Elt F) → (⟨S16384x50x64, .f32⟩ : BufTy).Contents (Elt F))
          (after (ops (F := F)) V (main_call0_cst : DevRef τ sig)) := by
  at_final unary_at V outs_ops 21 rfl (by decide) (by decide) (by decide)

/-- Operation 22, the result: the gathered rows where the range test holds, the fill value elsewhere. -/
theorem eq_main_v0 (V : Valuation τ sig (Elt F)) :
    after (ops (F := F)) V (main_v0 : DevRef τ sig)
      = (select : (⟨S16384x50x64, .i1⟩ : BufTy).Contents (Elt F) → (⟨S16384x50x64, .f32⟩ : BufTy).Contents (Elt F) → (⟨S16384x50x64, .f32⟩ : BufTy).Contents (Elt F) → (⟨S16384x50x64, .f32⟩ : BufTy).Contents (Elt F))
          (after (ops (F := F)) V (main_call0_v14 : DevRef τ sig)) (after (ops (F := F)) V (main_call0_v13 : DevRef τ sig)) (after (ops (F := F)) V (main_call0_v15 : DevRef τ sig)) := by
  at_final ternary_at V outs_ops 22 rfl (by decide) (by decide) (by decide) (by decide) (by decide) (by decide) (by decide)

end Cert.ReferenceIdeal.RefRun

end
-- ==== Proof.LibRowOps3.lean ====
/-
  Rows taken by index through a two-axis batch of start indices, an all-true reduction, and the word facts of an
  index known to be small.

  * the gather that takes whole rows of a two-dimensional array by a batch of indices, `x[idx]` for `x : [N, W]` and
    `idx : [B, L]` (carried as `[B, L, 1]`): element `(b, l, c)` of the result is `x` at row `idx[b, l]`, read as a
    signed integer and clamped into `[0, N − 1]`, column `c`;
  * a reduction by `and` of one-bit words that are all `1`, from the initial value `1`, is `1` at every result index;
  * for a 32-bit word below `2³¹`: it is not negative as a signed number, so the wrap-around select `w < 0 ? w + N : w`
    leaves it, the range test `0 ≤ w ≤ c` holds when `w ≤ c`, and the row a gather reads for it is itself when it is a
    row.

  Every statement is over abstract extents; nothing here enumerates an index set.
-/
import Idealize.ShloMosaic.PureOps.Ideal
import Idealize.ShloMosaic.Lib.ValueIdx
import Idealize.ShloMosaic.Lib.Affine
import proofs.«206271_g21749714387155_cont_8to1_2007_29_alg».proof.Proof.LibRowOps

noncomputable section

namespace Cert.RowOps3

open Idealize.ShloMosaic Idealize.ShloMosaic.ValueIdx Cert.RowOps

/-! ## The gather of rows by a two-axis batch of indices -/

section Gather
variable {α : Type}

/-- The dimension numbers of a gather of rows by a batch: operand `[N, W]`, start indices `[B, L, 1]`, result
    `[B, L, W]`; the result's axis 2 is the offset axis, operand axis 0 is collapsed and is the one the start index
    names, slices are `1 × W`. -/
abbrev rowGatherDims3 (N B L W : Nat)
    (wf : GatherDims.WF ⟨2, ![N, W]⟩ ⟨3, ![B, L, 1]⟩ ⟨3, ![B, L, W]⟩ [2] [0] [] [0] [] 2 ![1, W]) :
    GatherDims ⟨2, ![N, W]⟩ ⟨3, ![B, L, 1]⟩ ⟨3, ![B, L, W]⟩ where
  offsetDims := [2]
  collapsedSliceDims := [0]
  operandBatchingDims := []
  startIndicesBatchingDims := []
  startIndexMap := [0]
  indexVectorDim := 2
  sliceSizes := ![1, W]
  wf := wf

/-- The row coordinate of the operand index that result index `(b, l, c)` reads: the clamped start index. -/
theorem rowGather3_operandIdx_zero {N B L W : Nat} (hN : 0 < N)
    (wf : GatherDims.WF ⟨2, ![N, W]⟩ ⟨3, ![B, L, 1]⟩ ⟨3, ![B, L, W]⟩ [2] [0] [] [0] [] 2 ![1, W])
    (idx : IVec ⟨3, ![B, L, 1]⟩ 32) (b : Fin B) (l : Fin L) (c : Fin W) :
    (rowGatherDims3 N B L W wf).operandIdx (ix3 b l c) idx 0 = gatherRow N hN (idx (ix3 b l 0)) := by
  refine Fin.ext ?_
  show (rowGatherDims3 N B L W wf).start (ix3 b l c) idx 0 + (rowGatherDims3 N B L W wf).batchCoord (ix3 b l c) 0
    + (rowGatherDims3 N B L W wf).offCoord (ix3 b l c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims3 N B L W wf).startIndexMap from List.mem_singleton.mpr rfl)]
  have hsi : (rowGatherDims3 N B L W wf).siIdx (ix3 b l c) ⟨List.idxOf (0 : Fin 2) (rowGatherDims3 N B L W wf).startIndexMap,
      List.idxOf_lt_length_iff.2 (List.mem_singleton.mpr rfl)⟩ = ix3 b l 0 := by
    funext a; refine Fin.ext ?_
    match a with
    | ⟨0, _⟩ => rfl
    | ⟨1, _⟩ => rfl
    | ⟨2, _⟩ => rfl
  rw [hsi]
  rfl

/-- The column coordinate of the operand index that result index `(b, l, c)` reads: `c` itself. -/
theorem rowGather3_operandIdx_one {N B L W : Nat}
    (wf : GatherDims.WF ⟨2, ![N, W]⟩ ⟨3, ![B, L, 1]⟩ ⟨3, ![B, L, W]⟩ [2] [0] [] [0] [] 2 ![1, W])
    (idx : IVec ⟨3, ![B, L, 1]⟩ 32) (b : Fin B) (l : Fin L) (c : Fin W) :
    (rowGatherDims3 N B L W wf).operandIdx (ix3 b l c) idx 1 = c := by
  refine Fin.ext ?_
  show (rowGatherDims3 N B L W wf).start (ix3 b l c) idx 1 + (rowGatherDims3 N B L W wf).batchCoord (ix3 b l c) 1
    + (rowGatherDims3 N B L W wf).offCoord (ix3 b l c) 1 = _
  rw [GatherDims.batchCoord_eq_zero _ _ _ List.not_mem_nil]
  have hst : (rowGatherDims3 N B L W wf).start (ix3 b l c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows by a batch at `(b, l, c)`, for the literal dimension numbers `rowGatherDims3`. -/
theorem gather_rowDims3_apply {N B L W : Nat} (hN : 0 < N)
    (wf : GatherDims.WF ⟨2, ![N, W]⟩ ⟨3, ![B, L, 1]⟩ ⟨3, ![B, L, W]⟩ [2] [0] [] [0] [] 2 ![1, W])
    (x : (⟨2, ![N, W]⟩ : Shape).Idx → α) (idx : IVec ⟨3, ![B, L, 1]⟩ 32) (b : Fin B) (l : Fin L) (c : Fin W) :
    Host.gather (rowGatherDims3 N B L W wf) x idx (ix3 b l c) = x (ix2 (gatherRow N hN (idx (ix3 b l 0))) c) := by
  unfold Host.gather
  refine congrArg x ((eq_ix2 _).trans ?_)
  rw [rowGather3_operandIdx_zero hN wf idx b l c, rowGather3_operandIdx_one wf idx b l c]
  rfl

/-- THE GATHER OF ROWS BY A BATCH READ AT `(b, l, c)`: for any dimension numbers `d` whose fields are those of such a
    gather (each hypothesis is `rfl` at a program's record), the result at `(b, l, c)` is the operand at row
    `gatherRow N _ (idx[b, l])` — the start index read signed and clamped into `[0, N − 1]` — and column `c`. -/
theorem gather_rows3_apply {N B L W : Nat} (hN : 0 < N)
    (d : GatherDims ⟨2, ![N, W]⟩ ⟨3, ![B, L, 1]⟩ ⟨3, ![B, L, W]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, W])
    (x : (⟨2, ![N, W]⟩ : Shape).Idx → α) (idx : IVec ⟨3, ![B, L, 1]⟩ 32) (b : Fin B) (l : Fin L) (c : Fin W) :
    Host.gather d x idx (ix3 b l c) = x (ix2 (gatherRow N hN (idx (ix3 b l 0))) c) := by
  obtain ⟨od, cd, ob, sb, sm, iv, ss, wf⟩ := d
  simp only at hod hcd hob hsb hsm hiv hss
  subst hod hcd hob hsb hsm hiv hss
  exact gather_rowDims3_apply hN wf x idx b l c

end Gather

/-! ## A reduction by `and` of words that are all one -/

/-- A left fold by `and` from `1` over one-bit words that are all `1` is `1`. -/
theorem foldl_andi_of_all {ι : Type} (f : ι → BitVec 1) (hf : ∀ n, f n = 1#1) (l : List ι) :
    l.foldl (fun r n => IntOp.andi r (f n)) 1#1 = 1#1 := by
  induction l with
  | nil => rfl
  | cons n l ih =>
    rw [List.foldl_cons, hf n, show IntOp.andi 1#1 1#1 = 1#1 from by decide]
    exact ih

/-- The host's reduction by `and` of an array of one-bit words that are all `1`, from an initial value `1`, is `1`
    at every result index, whatever the axes. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_of_all (fun n => x (s.rowMajor.symm n)) (fun n => hx _) _

/-! ## A small index word -/

/-- A 32-bit word below `2³¹` read as a signed integer is its natural number. -/
theorem toInt_of_small (w : BitVec 32) (hw : w.toNat < 2 ^ 31) : w.toInt = (w.toNat : Int) := by
  have e := BitVec.toInt_eq_toNat_cond w
  omega

/-- The wrap-around of a negative index leaves a word below `2³¹`: it is not negative. -/
theorem select_wrap_of_small (w n : BitVec 32) (hw : w.toNat < 2 ^ 31) :
    Scalar.select (IntOp.cmpi .slt w 0#32) (IntOp.addi w n) w = w := by
  have hc : IntOp.cmpi .slt w 0#32 = 0#1 := by
    refine eq_zero_of_ne_one fun h1 => ?_
    have h2 := IntOp.cmpi_slt.mp h1
    rw [toInt_of_small w hw, show (0#32 : BitVec 32).toInt = 0 from by decide] at h2
    omega
  rw [hc, select_zero]

/-- The range test `0 ≤ w ≤ c` on signed words holds for a word below `2³¹` that is at most `c`. -/
theorem andi_sge_sle_of_small (w c : BitVec 32) (hw : w.toNat < 2 ^ 31) (hc : (w.toNat : Int) ≤ c.toInt) :
    IntOp.andi (IntOp.cmpi .sge w 0#32) (IntOp.cmpi .sle w c) = 1#1 := by
  have h1 : IntOp.cmpi .sge w 0#32 = 1#1 := by
    refine IntOp.cmpi_sge.mpr ?_
    rw [toInt_of_small w hw, show (0#32 : BitVec 32).toInt = 0 from by decide]
    omega
  have h2 : IntOp.cmpi .sle w c = 1#1 := by
    refine IntOp.cmpi_sle.mpr ?_
    rw [toInt_of_small w hw]
    exact hc
  rw [h1, h2]
  decide

/-- The row a gather reads for a start index that is a row of the operand is that row. -/
theorem gatherRow_val_of_lt {N : Nat} (hN : 0 < N) (w : BitVec 32) (hw : w.toNat < 2 ^ 31) (h : w.toNat < N) :
    (gatherRow N hN w).val = w.toNat := by
  unfold gatherRow
  simp only
  rw [toInt_of_small w hw]
  omega

end Cert.RowOps3

end
-- ==== Proof.RefValue.lean ====
/-
  What the reference computes under the precondition.

  Write `W` for the contents the 23 operations end with, `x` for the row numbers and `T` for the table at launch.
  Assume every row number is at most `999999`; such a word is below `2³¹`, so it is not negative as a signed integer.

  * The wrap `w < 0 ? w + 1000000 : w` leaves every row number: the wrapped row numbers are `x`.
  * With a trailing axis of one, the wrapped row number at `(b, h, 0)` is `x[b, h]`, and every one is at most `999999`.
  * The range test `0 ≤ w ∧ w ≤ 999999` is `1` at every wrapped row number, so its reduction by `and` over the trailing
    axis is `1` everywhere, and so is that reduction at every column.
  * The final select therefore takes the gathered rows everywhere (the fill value is never taken), and the gather
    at `(b, h, d)` reads the table at the row that `x[b, h]` names and column `d`.
-/
import proofs.«206271_g21749714387155_cont_8to1_2007_29_alg».proof.Proof.RefEqs
import proofs.«206271_g21749714387155_cont_8to1_2007_29_alg».proof.Proof.LibRowOps3
import proofs.«206271_g21749714387155_cont_8to1_2007_29_alg».proof.Proof.Spec

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo Idealize.ShloMosaic.ValueIdx Cert.RowOps Cert.RowOps3

variable {F : FTy → Type} [FloatOps F] [Cert.ReferenceIdeal.Facts]

/-! ## Two facts about a broadcast -/

/-- A broadcast reads its operand somewhere: if the operand is `b` everywhere, so is the result. -/
theorem bcast_of_all {α : Type} {s t : Shape} (dims : Fin s.rank → Fin t.rank) (h : s.BroadcastsInDim t dims)
    (x : s.Idx → α) (b : α) (hx : ∀ i, x i = b) (j : t.Idx) : broadcastInDim t dims h x j = b := hx _

/-- A broadcast at `j` reads the operand at `i` when, on every operand axis, `i` is `0` where the axis has size one
    and `j`'s coordinate on the matching result axis elsewhere. -/
theorem bcast_apply_of {α : Type} {s t : Shape} (dims : Fin s.rank → Fin t.rank) (h : s.BroadcastsInDim t dims)
    (x : s.Idx → α) (j : t.Idx) (i : s.Idx)
    (hi : ∀ a, (i a).val = if s.size a = 1 then 0 else (j (dims a)).val) : broadcastInDim t dims h x j = x i := by
  unfold broadcastInDim
  refine congrArg x (funext fun a => Fin.ext ?_)
  rw [hi a]
  split <;> rfl

/-! ## The values -/

section Value

variable (V : Valuation τ sig (Elt F))
  (hx : ∀ k : S16384x50.Idx, ((V (main_arg0 : DevRef τ sig) : IVec S16384x50 32) k).toNat ≤ 999999)

include hx

/-- A row number is below `2³¹`. -/
theorem x_small (k : S16384x50.Idx) : ((V (main_arg0 : DevRef τ sig) : IVec S16384x50 32) k).toNat < 2 ^ 31 :=
  Nat.lt_of_le_of_lt (hx k) (by decide)

/-- The wrap leaves every row number. -/
theorem v4_apply (k : S16384x50.Idx) :
    (after (ops (F := F)) V (main_call0_v4 : DevRef τ sig) : IVec S16384x50 32) k = (V (main_arg0 : DevRef τ sig) : IVec S16384x50 32) k := by
  rw [eq_v4, eq_v1, eq_v3, eq_v0, eq_c, keep_x]
  exact select_wrap_of_small _ _ (x_small V hx k)

/-- Every wrapped row number, with the trailing axis, is at most `999999`. -/
theorem v5_le (j : S16384x50x1.Idx) :
    ((after (ops (F := F)) V (main_call0_v5 : DevRef τ sig) : IVec S16384x50x1 32) j).toNat ≤ 999999 := by
  rw [eq_v5]
  show ((after (ops (F := F)) V (main_call0_v4 : DevRef τ sig) : IVec S16384x50 32) _).toNat ≤ 999999
  rw [v4_apply V hx]
  exact hx _

/-- The wrapped row number at `(b, h, 0)` is `x[b, h]`. -/
theorem v5_apply (b : Fin 16384) (h : Fin 50) :
    (after (ops (F := F)) V (main_call0_v5 : DevRef τ sig) : IVec S16384x50x1 32) (ix3 b h 0)
      = (V (main_arg0 : DevRef τ sig) : IVec S16384x50 32) (ix2 b h) := by
  rw [eq_v5]
  refine (bcast_apply_of _ _ _ _ (ix2 b h) (Fin.forall_fin_two.mpr ⟨rfl, rfl⟩)).trans ?_
  exact v4_apply V hx (ix2 b h)

/-- The range test holds at every wrapped row number. -/
theorem v11_one (j : S16384x50x1.Idx) :
    (after (ops (F := F)) V (main_call0_v11 : DevRef τ sig) : IVec S16384x50x1 1) j = 1#1 := by
  have hj := v5_le V hx j
  rw [eq_v11, eq_v7, eq_v10, eq_v6, eq_c_2, eq_v9, eq_v8, eq_c_1]
  refine andi_sge_sle_of_small _ 999999#32 (Nat.lt_of_le_of_lt hj (by decide)) ?_
  rw [show (999999#32 : BitVec 32).toInt = 999999 from by decide]
  exact_mod_cast hj

/-- The range test reduced over the trailing axis holds at every row number. -/
theorem v12_one (k : S16384x50.Idx) :
    (after (ops (F := F)) V (main_call0_v12 : DevRef τ sig) : IVec S16384x50 1) k = 1#1 := by
  rw [eq_v12, eq_c_3]
  exact reduce_andi_of_all _ _ _ _ (v11_one V hx) (fun _ => rfl) k

/-- The range test holds at every entry of the result. -/
theorem v14_one (i : S16384x50x64.Idx) :
    (after (ops (F := F)) V (main_call0_v14 : DevRef τ sig) : IVec S16384x50x64 1) i = 1#1 := by
  rw [eq_v14]
  exact bcast_of_all _ _ _ _ (v12_one V hx) i

/-- THE RESULT: entry `(b, h, d)` is the table at the row `x[b, h]` names, column `d`. -/
theorem result_eq :
    after (ops (F := F)) V (main_v0 : DevRef τ sig)
      = Cert.Spec.G (α := Elt F .f32) (V (main_arg0 : DevRef τ sig)) (V (main_arg1 : DevRef τ sig)) := by
  funext i
  obtain ⟨b, h, d, rfl⟩ : ∃ (b : Fin 16384) (h : Fin 50) (d : Fin 64), i = ix3 b h d := ⟨_, _, _, eq_ix3 i⟩
  rw [eq_main_v0]
  show Scalar.select ((after (ops (F := F)) V (main_call0_v14 : DevRef τ sig) : IVec S16384x50x64 1) (ix3 b h d)) _ _ = _
  rw [v14_one V hx, select_one, eq_v13, keep_T]
  refine (gather_rows3_apply Cert.Spec.rows_pos _ rfl rfl rfl rfl rfl rfl rfl _ _ b h d).trans ?_
  rw [v5_apply V hx b h]
  rfl

end Value

end Cert.ReferenceIdeal.RefRun

end
-- ==== Proof.PreDecode.lean ====
/-
  The precondition on the arguments, read back at one row number.

  The precondition is the conjunction of two reductions by `and`: the first over the table (every entry's absolute
  value is below `+∞`), the second over the row numbers (every word `w` of `x` satisfies `0 ≤ w` and `w ≤ 999999`
  as signed integers). When the conjunction is `1`, the second reduction is `1`; a reduction by `and` into a single
  result that is `1` met a `1` at every operand index; and a word that is not negative as a signed integer is its own
  natural number. So every row number is at most `999999` as a natural number.
-/
import proofs.«206271_g21749714387155_cont_8to1_2007_29_alg».proof.Pre_input_domain
import Idealize.ShloMosaic.Lib.ReduceAll

namespace Cert.PreDecode

open Idealize.ShloMosaic Cert.Pre_input_domain

/-- The rank-zero shape has one index. -/
instance subsingleton_scalar_idx : Subsingleton S_.Idx := ⟨fun a b => funext fun d => d.elim0⟩

/-- A word that, read signed, lies in `[0, 999999]` is at most `999999` as a natural number. -/
theorem toNat_le_of_toInt (w : BitVec 32) (h0 : (0#32 : BitVec 32).toInt ≤ w.toInt)
    (h1 : w.toInt ≤ (999999#32 : BitVec 32).toInt) : w.toNat ≤ 999999 := by
  have e := BitVec.toInt_eq_toNat_cond w
  have z : (0#32 : BitVec 32).toInt = 0 := by decide
  have c : (999999#32 : BitVec 32).toInt = 999999 := by decide
  rw [z] at h0
  rw [c] at h1
  split at e <;> omega

/-- Under the precondition every row number is at most `999999`. -/
theorem x_le [Cert.Pre_input_domain.Facts] {F : FTy → Type} [FloatOps F] (x : IVec Cert.Pre_input_domain.S16384x50 32)
    (T : FVec F Cert.Pre_input_domain.S1000000x64 .f32)
    (h : Cert.Pre_input_domain.fn (F := F) x T = fun _ => 1#1) : ∀ i, (x i).toNat ≤ 999999 := by
  intro i
  have j : S_.Idx := fun d => d.elim0
  have h0 : Cert.Pre_input_domain.fn (F := F) x T j = 1#1 := congrFun h j
  -- the conjunction of the two reductions
  change IntOp.andi _ (Host.reduce IntOp.andi _ _ Facts.reducesTo_S16384x50_S_d0_1 Facts.h_S_ j) = 1#1 at h0
  have h9 := (IntOp.andi_eq_one.1 h0).2
  -- the second reduction met a one at the row number `i`
  have h8 := Host.reduce_andi_all _ _ _ _ j h9 i
  change IntOp.andi (IntOp.cmpi .sge (x i) 0#32) (IntOp.cmpi .sle (x i) 999999#32) = 1#1 at h8
  obtain ⟨hge, hle⟩ := IntOp.andi_eq_one.1 h8
  exact toNat_le_of_toInt (x i) (IntOp.cmpi_sge.1 hge) (IntOp.cmpi_sle.1 hle)

end Cert.PreDecode
-- ==== Proof.RefRun.lean ====
/-
  The reference's run under the precondition.

  Every weakly fair execution of the reference from a memory whose arguments satisfy the precondition terminates; the
  result buffer ends holding, at `(b, h, d)`, the table's entry at the row that `x[b, h]` names and column `d`
  (`Cert.Spec.G`), and the two argument buffers end as they began.

  The run of the 23 operations gives every buffer's final contents as the fold of the operations over the contents at
  launch; the precondition read back gives that every row number is at most `999999`; and under that bound the fold at
  the result buffer is `Cert.Spec.G` of the arguments.
-/
import proofs.«206271_g21749714387155_cont_8to1_2007_29_alg».proof.Defs
import proofs.«206271_g21749714387155_cont_8to1_2007_29_alg».proof.Proof.Gen.ReferenceIdeal
import proofs.«206271_g21749714387155_cont_8to1_2007_29_alg».proof.Proof.RefValue
import proofs.«206271_g21749714387155_cont_8to1_2007_29_alg».proof.Proof.PreDecode

noncomputable section

namespace Cert.ReferenceIdeal.RefRun

open Idealize.ShloMosaic Idealize.ShloMosaic.TcCoe Idealize.SL.Sem Idealize.ShloMosaic.StableHlo

/-- The reference's run: the result is `Cert.Spec.G` of the arguments, and the arguments are unchanged. -/
theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread _ _).loc Cert.ReferenceIdeal.main_arg0))
                (m ((c.tc : Thread _ _).loc Cert.ReferenceIdeal.main_arg1))
        ∧ r.2.mem ((c.tc : Thread _ _).loc Cert.ReferenceIdeal.main_arg0)
            = m ((c.tc : Thread _ _).loc Cert.ReferenceIdeal.main_arg0)
        ∧ r.2.mem ((c.tc : Thread _ _).loc Cert.ReferenceIdeal.main_arg1)
            = m ((c.tc : Thread _ _).loc Cert.ReferenceIdeal.main_arg1)) :=
  (θ_run (Cert.ReferenceIdeal.defs (F := Ideal)) _ _).mono
    (fun _ h c =>
      ⟨(h c Cert.ReferenceIdeal.main_v0).trans
          (result_eq (launchContents m c) (Cert.PreDecode.x_le _ _ (hpre c))),
        (h c Cert.ReferenceIdeal.main_arg0).trans (keep_x (launchContents m c)),
        (h c Cert.ReferenceIdeal.main_arg1).trans (keep_T (launchContents m c))⟩)
    (run_all m g)

end Cert.ReferenceIdeal.RefRun

end
-- ==== Proof.lean ====
/-
  The proof of the claim: the three frames, the idealization's faithfulness, and the equality of results.

  The kernel is an embedding lookup on the SparseCore: row numbers `x : [16384, 50]`, a table `[1000000, 64]`; the result
  at `(b, h, d)` is the table's entry in column `d` of row `x[b, h]`. Its run — the TensorCore's @main beside the
  sequencers and the thirty-two vector subcores — ends with the arguments unchanged and the result at that function of
  them (`Cert.Spec.G`); the same text read at the bit-exact and at the ideal instance gives both kernel frames, with the
  value dropped. The reference is jnp's take: it wraps negative row numbers, masks those out of range, and clamps; under
  the precondition (every row number between 0 and 999999) the wrap and the mask do nothing and it is the same function.
  No arithmetic is done on the table's entries, so no law of the extended reals is used and the table's finiteness is
  never opened. The ideal pass rewrote nothing, so its faithfulness claim is empty.
-/
import proofs.«206271_g21749714387155_cont_8to1_2007_29_alg».proof.Defs
import proofs.«206271_g21749714387155_cont_8to1_2007_29_alg».proof.Proof.Gen.Kernel
import proofs.«206271_g21749714387155_cont_8to1_2007_29_alg».proof.Proof.Gen.KernelIdeal
import proofs.«206271_g21749714387155_cont_8to1_2007_29_alg».proof.Proof.Gen.ReferenceIdeal
import proofs.«206271_g21749714387155_cont_8to1_2007_29_alg».proof.Proof.Gen.Pre_input_domain
import proofs.«206271_g21749714387155_cont_8to1_2007_29_alg».proof.Proof.Kernel.Whole
import proofs.«206271_g21749714387155_cont_8to1_2007_29_alg».proof.Proof.KernelIdeal.Whole
import proofs.«206271_g21749714387155_cont_8to1_2007_29_alg».proof.Proof.RefRun
import proofs.«206271_g21749714387155_cont_8to1_2007_29_alg».proof.Proof.PreDecode
import Idealize.ShloMosaic.Adequacy
import Idealize.ShloMosaic.Init

noncomputable section

namespace Cert.Proof

open Idealize.ShloMosaic Idealize.SL.Sem

/-- The precondition bounds every row number by 999999: what the kernel's run asks of the launch memory. -/
theorem ok_Kernel (m : (ℓ : Loc Cert.Kernel.nD Cert.Kernel.τ Cert.Kernel.sig) → Buf (Elt Bits) ℓ) (h : Cert.Pre_Kernel m) :
    Cert.Kernel.Run.PreOK m := fun d j => Cert.PreDecode.x_le (F := Bits) _ _ (h d) j
theorem ok_KernelIdeal (m : (ℓ : Loc Cert.KernelIdeal.nD Cert.KernelIdeal.τ Cert.KernelIdeal.sig) → Buf (Elt Ideal) ℓ) (h : Cert.Pre_KernelIdeal m) :
    Cert.KernelIdeal.Run.PreOK m := fun d j => Cert.PreDecode.x_le (F := Ideal) _ _ (h d) j

theorem frame_K : Cert.frame_Kernel := fun m ρ hpre =>
  (θ_run Cert.Kernel.defs _ _).mono (fun _ h c => ⟨(h c).2.1, (h c).2.2⟩) (Cert.Kernel.Run.run (F := Bits) m ρ (ok_Kernel m hpre))

theorem frame_KI : Cert.frame_KernelIdeal := fun m ρ hpre =>
  (θ_run Cert.KernelIdeal.defs _ _).mono (fun _ h c => ⟨(h c).2.1, (h c).2.2⟩) (Cert.KernelIdeal.Run.run (F := Ideal) m ρ (ok_KernelIdeal m hpre))

theorem frame_R : Cert.frame_ReferenceIdeal := fun m ρ hpre =>
  (θ_run Cert.ReferenceIdeal.defs _ _).mono (fun _ h c => ⟨(h c).2.1, (h c).2.2⟩) (Cert.ReferenceIdeal.RefRun.run m ρ hpre)

/-- Both programs end with the result at the one function of the arguments; the reference's precondition is the kernel's,
    the arguments agreeing. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ h c => h c) (Cert.KernelIdeal.Run.run (F := Ideal) m ρ (ok_KernelIdeal m hpre))
  · have hpre' : Cert.Pre_ReferenceIdeal m' := fun c =>
      (congrArg₂ (Cert.Pre_input_domain.fn (F := Ideal)) (hagree c).1 (hagree c).2).trans (hpre c)
    refine (θ_run Cert.ReferenceIdeal.defs _ _).mono (fun _ h c => ⟨?_, (h c).2.1, (h c).2.2⟩) (Cert.ReferenceIdeal.RefRun.run m' ρ' hpre')
    rw [(h c).1, (hagree c).1, (hagree c).2]

theorem claim : Cert.Claim := ⟨Cert.Kernel.Gen.facts, Cert.KernelIdeal.Gen.facts, Cert.ReferenceIdeal.Gen.facts, Cert.Pre_input_domain.Gen.facts,
  frame_K, frame_KI, frame_R, trivial, algebraic⟩

end Cert.Proof

end
